-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v341) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2 : Shape := ⟨2, ![4096, 2]⟩
abbrev S8x1024x2816 : Shape := ⟨3, ![8, 1024, 2816]⟩
abbrev S8x2816x1024 : Shape := ⟨3, ![8, 2816, 1024]⟩
abbrev S8x1024x8 : Shape := ⟨3, ![8, 1024, 8]⟩
abbrev S8x8x2816 : Shape := ⟨3, ![8, 8, 2816]⟩
abbrev S8x2816x8 : Shape := ⟨3, ![8, 2816, 8]⟩
abbrev S8x8x1024 : Shape := ⟨3, ![8, 8, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S8x1024x2816 : S_.BroadcastsInDim S8x1024x2816 (![] : Fin 0 → Fin S8x1024x2816.rank)
  reducesTo_S8x1024x2816_S_d0_1_2 : S8x1024x2816.ReducesTo [0, 1, 2] S_
  bcast_S_S8x2816x1024 : S_.BroadcastsInDim S8x2816x1024 (![] : Fin 0 → Fin S8x2816x1024.rank)
  reducesTo_S8x2816x1024_S_d0_1_2 : S8x2816x1024.ReducesTo [0, 1, 2] S_
  bcast_S_S8x1024x8 : S_.BroadcastsInDim S8x1024x8 (![] : Fin 0 → Fin S8x1024x8.rank)
  reducesTo_S8x1024x8_S_d0_1_2 : S8x1024x8.ReducesTo [0, 1, 2] S_
  bcast_S_S8x8x2816 : S_.BroadcastsInDim S8x8x2816 (![] : Fin 0 → Fin S8x8x2816.rank)
  reducesTo_S8x8x2816_S_d0_1_2 : S8x8x2816.ReducesTo [0, 1, 2] S_
  bcast_S_S8x2816x8 : S_.BroadcastsInDim S8x2816x8 (![] : Fin 0 → Fin S8x2816x8.rank)
  reducesTo_S8x2816x8_S_d0_1_2 : S8x2816x8.ReducesTo [0, 1, 2] S_
  bcast_S_S8x8x1024 : S_.BroadcastsInDim S8x8x1024 (![] : Fin 0 → Fin S8x8x1024.rank)
  reducesTo_S8x8x1024_S_d0_1_2 : S8x8x1024.ReducesTo [0, 1, 2] S_

variable [Facts]

def fn_part3 {F : FTy → Type} [FloatOps F] (main_v48 : IVec S_ 1) (main_v49 : FVec F S8x8x1024 .f32) (main_v50 : FVec F S8x8x1024 .f32) : IVec S_ 1 :=
  let main_v51 : IVec S8x8x1024 1 := cmpf .olt main_v49 main_v50
  let main_c_19 : IVec S_ 1 := constantI S_ 1 1#1
  let main_v52 : IVec S_ 1 := (fun x v => Host.reduce IntOp.andi x v reducesTo_S8x8x1024_S_d0_1_2 h_S_) main_v51 main_c_19
  let main_v53 : IVec S_ 1 := andi main_v48 main_v52
  main_v53

def fn_part2 {F : FTy → Type} [FloatOps F] (main_arg8 : FVec F S8x1024x8 .f32) (main_arg9 : FVec F S8x8x2816 .f32) (main_arg10 : FVec F S8x2816x8 .f32) (main_arg11 : FVec F S8x8x1024 .f32) (main_v33 : IVec S_ 1) : IVec S_ 1 :=
  let main_v34 : FVec F S8x1024x8 .f32 := Host.absf main_arg8
  let main_cst_12 : FVec F S_ .f32 := constant S_ .f32 0x7F800000#32
  let main_v35 : FVec F S8x1024x8 .f32 := broadcastInDim S8x1024x8 ![] bcast_S_S8x1024x8 main_cst_12
  let main_v36 : IVec S8x1024x8 1 := cmpf .olt main_v34 main_v35
  let main_c_13 : IVec S_ 1 := constantI S_ 1 1#1
  let main_v37 : IVec S_ 1 := (fun x v => Host.reduce IntOp.andi x v reducesTo_S8x1024x8_S_d0_1_2 h_S_) main_v36 main_c_13
  let main_v38 : IVec S_ 1 := andi main_v33 main_v37
  let main_v39 : FVec F S8x8x2816 .f32 := Host.absf main_arg9
  let main_cst_14 : FVec F S_ .f32 := constant S_ .f32 0x7F800000#32
  let main_v40 : FVec F S8x8x2816 .f32 := broadcastInDim S8x8x2816 ![] bcast_S_S8x8x2816 main_cst_14
  let main_v41 : IVec S8x8x2816 1 := cmpf .olt main_v39 main_v40
  let main_c_15 : IVec S_ 1 := constantI S_ 1 1#1
  let main_v42 : IVec S_ 1 := (fun x v => Host.reduce IntOp.andi x v reducesTo_S8x8x2816_S_d0_1_2 h_S_) main_v41 main_c_15
  let main_v43 : IVec S_ 1 := andi main_v38 main_v42
  let main_v44 : FVec F S8x2816x8 .f32 := Host.absf main_arg10
  let main_cst_16 : FVec F S_ .f32 := constant S_ .f32 0x7F800000#32
  let main_v45 : FVec F S8x2816x8 .f32 := broadcastInDim S8x2816x8 ![] bcast_S_S8x2816x8 main_cst_16
  let main_v46 : IVec S8x2816x8 1 := cmpf .olt main_v44 main_v45
  let main_c_17 : IVec S_ 1 := constantI S_ 1 1#1
  let main_v47 : IVec S_ 1 := (fun x v => Host.reduce IntOp.andi x v reducesTo_S8x2816x8_S_d0_1_2 h_S_) main_v46 main_c_17
  let main_v48 : IVec S_ 1 := andi main_v43 main_v47
  let main_v49 : FVec F S8x8x1024 .f32 := Host.absf main_arg11
  let main_cst_18 : FVec F S_ .f32 := constant S_ .f32 0x7F800000#32
  let main_v50 : FVec F S8x8x1024 .f32 := broadcastInDim S8x8x1024 ![] bcast_S_S8x8x1024 main_cst_18
  fn_part3 (F := F) main_v48 main_v49 main_v50

def fn_part1 {F : FTy → Type} [FloatOps F] (main_arg5 : FVec F S8x2816x1024 .f32) (main_arg6 : FVec F S8x1024x8 .f32) (main_arg7 : FVec F S8x8x2816 .f32) (main_arg8 : FVec F S8x1024x8 .f32) (main_arg9 : FVec F S8x8x2816 .f32) (main_arg10 : FVec F S8x2816x8 .f32) (main_arg11 : FVec F S8x8x1024 .f32) (main_v13 : IVec S_ 1) (main_v16 : IVec S8x1024x2816 1) : IVec S_ 1 :=
  let main_c_5 : IVec S_ 1 := constantI S_ 1 1#1
  let main_v17 : IVec S_ 1 := (fun x v => Host.reduce IntOp.andi x v reducesTo_S8x1024x2816_S_d0_1_2 h_S_) main_v16 main_c_5
  let main_v18 : IVec S_ 1 := andi main_v13 main_v17
  let main_v19 : FVec F S8x2816x1024 .f32 := Host.absf main_arg5
  let main_cst_6 : FVec F S_ .f32 := constant S_ .f32 0x7F800000#32
  let main_v20 : FVec F S8x2816x1024 .f32 := broadcastInDim S8x2816x1024 ![] bcast_S_S8x2816x1024 main_cst_6
  let main_v21 : IVec S8x2816x1024 1 := cmpf .olt main_v19 main_v20
  let main_c_7 : IVec S_ 1 := constantI S_ 1 1#1
  let main_v22 : IVec S_ 1 := (fun x v => Host.reduce IntOp.andi x v reducesTo_S8x2816x1024_S_d0_1_2 h_S_) main_v21 main_c_7
  let main_v23 : IVec S_ 1 := andi main_v18 main_v22
  let main_v24 : FVec F S8x1024x8 .f32 := Host.absf main_arg6
  let main_cst_8 : FVec F S_ .f32 := constant S_ .f32 0x7F800000#32
  let main_v25 : FVec F S8x1024x8 .f32 := broadcastInDim S8x1024x8 ![] bcast_S_S8x1024x8 main_cst_8
  let main_v26 : IVec S8x1024x8 1 := cmpf .olt main_v24 main_v25
  let main_c_9 : IVec S_ 1 := constantI S_ 1 1#1
  let main_v27 : IVec S_ 1 := (fun x v => Host.reduce IntOp.andi x v reducesTo_S8x1024x8_S_d0_1_2 h_S_) main_v26 main_c_9
  let main_v28 : IVec S_ 1 := andi main_v23 main_v27
  let main_v29 : FVec F S8x8x2816 .f32 := Host.absf main_arg7
  let main_cst_10 : FVec F S_ .f32 := constant S_ .f32 0x7F800000#32
  let main_v30 : FVec F S8x8x2816 .f32 := broadcastInDim S8x8x2816 ![] bcast_S_S8x8x2816 main_cst_10
  let main_v31 : IVec S8x8x2816 1 := cmpf .olt main_v29 main_v30
  let main_c_11 : IVec S_ 1 := constantI S_ 1 1#1
  let main_v32 : IVec S_ 1 := (fun x v => Host.reduce IntOp.andi x v reducesTo_S8x8x2816_S_d0_1_2 h_S_) main_v31 main_c_11
  let main_v33 : IVec S_ 1 := andi main_v28 main_v32
  fn_part2 (F := F) main_arg8 main_arg9 main_arg10 main_arg11 main_v33

def fn {F : FTy → Type} [FloatOps F] (main_arg0 : FVec F S4096x1024 .f32) (main_arg1 : FVec F S4096x2 .f32) (main_arg2 : IVec S4096x2 32) (main_arg3 : FVec F S8x1024x2816 .f32) (main_arg4 : FVec F S8x1024x2816 .f32) (main_arg5 : FVec F S8x2816x1024 .f32) (main_arg6 : FVec F S8x1024x8 .f32) (main_arg7 : FVec F S8x8x2816 .f32) (main_arg8 : FVec F S8x1024x8 .f32) (main_arg9 : FVec F S8x8x2816 .f32) (main_arg10 : FVec F S8x2816x8 .f32) (main_arg11 : FVec F S8x8x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S8x1024x2816 .f32 := Host.absf main_arg3
  let main_cst_2 : FVec F S_ .f32 := constant S_ .f32 0x7F800000#32
  let main_v10 : FVec F S8x1024x2816 .f32 := broadcastInDim S8x1024x2816 ![] bcast_S_S8x1024x2816 main_cst_2
  let main_v11 : IVec S8x1024x2816 1 := cmpf .olt main_v9 main_v10
  let main_c_3 : IVec S_ 1 := constantI S_ 1 1#1
  let main_v12 : IVec S_ 1 := (fun x v => Host.reduce IntOp.andi x v reducesTo_S8x1024x2816_S_d0_1_2 h_S_) main_v11 main_c_3
  let main_v13 : IVec S_ 1 := andi main_v8 main_v12
  let main_v14 : FVec F S8x1024x2816 .f32 := Host.absf main_arg4
  let main_cst_4 : FVec F S_ .f32 := constant S_ .f32 0x7F800000#32
  let main_v15 : FVec F S8x1024x2816 .f32 := broadcastInDim S8x1024x2816 ![] bcast_S_S8x1024x2816 main_cst_4
  let main_v16 : IVec S8x1024x2816 1 := cmpf .olt main_v14 main_v15
  fn_part1 (F := F) main_arg5 main_arg6 main_arg7 main_arg8 main_arg9 main_arg10 main_arg11 main_v13 main_v16
-- ==== Kernel.lean ====
abbrev S4096x1024 : Shape := ⟨2, ![4096, 1024]⟩
abbrev S4096x2 : Shape := ⟨2, ![4096, 2]⟩
abbrev S8x1024x2816 : Shape := ⟨3, ![8, 1024, 2816]⟩
abbrev S8x2816x1024 : Shape := ⟨3, ![8, 2816, 1024]⟩
abbrev S8x1024x8 : Shape := ⟨3, ![8, 1024, 8]⟩
abbrev S8x8x2816 : Shape := ⟨3, ![8, 8, 2816]⟩
abbrev S8x2816x8 : Shape := ⟨3, ![8, 2816, 8]⟩
abbrev S8x8x1024 : Shape := ⟨3, ![8, 8, 1024]⟩
abbrev S4096x2x1 : Shape := ⟨3, ![4096, 2, 1]⟩
abbrev S1x1x8 : Shape := ⟨3, ![1, 1, 8]⟩
abbrev S4096x2x8 : Shape := ⟨3, ![4096, 2, 8]⟩
abbrev S_ : Shape := ⟨0, ![]⟩
abbrev S4096x8 : Shape := ⟨2, ![4096, 8]⟩
abbrev S512x1024 : Shape := ⟨2, ![512, 1024]⟩
abbrev S1x1024x2816 : Shape := ⟨3, ![1, 1024, 2816]⟩
abbrev S1x2816x1024 : Shape := ⟨3, ![1, 2816, 1024]⟩
abbrev S1x1024x8 : Shape := ⟨3, ![1, 1024, 8]⟩
abbrev S1x8x2816 : Shape := ⟨3, ![1, 8, 2816]⟩
abbrev S1x2816x8 : Shape := ⟨3, ![1, 2816, 8]⟩
abbrev S1x8x1024 : Shape := ⟨3, ![1, 8, 1024]⟩
abbrev S512x8 : Shape := ⟨2, ![512, 8]⟩
abbrev S1024x2816 : Shape := ⟨2, ![1024, 2816]⟩
abbrev S2816x1024 : Shape := ⟨2, ![2816, 1024]⟩
abbrev S1024x8 : Shape := ⟨2, ![1024, 8]⟩
abbrev S8x2816 : Shape := ⟨2, ![8, 2816]⟩
abbrev S2816x8 : Shape := ⟨2, ![2816, 8]⟩
abbrev S8x1024 : Shape := ⟨2, ![8, 1024]⟩
abbrev S128x1024 : Shape := ⟨2, ![128, 1024]⟩
abbrev S128x2816 : Shape := ⟨2, ![128, 2816]⟩
abbrev S128x8 : Shape := ⟨2, ![128, 8]⟩
abbrev S128 : Shape := ⟨1, ![128]⟩
abbrev S128x1 : Shape := ⟨2, ![128, 1]⟩

abbrev nBuf : Space → Nat
  | .hbm => 34
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x2, .f32⟩
  | .hbm, ⟨2, _⟩ => ⟨S4096x2, .i32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S8x1024x8, .f32⟩
  | .hbm, ⟨7, _⟩ => ⟨S8x8x2816, .f32⟩
  | .hbm, ⟨8, _⟩ => ⟨S8x1024x8, .f32⟩
  | .hbm, ⟨9, _⟩ => ⟨S8x8x2816, .f32⟩
  | .hbm, ⟨10, _⟩ => ⟨S8x2816x8, .f32⟩
  | .hbm, ⟨11, _⟩ => ⟨S8x8x1024, .f32⟩
  | .hbm, ⟨12, _⟩ => ⟨S4096x2x1, .i32⟩
  | .hbm, ⟨13, _⟩ => ⟨S1x1x8, .i32⟩
  | .hbm, ⟨14, _⟩ => ⟨S4096x2x8, .i32⟩
  | .hbm, ⟨15, _⟩ => ⟨S4096x2x8, .i32⟩
  | .hbm, ⟨16, _⟩ => ⟨S4096x2x8, .i1⟩
  | .hbm, ⟨17, _⟩ => ⟨S4096x2x8, .f32⟩
  | .hbm, ⟨18, _⟩ => ⟨S4096x2x1, .f32⟩
  | .hbm, ⟨19, _⟩ => ⟨S4096x2x8, .f32⟩
  | .hbm, ⟨20, _⟩ => ⟨S4096x2x8, .f32⟩
  | .hbm, ⟨21, _⟩ => ⟨S_, .f32⟩
  | .hbm, ⟨22, _⟩ => ⟨S4096x8, .f32⟩
  | .hbm, ⟨23, _⟩ => ⟨S4096x1024, .bf16⟩
  | .hbm, ⟨24, _⟩ => ⟨S8x1024x2816, .bf16⟩
  | .hbm, ⟨25, _⟩ => ⟨S8x1024x2816, .bf16⟩
  | .hbm, ⟨26, _⟩ => ⟨S8x2816x1024, .bf16⟩
  | .hbm, ⟨27, _⟩ => ⟨S8x1024x8, .bf16⟩
  | .hbm, ⟨28, _⟩ => ⟨S8x8x2816, .bf16⟩
  | .hbm, ⟨29, _⟩ => ⟨S8x1024x8, .bf16⟩
  | .hbm, ⟨30, _⟩ => ⟨S8x8x2816, .bf16⟩
  | .hbm, ⟨31, _⟩ => ⟨S8x2816x8, .bf16⟩
  | .hbm, ⟨32, _⟩ => ⟨S8x8x1024, .bf16⟩
  | .hbm, ⟨33, _⟩ => ⟨S4096x1024, .f32⟩
  | .local _ .vmem, ⟨0, _⟩ => ⟨S512x1024, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x2816x1024, .bf16⟩
  | .local _ .vmem, ⟨7, _⟩ => ⟨S1x1024x8, .bf16⟩
  | .local _ .vmem, ⟨8, _⟩ => ⟨S1x1024x8, .bf16⟩
  | .local _ .vmem, ⟨9, _⟩ => ⟨S1x8x2816, .bf16⟩
  | .local _ .vmem, ⟨10, _⟩ => ⟨S1x8x2816, .bf16⟩
  | .local _ .vmem, ⟨11, _⟩ => ⟨S1x1024x8, .bf16⟩
  | .local _ .vmem, ⟨12, _⟩ => ⟨S1x1024x8, .bf16⟩
  | .local _ .vmem, ⟨13, _⟩ => ⟨S1x8x2816, .bf16⟩
  | .local _ .vmem, ⟨14, _⟩ => ⟨S1x8x2816, .bf16⟩
  | .local _ .vmem, ⟨15, _⟩ => ⟨S1x2816x8, .bf16⟩
  | .local _ .vmem, ⟨16, _⟩ => ⟨S1x2816x8, .bf16⟩
  | .local _ .vmem, ⟨17, _⟩ => ⟨S1x8x1024, .bf16⟩
  | .local _ .vmem, ⟨18, _⟩ => ⟨S1x8x1024, .bf16⟩
  | .local _ .vmem, ⟨19, _⟩ => ⟨S512x8, .f32⟩
  | .local _ .vmem, ⟨20, _⟩ => ⟨S512x8, .f32⟩
  | .local _ .vmem, ⟨21, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_27 : BitVec 32 := 0#32
  let c4_i32 : BitVec 32 := 4#32
  let v21 : BitVec 32 := Scalar.addi c0_i32_27 c4_i32
  let c1_i32 : BitVec 32 := 1#32
  ⟨c0_i32_27, v21, c1_i32⟩
def k0_mult1 (k0_t1 : Fin k0_t1_loop.trips) : BitVec 32 :=
  let c0_i32_27 : BitVec 32 := 0#32
  let c1_i32 : BitVec 32 := 1#32
  let arg14 : BitVec 32 := Scf.iv c0_i32_27 c1_i32 k0_t1
  let c128_i32 : BitVec 32 := 128#32
  let v22 : BitVec 32 := Scalar.muli arg14 c128_i32
  v22
def k0_off1 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v22 : BitVec 32 := Scalar.muli arg14 c128_i32
  let v23 : BitVec 32 := v22
  let v24 : Index := Scalar.indexCast v23
  let c0_29 : Index := 0#32
  ![v24.toNat, 0]
def k0_off2 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v22 : BitVec 32 := Scalar.muli arg14 c128_i32
  let v23 : BitVec 32 := v22
  let v52 : Index := Scalar.indexCast v23
  let c0_41 : Index := 0#32
  ![v52.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x8 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x8 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2816x8 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x8x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

class Facts₀ : Prop where
  bcast_S4096x2_S4096x2x1_0_1 : S4096x2.BroadcastsInDim S4096x2x1 (![0, 1] : Fin 2 → Fin S4096x2x1.rank)
  bcast_S4096x2x1_S4096x2x8_0_1_2 : S4096x2x1.BroadcastsInDim S4096x2x8 (![0, 1, 2] : Fin 3 → Fin S4096x2x8.rank)
  bcast_S1x1x8_S4096x2x8_0_1_2 : S1x1x8.BroadcastsInDim S4096x2x8 (![0, 1, 2] : Fin 3 → Fin S4096x2x8.rank)
  reducesTo_S4096x2x8_S4096x8_d1 : S4096x2x8.ReducesTo [1] S4096x8
  h_S_ : 0 < S_.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024x2816_S1x1024x2816_0_0_0 : ∀ a, (![0, 0, 0] : Fin 3 → Nat) a + S1x1024x2816.size a ≤ S1x1024x2816.size a
  h_S1x1024x2816 : 0 < S1x1024x2816.numel
  shapeCasts_S1x1024x2816_S1024x2816 : S1x1024x2816.ShapeCasts S1024x2816
  inb_S1x2816x1024_S1x2816x1024_0_0_0 : ∀ a, (![0, 0, 0] : Fin 3 → Nat) a + S1x2816x1024.size a ≤ S1x2816x1024.size a
  h_S1x2816x1024 : 0 < S1x2816x1024.numel
  shapeCasts_S1x2816x1024_S2816x1024 : S1x2816x1024.ShapeCasts S2816x1024
  inb_S1x1024x8_S1x1024x8_0_0_0 : ∀ a, (![0, 0, 0] : Fin 3 → Nat) a + S1x1024x8.size a ≤ S1x1024x8.size a
  h_S1x1024x8 : 0 < S1x1024x8.numel
  shapeCasts_S1x1024x8_S1024x8 : S1x1024x8.ShapeCasts S1024x8
  inb_S1x8x2816_S1x8x2816_0_0_0 : ∀ a, (![0, 0, 0] : Fin 3 → Nat) a + S1x8x2816.size a ≤ S1x8x2816.size a
  h_S1x8x2816 : 0 < S1x8x2816.numel
  shapeCasts_S1x8x2816_S8x2816 : S1x8x2816.ShapeCasts S8x2816
  inb_S1x2816x8_S1x2816x8_0_0_0 : ∀ a, (![0, 0, 0] : Fin 3 → Nat) a + S1x2816x8.size a ≤ S1x2816x8.size a
  h_S1x2816x8 : 0 < S1x2816x8.numel
  shapeCasts_S1x2816x8_S2816x8 : S1x2816x8.ShapeCasts S2816x8
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  h_S128x1024 : 0 < S128x1024.numel
  shapeCasts_S128x1024_S128x1024 : S128x1024.ShapeCasts S128x1024
  h_S128x8 : 0 < S128x8.numel
  shapeCasts_S128x8_S128x8 : S128x8.ShapeCasts S128x8
  iota_S128x8_d1_w32 : S128x8.Iotas .tc 32 [1]
  reduces_S128x8_S128 : S128x8.Reduces [1] S128
  shapeCasts_S128_S128x1 : S128.ShapeCasts S128x1
  broadcasts_S128x1_S128x1024 : S128x1.Broadcasts S128x1024
  dot_S128x1024_S1024x2816_S128x2816_1_0_0_1_n_n_wf : DotDims.WF S128x1024 S1024x2816 S128x2816 [1] [0] [0] [1] [] []
  dot_S128x1024_S1024x8_S128x8_1_0_0_1_n_n_wf : DotDims.WF S128x1024 S1024x8 S128x8 [1] [0] [0] [1] [] []
  dot_S128x8_S8x2816_S128x2816_1_0_0_1_n_n_wf : DotDims.WF S128x8 S8x2816 S128x2816 [1] [0] [0] [1] [] []
  dot_S128x2816_S2816x1024_S128x1024_1_0_0_1_n_n_wf : DotDims.WF S128x2816 S2816x1024 S128x1024 [1] [0] [0] [1] [] []
  dot_S128x2816_S2816x8_S128x8_1_0_0_1_n_n_wf : DotDims.WF S128x2816 S2816x8 S128x8 [1] [0] [0] [1] [] []
  dot_S128x8_S8x1024_S128x1024_1_0_0_1_n_n_wf : DotDims.WF S128x8 S8x1024 S128x1024 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x1024.size a ≤ S512x1024.size a
  k0_off2_inb : ∀ k0_t1 : Fin k0_t1_loop.trips, ∀ a, (k0_off2 k0_t1) a + S128x8.size a ≤ S512x8.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2816.size a ≤ S8x1024x2816.size a
  hwx0_1 : ∀ i : grid0.Coords, EltTy.bits .bf16 = 32 ∨ (Rect.block (s := S8x1024x2816) S1x1024x2816.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2816.size a ≤ S8x1024x2816.size a
  hwx0_2 : ∀ i : grid0.Coords, EltTy.bits .bf16 = 32 ∨ (Rect.block (s := S8x1024x2816) S1x1024x2816.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2816x1024.size a ≤ S8x2816x1024.size a
  hwx0_3 : ∀ i : grid0.Coords, EltTy.bits .bf16 = 32 ∨ (Rect.block (s := S8x2816x1024) S1x2816x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x8.size a ≤ S8x1024x8.size a
  hwx0_4 : ∀ i : grid0.Coords, EltTy.bits .bf16 = 32 ∨ (Rect.block (s := S8x1024x8) S1x1024x8.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x2816.size a ≤ S8x8x2816.size a
  hwx0_5 : ∀ i : grid0.Coords, EltTy.bits .bf16 = 32 ∨ (Rect.block (s := S8x8x2816) S1x8x2816.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x8.size a ≤ S8x1024x8.size a
  hwx0_6 : ∀ i : grid0.Coords, EltTy.bits .bf16 = 32 ∨ (Rect.block (s := S8x1024x8) S1x1024x8.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x2816.size a ≤ S8x8x2816.size a
  hwx0_7 : ∀ i : grid0.Coords, EltTy.bits .bf16 = 32 ∨ (Rect.block (s := S8x8x2816) S1x8x2816.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2816x8.size a ≤ S8x2816x8.size a
  hwx0_8 : ∀ i : grid0.Coords, EltTy.bits .bf16 = 32 ∨ (Rect.block (s := S8x2816x8) S1x2816x8.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x1024.size a ≤ S8x8x1024.size a
  hwx0_9 : ∀ i : grid0.Coords, EltTy.bits .bf16 = 32 ∨ (Rect.block (s := S8x8x1024) S1x8x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x8.size a ≤ S4096x8.size a
  hwx0_10 : ∀ i : grid0.Coords, EltTy.bits .f32 = 32 ∨ (Rect.block (s := S4096x8) S512x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S4096x1024.size a
  hwx0_11 : ∀ i : grid0.Coords, EltTy.bits .f32 = 32 ∨ (Rect.block (s := S4096x1024) S512x1024.size (cc0_transform_11 i) (hinb0_11 i)).WholeWords (EltTy.packing .f32)

variable [Facts₀]

def dot_S128x1024_S1024x2816_S128x2816_1_0_0_1_n_n : DotDims S128x1024 S1024x2816 S128x2816 where
  lhsContracting := [1]
  rhsContracting := [0]
  lhsNonContracting := [0]
  rhsNonContracting := [1]
  lhsBatch := []
  rhsBatch := []
  wf := dot_S128x1024_S1024x2816_S128x2816_1_0_0_1_n_n_wf
def dot_S128x1024_S1024x8_S128x8_1_0_0_1_n_n : DotDims S128x1024 S1024x8 S128x8 where
  lhsContracting := [1]
  rhsContracting := [0]
  lhsNonContracting := [0]
  rhsNonContracting := [1]
  lhsBatch := []
  rhsBatch := []
  wf := dot_S128x1024_S1024x8_S128x8_1_0_0_1_n_n_wf
def dot_S128x8_S8x2816_S128x2816_1_0_0_1_n_n : DotDims S128x8 S8x2816 S128x2816 where
  lhsContracting := [1]
  rhsContracting := [0]
  lhsNonContracting := [0]
  rhsNonContracting := [1]
  lhsBatch := []
  rhsBatch := []
  wf := dot_S128x8_S8x2816_S128x2816_1_0_0_1_n_n_wf
def dot_S128x2816_S2816x1024_S128x1024_1_0_0_1_n_n : DotDims S128x2816 S2816x1024 S128x1024 where
  lhsContracting := [1]
  rhsContracting := [0]
  lhsNonContracting := [0]
  rhsNonContracting := [1]
  lhsBatch := []
  rhsBatch := []
  wf := dot_S128x2816_S2816x1024_S128x1024_1_0_0_1_n_n_wf
def dot_S128x2816_S2816x8_S128x8_1_0_0_1_n_n : DotDims S128x2816 S2816x8 S128x8 where
  lhsContracting := [1]
  rhsContracting := [0]
  lhsNonContracting := [0]
  rhsNonContracting := [1]
  lhsBatch := []
  rhsBatch := []
  wf := dot_S128x2816_S2816x8_S128x8_1_0_0_1_n_n_wf
def dot_S128x8_S8x1024_S128x1024_1_0_0_1_n_n : DotDims S128x8 S8x1024 S128x1024 where
  lhsContracting := [1]
  rhsContracting := [0]
  lhsNonContracting := [0]
  rhsNonContracting := [1]
  lhsBatch := []
  rhsBatch := []
  wf := dot_S128x8_S8x1024_S128x1024_1_0_0_1_n_n_wf

abbrev win0_0 : Pipeline.Window sig grid0 :=
  Pipeline.Window.ofSpec (Memref.whole main_v5) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1024x2816.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024x2816.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x2816x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x8x2816.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024x8.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x8x2816.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x2816x8.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x8x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4) S512x8.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v15) S512x1024.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2 : Shape := ⟨2, ![4096, 2]⟩
abbrev S8x1024x2816 : Shape := ⟨3, ![8, 1024, 2816]⟩
abbrev S8x2816x1024 : Shape := ⟨3, ![8, 2816, 1024]⟩
abbrev S8x1024x8 : Shape := ⟨3, ![8, 1024, 8]⟩
abbrev S8x8x2816 : Shape := ⟨3, ![8, 8, 2816]⟩
abbrev S8x2816x8 : Shape := ⟨3, ![8, 2816, 8]⟩
abbrev S8x8x1024 : Shape := ⟨3, ![8, 8, 1024]⟩
abbrev S4096x2x1 : Shape := ⟨3, ![4096, 2, 1]⟩
abbrev S1x1x8 : Shape := ⟨3, ![1, 1, 8]⟩
abbrev S4096x2x8 : Shape := ⟨3, ![4096, 2, 8]⟩
abbrev S_ : Shape := ⟨0, ![]⟩
abbrev S4096x8 : Shape := ⟨2, ![4096, 8]⟩
abbrev S1x1024x2816 : Shape := ⟨3, ![1, 1024, 2816]⟩
abbrev S1024x2816 : Shape := ⟨2, ![1024, 2816]⟩
abbrev S4096x2816 : Shape := ⟨2, ![4096, 2816]⟩
abbrev S1x1024x8 : Shape := ⟨3, ![1, 1024, 8]⟩
abbrev S1024x8 : Shape := ⟨2, ![1024, 8]⟩
abbrev S1x8x2816 : Shape := ⟨3, ![1, 8, 2816]⟩
abbrev S8x2816 : Shape := ⟨2, ![8, 2816]⟩
abbrev S1x2816x1024 : Shape := ⟨3, ![1, 2816, 1024]⟩
abbrev S2816x1024 : Shape := ⟨2, ![2816, 1024]⟩
abbrev S1x2816x8 : Shape := ⟨3, ![1, 2816, 8]⟩
abbrev S2816x8 : Shape := ⟨2, ![2816, 8]⟩
abbrev S1x8x1024 : Shape := ⟨3, ![1, 8, 1024]⟩
abbrev S8x1024 : Shape := ⟨2, ![8, 1024]⟩
abbrev S4096x1 : Shape := ⟨2, ![4096, 1]⟩

abbrev nBuf : Space → Nat
  | .hbm => 449
  | .vmem => 0
  | .smem => 0
  | _ => 0

abbrev hbmTy0_0 (i : Nat) : BufTy := match i % 128 with
  | 0 => ⟨S4096x1024, .f32⟩
  | 1 => ⟨S4096x2, .f32⟩
  | 2 => ⟨S4096x2, .i32⟩
  | 3 => ⟨S8x1024x2816, .f32⟩
  | 4 => ⟨S8x1024x2816, .f32⟩
  | 5 => ⟨S8x2816x1024, .f32⟩
  | 6 => ⟨S8x1024x8, .f32⟩
  | 7 => ⟨S8x8x2816, .f32⟩
  | 8 => ⟨S8x1024x8, .f32⟩
  | 9 => ⟨S8x8x2816, .f32⟩
  | 10 => ⟨S8x2816x8, .f32⟩
  | 11 => ⟨S8x8x1024, .f32⟩
  | 12 => ⟨S4096x2x1, .i32⟩
  | 13 => ⟨S1x1x8, .i32⟩
  | 14 => ⟨S4096x2x8, .i32⟩
  | 15 => ⟨S4096x2x8, .i32⟩
  | 16 => ⟨S4096x2x8, .i1⟩
  | 17 => ⟨S4096x2x8, .f32⟩
  | 18 => ⟨S4096x2x1, .f32⟩
  | 19 => ⟨S4096x2x8, .f32⟩
  | 20 => ⟨S4096x2x8, .f32⟩
  | 21 => ⟨S_, .f32⟩
  | 22 => ⟨S4096x8, .f32⟩
  | 23 => ⟨S_, .f32⟩
  | 24 => ⟨S4096x1024, .f32⟩
  | 25 => ⟨S1x1024x2816, .f32⟩
  | 26 => ⟨S1024x2816, .f32⟩
  | 27 => ⟨S4096x2816, .f32⟩
  | 28 => ⟨S1x1024x8, .f32⟩
  | 29 => ⟨S1024x8, .f32⟩
  | 30 => ⟨S4096x8, .f32⟩
  | 31 => ⟨S1x8x2816, .f32⟩
  | 32 => ⟨S8x2816, .f32⟩
  | 33 => ⟨S4096x2816, .f32⟩
  | 34 => ⟨S_, .f32⟩
  | 35 => ⟨S4096x2816, .f32⟩
  | 36 => ⟨S4096x2816, .f32⟩
  | 37 => ⟨S4096x2816, .f32⟩
  | 38 => ⟨S1x1024x2816, .f32⟩
  | 39 => ⟨S1024x2816, .f32⟩
  | 40 => ⟨S4096x2816, .f32⟩
  | 41 => ⟨S1x1024x8, .f32⟩
  | 42 => ⟨S1024x8, .f32⟩
  | 43 => ⟨S4096x8, .f32⟩
  | 44 => ⟨S1x8x2816, .f32⟩
  | 45 => ⟨S8x2816, .f32⟩
  | 46 => ⟨S4096x2816, .f32⟩
  | 47 => ⟨S_, .f32⟩
  | 48 => ⟨S4096x2816, .f32⟩
  | 49 => ⟨S4096x2816, .f32⟩
  | 50 => ⟨S4096x2816, .f32⟩
  | 51 => ⟨S4096x2816, .f32⟩
  | 52 => ⟨S4096x2816, .f32⟩
  | 53 => ⟨S_, .f32⟩
  | 54 => ⟨S4096x2816, .f32⟩
  | 55 => ⟨S4096x2816, .f32⟩
  | 56 => ⟨S_, .f32⟩
  | 57 => ⟨S4096x2816, .f32⟩
  | 58 => ⟨S4096x2816, .f32⟩
  | 59 => ⟨S4096x2816, .f32⟩
  | 60 => ⟨S4096x2816, .f32⟩
  | 61 => ⟨S1x2816x1024, .f32⟩
  | 62 => ⟨S2816x1024, .f32⟩
  | 63 => ⟨S4096x1024, .f32⟩
  | 64 => ⟨S1x2816x8, .f32⟩
  | 65 => ⟨S2816x8, .f32⟩
  | 66 => ⟨S4096x8, .f32⟩
  | 67 => ⟨S1x8x1024, .f32⟩
  | 68 => ⟨S8x1024, .f32⟩
  | 69 => ⟨S4096x1024, .f32⟩
  | 70 => ⟨S_, .f32⟩
  | 71 => ⟨S4096x1024, .f32⟩
  | 72 => ⟨S4096x1024, .f32⟩
  | 73 => ⟨S4096x1024, .f32⟩
  | 74 => ⟨S4096x1, .f32⟩
  | 75 => ⟨S4096x1024, .f32⟩
  | 76 => ⟨S4096x1024, .f32⟩
  | 77 => ⟨S4096x1024, .f32⟩
  | 78 => ⟨S1x1024x2816, .f32⟩
  | 79 => ⟨S1024x2816, .f32⟩
  | 80 => ⟨S4096x2816, .f32⟩
  | 81 => ⟨S1x1024x8, .f32⟩
  | 82 => ⟨S1024x8, .f32⟩
  | 83 => ⟨S4096x8, .f32⟩
  | 84 => ⟨S1x8x2816, .f32⟩
  | 85 => ⟨S8x2816, .f32⟩
  | 86 => ⟨S4096x2816, .f32⟩
  | 87 => ⟨S_, .f32⟩
  | 88 => ⟨S4096x2816, .f32⟩
  | 89 => ⟨S4096x2816, .f32⟩
  | 90 => ⟨S4096x2816, .f32⟩
  | 91 => ⟨S1x1024x2816, .f32⟩
  | 92 => ⟨S1024x2816, .f32⟩
  | 93 => ⟨S4096x2816, .f32⟩
  | 94 => ⟨S1x1024x8, .f32⟩
  | 95 => ⟨S1024x8, .f32⟩
  | 96 => ⟨S4096x8, .f32⟩
  | 97 => ⟨S1x8x2816, .f32⟩
  | 98 => ⟨S8x2816, .f32⟩
  | 99 => ⟨S4096x2816, .f32⟩
  | 100 => ⟨S_, .f32⟩
  | 101 => ⟨S4096x2816, .f32⟩
  | 102 => ⟨S4096x2816, .f32⟩
  | 103 => ⟨S4096x2816, .f32⟩
  | 104 => ⟨S4096x2816, .f32⟩
  | 105 => ⟨S4096x2816, .f32⟩
  | 106 => ⟨S_, .f32⟩
  | 107 => ⟨S4096x2816, .f32⟩
  | 108 => ⟨S4096x2816, .f32⟩
  | 109 => ⟨S_, .f32⟩
  | 110 => ⟨S4096x2816, .f32⟩
  | 111 => ⟨S4096x2816, .f32⟩
  | 112 => ⟨S4096x2816, .f32⟩
  | 113 => ⟨S4096x2816, .f32⟩
  | 114 => ⟨S1x2816x1024, .f32⟩
  | 115 => ⟨S2816x1024, .f32⟩
  | 116 => ⟨S4096x1024, .f32⟩
  | 117 => ⟨S1x2816x8, .f32⟩
  | 118 => ⟨S2816x8, .f32⟩
  | 119 => ⟨S4096x8, .f32⟩
  | 120 => ⟨S1x8x1024, .f32⟩
  | 121 => ⟨S8x1024, .f32⟩
  | 122 => ⟨S4096x1024, .f32⟩
  | 123 => ⟨S_, .f32⟩
  | 124 => ⟨S4096x1024, .f32⟩
  | 125 => ⟨S4096x1024, .f32⟩
  | 126 => ⟨S4096x1024, .f32⟩
  | 127 => ⟨S4096x1, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S1x1024x2816, .f32⟩
  | 4 => ⟨S1024x2816, .f32⟩
  | 5 => ⟨S4096x2816, .f32⟩
  | 6 => ⟨S1x1024x8, .f32⟩
  | 7 => ⟨S1024x8, .f32⟩
  | 8 => ⟨S4096x8, .f32⟩
  | 9 => ⟨S1x8x2816, .f32⟩
  | 10 => ⟨S8x2816, .f32⟩
  | 11 => ⟨S4096x2816, .f32⟩
  | 12 => ⟨S_, .f32⟩
  | 13 => ⟨S4096x2816, .f32⟩
  | 14 => ⟨S4096x2816, .f32⟩
  | 15 => ⟨S4096x2816, .f32⟩
  | 16 => ⟨S1x1024x2816, .f32⟩
  | 17 => ⟨S1024x2816, .f32⟩
  | 18 => ⟨S4096x2816, .f32⟩
  | 19 => ⟨S1x1024x8, .f32⟩
  | 20 => ⟨S1024x8, .f32⟩
  | 21 => ⟨S4096x8, .f32⟩
  | 22 => ⟨S1x8x2816, .f32⟩
  | 23 => ⟨S8x2816, .f32⟩
  | 24 => ⟨S4096x2816, .f32⟩
  | 25 => ⟨S_, .f32⟩
  | 26 => ⟨S4096x2816, .f32⟩
  | 27 => ⟨S4096x2816, .f32⟩
  | 28 => ⟨S4096x2816, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S_, .f32⟩
  | 35 => ⟨S4096x2816, .f32⟩
  | 36 => ⟨S4096x2816, .f32⟩
  | 37 => ⟨S4096x2816, .f32⟩
  | 38 => ⟨S4096x2816, .f32⟩
  | 39 => ⟨S1x2816x1024, .f32⟩
  | 40 => ⟨S2816x1024, .f32⟩
  | 41 => ⟨S4096x1024, .f32⟩
  | 42 => ⟨S1x2816x8, .f32⟩
  | 43 => ⟨S2816x8, .f32⟩
  | 44 => ⟨S4096x8, .f32⟩
  | 45 => ⟨S1x8x1024, .f32⟩
  | 46 => ⟨S8x1024, .f32⟩
  | 47 => ⟨S4096x1024, .f32⟩
  | 48 => ⟨S_, .f32⟩
  | 49 => ⟨S4096x1024, .f32⟩
  | 50 => ⟨S4096x1024, .f32⟩
  | 51 => ⟨S4096x1024, .f32⟩
  | 52 => ⟨S4096x1, .f32⟩
  | 53 => ⟨S4096x1024, .f32⟩
  | 54 => ⟨S4096x1024, .f32⟩
  | 55 => ⟨S4096x1024, .f32⟩
  | 56 => ⟨S1x1024x2816, .f32⟩
  | 57 => ⟨S1024x2816, .f32⟩
  | 58 => ⟨S4096x2816, .f32⟩
  | 59 => ⟨S1x1024x8, .f32⟩
  | 60 => ⟨S1024x8, .f32⟩
  | 61 => ⟨S4096x8, .f32⟩
  | 62 => ⟨S1x8x2816, .f32⟩
  | 63 => ⟨S8x2816, .f32⟩
  | 64 => ⟨S4096x2816, .f32⟩
  | 65 => ⟨S_, .f32⟩
  | 66 => ⟨S4096x2816, .f32⟩
  | 67 => ⟨S4096x2816, .f32⟩
  | 68 => ⟨S4096x2816, .f32⟩
  | 69 => ⟨S1x1024x2816, .f32⟩
  | 70 => ⟨S1024x2816, .f32⟩
  | 71 => ⟨S4096x2816, .f32⟩
  | 72 => ⟨S1x1024x8, .f32⟩
  | 73 => ⟨S1024x8, .f32⟩
  | 74 => ⟨S4096x8, .f32⟩
  | 75 => ⟨S1x8x2816, .f32⟩
  | 76 => ⟨S8x2816, .f32⟩
  | 77 => ⟨S4096x2816, .f32⟩
  | 78 => ⟨S_, .f32⟩
  | 79 => ⟨S4096x2816, .f32⟩
  | 80 => ⟨S4096x2816, .f32⟩
  | 81 => ⟨S4096x2816, .f32⟩
  | 82 => ⟨S4096x2816, .f32⟩
  | 83 => ⟨S4096x2816, .f32⟩
  | 84 => ⟨S_, .f32⟩
  | 85 => ⟨S4096x2816, .f32⟩
  | 86 => ⟨S4096x2816, .f32⟩
  | 87 => ⟨S_, .f32⟩
  | 88 => ⟨S4096x2816, .f32⟩
  | 89 => ⟨S4096x2816, .f32⟩
  | 90 => ⟨S4096x2816, .f32⟩
  | 91 => ⟨S4096x2816, .f32⟩
  | 92 => ⟨S1x2816x1024, .f32⟩
  | 93 => ⟨S2816x1024, .f32⟩
  | 94 => ⟨S4096x1024, .f32⟩
  | 95 => ⟨S1x2816x8, .f32⟩
  | 96 => ⟨S2816x8, .f32⟩
  | 97 => ⟨S4096x8, .f32⟩
  | 98 => ⟨S1x8x1024, .f32⟩
  | 99 => ⟨S8x1024, .f32⟩
  | 100 => ⟨S4096x1024, .f32⟩
  | 101 => ⟨S_, .f32⟩
  | 102 => ⟨S4096x1024, .f32⟩
  | 103 => ⟨S4096x1024, .f32⟩
  | 104 => ⟨S4096x1024, .f32⟩
  | 105 => ⟨S4096x1, .f32⟩
  | 106 => ⟨S4096x1024, .f32⟩
  | 107 => ⟨S4096x1024, .f32⟩
  | 108 => ⟨S4096x1024, .f32⟩
  | 109 => ⟨S1x1024x2816, .f32⟩
  | 110 => ⟨S1024x2816, .f32⟩
  | 111 => ⟨S4096x2816, .f32⟩
  | 112 => ⟨S1x1024x8, .f32⟩
  | 113 => ⟨S1024x8, .f32⟩
  | 114 => ⟨S4096x8, .f32⟩
  | 115 => ⟨S1x8x2816, .f32⟩
  | 116 => ⟨S8x2816, .f32⟩
  | 117 => ⟨S4096x2816, .f32⟩
  | 118 => ⟨S_, .f32⟩
  | 119 => ⟨S4096x2816, .f32⟩
  | 120 => ⟨S4096x2816, .f32⟩
  | 121 => ⟨S4096x2816, .f32⟩
  | 122 => ⟨S1x1024x2816, .f32⟩
  | 123 => ⟨S1024x2816, .f32⟩
  | 124 => ⟨S4096x2816, .f32⟩
  | 125 => ⟨S1x1024x8, .f32⟩
  | 126 => ⟨S1024x8, .f32⟩
  | 127 => ⟨S4096x8, .f32⟩
  | _ => ⟨S4096x1024, .f32⟩

abbrev hbmTy0_2 (i : Nat) : BufTy := match i % 128 with
  | 0 => ⟨S1x8x2816, .f32⟩
  | 1 => ⟨S8x2816, .f32⟩
  | 2 => ⟨S4096x2816, .f32⟩
  | 3 => ⟨S_, .f32⟩
  | 4 => ⟨S4096x2816, .f32⟩
  | 5 => ⟨S4096x2816, .f32⟩
  | 6 => ⟨S4096x2816, .f32⟩
  | 7 => ⟨S4096x2816, .f32⟩
  | 8 => ⟨S4096x2816, .f32⟩
  | 9 => ⟨S_, .f32⟩
  | 10 => ⟨S4096x2816, .f32⟩
  | 11 => ⟨S4096x2816, .f32⟩
  | 12 => ⟨S_, .f32⟩
  | 13 => ⟨S4096x2816, .f32⟩
  | 14 => ⟨S4096x2816, .f32⟩
  | 15 => ⟨S4096x2816, .f32⟩
  | 16 => ⟨S4096x2816, .f32⟩
  | 17 => ⟨S1x2816x1024, .f32⟩
  | 18 => ⟨S2816x1024, .f32⟩
  | 19 => ⟨S4096x1024, .f32⟩
  | 20 => ⟨S1x2816x8, .f32⟩
  | 21 => ⟨S2816x8, .f32⟩
  | 22 => ⟨S4096x8, .f32⟩
  | 23 => ⟨S1x8x1024, .f32⟩
  | 24 => ⟨S8x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S4096x1, .f32⟩
  | 31 => ⟨S4096x1024, .f32⟩
  | 32 => ⟨S4096x1024, .f32⟩
  | 33 => ⟨S4096x1024, .f32⟩
  | 34 => ⟨S1x1024x2816, .f32⟩
  | 35 => ⟨S1024x2816, .f32⟩
  | 36 => ⟨S4096x2816, .f32⟩
  | 37 => ⟨S1x1024x8, .f32⟩
  | 38 => ⟨S1024x8, .f32⟩
  | 39 => ⟨S4096x8, .f32⟩
  | 40 => ⟨S1x8x2816, .f32⟩
  | 41 => ⟨S8x2816, .f32⟩
  | 42 => ⟨S4096x2816, .f32⟩
  | 43 => ⟨S_, .f32⟩
  | 44 => ⟨S4096x2816, .f32⟩
  | 45 => ⟨S4096x2816, .f32⟩
  | 46 => ⟨S4096x2816, .f32⟩
  | 47 => ⟨S1x1024x2816, .f32⟩
  | 48 => ⟨S1024x2816, .f32⟩
  | 49 => ⟨S4096x2816, .f32⟩
  | 50 => ⟨S1x1024x8, .f32⟩
  | 51 => ⟨S1024x8, .f32⟩
  | 52 => ⟨S4096x8, .f32⟩
  | 53 => ⟨S1x8x2816, .f32⟩
  | 54 => ⟨S8x2816, .f32⟩
  | 55 => ⟨S4096x2816, .f32⟩
  | 56 => ⟨S_, .f32⟩
  | 57 => ⟨S4096x2816, .f32⟩
  | 58 => ⟨S4096x2816, .f32⟩
  | 59 => ⟨S4096x2816, .f32⟩
  | 60 => ⟨S4096x2816, .f32⟩
  | 61 => ⟨S4096x2816, .f32⟩
  | 62 => ⟨S_, .f32⟩
  | 63 => ⟨S4096x2816, .f32⟩
  | 64 => ⟨S4096x2816, .f32⟩
  | 65 => ⟨S_, .f32⟩
  | 66 => ⟨S4096x2816, .f32⟩
  | 67 => ⟨S4096x2816, .f32⟩
  | 68 => ⟨S4096x2816, .f32⟩
  | 69 => ⟨S4096x2816, .f32⟩
  | 70 => ⟨S1x2816x1024, .f32⟩
  | 71 => ⟨S2816x1024, .f32⟩
  | 72 => ⟨S4096x1024, .f32⟩
  | 73 => ⟨S1x2816x8, .f32⟩
  | 74 => ⟨S2816x8, .f32⟩
  | 75 => ⟨S4096x8, .f32⟩
  | 76 => ⟨S1x8x1024, .f32⟩
  | 77 => ⟨S8x1024, .f32⟩
  | 78 => ⟨S4096x1024, .f32⟩
  | 79 => ⟨S_, .f32⟩
  | 80 => ⟨S4096x1024, .f32⟩
  | 81 => ⟨S4096x1024, .f32⟩
  | 82 => ⟨S4096x1024, .f32⟩
  | 83 => ⟨S4096x1, .f32⟩
  | 84 => ⟨S4096x1024, .f32⟩
  | 85 => ⟨S4096x1024, .f32⟩
  | 86 => ⟨S4096x1024, .f32⟩
  | 87 => ⟨S1x1024x2816, .f32⟩
  | 88 => ⟨S1024x2816, .f32⟩
  | 89 => ⟨S4096x2816, .f32⟩
  | 90 => ⟨S1x1024x8, .f32⟩
  | 91 => ⟨S1024x8, .f32⟩
  | 92 => ⟨S4096x8, .f32⟩
  | 93 => ⟨S1x8x2816, .f32⟩
  | 94 => ⟨S8x2816, .f32⟩
  | 95 => ⟨S4096x2816, .f32⟩
  | 96 => ⟨S_, .f32⟩
  | 97 => ⟨S4096x2816, .f32⟩
  | 98 => ⟨S4096x2816, .f32⟩
  | 99 => ⟨S4096x2816, .f32⟩
  | 100 => ⟨S1x1024x2816, .f32⟩
  | 101 => ⟨S1024x2816, .f32⟩
  | 102 => ⟨S4096x2816, .f32⟩
  | 103 => ⟨S1x1024x8, .f32⟩
  | 104 => ⟨S1024x8, .f32⟩
  | 105 => ⟨S4096x8, .f32⟩
  | 106 => ⟨S1x8x2816, .f32⟩
  | 107 => ⟨S8x2816, .f32⟩
  | 108 => ⟨S4096x2816, .f32⟩
  | 109 => ⟨S_, .f32⟩
  | 110 => ⟨S4096x2816, .f32⟩
  | 111 => ⟨S4096x2816, .f32⟩
  | 112 => ⟨S4096x2816, .f32⟩
  | 113 => ⟨S4096x2816, .f32⟩
  | 114 => ⟨S4096x2816, .f32⟩
  | 115 => ⟨S_, .f32⟩
  | 116 => ⟨S4096x2816, .f32⟩
  | 117 => ⟨S4096x2816, .f32⟩
  | 118 => ⟨S_, .f32⟩
  | 119 => ⟨S4096x2816, .f32⟩
  | 120 => ⟨S4096x2816, .f32⟩
  | 121 => ⟨S4096x2816, .f32⟩
  | 122 => ⟨S4096x2816, .f32⟩
  | 123 => ⟨S1x2816x1024, .f32⟩
  | 124 => ⟨S2816x1024, .f32⟩
  | 125 => ⟨S4096x1024, .f32⟩
  | 126 => ⟨S1x2816x8, .f32⟩
  | 127 => ⟨S2816x8, .f32⟩
  | _ => ⟨S4096x1024, .f32⟩

abbrev hbmTy0_3 (i : Nat) : BufTy := match i % 128 with
  | 0 => ⟨S4096x8, .f32⟩
  | 1 => ⟨S1x8x1024, .f32⟩
  | 2 => ⟨S8x1024, .f32⟩
  | 3 => ⟨S4096x1024, .f32⟩
  | 4 => ⟨S_, .f32⟩
  | 5 => ⟨S4096x1024, .f32⟩
  | 6 => ⟨S4096x1024, .f32⟩
  | 7 => ⟨S4096x1024, .f32⟩
  | 8 => ⟨S4096x1, .f32⟩
  | 9 => ⟨S4096x1024, .f32⟩
  | 10 => ⟨S4096x1024, .f32⟩
  | 11 => ⟨S4096x1024, .f32⟩
  | 12 => ⟨S1x1024x2816, .f32⟩
  | 13 => ⟨S1024x2816, .f32⟩
  | 14 => ⟨S4096x2816, .f32⟩
  | 15 => ⟨S1x1024x8, .f32⟩
  | 16 => ⟨S1024x8, .f32⟩
  | 17 => ⟨S4096x8, .f32⟩
  | 18 => ⟨S1x8x2816, .f32⟩
  | 19 => ⟨S8x2816, .f32⟩
  | 20 => ⟨S4096x2816, .f32⟩
  | 21 => ⟨S_, .f32⟩
  | 22 => ⟨S4096x2816, .f32⟩
  | 23 => ⟨S4096x2816, .f32⟩
  | 24 => ⟨S4096x2816, .f32⟩
  | 25 => ⟨S1x1024x2816, .f32⟩
  | 26 => ⟨S1024x2816, .f32⟩
  | 27 => ⟨S4096x2816, .f32⟩
  | 28 => ⟨S1x1024x8, .f32⟩
  | 29 => ⟨S1024x8, .f32⟩
  | 30 => ⟨S4096x8, .f32⟩
  | 31 => ⟨S1x8x2816, .f32⟩
  | 32 => ⟨S8x2816, .f32⟩
  | 33 => ⟨S4096x2816, .f32⟩
  | 34 => ⟨S_, .f32⟩
  | 35 => ⟨S4096x2816, .f32⟩
  | 36 => ⟨S4096x2816, .f32⟩
  | 37 => ⟨S4096x2816, .f32⟩
  | 38 => ⟨S4096x2816, .f32⟩
  | 39 => ⟨S4096x2816, .f32⟩
  | 40 => ⟨S_, .f32⟩
  | 41 => ⟨S4096x2816, .f32⟩
  | 42 => ⟨S4096x2816, .f32⟩
  | 43 => ⟨S_, .f32⟩
  | 44 => ⟨S4096x2816, .f32⟩
  | 45 => ⟨S4096x2816, .f32⟩
  | 46 => ⟨S4096x2816, .f32⟩
  | 47 => ⟨S4096x2816, .f32⟩
  | 48 => ⟨S1x2816x1024, .f32⟩
  | 49 => ⟨S2816x1024, .f32⟩
  | 50 => ⟨S4096x1024, .f32⟩
  | 51 => ⟨S1x2816x8, .f32⟩
  | 52 => ⟨S2816x8, .f32⟩
  | 53 => ⟨S4096x8, .f32⟩
  | 54 => ⟨S1x8x1024, .f32⟩
  | 55 => ⟨S8x1024, .f32⟩
  | 56 => ⟨S4096x1024, .f32⟩
  | 57 => ⟨S_, .f32⟩
  | 58 => ⟨S4096x1024, .f32⟩
  | 59 => ⟨S4096x1024, .f32⟩
  | 60 => ⟨S4096x1024, .f32⟩
  | 61 => ⟨S4096x1, .f32⟩
  | 62 => ⟨S4096x1024, .f32⟩
  | 63 => ⟨S4096x1024, .f32⟩
  | 64 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_3 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_4 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_5 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call2_v0 : Ref sig .tc := ⟨.hbm, 104, rfl⟩
abbrev main_call2_v1 : Ref sig .tc := ⟨.hbm, 105, rfl⟩
abbrev main_call2_cst : Ref sig .tc := ⟨.hbm, 106, rfl⟩
abbrev main_call2_v2 : Ref sig .tc := ⟨.hbm, 107, rfl⟩
abbrev main_call2_v3 : Ref sig .tc := ⟨.hbm, 108, rfl⟩
abbrev main_call2_cst_0 : Ref sig .tc := ⟨.hbm, 109, rfl⟩
abbrev main_call2_v4 : Ref sig .tc := ⟨.hbm, 110, rfl⟩
abbrev main_call2_v5 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_6 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_7 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_8 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_call3_v0 : Ref sig .tc := ⟨.hbm, 157, rfl⟩
abbrev main_call3_v1 : Ref sig .tc := ⟨.hbm, 158, rfl⟩
abbrev main_call3_cst : Ref sig .tc := ⟨.hbm, 159, rfl⟩
abbrev main_call3_v2 : Ref sig .tc := ⟨.hbm, 160, rfl⟩
abbrev main_call3_v3 : Ref sig .tc := ⟨.hbm, 161, rfl⟩
abbrev main_call3_cst_0 : Ref sig .tc := ⟨.hbm, 162, rfl⟩
abbrev main_call3_v4 : Ref sig .tc := ⟨.hbm, 163, rfl⟩
abbrev main_call3_v5 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_9 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_10 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_cst_11 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_call4_v0 : Ref sig .tc := ⟨.hbm, 210, rfl⟩
abbrev main_call4_v1 : Ref sig .tc := ⟨.hbm, 211, rfl⟩
abbrev main_call4_cst : Ref sig .tc := ⟨.hbm, 212, rfl⟩
abbrev main_call4_v2 : Ref sig .tc := ⟨.hbm, 213, rfl⟩
abbrev main_call4_v3 : Ref sig .tc := ⟨.hbm, 214, rfl⟩
abbrev main_call4_cst_0 : Ref sig .tc := ⟨.hbm, 215, rfl⟩
abbrev main_call4_v4 : Ref sig .tc := ⟨.hbm, 216, rfl⟩
abbrev main_call4_v5 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_cst_12 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_cst_13 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_cst_14 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_call5_v0 : Ref sig .tc := ⟨.hbm, 263, rfl⟩
abbrev main_call5_v1 : Ref sig .tc := ⟨.hbm, 264, rfl⟩
abbrev main_call5_cst : Ref sig .tc := ⟨.hbm, 265, rfl⟩
abbrev main_call5_v2 : Ref sig .tc := ⟨.hbm, 266, rfl⟩
abbrev main_call5_v3 : Ref sig .tc := ⟨.hbm, 267, rfl⟩
abbrev main_call5_cst_0 : Ref sig .tc := ⟨.hbm, 268, rfl⟩
abbrev main_call5_v4 : Ref sig .tc := ⟨.hbm, 269, rfl⟩
abbrev main_call5_v5 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_cst_15 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_cst_16 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_cst_17 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_call6_v0 : Ref sig .tc := ⟨.hbm, 316, rfl⟩
abbrev main_call6_v1 : Ref sig .tc := ⟨.hbm, 317, rfl⟩
abbrev main_call6_cst : Ref sig .tc := ⟨.hbm, 318, rfl⟩
abbrev main_call6_v2 : Ref sig .tc := ⟨.hbm, 319, rfl⟩
abbrev main_call6_v3 : Ref sig .tc := ⟨.hbm, 320, rfl⟩
abbrev main_call6_cst_0 : Ref sig .tc := ⟨.hbm, 321, rfl⟩
abbrev main_call6_v4 : Ref sig .tc := ⟨.hbm, 322, rfl⟩
abbrev main_call6_v5 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_cst_18 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_cst_19 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_v275 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_cst_20 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_call7_v0 : Ref sig .tc := ⟨.hbm, 369, rfl⟩
abbrev main_call7_v1 : Ref sig .tc := ⟨.hbm, 370, rfl⟩
abbrev main_call7_cst : Ref sig .tc := ⟨.hbm, 371, rfl⟩
abbrev main_call7_v2 : Ref sig .tc := ⟨.hbm, 372, rfl⟩
abbrev main_call7_v3 : Ref sig .tc := ⟨.hbm, 373, rfl⟩
abbrev main_call7_cst_0 : Ref sig .tc := ⟨.hbm, 374, rfl⟩
abbrev main_call7_v4 : Ref sig .tc := ⟨.hbm, 375, rfl⟩
abbrev main_call7_v5 : Ref sig .tc := ⟨.hbm, 376, rfl⟩
abbrev main_v282 : Ref sig .tc := ⟨.hbm, 377, rfl⟩
abbrev main_v283 : Ref sig .tc := ⟨.hbm, 378, rfl⟩
abbrev main_v284 : Ref sig .tc := ⟨.hbm, 379, rfl⟩
abbrev main_v285 : Ref sig .tc := ⟨.hbm, 380, rfl⟩
abbrev main_v286 : Ref sig .tc := ⟨.hbm, 381, rfl⟩
abbrev main_v287 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_cst_21 : Ref sig .tc := ⟨.hbm, 388, rfl⟩
abbrev main_v293 : Ref sig .tc := ⟨.hbm, 389, rfl⟩
abbrev main_v294 : Ref sig .tc := ⟨.hbm, 390, rfl⟩
abbrev main_v295 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_v299 : Ref sig .tc := ⟨.hbm, 395, rfl⟩
abbrev main_v300 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev main_v304 : Ref sig .tc := ⟨.hbm, 400, rfl⟩
abbrev main_v305 : Ref sig .tc := ⟨.hbm, 401, rfl⟩
abbrev main_v306 : Ref sig .tc := ⟨.hbm, 402, rfl⟩
abbrev main_v307 : Ref sig .tc := ⟨.hbm, 403, rfl⟩
abbrev main_v308 : Ref sig .tc := ⟨.hbm, 404, rfl⟩
abbrev main_cst_22 : Ref sig .tc := ⟨.hbm, 405, rfl⟩
abbrev main_v309 : Ref sig .tc := ⟨.hbm, 406, rfl⟩
abbrev main_v310 : Ref sig .tc := ⟨.hbm, 407, rfl⟩
abbrev main_v311 : Ref sig .tc := ⟨.hbm, 408, rfl⟩
abbrev main_v312 : Ref sig .tc := ⟨.hbm, 409, rfl⟩
abbrev main_v313 : Ref sig .tc := ⟨.hbm, 410, rfl⟩
abbrev main_v314 : Ref sig .tc := ⟨.hbm, 411, rfl⟩
abbrev main_v315 : Ref sig .tc := ⟨.hbm, 412, rfl⟩
abbrev main_v316 : Ref sig .tc := ⟨.hbm, 413, rfl⟩
abbrev main_v317 : Ref sig .tc := ⟨.hbm, 414, rfl⟩
abbrev main_v318 : Ref sig .tc := ⟨.hbm, 415, rfl⟩
abbrev main_v319 : Ref sig .tc := ⟨.hbm, 416, rfl⟩
abbrev main_v320 : Ref sig .tc := ⟨.hbm, 417, rfl⟩
abbrev main_cst_23 : Ref sig .tc := ⟨.hbm, 418, rfl⟩
abbrev main_v321 : Ref sig .tc := ⟨.hbm, 419, rfl⟩
abbrev main_v322 : Ref sig .tc := ⟨.hbm, 420, rfl⟩
abbrev main_v323 : Ref sig .tc := ⟨.hbm, 421, rfl⟩
abbrev main_call8_v0 : Ref sig .tc := ⟨.hbm, 422, rfl⟩
abbrev main_call8_v1 : Ref sig .tc := ⟨.hbm, 423, rfl⟩
abbrev main_call8_cst : Ref sig .tc := ⟨.hbm, 424, rfl⟩
abbrev main_call8_v2 : Ref sig .tc := ⟨.hbm, 425, rfl⟩
abbrev main_call8_v3 : Ref sig .tc := ⟨.hbm, 426, rfl⟩
abbrev main_call8_cst_0 : Ref sig .tc := ⟨.hbm, 427, rfl⟩
abbrev main_call8_v4 : Ref sig .tc := ⟨.hbm, 428, rfl⟩
abbrev main_call8_v5 : Ref sig .tc := ⟨.hbm, 429, rfl⟩
abbrev main_v324 : Ref sig .tc := ⟨.hbm, 430, rfl⟩
abbrev main_v325 : Ref sig .tc := ⟨.hbm, 431, rfl⟩
abbrev main_v326 : Ref sig .tc := ⟨.hbm, 432, rfl⟩
abbrev main_v327 : Ref sig .tc := ⟨.hbm, 433, rfl⟩
abbrev main_v328 : Ref sig .tc := ⟨.hbm, 434, rfl⟩
abbrev main_v329 : Ref sig .tc := ⟨.hbm, 435, rfl⟩
abbrev main_v330 : Ref sig .tc := ⟨.hbm, 436, rfl⟩
abbrev main_v331 : Ref sig .tc := ⟨.hbm, 437, rfl⟩
abbrev main_v332 : Ref sig .tc := ⟨.hbm, 438, rfl⟩
abbrev main_v333 : Ref sig .tc := ⟨.hbm, 439, rfl⟩
abbrev main_v334 : Ref sig .tc := ⟨.hbm, 440, rfl⟩
abbrev main_cst_24 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_v340 : Ref sig .tc := ⟨.hbm, 447, rfl⟩
abbrev main_v341 : Ref sig .tc := ⟨.hbm, 448, rfl⟩

abbrev nD : Nat := 1
abbrev τ : Topo := Topo.v7x

variable {F : FTy → Type} [FloatOps F]

class Facts₀ : Prop where
  bcast_S4096x2_S4096x2x1_0_1 : S4096x2.BroadcastsInDim S4096x2x1 (![0, 1] : Fin 2 → Fin S4096x2x1.rank)
  bcast_S4096x2x1_S4096x2x8_0_1_2 : S4096x2x1.BroadcastsInDim S4096x2x8 (![0, 1, 2] : Fin 3 → Fin S4096x2x8.rank)
  bcast_S1x1x8_S4096x2x8_0_1_2 : S1x1x8.BroadcastsInDim S4096x2x8 (![0, 1, 2] : Fin 3 → Fin S4096x2x8.rank)
  reducesTo_S4096x2x8_S4096x8_d1 : S4096x2x8.ReducesTo [1] S4096x8
  h_S_ : 0 < S_.numel
  bcast_S_S4096x1024 : S_.BroadcastsInDim S4096x1024 (![] : Fin 0 → Fin S4096x1024.rank)
  slices_S8x1024x2816_S1x1024x2816_0_0_0 : S8x1024x2816.Slices ![0, 0, 0] S1x1024x2816
  shapeCasts_S1x1024x2816_S1024x2816 : S1x1024x2816.ShapeCasts S1024x2816
  slices_S8x1024x8_S1x1024x8_0_0_0 : S8x1024x8.Slices ![0, 0, 0] S1x1024x8
  shapeCasts_S1x1024x8_S1024x8 : S1x1024x8.ShapeCasts S1024x8
  slices_S8x8x2816_S1x8x2816_0_0_0 : S8x8x2816.Slices ![0, 0, 0] S1x8x2816
  shapeCasts_S1x8x2816_S8x2816 : S1x8x2816.ShapeCasts S8x2816
  bcast_S_S4096x2816 : S_.BroadcastsInDim S4096x2816 (![] : Fin 0 → Fin S4096x2816.rank)
  slices_S8x2816x1024_S1x2816x1024_0_0_0 : S8x2816x1024.Slices ![0, 0, 0] S1x2816x1024
  shapeCasts_S1x2816x1024_S2816x1024 : S1x2816x1024.ShapeCasts S2816x1024
  slices_S8x2816x8_S1x2816x8_0_0_0 : S8x2816x8.Slices ![0, 0, 0] S1x2816x8
  shapeCasts_S1x2816x8_S2816x8 : S1x2816x8.ShapeCasts S2816x8
  slices_S8x8x1024_S1x8x1024_0_0_0 : S8x8x1024.Slices ![0, 0, 0] S1x8x1024
  shapeCasts_S1x8x1024_S8x1024 : S1x8x1024.ShapeCasts S8x1024
  slices_S4096x8_S4096x1_0_0 : S4096x8.Slices ![0, 0] S4096x1
  bcast_S4096x1_S4096x1024_0_1 : S4096x1.BroadcastsInDim S4096x1024 (![0, 1] : Fin 2 → Fin S4096x1024.rank)
  slices_S8x1024x2816_S1x1024x2816_1_0_0 : S8x1024x2816.Slices ![1, 0, 0] S1x1024x2816
  slices_S8x1024x8_S1x1024x8_1_0_0 : S8x1024x8.Slices ![1, 0, 0] S1x1024x8
  slices_S8x8x2816_S1x8x2816_1_0_0 : S8x8x2816.Slices ![1, 0, 0] S1x8x2816
  slices_S8x2816x1024_S1x2816x1024_1_0_0 : S8x2816x1024.Slices ![1, 0, 0] S1x2816x1024
  slices_S8x2816x8_S1x2816x8_1_0_0 : S8x2816x8.Slices ![1, 0, 0] S1x2816x8
  slices_S8x8x1024_S1x8x1024_1_0_0 : S8x8x1024.Slices ![1, 0, 0] S1x8x1024
  slices_S4096x8_S4096x1_0_1 : S4096x8.Slices ![0, 1] S4096x1
  slices_S8x1024x2816_S1x1024x2816_2_0_0 : S8x1024x2816.Slices ![2, 0, 0] S1x1024x2816
  slices_S8x1024x8_S1x1024x8_2_0_0 : S8x1024x8.Slices ![2, 0, 0] S1x1024x8
  slices_S8x8x2816_S1x8x2816_2_0_0 : S8x8x2816.Slices ![2, 0, 0] S1x8x2816
  slices_S8x2816x1024_S1x2816x1024_2_0_0 : S8x2816x1024.Slices ![2, 0, 0] S1x2816x1024
  slices_S8x2816x8_S1x2816x8_2_0_0 : S8x2816x8.Slices ![2, 0, 0] S1x2816x8
  slices_S8x8x1024_S1x8x1024_2_0_0 : S8x8x1024.Slices ![2, 0, 0] S1x8x1024
  slices_S4096x8_S4096x1_0_2 : S4096x8.Slices ![0, 2] S4096x1
  slices_S8x1024x2816_S1x1024x2816_3_0_0 : S8x1024x2816.Slices ![3, 0, 0] S1x1024x2816
  slices_S8x1024x8_S1x1024x8_3_0_0 : S8x1024x8.Slices ![3, 0, 0] S1x1024x8
  slices_S8x8x2816_S1x8x2816_3_0_0 : S8x8x2816.Slices ![3, 0, 0] S1x8x2816
  slices_S8x2816x1024_S1x2816x1024_3_0_0 : S8x2816x1024.Slices ![3, 0, 0] S1x2816x1024
  slices_S8x2816x8_S1x2816x8_3_0_0 : S8x2816x8.Slices ![3, 0, 0] S1x2816x8
  slices_S8x8x1024_S1x8x1024_3_0_0 : S8x8x1024.Slices ![3, 0, 0] S1x8x1024
  slices_S4096x8_S4096x1_0_3 : S4096x8.Slices ![0, 3] S4096x1
  slices_S8x1024x2816_S1x1024x2816_4_0_0 : S8x1024x2816.Slices ![4, 0, 0] S1x1024x2816
  slices_S8x1024x8_S1x1024x8_4_0_0 : S8x1024x8.Slices ![4, 0, 0] S1x1024x8
  slices_S8x8x2816_S1x8x2816_4_0_0 : S8x8x2816.Slices ![4, 0, 0] S1x8x2816
  slices_S8x2816x1024_S1x2816x1024_4_0_0 : S8x2816x1024.Slices ![4, 0, 0] S1x2816x1024
  slices_S8x2816x8_S1x2816x8_4_0_0 : S8x2816x8.Slices ![4, 0, 0] S1x2816x8
  slices_S8x8x1024_S1x8x1024_4_0_0 : S8x8x1024.Slices ![4, 0, 0] S1x8x1024
  slices_S4096x8_S4096x1_0_4 : S4096x8.Slices ![0, 4] S4096x1
  slices_S8x1024x2816_S1x1024x2816_5_0_0 : S8x1024x2816.Slices ![5, 0, 0] S1x1024x2816
  slices_S8x1024x8_S1x1024x8_5_0_0 : S8x1024x8.Slices ![5, 0, 0] S1x1024x8
  slices_S8x8x2816_S1x8x2816_5_0_0 : S8x8x2816.Slices ![5, 0, 0] S1x8x2816
  slices_S8x2816x1024_S1x2816x1024_5_0_0 : S8x2816x1024.Slices ![5, 0, 0] S1x2816x1024
  slices_S8x2816x8_S1x2816x8_5_0_0 : S8x2816x8.Slices ![5, 0, 0] S1x2816x8
  slices_S8x8x1024_S1x8x1024_5_0_0 : S8x8x1024.Slices ![5, 0, 0] S1x8x1024
  slices_S4096x8_S4096x1_0_5 : S4096x8.Slices ![0, 5] S4096x1
  slices_S8x1024x2816_S1x1024x2816_6_0_0 : S8x1024x2816.Slices ![6, 0, 0] S1x1024x2816
  slices_S8x1024x8_S1x1024x8_6_0_0 : S8x1024x8.Slices ![6, 0, 0] S1x1024x8
  slices_S8x8x2816_S1x8x2816_6_0_0 : S8x8x2816.Slices ![6, 0, 0] S1x8x2816
  slices_S8x2816x1024_S1x2816x1024_6_0_0 : S8x2816x1024.Slices ![6, 0, 0] S1x2816x1024
  slices_S8x2816x8_S1x2816x8_6_0_0 : S8x2816x8.Slices ![6, 0, 0] S1x2816x8
  slices_S8x8x1024_S1x8x1024_6_0_0 : S8x8x1024.Slices ![6, 0, 0] S1x8x1024
  slices_S4096x8_S4096x1_0_6 : S4096x8.Slices ![0, 6] S4096x1
  slices_S8x1024x2816_S1x1024x2816_7_0_0 : S8x1024x2816.Slices ![7, 0, 0] S1x1024x2816
  slices_S8x1024x8_S1x1024x8_7_0_0 : S8x1024x8.Slices ![7, 0, 0] S1x1024x8
  slices_S8x8x2816_S1x8x2816_7_0_0 : S8x8x2816.Slices ![7, 0, 0] S1x8x2816
  slices_S8x2816x1024_S1x2816x1024_7_0_0 : S8x2816x1024.Slices ![7, 0, 0] S1x2816x1024
  slices_S8x2816x8_S1x2816x8_7_0_0 : S8x2816x8.Slices ![7, 0, 0] S1x2816x8
  slices_S8x8x1024_S1x8x1024_7_0_0 : S8x8x1024.Slices ![7, 0, 0] S1x8x1024
  slices_S4096x8_S4096x1_0_7 : S4096x8.Slices ![0, 7] S4096x1
  dot_S4096x1024_S1024x2816_S4096x2816_1_0_0_1_n_n_wf : DotDims.WF S4096x1024 S1024x2816 S4096x2816 [1] [0] [0] [1] [] []
  dot_S4096x1024_S1024x8_S4096x8_1_0_0_1_n_n_wf : DotDims.WF S4096x1024 S1024x8 S4096x8 [1] [0] [0] [1] [] []
  dot_S4096x8_S8x2816_S4096x2816_1_0_0_1_n_n_wf : DotDims.WF S4096x8 S8x2816 S4096x2816 [1] [0] [0] [1] [] []
  dot_S4096x2816_S2816x1024_S4096x1024_1_0_0_1_n_n_wf : DotDims.WF S4096x2816 S2816x1024 S4096x1024 [1] [0] [0] [1] [] []
  dot_S4096x2816_S2816x8_S4096x8_1_0_0_1_n_n_wf : DotDims.WF S4096x2816 S2816x8 S4096x8 [1] [0] [0] [1] [] []
  dot_S4096x8_S8x1024_S4096x1024_1_0_0_1_n_n_wf : DotDims.WF S4096x8 S8x1024 S4096x1024 [1] [0] [0] [1] [] []

variable [Facts₀]

def dot_S4096x1024_S1024x2816_S4096x2816_1_0_0_1_n_n : DotDims S4096x1024 S1024x2816 S4096x2816 where
  lhsContracting := [1]
  rhsContracting := [0]
  lhsNonContracting := [0]
  rhsNonContracting := [1]
  lhsBatch := []
  rhsBatch := []
  wf := dot_S4096x1024_S1024x2816_S4096x2816_1_0_0_1_n_n_wf
def dot_S4096x1024_S1024x8_S4096x8_1_0_0_1_n_n : DotDims S4096x1024 S1024x8 S4096x8 where
  lhsContracting := [1]
  rhsContracting := [0]
  lhsNonContracting := [0]
  rhsNonContracting := [1]
  lhsBatch := []
  rhsBatch := []
  wf := dot_S4096x1024_S1024x8_S4096x8_1_0_0_1_n_n_wf
def dot_S4096x8_S8x2816_S4096x2816_1_0_0_1_n_n : DotDims S4096x8 S8x2816 S4096x2816 where
  lhsContracting := [1]
  rhsContracting := [0]
  lhsNonContracting := [0]
  rhsNonContracting := [1]
  lhsBatch := []
  rhsBatch := []
  wf := dot_S4096x8_S8x2816_S4096x2816_1_0_0_1_n_n_wf
def dot_S4096x2816_S2816x1024_S4096x1024_1_0_0_1_n_n : DotDims S4096x2816 S2816x1024 S4096x1024 where
  lhsContracting := [1]
  rhsContracting := [0]
  lhsNonContracting := [0]
  rhsNonContracting := [1]
  lhsBatch := []
  rhsBatch := []
  wf := dot_S4096x2816_S2816x1024_S4096x1024_1_0_0_1_n_n_wf
def dot_S4096x2816_S2816x8_S4096x8_1_0_0_1_n_n : DotDims S4096x2816 S2816x8 S4096x8 where
  lhsContracting := [1]
  rhsContracting := [0]
  lhsNonContracting := [0]
  rhsNonContracting := [1]
  lhsBatch := []
  rhsBatch := []
  wf := dot_S4096x2816_S2816x8_S4096x8_1_0_0_1_n_n_wf
def dot_S4096x8_S8x1024_S4096x1024_1_0_0_1_n_n : DotDims S4096x8 S8x1024 S4096x1024 where
  lhsContracting := [1]
  rhsContracting := [0]
  lhsNonContracting := [0]
  rhsNonContracting := [1]
  lhsBatch := []
  rhsBatch := []
  wf := dot_S4096x8_S8x1024_S4096x1024_1_0_0_1_n_n_wf

class Facts : Prop extends Facts₀ where

variable [Facts]
-- ==== Proof.KernelLoop.lean ====
/-
  What the kernel body's loop over the four 128-row sub-tiles leaves in the output's staging buffer.

  Trip k of the loop reads rows 128k … 128k + 127 of the token tile and of the combine tile, forms the expert's
  output y for those rows and the combine column c, reads the same rows of the output buffer, and stores
  "what it read + y · c" back to those rows.  The four trips write four disjoint bands of rows, so the contents a
  trip reads back at its own rows are still the contents the buffer had when the loop was entered; and an element
  of the buffer after the loop, in row q, holds what trip q / 128 stored at its local row q % 128.
-/
import proofs.«137077_j223338300204_2_alg».proof.Proof.Gen.KernelIdeal.Frame
import Idealize.ShloMosaic.Lib.Pipeline.Value
import Idealize.ShloMosaic.Lib.WritesUnit
import Idealize.ShloMosaic.Lib.WholeRead
import Idealize.ShloMosaic.Lib.Tactic

set_option maxRecDepth 16384

noncomputable section

namespace Cert.MoeKernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The loop makes four trips. -/
theorem trips_eq : k0_t1_loop.trips = 4 := by decide

section Loop

variable (𝒱 : Variants) (c : Dev nD) (bd : Option 𝒱.V) (i : grid0.Coords) (arg2 : Memref sig .tc .vmem S512x1024 .bf16) (harg2 : arg2.IsWhole) (arg3 : Memref sig .tc .vmem S1x1024x2816 .bf16) (harg3 : arg3.IsWhole) (arg4 : Memref sig .tc .vmem S1x1024x2816 .bf16) (harg4 : arg4.IsWhole) (arg5 : Memref sig .tc .vmem S1x2816x1024 .bf16) (harg5 : arg5.IsWhole) (arg6 : Memref sig .tc .vmem S1x1024x8 .bf16) (harg6 : arg6.IsWhole) (arg7 : Memref sig .tc .vmem S1x8x2816 .bf16) (harg7 : arg7.IsWhole) (arg8 : Memref sig .tc .vmem S1x1024x8 .bf16) (harg8 : arg8.IsWhole) (arg9 : Memref sig .tc .vmem S1x8x2816 .bf16) (harg9 : arg9.IsWhole) (arg10 : Memref sig .tc .vmem S1x2816x8 .bf16) (harg10 : arg10.IsWhole) (arg11 : Memref sig .tc .vmem S1x8x1024 .bf16) (harg11 : arg11.IsWhole) (arg12 : Memref sig .tc .vmem S512x8 .f32) (harg12 : arg12.IsWhole) (arg13 : Memref sig .tc .vmem S512x1024 .f32) (harg13 : arg13.IsWhole) (arg1 : BitVec 32) (v3 : Vec F S1x1024x2816 .bf16) (v5 : Vec F S1x1024x2816 .bf16) (v7 : Vec F S1x2816x1024 .bf16) (v9 : Vec F S1x1024x8 .bf16) (v11 : Vec F S1x8x2816 .bf16) (v13 : Vec F S1x1024x8 .bf16) (v15 : Vec F S1x8x2816 .bf16) (v17 : Vec F S1x2816x8 .bf16) (v19 : Vec F S1x8x1024 .bf16) (X_arg2 : BufTy.Contents (Elt F) arg2.view.ty) (X_arg12 : BufTy.Contents (Elt F) arg12.view.ty) (G_arg13 : BufTy.Contents (Elt F) arg13.view.ty)

/-- What trip `k` stores at its rows, given the contents `f` it finds in the output buffer. -/
def tripPay (k : Fin k0_t1_loop.trips) (f : BufTy.Contents (Elt F) arg13.view.ty) : FVec F S128x1024 .f32 :=
  k0_pay11
    (k0_pay12 (k0_pay2 v3) (k0_pay3 v5) (k0_pay4 v7) (k0_pay5 v9) (k0_pay6 v11) (k0_pay7 v13) (k0_pay8 v15) (k0_pay9 v17) (k0_pay10 v19)
      (View.readAt (Elt F) arg2.view (Rect.unit (s := S512x1024) (k0_off1 k) S128x1024.size (k0_off1_inb k)).toLoadRect X_arg2))
    (k0_pay13 arg1
      (View.readAt (Elt F) arg12.view (Rect.unit (s := S512x8) (k0_off2 k) S128x8.size (k0_off2_inb k)).toLoadRect X_arg12))
    (View.readAt (Elt F) arg13.view (Rect.unit (s := S512x1024) (k0_off1 k) S128x1024.size (k0_off1_inb k)).toLoadRect f)

/-- One trip leaves one piece: its rows, with that payload. -/
theorem tripL_eq (k : Fin k0_t1_loop.trips) (f : BufTy.Contents (Elt F) arg13.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg1 v3 v5 v7 v9 v11 v13 v15 v17 v19 X_arg2 X_arg12 k f
      = [(⟨Rect.unit (s := S512x1024) (k0_off1 k) S128x1024.size (k0_off1_inb k),
          tripPay arg2 arg12 arg13 arg1 v3 v5 v7 v9 v11 v13 v15 v17 v19 X_arg2 X_arg12 k f⟩ : View.Piece (Elt F) S512x1024 .f32)] := by
  unfold tripL_k0_t1
  unfold trip_k0_t1
  dsimp only
  sl_unfold_words
  rfl

/-- The row offset of trip `k`'s band. -/
theorem off1_zero (k : Fin k0_t1_loop.trips) : k0_off1 k (0 : Fin 2) = 128 * k.val := congrFun (k0_off1_eq k) 0
theorem off1_one (k : Fin k0_t1_loop.trips) : k0_off1 k (1 : Fin 2) = 0 := congrFun (k0_off1_eq k) 1
theorem off2_zero (k : Fin k0_t1_loop.trips) : k0_off2 k (0 : Fin 2) = 128 * k.val := congrFun (k0_off2_eq k) 0
theorem off2_one (k : Fin k0_t1_loop.trips) : k0_off2 k (1 : Fin 2) = 0 := congrFun (k0_off2_eq k) 1

/-- The pieces of the first `n + 1` trips: trip `n`'s one piece in front of the first `n` trips'. -/
theorem pb_succ (n : ℕ) (hn : n < k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v3 v5 v7 v9 v11 v13 v15 v17 v19 X_arg2 X_arg12 G_arg13 (n + 1)
      = (⟨Rect.unit (s := S512x1024) (k0_off1 ⟨n, hn⟩) S128x1024.size (k0_off1_inb ⟨n, hn⟩),
          tripPay arg2 arg12 arg13 arg1 v3 v5 v7 v9 v11 v13 v15 v17 v19 X_arg2 X_arg12 ⟨n, hn⟩ (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v3 v5 v7 v9 v11 v13 v15 v17 v19 X_arg2 X_arg12 G_arg13 n))⟩
            : View.Piece (Elt F) S512x1024 .f32) :: pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v3 v5 v7 v9 v11 v13 v15 v17 v19 X_arg2 X_arg12 G_arg13 n := by
  have e : pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v3 v5 v7 v9 v11 v13 v15 v17 v19 X_arg2 X_arg12 G_arg13 (n + 1) = _ := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg1 v3 v5 v7 v9 v11 v13 v15 v17 v19 X_arg2 X_arg12 G_arg13 ⟨n, hn⟩
  rw [e, tripL_eq]
  rfl

/-- A row at or beyond the first `n` bands is not written by the first `n` trips. -/
theorem read_pb_of_ge {sig' : RefSig} {κ' : Kind} {sp' : Space} (v : View sig' κ' sp' S512x1024 .f32) (f0 : v.ty.Contents (Elt F)) :
    ∀ (n : ℕ) (hn : n ≤ k0_t1_loop.trips) (y : S512x1024.Idx) (hy : 128 * n ≤ (y (0 : Fin 2)).val),
      v.read (Elt F) (v.writes (Elt F) f0 (pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v3 v5 v7 v9 v11 v13 v15 v17 v19 X_arg2 X_arg12 G_arg13 n)) y = v.read (Elt F) f0 y
  | 0, _, _, _ => rfl
  | n + 1, hn, y, hy => by
    rw [pb_succ 𝒱 c bd i arg2 harg2 arg3 harg3 arg4 harg4 arg5 harg5 arg6 harg6 arg7 harg7 arg8 harg8 arg9 harg9 arg10 harg10 arg11 harg11 arg12 harg12 arg13 harg13 arg1 v3 v5 v7 v9 v11 v13 v15 v17 v19 X_arg2 X_arg12 G_arg13 n hn,
      View.read_writes_cons_rows_of_not_mem v f0 (k0_off1_inb ⟨n, hn⟩) _ _ y (k0_off1_eq ⟨n, hn⟩) (W := 128) rfl
        (Or.inr (by show 128 * n + 128 ≤ _; omega))]
    exact read_pb_of_ge v f0 n (Nat.le_of_succ_le hn) y (by omega)

/-- The contents trip `k` reads back at its own rows are the contents at the loop's entry. -/
theorem readAt_found (k : Fin k0_t1_loop.trips) :
    View.readAt (Elt F) arg13.view (Rect.unit (s := S512x1024) (k0_off1 k) S128x1024.size (k0_off1_inb k)).toLoadRect
        (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v3 v5 v7 v9 v11 v13 v15 v17 v19 X_arg2 X_arg12 G_arg13 k.val))
      = View.readAt (Elt F) arg13.view (Rect.unit (s := S512x1024) (k0_off1 k) S128x1024.size (k0_off1_inb k)).toLoadRect G_arg13 := by
  funext x
  rw [View.readAt_apply, View.readAt_apply]
  refine read_pb_of_ge 𝒱 c bd i arg2 harg2 arg3 harg3 arg4 harg4 arg5 harg5 arg6 harg6 arg7 harg7 arg8 harg8 arg9 harg9 arg10 harg10 arg11 harg11 arg12 harg12 arg13 harg13 arg1 v3 v5 v7 v9 v11 v13 v15 v17 v19 X_arg2 X_arg12 G_arg13 arg13.view G_arg13 k.val (Nat.le_of_lt k.isLt) _ ?_
  show 128 * k.val ≤ k0_off1 k (0 : Fin 2) + 1 * (x (0 : Fin 2)).val
  rw [off1_zero]; omega

/-- A row inside trip `k`'s band, `k` among the first `n` trips, holds what trip `k` stored there: its payload over
    the entry contents, at the row's position inside the band. -/
theorem read_pb_of_mem {sig' : RefSig} {κ' : Kind} {sp' : Space} (v : View sig' κ' sp' S512x1024 .f32) (f0 : v.ty.Contents (Elt F))
    (k : Fin k0_t1_loop.trips) (y : S512x1024.Idx) (x : S128x1024.Idx)
    (hx0 : (y (0 : Fin 2)).val = 128 * k.val + (x (0 : Fin 2)).val) (hx1 : (y (1 : Fin 2)).val = (x (1 : Fin 2)).val) :
    ∀ (n : ℕ) (hn : n ≤ k0_t1_loop.trips) (hk : k.val < n),
      v.read (Elt F) (v.writes (Elt F) f0 (pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v3 v5 v7 v9 v11 v13 v15 v17 v19 X_arg2 X_arg12 G_arg13 n)) y = tripPay arg2 arg12 arg13 arg1 v3 v5 v7 v9 v11 v13 v15 v17 v19 X_arg2 X_arg12 k G_arg13 x
  | 0, _, hk => absurd hk (Nat.not_lt_zero _)
  | n + 1, hn, hk => by
    have hx : (x (0 : Fin 2)).val < 128 := (x (0 : Fin 2)).isLt
    rw [pb_succ 𝒱 c bd i arg2 harg2 arg3 harg3 arg4 harg4 arg5 harg5 arg6 harg6 arg7 harg7 arg8 harg8 arg9 harg9 arg10 harg10 arg11 harg11 arg12 harg12 arg13 harg13 arg1 v3 v5 v7 v9 v11 v13 v15 v17 v19 X_arg2 X_arg12 G_arg13 n hn]
    by_cases hkn : k.val = n
    · obtain rfl : k = ⟨n, hn⟩ := Fin.ext hkn
      rw [View.read_writes_cons_rows_of_mem v f0 (k0_off1_inb ⟨n, hn⟩) _ _ y x (k0_off1_eq ⟨n, hn⟩) hx0 hx1]
      unfold tripPay
      rw [readAt_found 𝒱 c bd i arg2 harg2 arg3 harg3 arg4 harg4 arg5 harg5 arg6 harg6 arg7 harg7 arg8 harg8 arg9 harg9 arg10 harg10 arg11 harg11 arg12 harg12 arg13 harg13 arg1 v3 v5 v7 v9 v11 v13 v15 v17 v19 X_arg2 X_arg12 G_arg13 ⟨n, hn⟩]
    · rw [View.read_writes_cons_rows_of_not_mem v f0 (k0_off1_inb ⟨n, hn⟩) _ _ y (k0_off1_eq ⟨n, hn⟩) (W := 128) rfl
        (Or.inl (by show (y (0 : Fin 2)).val < 128 * n; omega))]
      exact read_pb_of_mem v f0 k y x hx0 hx1 n (Nat.le_of_succ_le hn) (by omega)

end Loop

end Cert.MoeKernel

end
-- ==== Proof.Spec.lean ====
/-
  The function both programs compute, index by index over the extended reals.

  For a token's row x of hidden states and one expert's nine weight matrices,
    g = x · gate_proj + 2 · ((x · gate_A) · gate_B)
    u = x · up_proj   + 2 · ((x · up_A)   · up_B)
    h = (g · logistic g) · u                      (entry by entry)
    y = h · down_proj + 2 · ((h · down_A) · down_B)
  and the token's result row is the ordered sum, from zero, over the experts 0, 1, …, 7 of the token's combine
  weight for the expert times y.  Every product of a row with a matrix is the plain sum over the contracted
  coordinate; the factor 2 and the starting zero are kept as the float words the programs print, the same word on
  both sides, so neither is ever evaluated.  No step of the comparison moves a factor across a sum or cancels
  anything, so nothing here needs the inputs to be finite.
-/
import Idealize.ShloMosaic.PureOps.Ideal
import Idealize.ShloMosaic.Lib.ValueIdx

noncomputable section

namespace Cert.MoeSpec

open Idealize.ShloMosaic Idealize.ShloMosaic.ValueIdx

/-- The scale of the low-rank detour, as the word both programs print. -/
abbrev two : EReal := Ideal.ofBits .f32 0x40000000#32
/-- The value the accumulation starts from, as the word both programs print. -/
abbrev zero : EReal := Ideal.ofBits .f32 0x00000000#32

/-- A row times a matrix plus twice the row taken through a low-rank pair: `x·W + 2·((x·A)·B)`, at column `k`. -/
def lora {a b r : ℕ} (x : Fin a → EReal) (W : Fin a → Fin b → EReal) (A : Fin a → Fin r → EReal)
    (B : Fin r → Fin b → EReal) (k : Fin b) : EReal :=
  (∑ l : Fin a, x l * W l k) + two * ∑ q : Fin r, (∑ l : Fin a, x l * A l q) * B q k

/-- One expert's nine matrices, as plain functions of (row, column). -/
structure Weights where
  gp : Fin 1024 → Fin 2816 → EReal
  up : Fin 1024 → Fin 2816 → EReal
  dp : Fin 2816 → Fin 1024 → EReal
  gA : Fin 1024 → Fin 8 → EReal
  gB : Fin 8 → Fin 2816 → EReal
  uA : Fin 1024 → Fin 8 → EReal
  uB : Fin 8 → Fin 2816 → EReal
  dA : Fin 2816 → Fin 8 → EReal
  dB : Fin 8 → Fin 1024 → EReal

/-- The gated hidden row: `(g · logistic g) · u`, entry by entry. -/
def hidden (x : Fin 1024 → EReal) (W : Weights) (k : Fin 2816) : EReal :=
  (lora x W.gp W.gA W.gB k * Ideal.logistic (lora x W.gp W.gA W.gB k)) * lora x W.up W.uA W.uB k

/-- One expert's output row for a token's row `x`. -/
def expertRow (x : Fin 1024 → EReal) (W : Weights) (j : Fin 1024) : EReal :=
  lora (hidden x W) W.dp W.dA W.dB j

/-- Ordered partial sums from the starting word: `((zero + term 0) + term 1) + … + term (n - 1)`. -/
def psum (term : ℕ → EReal) : ℕ → EReal
  | 0 => zero
  | n + 1 => psum term n + term n

theorem psum_zero (term : ℕ → EReal) : psum term 0 = zero := rfl
theorem psum_succ (term : ℕ → EReal) (n : ℕ) : psum term (n + 1) = psum term n + term n := rfl

/-- Expert `e`'s matrices read out of the nine stacked weight arrays. -/
def weightsAt (a3 a4 : (⟨3, ![8, 1024, 2816]⟩ : Shape).Idx → EReal) (a5 : (⟨3, ![8, 2816, 1024]⟩ : Shape).Idx → EReal)
    (a6 : (⟨3, ![8, 1024, 8]⟩ : Shape).Idx → EReal) (a7 : (⟨3, ![8, 8, 2816]⟩ : Shape).Idx → EReal)
    (a8 : (⟨3, ![8, 1024, 8]⟩ : Shape).Idx → EReal) (a9 : (⟨3, ![8, 8, 2816]⟩ : Shape).Idx → EReal)
    (a10 : (⟨3, ![8, 2816, 8]⟩ : Shape).Idx → EReal) (a11 : (⟨3, ![8, 8, 1024]⟩ : Shape).Idx → EReal) (e : Fin 8) : Weights where
  gp l k := a3 (ix3 e l k)
  up l k := a4 (ix3 e l k)
  dp k j := a5 (ix3 e k j)
  gA l q := a6 (ix3 e l q)
  gB q k := a7 (ix3 e q k)
  uA l q := a8 (ix3 e l q)
  uB q k := a9 (ix3 e q k)
  dA k q := a10 (ix3 e k q)
  dB q j := a11 (ix3 e q j)

/-- Expert `e`'s term of token `t`'s result at column `j`: the combine weight times the expert's output. -/
def term (x : (⟨2, ![4096, 1024]⟩ : Shape).Idx → EReal) (cmb : (⟨2, ![4096, 8]⟩ : Shape).Idx → EReal)
    (ws : Fin 8 → Weights) (t : Fin 4096) (j : Fin 1024) (e : ℕ) : EReal :=
  if h : e < 8 then cmb (ix2 t ⟨e, h⟩) * expertRow (fun l => x (ix2 t l)) (ws ⟨e, h⟩) j else zero

/-- The result array: at `(t, j)` the ordered sum of the eight experts' terms. -/
def result (x : (⟨2, ![4096, 1024]⟩ : Shape).Idx → EReal) (cmb : (⟨2, ![4096, 8]⟩ : Shape).Idx → EReal)
    (ws : Fin 8 → Weights) : (⟨2, ![4096, 1024]⟩ : Shape).Idx → EReal :=
  fun i => psum (term x cmb ws (i 0) (i 1)) 8

/-- The word `0x3F800000` denotes the real one. -/
theorem one_word : Ideal.ofBits .f32 0x3F800000#32 = 1 := by
  simp [Ideal.ofBits, Ideal.ieee, -EReal.coe_mul]; norm_num

/-- The sigmoid spelt as negate, exponential, add one, divide into one is the one function `logistic`, on every
    extended real: it is that function's definition, the printed ones being the real one. -/
theorem logistic_spelt (g : EReal) :
    Ideal.div (Ideal.ofBits .f32 0x3F800000#32) (Ideal.ofBits .f32 0x3F800000#32 + Ideal.exp (-g)) = Ideal.logistic g := by
  rw [one_word]; rfl

end Cert.MoeSpec

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.KernelBody.lean ====
/-
  The kernel body's arithmetic, read at an index over the extended reals.

  For one 128-row sub-tile the body forms, from the sub-tile's rows x of the token tile and the expert's nine
  matrices, y = h · down_proj + 2 · ((h · down_A) · down_B) with h = (g · logistic g) · u and g, u of the same
  form over x: nine products into zero accumulators, two format changes that are the identity on extended reals,
  and the scale 2 as a splat.  Row p of y depends on row p of x alone: it is the specification's `expertRow` of
  that row.  The combine column c is a sum over the eight lanes of the combine sub-tile with every lane but the
  expert's own replaced by zero, which is the expert's lane itself; the update stores "what was there + y · c".
-/
import proofs.«137077_j223338300204_2_alg».proof.Proof.Gen.KernelIdeal.Skeleton
import proofs.«137077_j223338300204_2_alg».proof.Proof.Spec
import proofs.«137077_j223338300204_2_alg».proof.Proof.LibPlainDot
import proofs.«137077_j223338300204_2_alg».proof.Proof.LibColumn
import proofs.«137077_j223338300204_2_alg».proof.Proof.LibLaneSum
import Idealize.ShloMosaic.Lib.Pipeline.Value
import Idealize.ShloMosaic.Lib.ValueIdx
import Idealize.ShloMosaic.Lib.ValueLayout
import Idealize.ShloMosaic.PureOps.Ideal.Laws

noncomputable section

namespace Cert.MoeKernel

open Cert.KernelIdeal Cert.KernelIdeal.Gen Idealize.ShloMosaic Idealize.ShloMosaic.ValueIdx Cert.MoeSpec

/-- `x · W + 2 · ((x · A) · B)` on a sub-tile, into the hidden width. -/
def tileUp (x : FVec Ideal S128x1024 .bf16) (W : FVec Ideal S1024x2816 .bf16) (A : FVec Ideal S1024x8 .bf16)
    (B : FVec Ideal S8x2816 .bf16) : FVec Ideal S128x2816 .f32 :=
  addf (matmul dot_S128x1024_S1024x2816_S128x2816_1_0_0_1_n_n none x W (constant S128x2816 .f32 0x00000000#32))
    (mulf (broadcast S128x2816 (Scalar.ofBits .f32 0x40000000#32))
      (matmul dot_S128x8_S8x2816_S128x2816_1_0_0_1_n_n none
        (truncf .bf16 (matmul dot_S128x1024_S1024x8_S128x8_1_0_0_1_n_n none x A (constant S128x8 .f32 0x00000000#32)) bitsLt_bf16_f32)
        B (constant S128x2816 .f32 0x00000000#32)))

/-- `(g · logistic g) · u` on a sub-tile. -/
def tileHidden (g u : FVec Ideal S128x2816 .f32) : FVec Ideal S128x2816 .f32 := mulf (mulf g (logistic g)) u

/-- `h · W + 2 · ((h · A) · B)` on a sub-tile, back to the model width. -/
def tileDown (h : FVec Ideal S128x2816 .bf16) (W : FVec Ideal S2816x1024 .bf16) (A : FVec Ideal S2816x8 .bf16)
    (B : FVec Ideal S8x1024 .bf16) : FVec Ideal S128x1024 .f32 :=
  addf (matmul dot_S128x2816_S2816x1024_S128x1024_1_0_0_1_n_n none h W (constant S128x1024 .f32 0x00000000#32))
    (mulf (broadcast S128x1024 (Scalar.ofBits .f32 0x40000000#32))
      (matmul dot_S128x8_S8x1024_S128x1024_1_0_0_1_n_n none
        (truncf .bf16 (matmul dot_S128x2816_S2816x8_S128x8_1_0_0_1_n_n none h A (constant S128x8 .f32 0x00000000#32)) bitsLt_bf16_f32)
        B (constant S128x1024 .f32 0x00000000#32)))

/-- The printed output payload is the composition of the three. -/
theorem pay12_eq (v4 v6 : FVec Ideal S1024x2816 .bf16) (v8 : FVec Ideal S2816x1024 .bf16) (v10 : FVec Ideal S1024x8 .bf16)
    (v12 : FVec Ideal S8x2816 .bf16) (v14 : FVec Ideal S1024x8 .bf16) (v16 : FVec Ideal S8x2816 .bf16)
    (v18 : FVec Ideal S2816x8 .bf16) (v20 : FVec Ideal S8x1024 .bf16) (v25 : Vec Ideal S128x1024 .bf16) :
    k0_pay12 (F := Ideal) v4 v6 v8 v10 v12 v14 v16 v18 v20 v25
      = tileDown (truncf .bf16
          (tileHidden (tileUp (shapeCast S128x1024 v25 shapeCasts_S128x1024_S128x1024) v4 v10 v12)
            (tileUp (shapeCast S128x1024 v25 shapeCasts_S128x1024_S128x1024) v6 v14 v16)) bitsLt_bf16_f32) v8 v18 v20 := rfl

theorem tileUp_apply (x : FVec Ideal S128x1024 .bf16) (W : FVec Ideal S1024x2816 .bf16) (A : FVec Ideal S1024x8 .bf16)
    (B : FVec Ideal S8x2816 .bf16) (p : Fin 128) (k : Fin 2816) :
    tileUp x W A B (ix2 p k)
      = lora (fun l => x (ix2 p l)) (fun l k => W (ix2 l k)) (fun l q => A (ix2 l q)) (fun q k => B (ix2 q k)) k := by
  unfold tileUp lora
  rw [addf_apply, mulf_apply, broadcast_apply]
  refine congrArg₂ (· + ·) (PlainDot.matmul_zero_apply dot_S128x1024_S1024x2816_S128x2816_1_0_0_1_n_n rfl none x W p k)
    (congrArg (two * ·) ?_)
  refine (PlainDot.matmul_zero_apply dot_S128x8_S8x2816_S128x2816_1_0_0_1_n_n rfl none _ B p k).trans
    (Finset.sum_congr rfl fun q _ => congrArg (· * B (ix2 q k)) ?_)
  exact PlainDot.matmul_zero_apply dot_S128x1024_S1024x8_S128x8_1_0_0_1_n_n rfl none x A p q

theorem tileDown_apply (h : FVec Ideal S128x2816 .bf16) (W : FVec Ideal S2816x1024 .bf16) (A : FVec Ideal S2816x8 .bf16)
    (B : FVec Ideal S8x1024 .bf16) (p : Fin 128) (j : Fin 1024) :
    tileDown h W A B (ix2 p j)
      = lora (fun k => h (ix2 p k)) (fun k j => W (ix2 k j)) (fun k q => A (ix2 k q)) (fun q j => B (ix2 q j)) j := by
  unfold tileDown lora
  rw [addf_apply, mulf_apply, broadcast_apply]
  refine congrArg₂ (· + ·) (PlainDot.matmul_zero_apply dot_S128x2816_S2816x1024_S128x1024_1_0_0_1_n_n rfl none h W p j)
    (congrArg (two * ·) ?_)
  refine (PlainDot.matmul_zero_apply dot_S128x8_S8x1024_S128x1024_1_0_0_1_n_n rfl none _ B p j).trans
    (Finset.sum_congr rfl fun q _ => congrArg (· * B (ix2 q j)) ?_)
  exact PlainDot.matmul_zero_apply dot_S128x2816_S2816x8_S128x8_1_0_0_1_n_n rfl none h A p q

theorem tileHidden_apply (g u : FVec Ideal S128x2816 .f32) (i : S128x2816.Idx) :
    tileHidden g u i = (g i * Ideal.logistic (g i)) * u i := rfl

/-- The nine matrices a sub-tile's payload is taken at, as the specification's plain functions. -/
def tileWeights (v4 v6 : FVec Ideal S1024x2816 .bf16) (v8 : FVec Ideal S2816x1024 .bf16) (v10 : FVec Ideal S1024x8 .bf16)
    (v12 : FVec Ideal S8x2816 .bf16) (v14 : FVec Ideal S1024x8 .bf16) (v16 : FVec Ideal S8x2816 .bf16)
    (v18 : FVec Ideal S2816x8 .bf16) (v20 : FVec Ideal S8x1024 .bf16) : Weights where
  gp l k := v4 (ix2 l k)
  up l k := v6 (ix2 l k)
  dp k j := v8 (ix2 k j)
  gA l q := v10 (ix2 l q)
  gB q k := v12 (ix2 q k)
  uA l q := v14 (ix2 l q)
  uB q k := v16 (ix2 q k)
  dA k q := v18 (ix2 k q)
  dB q j := v20 (ix2 q j)

/-- Row `p`, column `j` of the output payload: the sub-tile's row `p` through `expertRow`. -/
theorem pay12_apply (v4 v6 : FVec Ideal S1024x2816 .bf16) (v8 : FVec Ideal S2816x1024 .bf16) (v10 : FVec Ideal S1024x8 .bf16)
    (v12 : FVec Ideal S8x2816 .bf16) (v14 : FVec Ideal S1024x8 .bf16) (v16 : FVec Ideal S8x2816 .bf16)
    (v18 : FVec Ideal S2816x8 .bf16) (v20 : FVec Ideal S8x1024 .bf16) (v25 : Vec Ideal S128x1024 .bf16)
    (p : Fin 128) (j : Fin 1024) :
    k0_pay12 (F := Ideal) v4 v6 v8 v10 v12 v14 v16 v18 v20 v25 (ix2 p j)
      = expertRow (fun l => v25 (ix2 p l)) (tileWeights v4 v6 v8 v10 v12 v14 v16 v18 v20) j := by
  rw [pay12_eq, tileDown_apply]
  unfold expertRow
  refine congrArg (fun hh => lora hh _ _ _ j) (funext fun k => ?_)
  rw [truncf_apply, tileHidden_apply, tileUp_apply, tileUp_apply, shapeCast_self]
  rfl

/-- Lane `d` is the expert's own lane exactly when the two lane numbers are equal. -/
theorem lane_cmp : ∀ d e : Fin 8, IntOp.cmpi .eq (BitVec.ofNat 32 d.val) (BitVec.ofNat 32 e.val) = 1#1 ↔ d = e := by decide

/-- The printed combine-column payload, as its operations. -/
theorem pay13_eq (arg1 : BitVec 32) (v53 : Vec Ideal S128x8 .f32) :
    k0_pay13 (F := Ideal) arg1 v53
      = shapeCast S128x1
          (multiReduction .add [1] S128
            (select (cmpi .eq (iota .tc S128x8 32 [1] iota_S128x8_d1_w32) (broadcast S128x8 arg1))
              (shapeCast S128x8 v53 shapeCasts_S128x8_S128x8) (broadcast S128x8 (Scalar.ofBits .f32 0x00000000#32)))
            0x00000000#32 reduces_S128x8_S128 (.inl rfl) rfl) shapeCasts_S128_S128x1 := rfl

/-- Row `p` of the combine column, for the expert `e`: the combine sub-tile at `(p, e)`. -/
theorem pay13_apply (e : Fin 8) (v53 : Vec Ideal S128x8 .f32) (p : Fin 128) (u : Fin 1) :
    k0_pay13 (F := Ideal) (BitVec.ofNat 32 e.val) v53 (ix2 p u) = v53 (ix2 p e) := by
  rw [pay13_eq]
  refine (GraphConv.Column.shapeCast_a_a1_apply _ _ p u).trans ?_
  refine (LaneSum.sum_last2 _ _ _ _ _ p).trans ?_
  rw [Finset.sum_eq_single e]
  · rw [select_apply, shapeCast_self]
    show Scalar.select (IntOp.cmpi .eq (iota .tc S128x8 32 [1] iota_S128x8_d1_w32 (ix2 p e)) (BitVec.ofNat 32 e.val)) _ _ = _
    rw [iota_single_apply]
    show Scalar.select (IntOp.cmpi .eq (BitVec.ofNat 32 e.val) (BitVec.ofNat 32 e.val)) _ _ = _
    rw [(lane_cmp e e).mpr rfl]
    rfl
  · intro d _ hd
    rw [select_apply]
    show Scalar.select (IntOp.cmpi .eq (iota .tc S128x8 32 [1] iota_S128x8_d1_w32 (ix2 p d)) (BitVec.ofNat 32 e.val)) _ _ = _
    rw [iota_single_apply]
    show Scalar.select (IntOp.cmpi .eq (BitVec.ofNat 32 d.val) (BitVec.ofNat 32 e.val)) _ _ = _
    have hne : ¬ IntOp.cmpi .eq (BitVec.ofNat 32 d.val) (BitVec.ofNat 32 e.val) = 1#1 := fun h => hd ((lane_cmp d e).mp h)
    exact (if_neg hne).trans Ideal.ofBits_zero_f32
  · intro h; exact absurd (Finset.mem_univ e) h

/-- The printed update payload, as its operations. -/
theorem pay11_eq (v51 : FVec Ideal S128x1024 .f32) (v61 : FVec Ideal S128x1 .f32) (v63 : Vec Ideal S128x1024 .f32) :
    k0_pay11 (F := Ideal) v51 v61 v63
      = addf (shapeCast S128x1024 v63 shapeCasts_S128x1024_S128x1024) (mulf v51 (broadcastTo S128x1024 v61 broadcasts_S128x1_S128x1024)) := rfl

/-- The update at `(p, j)`: what was there plus `y · c`. -/
theorem pay11_apply (v51 : FVec Ideal S128x1024 .f32) (v61 : FVec Ideal S128x1 .f32) (v63 : Vec Ideal S128x1024 .f32)
    (p : Fin 128) (j : Fin 1024) :
    k0_pay11 (F := Ideal) v51 v61 v63 (ix2 p j) = v63 (ix2 p j) + v51 (ix2 p j) * v61 (ix2 p (0 : Fin 1)) := by
  rw [pay11_eq, addf_apply, mulf_apply, shapeCast_self, GraphConv.Column.broadcastTo_a1_ab_apply]

end Cert.MoeKernel

end
-- ==== Proof.KernelCase.lean ====
/-
  What one grid point leaves in the output's staging buffer, at an index, over the extended reals.

  A grid point is a token tile of 512 rows and an expert.  The body's four trips update the four 128-row bands
  of the buffer; row q of the buffer lies in band q / 128 at local row q % 128, and ends holding
      what the band's trip read there  +  y(row q of the token tile) · combine(q, expert),
  y being the specification's `expertRow` at the expert's nine matrices (each a `[1, a, b]` block read at
  `(0, ·, ·)`).  For the first expert of a tile the body first fills the buffer with the zero word, so what the
  trips read there is that word; for a later expert it is what the previous point left.
-/
import proofs.«137077_j223338300204_2_alg».proof.Proof.KernelLoop
import proofs.«137077_j223338300204_2_alg».proof.Proof.KernelBody
import Idealize.ShloMosaic.Lib.WholeRead

set_option maxRecDepth 16384

noncomputable section

namespace Cert.MoeKernel

open Cert.KernelIdeal Cert.KernelIdeal.Gen Cert.MoeSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

/-- One expert's matrices out of the point's nine weight blocks. -/
def blockWeights (x1 x2 : Vec Ideal S1x1024x2816 .bf16) (x3 : Vec Ideal S1x2816x1024 .bf16) (x4 : Vec Ideal S1x1024x8 .bf16)
    (x5 : Vec Ideal S1x8x2816 .bf16) (x6 : Vec Ideal S1x1024x8 .bf16) (x7 : Vec Ideal S1x8x2816 .bf16)
    (x8 : Vec Ideal S1x2816x8 .bf16) (x9 : Vec Ideal S1x8x1024 .bf16) : Weights where
  gp l k := x1 (ix3 (0 : Fin 1) l k)
  up l k := x2 (ix3 (0 : Fin 1) l k)
  dp k j := x3 (ix3 (0 : Fin 1) k j)
  gA l q := x4 (ix3 (0 : Fin 1) l q)
  gB q k := x5 (ix3 (0 : Fin 1) q k)
  uA l q := x6 (ix3 (0 : Fin 1) l q)
  uB q k := x7 (ix3 (0 : Fin 1) q k)
  dA k q := x8 (ix3 (0 : Fin 1) k q)
  dB q j := x9 (ix3 (0 : Fin 1) q j)

/-- A whole `[1, a, b]` staging buffer held at contents `X`, loaded whole and read with its unit axis dropped, is `X`
    at `(0, l, k)`. -/
theorem wblock {a b : ℕ} {m : Memref sig .tc .vmem (⟨3, ![1, a, b]⟩ : Shape) .bf16} (h : m.IsWhole)
    (X : Vec Ideal (⟨3, ![1, a, b]⟩ : Shape) .bf16)
    (inb : ∀ ax, (![0, 0, 0] : Fin 3 → ℕ) ax + (⟨3, ![1, a, b]⟩ : Shape).size ax ≤ (⟨3, ![1, a, b]⟩ : Shape).size ax)
    (hc : (⟨3, ![1, a, b]⟩ : Shape).ShapeCasts ⟨2, ![a, b]⟩) (l : Fin a) (k : Fin b) :
    shapeCast ⟨2, ![a, b]⟩
        (View.readAt (Elt Ideal) m.view (Rect.unit (s := (⟨3, ![1, a, b]⟩ : Shape)) ![0, 0, 0] (⟨3, ![1, a, b]⟩ : Shape).size inb).toLoadRect
          (h.unread X)) hc (ix2 l k) = X (ix3 (0 : Fin 1) l k) := by
  rw [shapeCast_1ab_ab_apply, h.readAt_unread]
  refine congrArg X (funext fun ax => Fin.ext ?_)
  match ax with
  | ⟨0, _⟩ => rfl
  | ⟨1, _⟩ => show 0 + 1 * l.val = l.val; omega
  | ⟨2, _⟩ => show 0 + 1 * k.val = k.val; omega

/-- Local row `p` of band `k` of the token tile or of the output buffer is row `128 k + p`. -/
theorem idx1 (k : Fin k0_t1_loop.trips) (p : Fin 128) (j : Fin 1024) (q : Fin 512) (hq : q.val = 128 * k.val + p.val) :
    (Rect.unit (s := S512x1024) (k0_off1 k) S128x1024.size (k0_off1_inb k)).toLoadRect.idx (ix2 p j) = ix2 q j := by
  refine funext fun ax => Fin.ext ?_
  match ax with
  | ⟨0, _⟩ => show k0_off1 k (0 : Fin 2) + 1 * p.val = q.val; rw [off1_zero]; omega
  | ⟨1, _⟩ => show k0_off1 k (1 : Fin 2) + 1 * j.val = j.val; rw [off1_one]; omega

/-- … and of the combine tile. -/
theorem idx2 (k : Fin k0_t1_loop.trips) (p : Fin 128) (d : Fin 8) (q : Fin 512) (hq : q.val = 128 * k.val + p.val) :
    (Rect.unit (s := S512x8) (k0_off2 k) S128x8.size (k0_off2_inb k)).toLoadRect.idx (ix2 p d) = ix2 q d := by
  refine funext fun ax => Fin.ext ?_
  match ax with
  | ⟨0, _⟩ => show k0_off2 k (0 : Fin 2) + 1 * p.val = q.val; rw [off2_zero]; omega
  | ⟨1, _⟩ => show k0_off2 k (1 : Fin 2) + 1 * d.val = d.val; rw [off2_one]; omega

/-- The zero fill the first expert's body starts with, as a piece. -/
abbrev zeroPiece : View.Piece (Elt Ideal) S512x1024 .f32 :=
  ⟨Rect.unit (s := S512x1024) ![0, 0] S512x1024.size inb_S512x1024_S512x1024_0_0, k0_pay1 (F := Ideal)⟩

/-- Any buffer holding just the zero fill reads the zero word everywhere. -/
theorem read_zeroFill {sig' : RefSig} {κ' : Kind} {sp' : Space} (v : View sig' κ' sp' S512x1024 .f32) (f : v.ty.Contents (Elt Ideal))
    (y : S512x1024.Idx) : v.read (Elt Ideal) (v.writes (Elt Ideal) f [zeroPiece]) y = zero :=
  View.read_writes_cons_unit_of_mem v f inb_S512x1024_S512x1024_0_0 (k0_pay1 (F := Ideal)) [] y y rfl
    (fun a => by
      match a with
      | ⟨0, _⟩ => show (y 0).val = 0 + (y 0).val; omega
      | ⟨1, _⟩ => show (y 1).val = 0 + (y 1).val; omega)

section Case

variable (c : Dev nD) (i : grid0.Coords) (arg2 : Memref sig .tc .vmem S512x1024 .bf16) (harg2 : arg2.IsWhole) (arg3 : Memref sig .tc .vmem S1x1024x2816 .bf16) (harg3 : arg3.IsWhole) (arg4 : Memref sig .tc .vmem S1x1024x2816 .bf16) (harg4 : arg4.IsWhole) (arg5 : Memref sig .tc .vmem S1x2816x1024 .bf16) (harg5 : arg5.IsWhole) (arg6 : Memref sig .tc .vmem S1x1024x8 .bf16) (harg6 : arg6.IsWhole) (arg7 : Memref sig .tc .vmem S1x8x2816 .bf16) (harg7 : arg7.IsWhole) (arg8 : Memref sig .tc .vmem S1x1024x8 .bf16) (harg8 : arg8.IsWhole) (arg9 : Memref sig .tc .vmem S1x8x2816 .bf16) (harg9 : arg9.IsWhole) (arg10 : Memref sig .tc .vmem S1x2816x8 .bf16) (harg10 : arg10.IsWhole) (arg11 : Memref sig .tc .vmem S1x8x1024 .bf16) (harg11 : arg11.IsWhole) (arg12 : Memref sig .tc .vmem S512x8 .f32) (harg12 : arg12.IsWhole) (arg13 : Memref sig .tc .vmem S512x1024 .f32) (harg13 : arg13.IsWhole)
variable (x0 : Vec Ideal S512x1024 .bf16) (x1 x2 : Vec Ideal S1x1024x2816 .bf16) (x3 : Vec Ideal S1x2816x1024 .bf16) (x4 : Vec Ideal S1x1024x8 .bf16) (x5 : Vec Ideal S1x8x2816 .bf16) (x6 : Vec Ideal S1x1024x8 .bf16) (x7 : Vec Ideal S1x8x2816 .bf16) (x8 : Vec Ideal S1x2816x8 .bf16) (x9 : Vec Ideal S1x8x1024 .bf16) (x10 : Vec Ideal S512x8 .f32)
include c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10

/-- The matrices the trips' payloads are taken at are the expert's, out of the point's blocks. -/
theorem weights_eq :
    (tileWeights (k0_pay2 (View.readAt (Elt Ideal) arg3.view (Rect.unit (s := S1x1024x2816) ![0, 0, 0] S1x1024x2816.size inb_S1x1024x2816_S1x1024x2816_0_0_0).toLoadRect (harg3.unread x1))) (k0_pay3 (View.readAt (Elt Ideal) arg4.view (Rect.unit (s := S1x1024x2816) ![0, 0, 0] S1x1024x2816.size inb_S1x1024x2816_S1x1024x2816_0_0_0).toLoadRect (harg4.unread x2))) (k0_pay4 (View.readAt (Elt Ideal) arg5.view (Rect.unit (s := S1x2816x1024) ![0, 0, 0] S1x2816x1024.size inb_S1x2816x1024_S1x2816x1024_0_0_0).toLoadRect (harg5.unread x3))) (k0_pay5 (View.readAt (Elt Ideal) arg6.view (Rect.unit (s := S1x1024x8) ![0, 0, 0] S1x1024x8.size inb_S1x1024x8_S1x1024x8_0_0_0).toLoadRect (harg6.unread x4))) (k0_pay6 (View.readAt (Elt Ideal) arg7.view (Rect.unit (s := S1x8x2816) ![0, 0, 0] S1x8x2816.size inb_S1x8x2816_S1x8x2816_0_0_0).toLoadRect (harg7.unread x5))) (k0_pay7 (View.readAt (Elt Ideal) arg8.view (Rect.unit (s := S1x1024x8) ![0, 0, 0] S1x1024x8.size inb_S1x1024x8_S1x1024x8_0_0_0).toLoadRect (harg8.unread x6))) (k0_pay8 (View.readAt (Elt Ideal) arg9.view (Rect.unit (s := S1x8x2816) ![0, 0, 0] S1x8x2816.size inb_S1x8x2816_S1x8x2816_0_0_0).toLoadRect (harg9.unread x7))) (k0_pay9 (View.readAt (Elt Ideal) arg10.view (Rect.unit (s := S1x2816x8) ![0, 0, 0] S1x2816x8.size inb_S1x2816x8_S1x2816x8_0_0_0).toLoadRect (harg10.unread x8))) (k0_pay10 (View.readAt (Elt Ideal) arg11.view (Rect.unit (s := S1x8x1024) ![0, 0, 0] S1x8x1024.size inb_S1x8x1024_S1x8x1024_0_0_0).toLoadRect (harg11.unread x9)))) = blockWeights x1 x2 x3 x4 x5 x6 x7 x8 x9 := by
  unfold tileWeights blockWeights
  congr 1 <;> (funext r s; exact wblock _ _ _ _ r s)

/-- A trip's payload at local `(p, j)` of band `k`, the buffer found at contents reading `prev` at row `q`. -/
theorem tripPay_apply (G : BufTy.Contents (Elt Ideal) arg13.view.ty) (e : Fin 8) (he : (i 1).val = e.val)
    (k : Fin k0_t1_loop.trips) (p : Fin 128) (q : Fin 512) (j : Fin 1024) (hq : q.val = 128 * k.val + p.val) :
    tripPay arg2 arg12 arg13 (BitVec.ofNat 32 (i 1).val) (View.readAt (Elt Ideal) arg3.view (Rect.unit (s := S1x1024x2816) ![0, 0, 0] S1x1024x2816.size inb_S1x1024x2816_S1x1024x2816_0_0_0).toLoadRect (harg3.unread x1)) (View.readAt (Elt Ideal) arg4.view (Rect.unit (s := S1x1024x2816) ![0, 0, 0] S1x1024x2816.size inb_S1x1024x2816_S1x1024x2816_0_0_0).toLoadRect (harg4.unread x2)) (View.readAt (Elt Ideal) arg5.view (Rect.unit (s := S1x2816x1024) ![0, 0, 0] S1x2816x1024.size inb_S1x2816x1024_S1x2816x1024_0_0_0).toLoadRect (harg5.unread x3)) (View.readAt (Elt Ideal) arg6.view (Rect.unit (s := S1x1024x8) ![0, 0, 0] S1x1024x8.size inb_S1x1024x8_S1x1024x8_0_0_0).toLoadRect (harg6.unread x4)) (View.readAt (Elt Ideal) arg7.view (Rect.unit (s := S1x8x2816) ![0, 0, 0] S1x8x2816.size inb_S1x8x2816_S1x8x2816_0_0_0).toLoadRect (harg7.unread x5)) (View.readAt (Elt Ideal) arg8.view (Rect.unit (s := S1x1024x8) ![0, 0, 0] S1x1024x8.size inb_S1x1024x8_S1x1024x8_0_0_0).toLoadRect (harg8.unread x6)) (View.readAt (Elt Ideal) arg9.view (Rect.unit (s := S1x8x2816) ![0, 0, 0] S1x8x2816.size inb_S1x8x2816_S1x8x2816_0_0_0).toLoadRect (harg9.unread x7)) (View.readAt (Elt Ideal) arg10.view (Rect.unit (s := S1x2816x8) ![0, 0, 0] S1x2816x8.size inb_S1x2816x8_S1x2816x8_0_0_0).toLoadRect (harg10.unread x8)) (View.readAt (Elt Ideal) arg11.view (Rect.unit (s := S1x8x1024) ![0, 0, 0] S1x8x1024.size inb_S1x8x1024_S1x8x1024_0_0_0).toLoadRect (harg11.unread x9)) (harg2.unread x0) (harg12.unread x10) k G (ix2 p j)
      = arg13.view.read (Elt Ideal) G (ix2 q j)
        + expertRow (fun l => x0 (ix2 q l)) (blockWeights x1 x2 x3 x4 x5 x6 x7 x8 x9) j * x10 (ix2 q e) := by
  unfold tripPay
  rw [pay11_apply, pay12_apply, he, pay13_apply e, weights_eq c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10]
  rw [View.readAt_apply, idx1 k p j q hq, harg12.readAt_unread, idx2 k p e q hq]
  refine congrArg (fun xx => _ + expertRow xx _ j * _) (funext fun l => ?_)
  rw [harg2.readAt_unread, idx1 k p l q hq]

/-- The pieces the body leaves for a later expert of a tile: the loop's four, over what the previous point left. -/
theorem pieces_B (hc0 : ¬cond0_0 i) (xo11 : Vec Ideal S512x1024 .f32) :
    (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xo11).1
      = pb_k0_t1 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) (View.readAt (Elt Ideal) arg3.view (Rect.unit (s := S1x1024x2816) ![0, 0, 0] S1x1024x2816.size inb_S1x1024x2816_S1x1024x2816_0_0_0).toLoadRect (harg3.unread x1)) (View.readAt (Elt Ideal) arg4.view (Rect.unit (s := S1x1024x2816) ![0, 0, 0] S1x1024x2816.size inb_S1x1024x2816_S1x1024x2816_0_0_0).toLoadRect (harg4.unread x2)) (View.readAt (Elt Ideal) arg5.view (Rect.unit (s := S1x2816x1024) ![0, 0, 0] S1x2816x1024.size inb_S1x2816x1024_S1x2816x1024_0_0_0).toLoadRect (harg5.unread x3)) (View.readAt (Elt Ideal) arg6.view (Rect.unit (s := S1x1024x8) ![0, 0, 0] S1x1024x8.size inb_S1x1024x8_S1x1024x8_0_0_0).toLoadRect (harg6.unread x4)) (View.readAt (Elt Ideal) arg7.view (Rect.unit (s := S1x8x2816) ![0, 0, 0] S1x8x2816.size inb_S1x8x2816_S1x8x2816_0_0_0).toLoadRect (harg7.unread x5)) (View.readAt (Elt Ideal) arg8.view (Rect.unit (s := S1x1024x8) ![0, 0, 0] S1x1024x8.size inb_S1x1024x8_S1x1024x8_0_0_0).toLoadRect (harg8.unread x6)) (View.readAt (Elt Ideal) arg9.view (Rect.unit (s := S1x8x2816) ![0, 0, 0] S1x8x2816.size inb_S1x8x2816_S1x8x2816_0_0_0).toLoadRect (harg9.unread x7)) (View.readAt (Elt Ideal) arg10.view (Rect.unit (s := S1x2816x8) ![0, 0, 0] S1x2816x8.size inb_S1x2816x8_S1x2816x8_0_0_0).toLoadRect (harg10.unread x8)) (View.readAt (Elt Ideal) arg11.view (Rect.unit (s := S1x8x1024) ![0, 0, 0] S1x8x1024.size inb_S1x8x1024_S1x8x1024_0_0_0).toLoadRect (harg11.unread x9)) (harg2.unread x0) (harg12.unread x10) (harg13.unread xo11) k0_t1_loop.trips := by
  unfold kernelRun0_B
  rfl

/-- A later expert of a tile: the buffer at `(q, j)` ends at what the previous point left there plus `y · combine`. -/
theorem outB_apply (hc0 : ¬cond0_0 i) (xo11 : Vec Ideal S512x1024 .f32) (e : Fin 8) (he : (i 1).val = e.val)
    (k : Fin k0_t1_loop.trips) (p : Fin 128) (q : Fin 512) (j : Fin 1024) (hq : q.val = 128 * k.val + p.val) :
    out0_B_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xo11 (ix2 q j)
      = xo11 (ix2 q j)
        + expertRow (fun l => x0 (ix2 q l)) (blockWeights x1 x2 x3 x4 x5 x6 x7 x8 x9) j * x10 (ix2 q e) := by
  unfold out0_B_11
  rw [pieces_B c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 hc0 xo11]
  rw [read_pb_of_mem (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) (View.readAt (Elt Ideal) arg3.view (Rect.unit (s := S1x1024x2816) ![0, 0, 0] S1x1024x2816.size inb_S1x1024x2816_S1x1024x2816_0_0_0).toLoadRect (harg3.unread x1)) (View.readAt (Elt Ideal) arg4.view (Rect.unit (s := S1x1024x2816) ![0, 0, 0] S1x1024x2816.size inb_S1x1024x2816_S1x1024x2816_0_0_0).toLoadRect (harg4.unread x2)) (View.readAt (Elt Ideal) arg5.view (Rect.unit (s := S1x2816x1024) ![0, 0, 0] S1x2816x1024.size inb_S1x2816x1024_S1x2816x1024_0_0_0).toLoadRect (harg5.unread x3)) (View.readAt (Elt Ideal) arg6.view (Rect.unit (s := S1x1024x8) ![0, 0, 0] S1x1024x8.size inb_S1x1024x8_S1x1024x8_0_0_0).toLoadRect (harg6.unread x4)) (View.readAt (Elt Ideal) arg7.view (Rect.unit (s := S1x8x2816) ![0, 0, 0] S1x8x2816.size inb_S1x8x2816_S1x8x2816_0_0_0).toLoadRect (harg7.unread x5)) (View.readAt (Elt Ideal) arg8.view (Rect.unit (s := S1x1024x8) ![0, 0, 0] S1x1024x8.size inb_S1x1024x8_S1x1024x8_0_0_0).toLoadRect (harg8.unread x6)) (View.readAt (Elt Ideal) arg9.view (Rect.unit (s := S1x8x2816) ![0, 0, 0] S1x8x2816.size inb_S1x8x2816_S1x8x2816_0_0_0).toLoadRect (harg9.unread x7)) (View.readAt (Elt Ideal) arg10.view (Rect.unit (s := S1x2816x8) ![0, 0, 0] S1x2816x8.size inb_S1x2816x8_S1x2816x8_0_0_0).toLoadRect (harg10.unread x8)) (View.readAt (Elt Ideal) arg11.view (Rect.unit (s := S1x8x1024) ![0, 0, 0] S1x8x1024.size inb_S1x8x1024_S1x8x1024_0_0_0).toLoadRect (harg11.unread x9)) (harg2.unread x0) (harg12.unread x10) (harg13.unread xo11) VO0_11 VO0_11.junk k (ix2 q j) (ix2 p j) hq rfl
    k0_t1_loop.trips (Nat.le_refl _) k.isLt]
  rw [tripPay_apply c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (harg13.unread xo11) e he k p q j hq, harg13.read_unread]

/-- The pieces the body leaves for the first expert of a tile: the loop's four, over the zero fill, then the fill. -/
theorem pieces_A (hc0 : cond0_0 i) :
    (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10).1
      = pb_k0_t1 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) (View.readAt (Elt Ideal) arg3.view (Rect.unit (s := S1x1024x2816) ![0, 0, 0] S1x1024x2816.size inb_S1x1024x2816_S1x1024x2816_0_0_0).toLoadRect (harg3.unread x1)) (View.readAt (Elt Ideal) arg4.view (Rect.unit (s := S1x1024x2816) ![0, 0, 0] S1x1024x2816.size inb_S1x1024x2816_S1x1024x2816_0_0_0).toLoadRect (harg4.unread x2)) (View.readAt (Elt Ideal) arg5.view (Rect.unit (s := S1x2816x1024) ![0, 0, 0] S1x2816x1024.size inb_S1x2816x1024_S1x2816x1024_0_0_0).toLoadRect (harg5.unread x3)) (View.readAt (Elt Ideal) arg6.view (Rect.unit (s := S1x1024x8) ![0, 0, 0] S1x1024x8.size inb_S1x1024x8_S1x1024x8_0_0_0).toLoadRect (harg6.unread x4)) (View.readAt (Elt Ideal) arg7.view (Rect.unit (s := S1x8x2816) ![0, 0, 0] S1x8x2816.size inb_S1x8x2816_S1x8x2816_0_0_0).toLoadRect (harg7.unread x5)) (View.readAt (Elt Ideal) arg8.view (Rect.unit (s := S1x1024x8) ![0, 0, 0] S1x1024x8.size inb_S1x1024x8_S1x1024x8_0_0_0).toLoadRect (harg8.unread x6)) (View.readAt (Elt Ideal) arg9.view (Rect.unit (s := S1x8x2816) ![0, 0, 0] S1x8x2816.size inb_S1x8x2816_S1x8x2816_0_0_0).toLoadRect (harg9.unread x7)) (View.readAt (Elt Ideal) arg10.view (Rect.unit (s := S1x2816x8) ![0, 0, 0] S1x2816x8.size inb_S1x2816x8_S1x2816x8_0_0_0).toLoadRect (harg10.unread x8)) (View.readAt (Elt Ideal) arg11.view (Rect.unit (s := S1x8x1024) ![0, 0, 0] S1x8x1024.size inb_S1x8x1024_S1x8x1024_0_0_0).toLoadRect (harg11.unread x9)) (harg2.unread x0) (harg12.unread x10) (arg13.view.writes (Elt Ideal) arg13.view.junk [zeroPiece]) k0_t1_loop.trips
          ++ [zeroPiece] := by
  unfold kernelRun0_A
  dsimp only
  sl_unfold_words
  rfl

/-- The first expert of a tile: the buffer at `(q, j)` ends at the zero word plus `y · combine`. -/
theorem outA_apply (hc0 : cond0_0 i) (e : Fin 8) (he : (i 1).val = e.val)
    (k : Fin k0_t1_loop.trips) (p : Fin 128) (q : Fin 512) (j : Fin 1024) (hq : q.val = 128 * k.val + p.val) :
    out0_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 (ix2 q j)
      = zero + expertRow (fun l => x0 (ix2 q l)) (blockWeights x1 x2 x3 x4 x5 x6 x7 x8 x9) j * x10 (ix2 q e) := by
  unfold out0_A_11
  rw [pieces_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 hc0, View.writes_append]
  rw [read_pb_of_mem (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) (View.readAt (Elt Ideal) arg3.view (Rect.unit (s := S1x1024x2816) ![0, 0, 0] S1x1024x2816.size inb_S1x1024x2816_S1x1024x2816_0_0_0).toLoadRect (harg3.unread x1)) (View.readAt (Elt Ideal) arg4.view (Rect.unit (s := S1x1024x2816) ![0, 0, 0] S1x1024x2816.size inb_S1x1024x2816_S1x1024x2816_0_0_0).toLoadRect (harg4.unread x2)) (View.readAt (Elt Ideal) arg5.view (Rect.unit (s := S1x2816x1024) ![0, 0, 0] S1x2816x1024.size inb_S1x2816x1024_S1x2816x1024_0_0_0).toLoadRect (harg5.unread x3)) (View.readAt (Elt Ideal) arg6.view (Rect.unit (s := S1x1024x8) ![0, 0, 0] S1x1024x8.size inb_S1x1024x8_S1x1024x8_0_0_0).toLoadRect (harg6.unread x4)) (View.readAt (Elt Ideal) arg7.view (Rect.unit (s := S1x8x2816) ![0, 0, 0] S1x8x2816.size inb_S1x8x2816_S1x8x2816_0_0_0).toLoadRect (harg7.unread x5)) (View.readAt (Elt Ideal) arg8.view (Rect.unit (s := S1x1024x8) ![0, 0, 0] S1x1024x8.size inb_S1x1024x8_S1x1024x8_0_0_0).toLoadRect (harg8.unread x6)) (View.readAt (Elt Ideal) arg9.view (Rect.unit (s := S1x8x2816) ![0, 0, 0] S1x8x2816.size inb_S1x8x2816_S1x8x2816_0_0_0).toLoadRect (harg9.unread x7)) (View.readAt (Elt Ideal) arg10.view (Rect.unit (s := S1x2816x8) ![0, 0, 0] S1x2816x8.size inb_S1x2816x8_S1x2816x8_0_0_0).toLoadRect (harg10.unread x8)) (View.readAt (Elt Ideal) arg11.view (Rect.unit (s := S1x8x1024) ![0, 0, 0] S1x8x1024.size inb_S1x8x1024_S1x8x1024_0_0_0).toLoadRect (harg11.unread x9)) (harg2.unread x0) (harg12.unread x10) (arg13.view.writes (Elt Ideal) arg13.view.junk [zeroPiece]) VO0_11
    (VO0_11.writes (Elt Ideal) VO0_11.junk [zeroPiece]) k (ix2 q j) (ix2 p j) hq rfl k0_t1_loop.trips (Nat.le_refl _) k.isLt]
  rw [tripPay_apply c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (arg13.view.writes (Elt Ideal) arg13.view.junk [zeroPiece]) e he k p q j hq,
    read_zeroFill]

end Case

end Cert.MoeKernel

end
-- ==== Proof.KernelChain.lean ====
/-
  The output's staging buffer point by point: the ordered partial sums over the experts.

  The grid runs over (token tile, expert), the expert fastest: point n is tile n / 8, expert n % 8.  The blocks a
  point reads are restrictions of the arrays the region is entered with: rows 512 (n / 8) … of the token and
  combine arrays, slab n % 8 of each stacked weight array.  So after point n the buffer holds, at (q, j), the
  ordered sum from the zero word of the terms of experts 0 … n % 8 for token 512 (n / 8) + q: for expert 0 the
  body starts from the zero fill, and each later expert adds its term to what the point before left (the same
  tile's buffer, not written back in between).  The kernel adds y · c where the specification writes c · y.
-/
import proofs.«137077_j223338300204_2_alg».proof.Proof.KernelCase

set_option maxRecDepth 16384

noncomputable section

namespace Cert.MoeKernel

open Cert.KernelIdeal Cert.KernelIdeal.Gen Cert.MoeSpec
open Idealize.ShloMosaic Idealize.ShloMosaic.TcCoe Idealize.ShloMosaic.ValueIdx Idealize.SL.Sem

variable (m : (ℓ : Loc nD τ sig) → Buf (Elt Ideal) ℓ) (c : Dev nD)

/-! ## The grid and the windows' index maps, decided once over the 64 points -/

theorem coords_facts : ∀ t : Fin cfg0.N, ((grid0.coords t) (0 : Fin 2)).val = t.val / 8 ∧ ((grid0.coords t) (1 : Fin 2)).val = t.val % 8 :=
  (by decide +kernel : ∀ t : Fin grid0.N, ((grid0.coords t) (0 : Fin 2)).val = t.val / 8 ∧ ((grid0.coords t) (1 : Fin 2)).val = t.val % 8)
theorem idx_w0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx_w10 : ∀ t : Fin cfg0.N, win0_10.index t (0 : Fin 2) = t.val / 8 ∧ win0_10.index t (1 : Fin 2) = 0 :=
  (by decide +kernel : ∀ t : Fin grid0.N, win0_10.index t (0 : Fin 2) = t.val / 8 ∧ win0_10.index t (1 : Fin 2) = 0)
theorem idx_w1 : ∀ t : Fin cfg0.N, win0_1.index t (0 : Fin 3) = t.val % 8 ∧ win0_1.index t (1 : Fin 3) = 0 ∧ win0_1.index t (2 : Fin 3) = 0 :=
  (by decide +kernel : ∀ t : Fin grid0.N, win0_1.index t (0 : Fin 3) = t.val % 8 ∧ win0_1.index t (1 : Fin 3) = 0 ∧ win0_1.index t (2 : Fin 3) = 0)
theorem idx_w2 : ∀ t : Fin cfg0.N, win0_2.index t (0 : Fin 3) = t.val % 8 ∧ win0_2.index t (1 : Fin 3) = 0 ∧ win0_2.index t (2 : Fin 3) = 0 :=
  (by decide +kernel : ∀ t : Fin grid0.N, win0_2.index t (0 : Fin 3) = t.val % 8 ∧ win0_2.index t (1 : Fin 3) = 0 ∧ win0_2.index t (2 : Fin 3) = 0)
theorem idx_w3 : ∀ t : Fin cfg0.N, win0_3.index t (0 : Fin 3) = t.val % 8 ∧ win0_3.index t (1 : Fin 3) = 0 ∧ win0_3.index t (2 : Fin 3) = 0 :=
  (by decide +kernel : ∀ t : Fin grid0.N, win0_3.index t (0 : Fin 3) = t.val % 8 ∧ win0_3.index t (1 : Fin 3) = 0 ∧ win0_3.index t (2 : Fin 3) = 0)
theorem idx_w4 : ∀ t : Fin cfg0.N, win0_4.index t (0 : Fin 3) = t.val % 8 ∧ win0_4.index t (1 : Fin 3) = 0 ∧ win0_4.index t (2 : Fin 3) = 0 :=
  (by decide +kernel : ∀ t : Fin grid0.N, win0_4.index t (0 : Fin 3) = t.val % 8 ∧ win0_4.index t (1 : Fin 3) = 0 ∧ win0_4.index t (2 : Fin 3) = 0)
theorem idx_w5 : ∀ t : Fin cfg0.N, win0_5.index t (0 : Fin 3) = t.val % 8 ∧ win0_5.index t (1 : Fin 3) = 0 ∧ win0_5.index t (2 : Fin 3) = 0 :=
  (by decide +kernel : ∀ t : Fin grid0.N, win0_5.index t (0 : Fin 3) = t.val % 8 ∧ win0_5.index t (1 : Fin 3) = 0 ∧ win0_5.index t (2 : Fin 3) = 0)
theorem idx_w6 : ∀ t : Fin cfg0.N, win0_6.index t (0 : Fin 3) = t.val % 8 ∧ win0_6.index t (1 : Fin 3) = 0 ∧ win0_6.index t (2 : Fin 3) = 0 :=
  (by decide +kernel : ∀ t : Fin grid0.N, win0_6.index t (0 : Fin 3) = t.val % 8 ∧ win0_6.index t (1 : Fin 3) = 0 ∧ win0_6.index t (2 : Fin 3) = 0)
theorem idx_w7 : ∀ t : Fin cfg0.N, win0_7.index t (0 : Fin 3) = t.val % 8 ∧ win0_7.index t (1 : Fin 3) = 0 ∧ win0_7.index t (2 : Fin 3) = 0 :=
  (by decide +kernel : ∀ t : Fin grid0.N, win0_7.index t (0 : Fin 3) = t.val % 8 ∧ win0_7.index t (1 : Fin 3) = 0 ∧ win0_7.index t (2 : Fin 3) = 0)
theorem idx_w8 : ∀ t : Fin cfg0.N, win0_8.index t (0 : Fin 3) = t.val % 8 ∧ win0_8.index t (1 : Fin 3) = 0 ∧ win0_8.index t (2 : Fin 3) = 0 :=
  (by decide +kernel : ∀ t : Fin grid0.N, win0_8.index t (0 : Fin 3) = t.val % 8 ∧ win0_8.index t (1 : Fin 3) = 0 ∧ win0_8.index t (2 : Fin 3) = 0)
theorem idx_w9 : ∀ t : Fin cfg0.N, win0_9.index t (0 : Fin 3) = t.val % 8 ∧ win0_9.index t (1 : Fin 3) = 0 ∧ win0_9.index t (2 : Fin 3) = 0 :=
  (by decide +kernel : ∀ t : Fin grid0.N, win0_9.index t (0 : Fin 3) = t.val % 8 ∧ win0_9.index t (1 : Fin 3) = 0 ∧ win0_9.index t (2 : Fin 3) = 0)

/-! ## The blocks a point reads, as the arrays at global indices -/

/-- The token tile at a point: rows `512 (t / 8) …` of the token array. -/
theorem iblk0_apply (t : Fin cfg0.N) (q : Fin 512) (l : Fin 1024) (T : Fin 4096) (hT : T.val = 512 * (t.val / 8) + q.val) :
    (iblk (F := Ideal) m c 0 t : Vec Ideal S512x1024 .bf16) (ix2 q l) = V m c main_v5 (ix2 T l) := by
  unfold iblk
  rw [View.read_apply]
  show V m c main_v5 _ = V m c main_v5 _
  refine congrArg (V m c main_v5) (funext fun a => Fin.ext ?_)
  match a with
  | ⟨0, _⟩ => show win0_0.index t (0 : Fin 2) * 512 + 1 * q.val = T.val; rw [(idx_w0 t).1]; omega
  | ⟨1, _⟩ => show win0_0.index t (1 : Fin 2) * 1024 + 1 * l.val = l.val; rw [(idx_w0 t).2]; omega

/-- The combine tile at a point: the same rows of the combine array. -/
theorem iblk10_apply (t : Fin cfg0.N) (q : Fin 512) (d : Fin 8) (T : Fin 4096) (hT : T.val = 512 * (t.val / 8) + q.val) :
    (iblk (F := Ideal) m c 10 t : Vec Ideal S512x8 .f32) (ix2 q d) = V m c main_v4 (ix2 T d) := by
  unfold iblk
  rw [View.read_apply]
  show V m c main_v4 _ = V m c main_v4 _
  refine congrArg (V m c main_v4) (funext fun a => Fin.ext ?_)
  match a with
  | ⟨0, _⟩ => show win0_10.index t (0 : Fin 2) * 512 + 1 * q.val = T.val; rw [(idx_w10 t).1]; omega
  | ⟨1, _⟩ => show win0_10.index t (1 : Fin 2) * 8 + 1 * d.val = d.val; rw [(idx_w10 t).2]; omega

/-- Window 1's block at a point is the expert's slab of its array. -/
theorem iblk1_apply (t : Fin cfg0.N) (r : Fin 1024) (s : Fin 2816) (e : Fin 8) (he : e.val = t.val % 8) :
    (iblk (F := Ideal) m c 1 t : Vec Ideal S1x1024x2816 .bf16) (ix3 (0 : Fin 1) r s) = V m c main_v6 (ix3 e r s) := by
  unfold iblk
  rw [View.read_apply]
  show V m c main_v6 _ = V m c main_v6 _
  refine congrArg (V m c main_v6) (funext fun a => Fin.ext ?_)
  match a with
  | ⟨0, _⟩ => show win0_1.index t (0 : Fin 3) * 1 + 1 * 0 = e.val; rw [(idx_w1 t).1]; omega
  | ⟨1, _⟩ => show win0_1.index t (1 : Fin 3) * 1024 + 1 * r.val = r.val; rw [(idx_w1 t).2.1]; omega
  | ⟨2, _⟩ => show win0_1.index t (2 : Fin 3) * 2816 + 1 * s.val = s.val; rw [(idx_w1 t).2.2]; omega

/-- Window 2's block at a point is the expert's slab of its array. -/
theorem iblk2_apply (t : Fin cfg0.N) (r : Fin 1024) (s : Fin 2816) (e : Fin 8) (he : e.val = t.val % 8) :
    (iblk (F := Ideal) m c 2 t : Vec Ideal S1x1024x2816 .bf16) (ix3 (0 : Fin 1) r s) = V m c main_v7 (ix3 e r s) := by
  unfold iblk
  rw [View.read_apply]
  show V m c main_v7 _ = V m c main_v7 _
  refine congrArg (V m c main_v7) (funext fun a => Fin.ext ?_)
  match a with
  | ⟨0, _⟩ => show win0_2.index t (0 : Fin 3) * 1 + 1 * 0 = e.val; rw [(idx_w2 t).1]; omega
  | ⟨1, _⟩ => show win0_2.index t (1 : Fin 3) * 1024 + 1 * r.val = r.val; rw [(idx_w2 t).2.1]; omega
  | ⟨2, _⟩ => show win0_2.index t (2 : Fin 3) * 2816 + 1 * s.val = s.val; rw [(idx_w2 t).2.2]; omega

/-- Window 3's block at a point is the expert's slab of its array. -/
theorem iblk3_apply (t : Fin cfg0.N) (r : Fin 2816) (s : Fin 1024) (e : Fin 8) (he : e.val = t.val % 8) :
    (iblk (F := Ideal) m c 3 t : Vec Ideal S1x2816x1024 .bf16) (ix3 (0 : Fin 1) r s) = V m c main_v8 (ix3 e r s) := by
  unfold iblk
  rw [View.read_apply]
  show V m c main_v8 _ = V m c main_v8 _
  refine congrArg (V m c main_v8) (funext fun a => Fin.ext ?_)
  match a with
  | ⟨0, _⟩ => show win0_3.index t (0 : Fin 3) * 1 + 1 * 0 = e.val; rw [(idx_w3 t).1]; omega
  | ⟨1, _⟩ => show win0_3.index t (1 : Fin 3) * 2816 + 1 * r.val = r.val; rw [(idx_w3 t).2.1]; omega
  | ⟨2, _⟩ => show win0_3.index t (2 : Fin 3) * 1024 + 1 * s.val = s.val; rw [(idx_w3 t).2.2]; omega

/-- Window 4's block at a point is the expert's slab of its array. -/
theorem iblk4_apply (t : Fin cfg0.N) (r : Fin 1024) (s : Fin 8) (e : Fin 8) (he : e.val = t.val % 8) :
    (iblk (F := Ideal) m c 4 t : Vec Ideal S1x1024x8 .bf16) (ix3 (0 : Fin 1) r s) = V m c main_v9 (ix3 e r s) := by
  unfold iblk
  rw [View.read_apply]
  show V m c main_v9 _ = V m c main_v9 _
  refine congrArg (V m c main_v9) (funext fun a => Fin.ext ?_)
  match a with
  | ⟨0, _⟩ => show win0_4.index t (0 : Fin 3) * 1 + 1 * 0 = e.val; rw [(idx_w4 t).1]; omega
  | ⟨1, _⟩ => show win0_4.index t (1 : Fin 3) * 1024 + 1 * r.val = r.val; rw [(idx_w4 t).2.1]; omega
  | ⟨2, _⟩ => show win0_4.index t (2 : Fin 3) * 8 + 1 * s.val = s.val; rw [(idx_w4 t).2.2]; omega

/-- Window 5's block at a point is the expert's slab of its array. -/
theorem iblk5_apply (t : Fin cfg0.N) (r : Fin 8) (s : Fin 2816) (e : Fin 8) (he : e.val = t.val % 8) :
    (iblk (F := Ideal) m c 5 t : Vec Ideal S1x8x2816 .bf16) (ix3 (0 : Fin 1) r s) = V m c main_v10 (ix3 e r s) := by
  unfold iblk
  rw [View.read_apply]
  show V m c main_v10 _ = V m c main_v10 _
  refine congrArg (V m c main_v10) (funext fun a => Fin.ext ?_)
  match a with
  | ⟨0, _⟩ => show win0_5.index t (0 : Fin 3) * 1 + 1 * 0 = e.val; rw [(idx_w5 t).1]; omega
  | ⟨1, _⟩ => show win0_5.index t (1 : Fin 3) * 8 + 1 * r.val = r.val; rw [(idx_w5 t).2.1]; omega
  | ⟨2, _⟩ => show win0_5.index t (2 : Fin 3) * 2816 + 1 * s.val = s.val; rw [(idx_w5 t).2.2]; omega

/-- Window 6's block at a point is the expert's slab of its array. -/
theorem iblk6_apply (t : Fin cfg0.N) (r : Fin 1024) (s : Fin 8) (e : Fin 8) (he : e.val = t.val % 8) :
    (iblk (F := Ideal) m c 6 t : Vec Ideal S1x1024x8 .bf16) (ix3 (0 : Fin 1) r s) = V m c main_v11 (ix3 e r s) := by
  unfold iblk
  rw [View.read_apply]
  show V m c main_v11 _ = V m c main_v11 _
  refine congrArg (V m c main_v11) (funext fun a => Fin.ext ?_)
  match a with
  | ⟨0, _⟩ => show win0_6.index t (0 : Fin 3) * 1 + 1 * 0 = e.val; rw [(idx_w6 t).1]; omega
  | ⟨1, _⟩ => show win0_6.index t (1 : Fin 3) * 1024 + 1 * r.val = r.val; rw [(idx_w6 t).2.1]; omega
  | ⟨2, _⟩ => show win0_6.index t (2 : Fin 3) * 8 + 1 * s.val = s.val; rw [(idx_w6 t).2.2]; omega

/-- Window 7's block at a point is the expert's slab of its array. -/
theorem iblk7_apply (t : Fin cfg0.N) (r : Fin 8) (s : Fin 2816) (e : Fin 8) (he : e.val = t.val % 8) :
    (iblk (F := Ideal) m c 7 t : Vec Ideal S1x8x2816 .bf16) (ix3 (0 : Fin 1) r s) = V m c main_v12 (ix3 e r s) := by
  unfold iblk
  rw [View.read_apply]
  show V m c main_v12 _ = V m c main_v12 _
  refine congrArg (V m c main_v12) (funext fun a => Fin.ext ?_)
  match a with
  | ⟨0, _⟩ => show win0_7.index t (0 : Fin 3) * 1 + 1 * 0 = e.val; rw [(idx_w7 t).1]; omega
  | ⟨1, _⟩ => show win0_7.index t (1 : Fin 3) * 8 + 1 * r.val = r.val; rw [(idx_w7 t).2.1]; omega
  | ⟨2, _⟩ => show win0_7.index t (2 : Fin 3) * 2816 + 1 * s.val = s.val; rw [(idx_w7 t).2.2]; omega

/-- Window 8's block at a point is the expert's slab of its array. -/
theorem iblk8_apply (t : Fin cfg0.N) (r : Fin 2816) (s : Fin 8) (e : Fin 8) (he : e.val = t.val % 8) :
    (iblk (F := Ideal) m c 8 t : Vec Ideal S1x2816x8 .bf16) (ix3 (0 : Fin 1) r s) = V m c main_v13 (ix3 e r s) := by
  unfold iblk
  rw [View.read_apply]
  show V m c main_v13 _ = V m c main_v13 _
  refine congrArg (V m c main_v13) (funext fun a => Fin.ext ?_)
  match a with
  | ⟨0, _⟩ => show win0_8.index t (0 : Fin 3) * 1 + 1 * 0 = e.val; rw [(idx_w8 t).1]; omega
  | ⟨1, _⟩ => show win0_8.index t (1 : Fin 3) * 2816 + 1 * r.val = r.val; rw [(idx_w8 t).2.1]; omega
  | ⟨2, _⟩ => show win0_8.index t (2 : Fin 3) * 8 + 1 * s.val = s.val; rw [(idx_w8 t).2.2]; omega

/-- Window 9's block at a point is the expert's slab of its array. -/
theorem iblk9_apply (t : Fin cfg0.N) (r : Fin 8) (s : Fin 1024) (e : Fin 8) (he : e.val = t.val % 8) :
    (iblk (F := Ideal) m c 9 t : Vec Ideal S1x8x1024 .bf16) (ix3 (0 : Fin 1) r s) = V m c main_v14 (ix3 e r s) := by
  unfold iblk
  rw [View.read_apply]
  show V m c main_v14 _ = V m c main_v14 _
  refine congrArg (V m c main_v14) (funext fun a => Fin.ext ?_)
  match a with
  | ⟨0, _⟩ => show win0_9.index t (0 : Fin 3) * 1 + 1 * 0 = e.val; rw [(idx_w9 t).1]; omega
  | ⟨1, _⟩ => show win0_9.index t (1 : Fin 3) * 8 + 1 * r.val = r.val; rw [(idx_w9 t).2.1]; omega
  | ⟨2, _⟩ => show win0_9.index t (2 : Fin 3) * 1024 + 1 * s.val = s.val; rw [(idx_w9 t).2.2]; omega

/-! ## The specification's data, as the region finds the arrays -/

/-- The token array as the region finds it. -/
abbrev tokens : (⟨2, ![4096, 1024]⟩ : Shape).Idx → EReal := V m c main_v5
/-- The combine array as the region finds it. -/
abbrev combine : (⟨2, ![4096, 8]⟩ : Shape).Idx → EReal := V m c main_v4
/-- Each expert's matrices, out of the nine stacked arrays as the region finds them. -/
abbrev experts : Fin 8 → Weights :=
  weightsAt (V m c main_v6) (V m c main_v7) (V m c main_v8) (V m c main_v9) (V m c main_v10) (V m c main_v11) (V m c main_v12)
    (V m c main_v13) (V m c main_v14)

/-- The expert's matrices out of a point's blocks are the specification's for that expert. -/
theorem blockWeights_eq (t : Fin cfg0.N) (e : Fin 8) (he : e.val = t.val % 8) :
    blockWeights (iblk m c 1 t) (iblk m c 2 t) (iblk m c 3 t) (iblk m c 4 t) (iblk m c 5 t) (iblk m c 6 t) (iblk m c 7 t)
      (iblk m c 8 t) (iblk m c 9 t) = experts m c e := by
  unfold blockWeights experts weightsAt
  congr 1
  · funext r s; exact iblk1_apply m c t r s e he
  · funext r s; exact iblk2_apply m c t r s e he
  · funext r s; exact iblk3_apply m c t r s e he
  · funext r s; exact iblk4_apply m c t r s e he
  · funext r s; exact iblk5_apply m c t r s e he
  · funext r s; exact iblk6_apply m c t r s e he
  · funext r s; exact iblk7_apply m c t r s e he
  · funext r s; exact iblk8_apply m c t r s e he
  · funext r s; exact iblk9_apply m c t r s e he

/-- What a point adds at `(q, j)`: the specification's term of the point's expert for the point's token. -/
theorem point_term (t : Fin cfg0.N) (q : Fin 512) (j : Fin 1024) (T : Fin 4096) (hT : T.val = 512 * (t.val / 8) + q.val)
    (e : Fin 8) (he : e.val = t.val % 8) :
    expertRow (fun l => (iblk (F := Ideal) m c 0 t : Vec Ideal S512x1024 .bf16) (ix2 q l))
        (blockWeights (iblk m c 1 t) (iblk m c 2 t) (iblk m c 3 t) (iblk m c 4 t) (iblk m c 5 t) (iblk m c 6 t) (iblk m c 7 t)
          (iblk m c 8 t) (iblk m c 9 t)) j
      * (iblk (F := Ideal) m c 10 t : Vec Ideal S512x8 .f32) (ix2 q e)
    = term (tokens m c) (combine m c) (experts m c) T j e.val := by
  rw [blockWeights_eq m c t e he, iblk10_apply m c t q e T hT,
    show (fun l => (iblk (F := Ideal) m c 0 t : Vec Ideal S512x1024 .bf16) (ix2 q l)) = fun l => tokens m c (ix2 T l) from
      funext fun l => iblk0_apply m c t q l T hT]
  unfold term
  rw [dif_pos e.isLt, mul_comm]

/-! ## The induction over the points -/

/-- After point `n` the buffer holds, at `(q, j)`, the partial sum of the first `n % 8 + 1` experts' terms for the
    token `512 (n / 8) + q`. -/
theorem outsAt_eq : ∀ (n : ℕ) (hn : n < cfg0.N) (q : Fin 512) (j : Fin 1024) (T : Fin 4096) (hT : T.val = 512 * (n / 8) + q.val),
    outsAt0 (F := Ideal) m c n hn (ix2 q j) = psum (term (tokens m c) (combine m c) (experts m c) T j) (n % 8 + 1)
  | n, hn, q, j, T, hT => by
    have hN : cfg0.N = 64 := N_0
    have hk : q.val / 128 < k0_t1_loop.trips := by rw [trips_eq]; have := q.isLt; omega
    have hq : q.val = 128 * (⟨q.val / 128, hk⟩ : Fin k0_t1_loop.trips).val + (⟨q.val % 128, Nat.mod_lt _ (by decide)⟩ : Fin 128).val := by
      show q.val = 128 * (q.val / 128) + q.val % 128; omega
    have he8 : n % 8 < 8 := Nat.mod_lt _ (by decide)
    have hco := coords_facts ⟨n, hn⟩
    by_cases h0 : n % 8 = 0
    · rw [outsAt0_A m c ⟨n, hn⟩ h0]
      rw [outA_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩)
        ((hcond0_0 ⟨n, hn⟩).mpr h0) ⟨n % 8, he8⟩ hco.2 ⟨q.val / 128, hk⟩ ⟨q.val % 128, Nat.mod_lt _ (by decide)⟩ q j hq]
      rw [point_term m c ⟨n, hn⟩ q j T hT ⟨n % 8, he8⟩ rfl]
      show zero + term (tokens m c) (combine m c) (experts m c) T j (n % 8)
        = psum (term (tokens m c) (combine m c) (experts m c) T j) (n % 8 + 1)
      rw [psum_succ, h0]
      rfl
    · have hB : ¬(⟨n, hn⟩ : Fin cfg0.N).val % 8 = 0 := h0
      rw [outsAt0_B m c ⟨n, hn⟩ hB]
      rw [outB_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩)
        (fun h => hB ((hcond0_0 ⟨n, hn⟩).mp h)) (outsAt0 m c (n - 1) (Nat.lt_of_le_of_lt (Nat.sub_le _ _) hn))
        ⟨n % 8, he8⟩ hco.2 ⟨q.val / 128, hk⟩ ⟨q.val % 128, Nat.mod_lt _ (by decide)⟩ q j hq]
      rw [point_term m c ⟨n, hn⟩ q j T hT ⟨n % 8, he8⟩ rfl]
      have hpos : 0 < n := Nat.pos_of_ne_zero (fun h => h0 (by rw [h]))
      rw [outsAt_eq (n - 1) (Nat.lt_of_le_of_lt (Nat.sub_le _ _) hn) q j T (by rw [hT]; congr 2; omega)]
      have e1 : (n - 1) % 8 + 1 = n % 8 := by omega
      rw [e1]
      rfl
termination_by n => n
decreasing_by omega

end Cert.MoeKernel

end
-- ==== Proof.KernelFinal.lean ====
/-
  The kernel's result array after the run.

  The output window's block index moves only with the token tile, so it is written back once per tile, after the
  tile's last expert (points with n % 8 = 7).  What that point writes back is the buffer holding all eight experts'
  terms, i.e. the block of rows 512 (n / 8) … of the specification's `result`; the eight tiles' blocks cover the
  4096 rows, so after the run the array is `result` of the token array, the combine array and the nine stacked
  weight arrays as the region finds them.
-/
import proofs.«137077_j223338300204_2_alg».proof.Proof.KernelChain
import proofs.«137077_j223338300204_2_alg».proof.Proof.Gen.KernelIdeal.Value

set_option maxRecDepth 16384

noncomputable section

namespace Cert.MoeKernel

open Cert.KernelIdeal Cert.KernelIdeal.Gen Cert.MoeSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The kernel's result, as the specification's function of the arrays the region is entered with. -/
def kernelResult : (⟨2, ![4096, 1024]⟩ : Shape).Idx → EReal := result (tokens m c) (combine m c) (experts m c)

theorem idx_w11 : ∀ t : Fin cfg0.N, win0_11.index t (0 : Fin 2) = t.val / 8 ∧ win0_11.index t (1 : Fin 2) = 0 :=
  (by decide +kernel : ∀ t : Fin grid0.N, win0_11.index t (0 : Fin 2) = t.val / 8 ∧ win0_11.index t (1 : Fin 2) = 0)

/-- What a tile's last expert point writes back is the tile's block of `kernelResult`. -/
theorem flushed_eq (t : Fin cfg0.N) (hf : (cfg0.win 11).flush t = true) :
    (dats m 0 c).flushed 11 t = ((cfg0.win 11).blk t).view.read (Elt Ideal) (kernelResult m c) := by
  have h7 : t.val % 8 = 7 := (flush0_11 t).mp hf
  rw [Cert.KernelIdeal.Value.flushed11]
  funext y
  obtain ⟨q, j, rfl⟩ : ∃ (q : Fin 512) (j : Fin 1024), y = ix2 q j := ⟨y 0, y 1, eq_ix2 y⟩
  have hN : cfg0.N = 64 := N_0
  have hT : 512 * (t.val / 8) + q.val < 4096 := by have := t.isLt; have := q.isLt; omega
  show outsAt0 (F := Ideal) m c t.val t.isLt (ix2 q j) = kernelResult m c (((cfg0.win 11).blk t).view.emb (ix2 q j))
  rw [outsAt_eq m c t.val t.isLt q j ⟨512 * (t.val / 8) + q.val, hT⟩ rfl, h7]
  have hemb : ((cfg0.win 11).blk t).view.emb (ix2 q j) = ix2 (⟨512 * (t.val / 8) + q.val, hT⟩ : Fin 4096) j := by
    refine funext fun a => Fin.ext ?_
    match a with
    | ⟨0, _⟩ => show win0_11.index t (0 : Fin 2) * 512 + 1 * q.val = 512 * (t.val / 8) + q.val; rw [(idx_w11 t).1]; omega
    | ⟨1, _⟩ => show win0_11.index t (1 : Fin 2) * 1024 + 1 * j.val = j.val; rw [(idx_w11 t).2]; omega
  rw [hemb]
  rfl

/-- An index of the array is in point `t`'s block iff each coordinate is in the block's range on its axis. -/
theorem mem_blk (t : Fin cfg0.N) (i : S4096x1024.Idx) :
    i ∈ ((cfg0.win 11).blk t).view.set ↔ ∀ a : Fin 2, win0_11.index t a * S512x1024.size a ≤ (i a).val ∧ (i a).val < win0_11.index t a * S512x1024.size a + S512x1024.size a := by
  show i ∈ ((View.whole main_v15).slice (win0_11.rect t)).set ↔ _
  rw [View.set_slice_whole, Rect.mem_set_unit]
  exact Iff.rfl

/-- Every index of the array lies in the block of its tile's last expert point. -/
theorem cover (i : S4096x1024.Idx) : ∃ t : Fin cfg0.N, (cfg0.win 11).flush t = true ∧ i ∈ ((cfg0.win 11).blk t).view.set := by
  have hN : cfg0.N = 64 := N_0
  have hi0 : (i 0).val < 4096 := (i 0).isLt
  have hi1 : (i 1).val < 1024 := (i 1).isLt
  have ht : 8 * ((i 0).val / 512) + 7 < cfg0.N := by rw [hN]; omega
  refine ⟨⟨8 * ((i 0).val / 512) + 7, ht⟩, (flush0_11 _).mpr (by show (8 * ((i 0).val / 512) + 7) % 8 = 7; omega), ?_⟩
  rw [mem_blk]
  have e := idx_w11 ⟨8 * ((i 0).val / 512) + 7, ht⟩
  have e0 : win0_11.index ⟨8 * ((i 0).val / 512) + 7, ht⟩ (0 : Fin 2) = (i 0).val / 512 := by
    rw [e.1]; show (8 * ((i 0).val / 512) + 7) / 8 = (i 0).val / 512; omega
  intro a
  match a with
  | ⟨0, _⟩ =>
    show win0_11.index ⟨8 * ((i 0).val / 512) + 7, ht⟩ (0 : Fin 2) * 512 ≤ (i 0).val
      ∧ (i 0).val < win0_11.index ⟨8 * ((i 0).val / 512) + 7, ht⟩ (0 : Fin 2) * 512 + 512
    rw [e0]; omega
  | ⟨1, _⟩ =>
    show win0_11.index ⟨8 * ((i 0).val / 512) + 7, ht⟩ (1 : Fin 2) * 1024 ≤ (i 1).val
      ∧ (i 1).val < win0_11.index ⟨8 * ((i 0).val / 512) + 7, ht⟩ (1 : Fin 2) * 1024 + 1024
    rw [e.2]; omega

/-- So the result array ends holding `kernelResult`. -/
theorem final : (dats m 0 c).arrAt 11 cfg0.N = kernelResult m c :=
  (dats m 0 c).arrAt_eq_of_cover 11 (kernelResult m c) (fun t hf => flushed_eq m c t hf) (cover)

/-- The run, read: the result array at `kernelResult`, the twelve arguments unchanged. -/
theorem run : θ_run defs (onTc (τ := τ) (main (F := Ideal))) ⟨m, fun _ => 0, ρ⟩ fun r => ∀ c : Dev nD,
      r.2.mem ((c : Thread nD τ).loc main_v15) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.MoeKernel

end
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.RefRun.lean ====
/-
  The host program's run, window by window.

  The program's @main is a straight line of 437 host operations, printed in seven windows.  Each window is its list of
  operations; the whole program is the lists joined, so every weakly fair execution terminates with each buffer at
  the fold of the operations' results over the launch contents.  The fold is read one window at a time: a window's
  operations are folded over the contents the windows before left, of which only a few buffers matter to a later
  window — the combine array, the running accumulator, and the two or three partial values of the expert a window
  boundary cuts through — each named as its operations' term of the arguments.  A buffer a window does not write is
  carried through it unchanged; the twelve arguments are written by no operation.
-/
import proofs.«137077_j223338300204_2_alg».proof.ReferenceIdeal
import proofs.«137077_j223338300204_2_alg».proof.Proof.Gen.ReferenceIdeal
import proofs.«137077_j223338300204_2_alg».proof.Proof.LibTypedRef
import Idealize.ShloMosaic.Lib.StableHlo.Run
import Idealize.ShloMosaic.Lib.Pipeline.Frame

set_option Elab.async false

noncomputable section

namespace Cert.MoeRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 73 of 437 (window 0). -/
abbrev ops_part0 : List (HloOp τ sig (Elt F)) :=
  [ TRef.unary (TRef.of (T := ⟨S4096x2, .i32⟩) main_arg2) (TRef.of (T := ⟨S4096x2x1, .i32⟩) main_call0_v0) (broadcastInDim S4096x2x1 ![0, 1] bcast_S4096x2_S4096x2x1_0_1),
    TRef.nullary (TRef.of (T := ⟨S1x1x8, .i32⟩) main_call0_v1) (iotaInDim S1x1x8 32 2),
    TRef.unary (TRef.of (T := ⟨S4096x2x1, .i32⟩) main_call0_v0) (TRef.of (T := ⟨S4096x2x8, .i32⟩) main_call0_v2) (broadcastInDim S4096x2x8 ![0, 1, 2] bcast_S4096x2x1_S4096x2x8_0_1_2),
    TRef.unary (TRef.of (T := ⟨S1x1x8, .i32⟩) main_call0_v1) (TRef.of (T := ⟨S4096x2x8, .i32⟩) main_call0_v3) (broadcastInDim S4096x2x8 ![0, 1, 2] bcast_S1x1x8_S4096x2x8_0_1_2),
    TRef.binary (TRef.of (T := ⟨S4096x2x8, .i32⟩) main_call0_v2) (TRef.of (T := ⟨S4096x2x8, .i32⟩) main_call0_v3) (TRef.of (T := ⟨S4096x2x8, .i1⟩) main_call0_v4) (cmpi .eq),
    TRef.unary (TRef.of (T := ⟨S4096x2x8, .i1⟩) main_call0_v4) (TRef.of (T := ⟨S4096x2x8, .f32⟩) main_v0) (uitofp .f32),
    unary main_arg1 main_v1 (broadcastInDim S4096x2x1 ![0, 1] bcast_S4096x2_S4096x2x1_0_1 : (⟨S4096x2, .f32⟩ : BufTy).Contents (Elt F) → (⟨S4096x2x1, .f32⟩ : BufTy).Contents (Elt F)),
    unary main_v1 main_v2 (broadcastInDim S4096x2x8 ![0, 1, 2] bcast_S4096x2x1_S4096x2x8_0_1_2 : (⟨S4096x2x1, .f32⟩ : BufTy).Contents (Elt F) → (⟨S4096x2x8, .f32⟩ : BufTy).Contents (Elt F)),
    binary main_v0 main_v2 main_v3 (mulf : (⟨S4096x2x8, .f32⟩ : BufTy).Contents (Elt F) → (⟨S4096x2x8, .f32⟩ : BufTy).Contents (Elt F) → (⟨S4096x2x8, .f32⟩ : BufTy).Contents (Elt F)),
    nullary main_cst (constant S_ .f32 0x00000000#32),
    binary main_v3 main_cst main_v4 ((fun x v => Host.reduceAdd x v reducesTo_S4096x2x8_S4096x8_d1 h_S_) : (⟨S4096x2x8, .f32⟩ : BufTy).Contents (Elt F) → (⟨S_, .f32⟩ : BufTy).Contents (Elt F) → (⟨S4096x8, .f32⟩ : BufTy).Contents (Elt F)),
    nullary main_cst_0 (constant S_ .f32 0x00000000#32),
    unary main_cst_0 main_v5 (broadcastInDim S4096x1024 ![] bcast_S_S4096x1024 : (⟨S_, .f32⟩ : BufTy).Contents (Elt F) → (⟨S4096x1024, .f32⟩ : BufTy).Contents (Elt F)),
    unary main_arg3 main_v6 ((extractStridedSlice S1x1024x2816 ![0, 0, 0] · slices_S8x1024x2816_S1x1024x2816_0_0_0) : (⟨S8x1024x2816, .f32⟩ : BufTy).Contents (Elt F) → (⟨S1x1024x2816, .f32⟩ : BufTy).Contents (Elt F)),
    reshape main_v6 main_v7 rfl shapeCasts_S1x1024x2816_S1024x2816,
    binary main_arg0 main_v7 main_v8 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg6 main_v9 ((extractStridedSlice S1x1024x8 ![0, 0, 0] · slices_S8x1024x8_S1x1024x8_0_0_0) : (⟨S8x1024x8, .f32⟩ : BufTy).Contents (Elt F) → (⟨S1x1024x8, .f32⟩ : BufTy).Contents (Elt F)),
    reshape main_v9 main_v10 rfl shapeCasts_S1x1024x8_S1024x8,
    binary main_arg0 main_v10 main_v11 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg7 main_v12 ((extractStridedSlice S1x8x2816 ![0, 0, 0] · slices_S8x8x2816_S1x8x2816_0_0_0) : (⟨S8x8x2816, .f32⟩ : BufTy).Contents (Elt F) → (⟨S1x8x2816, .f32⟩ : BufTy).Contents (Elt F)),
    reshape main_v12 main_v13 rfl shapeCasts_S1x8x2816_S8x2816,
    binary main_v11 main_v13 main_v14 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_1 (constant S_ .f32 0x40000000#32),
    unary main_cst_1 main_v15 (broadcastInDim S4096x2816 ![] bcast_S_S4096x2816 : (⟨S_, .f32⟩ : BufTy).Contents (Elt F) → (⟨S4096x2816, .f32⟩ : BufTy).Contents (Elt F)),
    binary main_v15 main_v14 main_v16 (mulf : (⟨S4096x2816, .f32⟩ : BufTy).Contents (Elt F) → (⟨S4096x2816, .f32⟩ : BufTy).Contents (Elt F) → (⟨S4096x2816, .f32⟩ : BufTy).Contents (Elt F)),
    binary main_v8 main_v16 main_v17 (addf : (⟨S4096x2816, .f32⟩ : BufTy).Contents (Elt F) → (⟨S4096x2816, .f32⟩ : BufTy).Contents (Elt F) → (⟨S4096x2816, .f32⟩ : BufTy).Contents (Elt F)),
    unary main_arg4 main_v18 ((extractStridedSlice S1x1024x2816 ![0, 0, 0] · slices_S8x1024x2816_S1x1024x2816_0_0_0) : (⟨S8x1024x2816, .f32⟩ : BufTy).Contents (Elt F) → (⟨S1x1024x2816, .f32⟩ : BufTy).Contents (Elt F)),
    reshape main_v18 main_v19 rfl shapeCasts_S1x1024x2816_S1024x2816,
    binary main_arg0 main_v19 main_v20 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg8 main_v21 ((extractStridedSlice S1x1024x8 ![0, 0, 0] · slices_S8x1024x8_S1x1024x8_0_0_0) : (⟨S8x1024x8, .f32⟩ : BufTy).Contents (Elt F) → (⟨S1x1024x8, .f32⟩ : BufTy).Contents (Elt F)),
    reshape main_v21 main_v22 rfl shapeCasts_S1x1024x8_S1024x8,
    binary main_arg0 main_v22 main_v23 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg9 main_v24 ((extractStridedSlice S1x8x2816 ![0, 0, 0] · slices_S8x8x2816_S1x8x2816_0_0_0) : (⟨S8x8x2816, .f32⟩ : BufTy).Contents (Elt F) → (⟨S1x8x2816, .f32⟩ : BufTy).Contents (Elt F)),
    reshape main_v24 main_v25 rfl shapeCasts_S1x8x2816_S8x2816,
    binary main_v23 main_v25 main_v26 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_2 (constant S_ .f32 0x40000000#32),
    unary main_cst_2 main_v27 (broadcastInDim S4096x2816 ![] bcast_S_S4096x2816 : (⟨S_, .f32⟩ : BufTy).Contents (Elt F) → (⟨S4096x2816, .f32⟩ : BufTy).Contents (Elt F)),
    binary main_v27 main_v26 main_v28 (mulf : (⟨S4096x2816, .f32⟩ : BufTy).Contents (Elt F) → (⟨S4096x2816, .f32⟩ : BufTy).Contents (Elt F) → (⟨S4096x2816, .f32⟩ : BufTy).Contents (Elt F)),
    binary main_v20 main_v28 main_v29 (addf : (⟨S4096x2816, .f32⟩ : BufTy).Contents (Elt F) → (⟨S4096x2816, .f32⟩ : BufTy).Contents (Elt F) → (⟨S4096x2816, .f32⟩ : BufTy).Contents (Elt F)),
    TRef.unary (TRef.of (T := ⟨S4096x2816, .f32⟩) main_v17) (TRef.of (T := ⟨S4096x2816, .f32⟩) main_call1_v0) Host.negf,
    TRef.unary (TRef.of (T := ⟨S4096x2816, .f32⟩) main_call1_v0) (TRef.of (T := ⟨S4096x2816, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S4096x2816, .f32⟩) main_call1_v2) (broadcastInDim S4096x2816 ![] bcast_S_S4096x2816),
    TRef.binary (TRef.of (T := ⟨S4096x2816, .f32⟩) main_call1_v2) (TRef.of (T := ⟨S4096x2816, .f32⟩) main_call1_v1) (TRef.of (T := ⟨S4096x2816, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S4096x2816, .f32⟩) main_call1_v4) (broadcastInDim S4096x2816 ![] bcast_S_S4096x2816),
    TRef.binary (TRef.of (T := ⟨S4096x2816, .f32⟩) main_call1_v4) (TRef.of (T := ⟨S4096x2816, .f32⟩) main_call1_v3) (TRef.of (T := ⟨S4096x2816, .f32⟩) main_call1_v5) Host.divf,
    TRef.binary (TRef.of (T := ⟨S4096x2816, .f32⟩) main_v17) (TRef.of (T := ⟨S4096x2816, .f32⟩) main_call1_v5) (TRef.of (T := ⟨S4096x2816, .f32⟩) main_v30) mulf,
    binary main_v30 main_v29 main_v31 (mulf : (⟨S4096x2816, .f32⟩ : BufTy).Contents (Elt F) → (⟨S4096x2816, .f32⟩ : BufTy).Contents (Elt F) → (⟨S4096x2816, .f32⟩ : BufTy).Contents (Elt F)),
    unary main_arg5 main_v32 ((extractStridedSlice S1x2816x1024 ![0, 0, 0] · slices_S8x2816x1024_S1x2816x1024_0_0_0) : (⟨S8x2816x1024, .f32⟩ : BufTy).Contents (Elt F) → (⟨S1x2816x1024, .f32⟩ : BufTy).Contents (Elt F)),
    reshape main_v32 main_v33 rfl shapeCasts_S1x2816x1024_S2816x1024,
    binary main_v31 main_v33 main_v34 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    unary main_arg10 main_v35 ((extractStridedSlice S1x2816x8 ![0, 0, 0] · slices_S8x2816x8_S1x2816x8_0_0_0) : (⟨S8x2816x8, .f32⟩ : BufTy).Contents (Elt F) → (⟨S1x2816x8, .f32⟩ : BufTy).Contents (Elt F)),
    reshape main_v35 main_v36 rfl shapeCasts_S1x2816x8_S2816x8,
    binary main_v31 main_v36 main_v37 ((fun l r => Host.dotGeneral dot_S4096x2816_S2816x8_S4096x8_1_0_0_1_n_n none l r) : (⟨S4096x2816, .f32⟩ : BufTy).Contents (Elt F) → (⟨S2816x8, .f32⟩ : BufTy).Contents (Elt F) → (⟨S4096x8, .f32⟩ : BufTy).Contents (Elt F)),
    unary main_arg11 main_v38 ((extractStridedSlice S1x8x1024 ![0, 0, 0] · slices_S8x8x1024_S1x8x1024_0_0_0) : (⟨S8x8x1024, .f32⟩ : BufTy).Contents (Elt F) → (⟨S1x8x1024, .f32⟩ : BufTy).Contents (Elt F)),
    reshape main_v38 main_v39 rfl shapeCasts_S1x8x1024_S8x1024,
    binary main_v37 main_v39 main_v40 ((fun l r => Host.dotGeneral dot_S4096x8_S8x1024_S4096x1024_1_0_0_1_n_n none l r) : (⟨S4096x8, .f32⟩ : BufTy).Contents (Elt F) → (⟨S8x1024, .f32⟩ : BufTy).Contents (Elt F) → (⟨S4096x1024, .f32⟩ : BufTy).Contents (Elt F)),
    nullary main_cst_3 (constant S_ .f32 0x40000000#32),
    unary main_cst_3 main_v41 (broadcastInDim S4096x1024 ![] bcast_S_S4096x1024 : (⟨S_, .f32⟩ : BufTy).Contents (Elt F) → (⟨S4096x1024, .f32⟩ : BufTy).Contents (Elt F)),
    binary main_v41 main_v40 main_v42 (mulf : (⟨S4096x1024, .f32⟩ : BufTy).Contents (Elt F) → (⟨S4096x1024, .f32⟩ : BufTy).Contents (Elt F) → (⟨S4096x1024, .f32⟩ : BufTy).Contents (Elt F)),
    binary main_v34 main_v42 main_v43 (addf : (⟨S4096x1024, .f32⟩ : BufTy).Contents (Elt F) → (⟨S4096x1024, .f32⟩ : BufTy).Contents (Elt F) → (⟨S4096x1024, .f32⟩ : BufTy).Contents (Elt F)),
    unary main_v4 main_v44 ((extractStridedSlice S4096x1 ![0, 0] · slices_S4096x8_S4096x1_0_0) : (⟨S4096x8, .f32⟩ : BufTy).Contents (Elt F) → (⟨S4096x1, .f32⟩ : BufTy).Contents (Elt F)),
    unary main_v44 main_v45 (broadcastInDim S4096x1024 ![0, 1] bcast_S4096x1_S4096x1024_0_1 : (⟨S4096x1, .f32⟩ : BufTy).Contents (Elt F) → (⟨S4096x1024, .f32⟩ : BufTy).Contents (Elt F)),
    binary main_v45 main_v43 main_v46 (mulf : (⟨S4096x1024, .f32⟩ : BufTy).Contents (Elt F) → (⟨S4096x1024, .f32⟩ : BufTy).Contents (Elt F) → (⟨S4096x1024, .f32⟩ : BufTy).Contents (Elt F)),
    binary main_v5 main_v46 main_v47 (addf : (⟨S4096x1024, .f32⟩ : BufTy).Contents (Elt F) → (⟨S4096x1024, .f32⟩ : BufTy).Contents (Elt F) → (⟨S4096x1024, .f32⟩ : BufTy).Contents (Elt F)),
    unary main_arg3 main_v48 ((extractStridedSlice S1x1024x2816 ![1, 0, 0] · slices_S8x1024x2816_S1x1024x2816_1_0_0) : (⟨S8x1024x2816, .f32⟩ : BufTy).Contents (Elt F) → (⟨S1x1024x2816, .f32⟩ : BufTy).Contents (Elt F)),
    reshape main_v48 main_v49 rfl shapeCasts_S1x1024x2816_S1024x2816,
    binary main_arg0 main_v49 main_v50 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg6 main_v51 ((extractStridedSlice S1x1024x8 ![1, 0, 0] · slices_S8x1024x8_S1x1024x8_1_0_0) : (⟨S8x1024x8, .f32⟩ : BufTy).Contents (Elt F) → (⟨S1x1024x8, .f32⟩ : BufTy).Contents (Elt F)),
    reshape main_v51 main_v52 rfl shapeCasts_S1x1024x8_S1024x8,
    binary main_arg0 main_v52 main_v53 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg7 main_v54 ((extractStridedSlice S1x8x2816 ![1, 0, 0] · slices_S8x8x2816_S1x8x2816_1_0_0) : (⟨S8x8x2816, .f32⟩ : BufTy).Contents (Elt F) → (⟨S1x8x2816, .f32⟩ : BufTy).Contents (Elt F)) ]

/-- @main's operations 74 … 141 of 437 (window 1). -/
abbrev ops_part1 : List (HloOp τ sig (Elt F)) :=
  [ reshape main_v54 main_v55 rfl shapeCasts_S1x8x2816_S8x2816,
    binary main_v53 main_v55 main_v56 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_4 (constant S_ .f32 0x40000000#32),
    unary main_cst_4 main_v57 (broadcastInDim S4096x2816 ![] bcast_S_S4096x2816 : (⟨S_, .f32⟩ : BufTy).Contents (Elt F) → (⟨S4096x2816, .f32⟩ : BufTy).Contents (Elt F)),
    binary main_v57 main_v56 main_v58 (mulf : (⟨S4096x2816, .f32⟩ : BufTy).Contents (Elt F) → (⟨S4096x2816, .f32⟩ : BufTy).Contents (Elt F) → (⟨S4096x2816, .f32⟩ : BufTy).Contents (Elt F)),
    binary main_v50 main_v58 main_v59 (addf : (⟨S4096x2816, .f32⟩ : BufTy).Contents (Elt F) → (⟨S4096x2816, .f32⟩ : BufTy).Contents (Elt F) → (⟨S4096x2816, .f32⟩ : BufTy).Contents (Elt F)),
    unary main_arg4 main_v60 ((extractStridedSlice S1x1024x2816 ![1, 0, 0] · slices_S8x1024x2816_S1x1024x2816_1_0_0) : (⟨S8x1024x2816, .f32⟩ : BufTy).Contents (Elt F) → (⟨S1x1024x2816, .f32⟩ : BufTy).Contents (Elt F)),
    reshape main_v60 main_v61 rfl shapeCasts_S1x1024x2816_S1024x2816,
    binary main_arg0 main_v61 main_v62 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg8 main_v63 ((extractStridedSlice S1x1024x8 ![1, 0, 0] · slices_S8x1024x8_S1x1024x8_1_0_0) : (⟨S8x1024x8, .f32⟩ : BufTy).Contents (Elt F) → (⟨S1x1024x8, .f32⟩ : BufTy).Contents (Elt F)),
    reshape main_v63 main_v64 rfl shapeCasts_S1x1024x8_S1024x8,
    binary main_arg0 main_v64 main_v65 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg9 main_v66 ((extractStridedSlice S1x8x2816 ![1, 0, 0] · slices_S8x8x2816_S1x8x2816_1_0_0) : (⟨S8x8x2816, .f32⟩ : BufTy).Contents (Elt F) → (⟨S1x8x2816, .f32⟩ : BufTy).Contents (Elt F)),
    reshape main_v66 main_v67 rfl shapeCasts_S1x8x2816_S8x2816,
    binary main_v65 main_v67 main_v68 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_5 (constant S_ .f32 0x40000000#32),
    unary main_cst_5 main_v69 (broadcastInDim S4096x2816 ![] bcast_S_S4096x2816 : (⟨S_, .f32⟩ : BufTy).Contents (Elt F) → (⟨S4096x2816, .f32⟩ : BufTy).Contents (Elt F)),
    binary main_v69 main_v68 main_v70 (mulf : (⟨S4096x2816, .f32⟩ : BufTy).Contents (Elt F) → (⟨S4096x2816, .f32⟩ : BufTy).Contents (Elt F) → (⟨S4096x2816, .f32⟩ : BufTy).Contents (Elt F)),
    binary main_v62 main_v70 main_v71 (addf : (⟨S4096x2816, .f32⟩ : BufTy).Contents (Elt F) → (⟨S4096x2816, .f32⟩ : BufTy).Contents (Elt F) → (⟨S4096x2816, .f32⟩ : BufTy).Contents (Elt F)),
    TRef.unary (TRef.of (T := ⟨S4096x2816, .f32⟩) main_v59) (TRef.of (T := ⟨S4096x2816, .f32⟩) main_call2_v0) Host.negf,
    TRef.unary (TRef.of (T := ⟨S4096x2816, .f32⟩) main_call2_v0) (TRef.of (T := ⟨S4096x2816, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S4096x2816, .f32⟩) main_call2_v2) (broadcastInDim S4096x2816 ![] bcast_S_S4096x2816),
    TRef.binary (TRef.of (T := ⟨S4096x2816, .f32⟩) main_call2_v2) (TRef.of (T := ⟨S4096x2816, .f32⟩) main_call2_v1) (TRef.of (T := ⟨S4096x2816, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S4096x2816, .f32⟩) main_call2_v4) (broadcastInDim S4096x2816 ![] bcast_S_S4096x2816),
    TRef.binary (TRef.of (T := ⟨S4096x2816, .f32⟩) main_call2_v4) (TRef.of (T := ⟨S4096x2816, .f32⟩) main_call2_v3) (TRef.of (T := ⟨S4096x2816, .f32⟩) main_call2_v5) Host.divf,
    TRef.binary (TRef.of (T := ⟨S4096x2816, .f32⟩) main_v59) (TRef.of (T := ⟨S4096x2816, .f32⟩) main_call2_v5) (TRef.of (T := ⟨S4096x2816, .f32⟩) main_v72) mulf,
    binary main_v72 main_v71 main_v73 (mulf : (⟨S4096x2816, .f32⟩ : BufTy).Contents (Elt F) → (⟨S4096x2816, .f32⟩ : BufTy).Contents (Elt F) → (⟨S4096x2816, .f32⟩ : BufTy).Contents (Elt F)),
    unary main_arg5 main_v74 ((extractStridedSlice S1x2816x1024 ![1, 0, 0] · slices_S8x2816x1024_S1x2816x1024_1_0_0) : (⟨S8x2816x1024, .f32⟩ : BufTy).Contents (Elt F) → (⟨S1x2816x1024, .f32⟩ : BufTy).Contents (Elt F)),
    reshape main_v74 main_v75 rfl shapeCasts_S1x2816x1024_S2816x1024,
    binary main_v73 main_v75 main_v76 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    unary main_arg10 main_v77 ((extractStridedSlice S1x2816x8 ![1, 0, 0] · slices_S8x2816x8_S1x2816x8_1_0_0) : (⟨S8x2816x8, .f32⟩ : BufTy).Contents (Elt F) → (⟨S1x2816x8, .f32⟩ : BufTy).Contents (Elt F)),
    reshape main_v77 main_v78 rfl shapeCasts_S1x2816x8_S2816x8,
    binary main_v73 main_v78 main_v79 ((fun l r => Host.dotGeneral dot_S4096x2816_S2816x8_S4096x8_1_0_0_1_n_n none l r) : (⟨S4096x2816, .f32⟩ : BufTy).Contents (Elt F) → (⟨S2816x8, .f32⟩ : BufTy).Contents (Elt F) → (⟨S4096x8, .f32⟩ : BufTy).Contents (Elt F)),
    unary main_arg11 main_v80 ((extractStridedSlice S1x8x1024 ![1, 0, 0] · slices_S8x8x1024_S1x8x1024_1_0_0) : (⟨S8x8x1024, .f32⟩ : BufTy).Contents (Elt F) → (⟨S1x8x1024, .f32⟩ : BufTy).Contents (Elt F)),
    reshape main_v80 main_v81 rfl shapeCasts_S1x8x1024_S8x1024,
    binary main_v79 main_v81 main_v82 ((fun l r => Host.dotGeneral dot_S4096x8_S8x1024_S4096x1024_1_0_0_1_n_n none l r) : (⟨S4096x8, .f32⟩ : BufTy).Contents (Elt F) → (⟨S8x1024, .f32⟩ : BufTy).Contents (Elt F) → (⟨S4096x1024, .f32⟩ : BufTy).Contents (Elt F)),
    nullary main_cst_6 (constant S_ .f32 0x40000000#32),
    unary main_cst_6 main_v83 (broadcastInDim S4096x1024 ![] bcast_S_S4096x1024 : (⟨S_, .f32⟩ : BufTy).Contents (Elt F) → (⟨S4096x1024, .f32⟩ : BufTy).Contents (Elt F)),
    binary main_v83 main_v82 main_v84 (mulf : (⟨S4096x1024, .f32⟩ : BufTy).Contents (Elt F) → (⟨S4096x1024, .f32⟩ : BufTy).Contents (Elt F) → (⟨S4096x1024, .f32⟩ : BufTy).Contents (Elt F)),
    binary main_v76 main_v84 main_v85 (addf : (⟨S4096x1024, .f32⟩ : BufTy).Contents (Elt F) → (⟨S4096x1024, .f32⟩ : BufTy).Contents (Elt F) → (⟨S4096x1024, .f32⟩ : BufTy).Contents (Elt F)),
    unary main_v4 main_v86 ((extractStridedSlice S4096x1 ![0, 1] · slices_S4096x8_S4096x1_0_1) : (⟨S4096x8, .f32⟩ : BufTy).Contents (Elt F) → (⟨S4096x1, .f32⟩ : BufTy).Contents (Elt F)),
    unary main_v86 main_v87 (broadcastInDim S4096x1024 ![0, 1] bcast_S4096x1_S4096x1024_0_1 : (⟨S4096x1, .f32⟩ : BufTy).Contents (Elt F) → (⟨S4096x1024, .f32⟩ : BufTy).Contents (Elt F)),
    binary main_v87 main_v85 main_v88 (mulf : (⟨S4096x1024, .f32⟩ : BufTy).Contents (Elt F) → (⟨S4096x1024, .f32⟩ : BufTy).Contents (Elt F) → (⟨S4096x1024, .f32⟩ : BufTy).Contents (Elt F)),
    binary main_v47 main_v88 main_v89 (addf : (⟨S4096x1024, .f32⟩ : BufTy).Contents (Elt F) → (⟨S4096x1024, .f32⟩ : BufTy).Contents (Elt F) → (⟨S4096x1024, .f32⟩ : BufTy).Contents (Elt F)),
    unary main_arg3 main_v90 ((extractStridedSlice S1x1024x2816 ![2, 0, 0] · slices_S8x1024x2816_S1x1024x2816_2_0_0) : (⟨S8x1024x2816, .f32⟩ : BufTy).Contents (Elt F) → (⟨S1x1024x2816, .f32⟩ : BufTy).Contents (Elt F)),
    reshape main_v90 main_v91 rfl shapeCasts_S1x1024x2816_S1024x2816,
    binary main_arg0 main_v91 main_v92 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg6 main_v93 ((extractStridedSlice S1x1024x8 ![2, 0, 0] · slices_S8x1024x8_S1x1024x8_2_0_0) : (⟨S8x1024x8, .f32⟩ : BufTy).Contents (Elt F) → (⟨S1x1024x8, .f32⟩ : BufTy).Contents (Elt F)),
    reshape main_v93 main_v94 rfl shapeCasts_S1x1024x8_S1024x8,
    binary main_arg0 main_v94 main_v95 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg7 main_v96 ((extractStridedSlice S1x8x2816 ![2, 0, 0] · slices_S8x8x2816_S1x8x2816_2_0_0) : (⟨S8x8x2816, .f32⟩ : BufTy).Contents (Elt F) → (⟨S1x8x2816, .f32⟩ : BufTy).Contents (Elt F)),
    reshape main_v96 main_v97 rfl shapeCasts_S1x8x2816_S8x2816,
    binary main_v95 main_v97 main_v98 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_7 (constant S_ .f32 0x40000000#32),
    unary main_cst_7 main_v99 (broadcastInDim S4096x2816 ![] bcast_S_S4096x2816 : (⟨S_, .f32⟩ : BufTy).Contents (Elt F) → (⟨S4096x2816, .f32⟩ : BufTy).Contents (Elt F)),
    binary main_v99 main_v98 main_v100 (mulf : (⟨S4096x2816, .f32⟩ : BufTy).Contents (Elt F) → (⟨S4096x2816, .f32⟩ : BufTy).Contents (Elt F) → (⟨S4096x2816, .f32⟩ : BufTy).Contents (Elt F)),
    binary main_v92 main_v100 main_v101 (addf : (⟨S4096x2816, .f32⟩ : BufTy).Contents (Elt F) → (⟨S4096x2816, .f32⟩ : BufTy).Contents (Elt F) → (⟨S4096x2816, .f32⟩ : BufTy).Contents (Elt F)),
    unary main_arg4 main_v102 ((extractStridedSlice S1x1024x2816 ![2, 0, 0] · slices_S8x1024x2816_S1x1024x2816_2_0_0) : (⟨S8x1024x2816, .f32⟩ : BufTy).Contents (Elt F) → (⟨S1x1024x2816, .f32⟩ : BufTy).Contents (Elt F)),
    reshape main_v102 main_v103 rfl shapeCasts_S1x1024x2816_S1024x2816,
    binary main_arg0 main_v103 main_v104 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg8 main_v105 ((extractStridedSlice S1x1024x8 ![2, 0, 0] · slices_S8x1024x8_S1x1024x8_2_0_0) : (⟨S8x1024x8, .f32⟩ : BufTy).Contents (Elt F) → (⟨S1x1024x8, .f32⟩ : BufTy).Contents (Elt F)),
    reshape main_v105 main_v106 rfl shapeCasts_S1x1024x8_S1024x8,
    binary main_arg0 main_v106 main_v107 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg9 main_v108 ((extractStridedSlice S1x8x2816 ![2, 0, 0] · slices_S8x8x2816_S1x8x2816_2_0_0) : (⟨S8x8x2816, .f32⟩ : BufTy).Contents (Elt F) → (⟨S1x8x2816, .f32⟩ : BufTy).Contents (Elt F)),
    reshape main_v108 main_v109 rfl shapeCasts_S1x8x2816_S8x2816,
    binary main_v107 main_v109 main_v110 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)) ]

/-- @main's operations 142 … 217 of 437 (window 2). -/
abbrev ops_part2 : List (HloOp τ sig (Elt F)) :=
  [ nullary main_cst_8 (constant S_ .f32 0x40000000#32),
    unary main_cst_8 main_v111 (broadcastInDim S4096x2816 ![] bcast_S_S4096x2816 : (⟨S_, .f32⟩ : BufTy).Contents (Elt F) → (⟨S4096x2816, .f32⟩ : BufTy).Contents (Elt F)),
    binary main_v111 main_v110 main_v112 (mulf : (⟨S4096x2816, .f32⟩ : BufTy).Contents (Elt F) → (⟨S4096x2816, .f32⟩ : BufTy).Contents (Elt F) → (⟨S4096x2816, .f32⟩ : BufTy).Contents (Elt F)),
    binary main_v104 main_v112 main_v113 (addf : (⟨S4096x2816, .f32⟩ : BufTy).Contents (Elt F) → (⟨S4096x2816, .f32⟩ : BufTy).Contents (Elt F) → (⟨S4096x2816, .f32⟩ : BufTy).Contents (Elt F)),
    TRef.unary (TRef.of (T := ⟨S4096x2816, .f32⟩) main_v101) (TRef.of (T := ⟨S4096x2816, .f32⟩) main_call3_v0) Host.negf,
    TRef.unary (TRef.of (T := ⟨S4096x2816, .f32⟩) main_call3_v0) (TRef.of (T := ⟨S4096x2816, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S4096x2816, .f32⟩) main_call3_v2) (broadcastInDim S4096x2816 ![] bcast_S_S4096x2816),
    TRef.binary (TRef.of (T := ⟨S4096x2816, .f32⟩) main_call3_v2) (TRef.of (T := ⟨S4096x2816, .f32⟩) main_call3_v1) (TRef.of (T := ⟨S4096x2816, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S4096x2816, .f32⟩) main_call3_v4) (broadcastInDim S4096x2816 ![] bcast_S_S4096x2816),
    TRef.binary (TRef.of (T := ⟨S4096x2816, .f32⟩) main_call3_v4) (TRef.of (T := ⟨S4096x2816, .f32⟩) main_call3_v3) (TRef.of (T := ⟨S4096x2816, .f32⟩) main_call3_v5) Host.divf,
    TRef.binary (TRef.of (T := ⟨S4096x2816, .f32⟩) main_v101) (TRef.of (T := ⟨S4096x2816, .f32⟩) main_call3_v5) (TRef.of (T := ⟨S4096x2816, .f32⟩) main_v114) mulf,
    binary main_v114 main_v113 main_v115 (mulf : (⟨S4096x2816, .f32⟩ : BufTy).Contents (Elt F) → (⟨S4096x2816, .f32⟩ : BufTy).Contents (Elt F) → (⟨S4096x2816, .f32⟩ : BufTy).Contents (Elt F)),
    unary main_arg5 main_v116 ((extractStridedSlice S1x2816x1024 ![2, 0, 0] · slices_S8x2816x1024_S1x2816x1024_2_0_0) : (⟨S8x2816x1024, .f32⟩ : BufTy).Contents (Elt F) → (⟨S1x2816x1024, .f32⟩ : BufTy).Contents (Elt F)),
    reshape main_v116 main_v117 rfl shapeCasts_S1x2816x1024_S2816x1024,
    binary main_v115 main_v117 main_v118 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    unary main_arg10 main_v119 ((extractStridedSlice S1x2816x8 ![2, 0, 0] · slices_S8x2816x8_S1x2816x8_2_0_0) : (⟨S8x2816x8, .f32⟩ : BufTy).Contents (Elt F) → (⟨S1x2816x8, .f32⟩ : BufTy).Contents (Elt F)),
    reshape main_v119 main_v120 rfl shapeCasts_S1x2816x8_S2816x8,
    binary main_v115 main_v120 main_v121 ((fun l r => Host.dotGeneral dot_S4096x2816_S2816x8_S4096x8_1_0_0_1_n_n none l r) : (⟨S4096x2816, .f32⟩ : BufTy).Contents (Elt F) → (⟨S2816x8, .f32⟩ : BufTy).Contents (Elt F) → (⟨S4096x8, .f32⟩ : BufTy).Contents (Elt F)),
    unary main_arg11 main_v122 ((extractStridedSlice S1x8x1024 ![2, 0, 0] · slices_S8x8x1024_S1x8x1024_2_0_0) : (⟨S8x8x1024, .f32⟩ : BufTy).Contents (Elt F) → (⟨S1x8x1024, .f32⟩ : BufTy).Contents (Elt F)),
    reshape main_v122 main_v123 rfl shapeCasts_S1x8x1024_S8x1024,
    binary main_v121 main_v123 main_v124 ((fun l r => Host.dotGeneral dot_S4096x8_S8x1024_S4096x1024_1_0_0_1_n_n none l r) : (⟨S4096x8, .f32⟩ : BufTy).Contents (Elt F) → (⟨S8x1024, .f32⟩ : BufTy).Contents (Elt F) → (⟨S4096x1024, .f32⟩ : BufTy).Contents (Elt F)),
    nullary main_cst_9 (constant S_ .f32 0x40000000#32),
    unary main_cst_9 main_v125 (broadcastInDim S4096x1024 ![] bcast_S_S4096x1024 : (⟨S_, .f32⟩ : BufTy).Contents (Elt F) → (⟨S4096x1024, .f32⟩ : BufTy).Contents (Elt F)),
    binary main_v125 main_v124 main_v126 (mulf : (⟨S4096x1024, .f32⟩ : BufTy).Contents (Elt F) → (⟨S4096x1024, .f32⟩ : BufTy).Contents (Elt F) → (⟨S4096x1024, .f32⟩ : BufTy).Contents (Elt F)),
    binary main_v118 main_v126 main_v127 (addf : (⟨S4096x1024, .f32⟩ : BufTy).Contents (Elt F) → (⟨S4096x1024, .f32⟩ : BufTy).Contents (Elt F) → (⟨S4096x1024, .f32⟩ : BufTy).Contents (Elt F)),
    unary main_v4 main_v128 ((extractStridedSlice S4096x1 ![0, 2] · slices_S4096x8_S4096x1_0_2) : (⟨S4096x8, .f32⟩ : BufTy).Contents (Elt F) → (⟨S4096x1, .f32⟩ : BufTy).Contents (Elt F)),
    unary main_v128 main_v129 (broadcastInDim S4096x1024 ![0, 1] bcast_S4096x1_S4096x1024_0_1 : (⟨S4096x1, .f32⟩ : BufTy).Contents (Elt F) → (⟨S4096x1024, .f32⟩ : BufTy).Contents (Elt F)),
    binary main_v129 main_v127 main_v130 (mulf : (⟨S4096x1024, .f32⟩ : BufTy).Contents (Elt F) → (⟨S4096x1024, .f32⟩ : BufTy).Contents (Elt F) → (⟨S4096x1024, .f32⟩ : BufTy).Contents (Elt F)),
    binary main_v89 main_v130 main_v131 (addf : (⟨S4096x1024, .f32⟩ : BufTy).Contents (Elt F) → (⟨S4096x1024, .f32⟩ : BufTy).Contents (Elt F) → (⟨S4096x1024, .f32⟩ : BufTy).Contents (Elt F)),
    unary main_arg3 main_v132 ((extractStridedSlice S1x1024x2816 ![3, 0, 0] · slices_S8x1024x2816_S1x1024x2816_3_0_0) : (⟨S8x1024x2816, .f32⟩ : BufTy).Contents (Elt F) → (⟨S1x1024x2816, .f32⟩ : BufTy).Contents (Elt F)),
    reshape main_v132 main_v133 rfl shapeCasts_S1x1024x2816_S1024x2816,
    binary main_arg0 main_v133 main_v134 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg6 main_v135 ((extractStridedSlice S1x1024x8 ![3, 0, 0] · slices_S8x1024x8_S1x1024x8_3_0_0) : (⟨S8x1024x8, .f32⟩ : BufTy).Contents (Elt F) → (⟨S1x1024x8, .f32⟩ : BufTy).Contents (Elt F)),
    reshape main_v135 main_v136 rfl shapeCasts_S1x1024x8_S1024x8,
    binary main_arg0 main_v136 main_v137 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg7 main_v138 ((extractStridedSlice S1x8x2816 ![3, 0, 0] · slices_S8x8x2816_S1x8x2816_3_0_0) : (⟨S8x8x2816, .f32⟩ : BufTy).Contents (Elt F) → (⟨S1x8x2816, .f32⟩ : BufTy).Contents (Elt F)),
    reshape main_v138 main_v139 rfl shapeCasts_S1x8x2816_S8x2816,
    binary main_v137 main_v139 main_v140 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_10 (constant S_ .f32 0x40000000#32),
    unary main_cst_10 main_v141 (broadcastInDim S4096x2816 ![] bcast_S_S4096x2816 : (⟨S_, .f32⟩ : BufTy).Contents (Elt F) → (⟨S4096x2816, .f32⟩ : BufTy).Contents (Elt F)),
    binary main_v141 main_v140 main_v142 (mulf : (⟨S4096x2816, .f32⟩ : BufTy).Contents (Elt F) → (⟨S4096x2816, .f32⟩ : BufTy).Contents (Elt F) → (⟨S4096x2816, .f32⟩ : BufTy).Contents (Elt F)),
    binary main_v134 main_v142 main_v143 (addf : (⟨S4096x2816, .f32⟩ : BufTy).Contents (Elt F) → (⟨S4096x2816, .f32⟩ : BufTy).Contents (Elt F) → (⟨S4096x2816, .f32⟩ : BufTy).Contents (Elt F)),
    unary main_arg4 main_v144 ((extractStridedSlice S1x1024x2816 ![3, 0, 0] · slices_S8x1024x2816_S1x1024x2816_3_0_0) : (⟨S8x1024x2816, .f32⟩ : BufTy).Contents (Elt F) → (⟨S1x1024x2816, .f32⟩ : BufTy).Contents (Elt F)),
    reshape main_v144 main_v145 rfl shapeCasts_S1x1024x2816_S1024x2816,
    binary main_arg0 main_v145 main_v146 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg8 main_v147 ((extractStridedSlice S1x1024x8 ![3, 0, 0] · slices_S8x1024x8_S1x1024x8_3_0_0) : (⟨S8x1024x8, .f32⟩ : BufTy).Contents (Elt F) → (⟨S1x1024x8, .f32⟩ : BufTy).Contents (Elt F)),
    reshape main_v147 main_v148 rfl shapeCasts_S1x1024x8_S1024x8,
    binary main_arg0 main_v148 main_v149 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg9 main_v150 ((extractStridedSlice S1x8x2816 ![3, 0, 0] · slices_S8x8x2816_S1x8x2816_3_0_0) : (⟨S8x8x2816, .f32⟩ : BufTy).Contents (Elt F) → (⟨S1x8x2816, .f32⟩ : BufTy).Contents (Elt F)),
    reshape main_v150 main_v151 rfl shapeCasts_S1x8x2816_S8x2816,
    binary main_v149 main_v151 main_v152 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_11 (constant S_ .f32 0x40000000#32),
    unary main_cst_11 main_v153 (broadcastInDim S4096x2816 ![] bcast_S_S4096x2816 : (⟨S_, .f32⟩ : BufTy).Contents (Elt F) → (⟨S4096x2816, .f32⟩ : BufTy).Contents (Elt F)),
    binary main_v153 main_v152 main_v154 (mulf : (⟨S4096x2816, .f32⟩ : BufTy).Contents (Elt F) → (⟨S4096x2816, .f32⟩ : BufTy).Contents (Elt F) → (⟨S4096x2816, .f32⟩ : BufTy).Contents (Elt F)),
    binary main_v146 main_v154 main_v155 (addf : (⟨S4096x2816, .f32⟩ : BufTy).Contents (Elt F) → (⟨S4096x2816, .f32⟩ : BufTy).Contents (Elt F) → (⟨S4096x2816, .f32⟩ : BufTy).Contents (Elt F)),
    TRef.unary (TRef.of (T := ⟨S4096x2816, .f32⟩) main_v143) (TRef.of (T := ⟨S4096x2816, .f32⟩) main_call4_v0) Host.negf,
    TRef.unary (TRef.of (T := ⟨S4096x2816, .f32⟩) main_call4_v0) (TRef.of (T := ⟨S4096x2816, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S4096x2816, .f32⟩) main_call4_v2) (broadcastInDim S4096x2816 ![] bcast_S_S4096x2816),
    TRef.binary (TRef.of (T := ⟨S4096x2816, .f32⟩) main_call4_v2) (TRef.of (T := ⟨S4096x2816, .f32⟩) main_call4_v1) (TRef.of (T := ⟨S4096x2816, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S4096x2816, .f32⟩) main_call4_v4) (broadcastInDim S4096x2816 ![] bcast_S_S4096x2816),
    TRef.binary (TRef.of (T := ⟨S4096x2816, .f32⟩) main_call4_v4) (TRef.of (T := ⟨S4096x2816, .f32⟩) main_call4_v3) (TRef.of (T := ⟨S4096x2816, .f32⟩) main_call4_v5) Host.divf,
    TRef.binary (TRef.of (T := ⟨S4096x2816, .f32⟩) main_v143) (TRef.of (T := ⟨S4096x2816, .f32⟩) main_call4_v5) (TRef.of (T := ⟨S4096x2816, .f32⟩) main_v156) mulf,
    binary main_v156 main_v155 main_v157 (mulf : (⟨S4096x2816, .f32⟩ : BufTy).Contents (Elt F) → (⟨S4096x2816, .f32⟩ : BufTy).Contents (Elt F) → (⟨S4096x2816, .f32⟩ : BufTy).Contents (Elt F)),
    unary main_arg5 main_v158 ((extractStridedSlice S1x2816x1024 ![3, 0, 0] · slices_S8x2816x1024_S1x2816x1024_3_0_0) : (⟨S8x2816x1024, .f32⟩ : BufTy).Contents (Elt F) → (⟨S1x2816x1024, .f32⟩ : BufTy).Contents (Elt F)),
    reshape main_v158 main_v159 rfl shapeCasts_S1x2816x1024_S2816x1024,
    binary main_v157 main_v159 main_v160 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    unary main_arg10 main_v161 ((extractStridedSlice S1x2816x8 ![3, 0, 0] · slices_S8x2816x8_S1x2816x8_3_0_0) : (⟨S8x2816x8, .f32⟩ : BufTy).Contents (Elt F) → (⟨S1x2816x8, .f32⟩ : BufTy).Contents (Elt F)),
    reshape main_v161 main_v162 rfl shapeCasts_S1x2816x8_S2816x8,
    binary main_v157 main_v162 main_v163 ((fun l r => Host.dotGeneral dot_S4096x2816_S2816x8_S4096x8_1_0_0_1_n_n none l r) : (⟨S4096x2816, .f32⟩ : BufTy).Contents (Elt F) → (⟨S2816x8, .f32⟩ : BufTy).Contents (Elt F) → (⟨S4096x8, .f32⟩ : BufTy).Contents (Elt F)),
    unary main_arg11 main_v164 ((extractStridedSlice S1x8x1024 ![3, 0, 0] · slices_S8x8x1024_S1x8x1024_3_0_0) : (⟨S8x8x1024, .f32⟩ : BufTy).Contents (Elt F) → (⟨S1x8x1024, .f32⟩ : BufTy).Contents (Elt F)),
    reshape main_v164 main_v165 rfl shapeCasts_S1x8x1024_S8x1024,
    binary main_v163 main_v165 main_v166 ((fun l r => Host.dotGeneral dot_S4096x8_S8x1024_S4096x1024_1_0_0_1_n_n none l r) : (⟨S4096x8, .f32⟩ : BufTy).Contents (Elt F) → (⟨S8x1024, .f32⟩ : BufTy).Contents (Elt F) → (⟨S4096x1024, .f32⟩ : BufTy).Contents (Elt F)) ]

/-- @main's operations 218 … 285 of 437 (window 3). -/
abbrev ops_part3 : List (HloOp τ sig (Elt F)) :=
  [ nullary main_cst_12 (constant S_ .f32 0x40000000#32),
    unary main_cst_12 main_v167 (broadcastInDim S4096x1024 ![] bcast_S_S4096x1024 : (⟨S_, .f32⟩ : BufTy).Contents (Elt F) → (⟨S4096x1024, .f32⟩ : BufTy).Contents (Elt F)),
    binary main_v167 main_v166 main_v168 (mulf : (⟨S4096x1024, .f32⟩ : BufTy).Contents (Elt F) → (⟨S4096x1024, .f32⟩ : BufTy).Contents (Elt F) → (⟨S4096x1024, .f32⟩ : BufTy).Contents (Elt F)),
    binary main_v160 main_v168 main_v169 (addf : (⟨S4096x1024, .f32⟩ : BufTy).Contents (Elt F) → (⟨S4096x1024, .f32⟩ : BufTy).Contents (Elt F) → (⟨S4096x1024, .f32⟩ : BufTy).Contents (Elt F)),
    unary main_v4 main_v170 ((extractStridedSlice S4096x1 ![0, 3] · slices_S4096x8_S4096x1_0_3) : (⟨S4096x8, .f32⟩ : BufTy).Contents (Elt F) → (⟨S4096x1, .f32⟩ : BufTy).Contents (Elt F)),
    unary main_v170 main_v171 (broadcastInDim S4096x1024 ![0, 1] bcast_S4096x1_S4096x1024_0_1 : (⟨S4096x1, .f32⟩ : BufTy).Contents (Elt F) → (⟨S4096x1024, .f32⟩ : BufTy).Contents (Elt F)),
    binary main_v171 main_v169 main_v172 (mulf : (⟨S4096x1024, .f32⟩ : BufTy).Contents (Elt F) → (⟨S4096x1024, .f32⟩ : BufTy).Contents (Elt F) → (⟨S4096x1024, .f32⟩ : BufTy).Contents (Elt F)),
    binary main_v131 main_v172 main_v173 (addf : (⟨S4096x1024, .f32⟩ : BufTy).Contents (Elt F) → (⟨S4096x1024, .f32⟩ : BufTy).Contents (Elt F) → (⟨S4096x1024, .f32⟩ : BufTy).Contents (Elt F)),
    unary main_arg3 main_v174 ((extractStridedSlice S1x1024x2816 ![4, 0, 0] · slices_S8x1024x2816_S1x1024x2816_4_0_0) : (⟨S8x1024x2816, .f32⟩ : BufTy).Contents (Elt F) → (⟨S1x1024x2816, .f32⟩ : BufTy).Contents (Elt F)),
    reshape main_v174 main_v175 rfl shapeCasts_S1x1024x2816_S1024x2816,
    binary main_arg0 main_v175 main_v176 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg6 main_v177 ((extractStridedSlice S1x1024x8 ![4, 0, 0] · slices_S8x1024x8_S1x1024x8_4_0_0) : (⟨S8x1024x8, .f32⟩ : BufTy).Contents (Elt F) → (⟨S1x1024x8, .f32⟩ : BufTy).Contents (Elt F)),
    reshape main_v177 main_v178 rfl shapeCasts_S1x1024x8_S1024x8,
    binary main_arg0 main_v178 main_v179 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg7 main_v180 ((extractStridedSlice S1x8x2816 ![4, 0, 0] · slices_S8x8x2816_S1x8x2816_4_0_0) : (⟨S8x8x2816, .f32⟩ : BufTy).Contents (Elt F) → (⟨S1x8x2816, .f32⟩ : BufTy).Contents (Elt F)),
    reshape main_v180 main_v181 rfl shapeCasts_S1x8x2816_S8x2816,
    binary main_v179 main_v181 main_v182 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_13 (constant S_ .f32 0x40000000#32),
    unary main_cst_13 main_v183 (broadcastInDim S4096x2816 ![] bcast_S_S4096x2816 : (⟨S_, .f32⟩ : BufTy).Contents (Elt F) → (⟨S4096x2816, .f32⟩ : BufTy).Contents (Elt F)),
    binary main_v183 main_v182 main_v184 (mulf : (⟨S4096x2816, .f32⟩ : BufTy).Contents (Elt F) → (⟨S4096x2816, .f32⟩ : BufTy).Contents (Elt F) → (⟨S4096x2816, .f32⟩ : BufTy).Contents (Elt F)),
    binary main_v176 main_v184 main_v185 (addf : (⟨S4096x2816, .f32⟩ : BufTy).Contents (Elt F) → (⟨S4096x2816, .f32⟩ : BufTy).Contents (Elt F) → (⟨S4096x2816, .f32⟩ : BufTy).Contents (Elt F)),
    unary main_arg4 main_v186 ((extractStridedSlice S1x1024x2816 ![4, 0, 0] · slices_S8x1024x2816_S1x1024x2816_4_0_0) : (⟨S8x1024x2816, .f32⟩ : BufTy).Contents (Elt F) → (⟨S1x1024x2816, .f32⟩ : BufTy).Contents (Elt F)),
    reshape main_v186 main_v187 rfl shapeCasts_S1x1024x2816_S1024x2816,
    binary main_arg0 main_v187 main_v188 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg8 main_v189 ((extractStridedSlice S1x1024x8 ![4, 0, 0] · slices_S8x1024x8_S1x1024x8_4_0_0) : (⟨S8x1024x8, .f32⟩ : BufTy).Contents (Elt F) → (⟨S1x1024x8, .f32⟩ : BufTy).Contents (Elt F)),
    reshape main_v189 main_v190 rfl shapeCasts_S1x1024x8_S1024x8,
    binary main_arg0 main_v190 main_v191 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg9 main_v192 ((extractStridedSlice S1x8x2816 ![4, 0, 0] · slices_S8x8x2816_S1x8x2816_4_0_0) : (⟨S8x8x2816, .f32⟩ : BufTy).Contents (Elt F) → (⟨S1x8x2816, .f32⟩ : BufTy).Contents (Elt F)),
    reshape main_v192 main_v193 rfl shapeCasts_S1x8x2816_S8x2816,
    binary main_v191 main_v193 main_v194 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_14 (constant S_ .f32 0x40000000#32),
    unary main_cst_14 main_v195 (broadcastInDim S4096x2816 ![] bcast_S_S4096x2816 : (⟨S_, .f32⟩ : BufTy).Contents (Elt F) → (⟨S4096x2816, .f32⟩ : BufTy).Contents (Elt F)),
    binary main_v195 main_v194 main_v196 (mulf : (⟨S4096x2816, .f32⟩ : BufTy).Contents (Elt F) → (⟨S4096x2816, .f32⟩ : BufTy).Contents (Elt F) → (⟨S4096x2816, .f32⟩ : BufTy).Contents (Elt F)),
    binary main_v188 main_v196 main_v197 (addf : (⟨S4096x2816, .f32⟩ : BufTy).Contents (Elt F) → (⟨S4096x2816, .f32⟩ : BufTy).Contents (Elt F) → (⟨S4096x2816, .f32⟩ : BufTy).Contents (Elt F)),
    TRef.unary (TRef.of (T := ⟨S4096x2816, .f32⟩) main_v185) (TRef.of (T := ⟨S4096x2816, .f32⟩) main_call5_v0) Host.negf,
    TRef.unary (TRef.of (T := ⟨S4096x2816, .f32⟩) main_call5_v0) (TRef.of (T := ⟨S4096x2816, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S4096x2816, .f32⟩) main_call5_v2) (broadcastInDim S4096x2816 ![] bcast_S_S4096x2816),
    TRef.binary (TRef.of (T := ⟨S4096x2816, .f32⟩) main_call5_v2) (TRef.of (T := ⟨S4096x2816, .f32⟩) main_call5_v1) (TRef.of (T := ⟨S4096x2816, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S4096x2816, .f32⟩) main_call5_v4) (broadcastInDim S4096x2816 ![] bcast_S_S4096x2816),
    TRef.binary (TRef.of (T := ⟨S4096x2816, .f32⟩) main_call5_v4) (TRef.of (T := ⟨S4096x2816, .f32⟩) main_call5_v3) (TRef.of (T := ⟨S4096x2816, .f32⟩) main_call5_v5) Host.divf,
    TRef.binary (TRef.of (T := ⟨S4096x2816, .f32⟩) main_v185) (TRef.of (T := ⟨S4096x2816, .f32⟩) main_call5_v5) (TRef.of (T := ⟨S4096x2816, .f32⟩) main_v198) mulf,
    binary main_v198 main_v197 main_v199 (mulf : (⟨S4096x2816, .f32⟩ : BufTy).Contents (Elt F) → (⟨S4096x2816, .f32⟩ : BufTy).Contents (Elt F) → (⟨S4096x2816, .f32⟩ : BufTy).Contents (Elt F)),
    unary main_arg5 main_v200 ((extractStridedSlice S1x2816x1024 ![4, 0, 0] · slices_S8x2816x1024_S1x2816x1024_4_0_0) : (⟨S8x2816x1024, .f32⟩ : BufTy).Contents (Elt F) → (⟨S1x2816x1024, .f32⟩ : BufTy).Contents (Elt F)),
    reshape main_v200 main_v201 rfl shapeCasts_S1x2816x1024_S2816x1024,
    binary main_v199 main_v201 main_v202 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    unary main_arg10 main_v203 ((extractStridedSlice S1x2816x8 ![4, 0, 0] · slices_S8x2816x8_S1x2816x8_4_0_0) : (⟨S8x2816x8, .f32⟩ : BufTy).Contents (Elt F) → (⟨S1x2816x8, .f32⟩ : BufTy).Contents (Elt F)),
    reshape main_v203 main_v204 rfl shapeCasts_S1x2816x8_S2816x8,
    binary main_v199 main_v204 main_v205 ((fun l r => Host.dotGeneral dot_S4096x2816_S2816x8_S4096x8_1_0_0_1_n_n none l r) : (⟨S4096x2816, .f32⟩ : BufTy).Contents (Elt F) → (⟨S2816x8, .f32⟩ : BufTy).Contents (Elt F) → (⟨S4096x8, .f32⟩ : BufTy).Contents (Elt F)),
    unary main_arg11 main_v206 ((extractStridedSlice S1x8x1024 ![4, 0, 0] · slices_S8x8x1024_S1x8x1024_4_0_0) : (⟨S8x8x1024, .f32⟩ : BufTy).Contents (Elt F) → (⟨S1x8x1024, .f32⟩ : BufTy).Contents (Elt F)),
    reshape main_v206 main_v207 rfl shapeCasts_S1x8x1024_S8x1024,
    binary main_v205 main_v207 main_v208 ((fun l r => Host.dotGeneral dot_S4096x8_S8x1024_S4096x1024_1_0_0_1_n_n none l r) : (⟨S4096x8, .f32⟩ : BufTy).Contents (Elt F) → (⟨S8x1024, .f32⟩ : BufTy).Contents (Elt F) → (⟨S4096x1024, .f32⟩ : BufTy).Contents (Elt F)),
    nullary main_cst_15 (constant S_ .f32 0x40000000#32),
    unary main_cst_15 main_v209 (broadcastInDim S4096x1024 ![] bcast_S_S4096x1024 : (⟨S_, .f32⟩ : BufTy).Contents (Elt F) → (⟨S4096x1024, .f32⟩ : BufTy).Contents (Elt F)),
    binary main_v209 main_v208 main_v210 (mulf : (⟨S4096x1024, .f32⟩ : BufTy).Contents (Elt F) → (⟨S4096x1024, .f32⟩ : BufTy).Contents (Elt F) → (⟨S4096x1024, .f32⟩ : BufTy).Contents (Elt F)),
    binary main_v202 main_v210 main_v211 (addf : (⟨S4096x1024, .f32⟩ : BufTy).Contents (Elt F) → (⟨S4096x1024, .f32⟩ : BufTy).Contents (Elt F) → (⟨S4096x1024, .f32⟩ : BufTy).Contents (Elt F)),
    unary main_v4 main_v212 ((extractStridedSlice S4096x1 ![0, 4] · slices_S4096x8_S4096x1_0_4) : (⟨S4096x8, .f32⟩ : BufTy).Contents (Elt F) → (⟨S4096x1, .f32⟩ : BufTy).Contents (Elt F)),
    unary main_v212 main_v213 (broadcastInDim S4096x1024 ![0, 1] bcast_S4096x1_S4096x1024_0_1 : (⟨S4096x1, .f32⟩ : BufTy).Contents (Elt F) → (⟨S4096x1024, .f32⟩ : BufTy).Contents (Elt F)),
    binary main_v213 main_v211 main_v214 (mulf : (⟨S4096x1024, .f32⟩ : BufTy).Contents (Elt F) → (⟨S4096x1024, .f32⟩ : BufTy).Contents (Elt F) → (⟨S4096x1024, .f32⟩ : BufTy).Contents (Elt F)),
    binary main_v173 main_v214 main_v215 (addf : (⟨S4096x1024, .f32⟩ : BufTy).Contents (Elt F) → (⟨S4096x1024, .f32⟩ : BufTy).Contents (Elt F) → (⟨S4096x1024, .f32⟩ : BufTy).Contents (Elt F)),
    unary main_arg3 main_v216 ((extractStridedSlice S1x1024x2816 ![5, 0, 0] · slices_S8x1024x2816_S1x1024x2816_5_0_0) : (⟨S8x1024x2816, .f32⟩ : BufTy).Contents (Elt F) → (⟨S1x1024x2816, .f32⟩ : BufTy).Contents (Elt F)),
    reshape main_v216 main_v217 rfl shapeCasts_S1x1024x2816_S1024x2816,
    binary main_arg0 main_v217 main_v218 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg6 main_v219 ((extractStridedSlice S1x1024x8 ![5, 0, 0] · slices_S8x1024x8_S1x1024x8_5_0_0) : (⟨S8x1024x8, .f32⟩ : BufTy).Contents (Elt F) → (⟨S1x1024x8, .f32⟩ : BufTy).Contents (Elt F)),
    reshape main_v219 main_v220 rfl shapeCasts_S1x1024x8_S1024x8,
    binary main_arg0 main_v220 main_v221 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg7 main_v222 ((extractStridedSlice S1x8x2816 ![5, 0, 0] · slices_S8x8x2816_S1x8x2816_5_0_0) : (⟨S8x8x2816, .f32⟩ : BufTy).Contents (Elt F) → (⟨S1x8x2816, .f32⟩ : BufTy).Contents (Elt F)) ]

/-- @main's operations 286 … 353 of 437 (window 4). -/
abbrev ops_part4 : List (HloOp τ sig (Elt F)) :=
  [ reshape main_v222 main_v223 rfl shapeCasts_S1x8x2816_S8x2816,
    binary main_v221 main_v223 main_v224 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_16 (constant S_ .f32 0x40000000#32),
    unary main_cst_16 main_v225 (broadcastInDim S4096x2816 ![] bcast_S_S4096x2816 : (⟨S_, .f32⟩ : BufTy).Contents (Elt F) → (⟨S4096x2816, .f32⟩ : BufTy).Contents (Elt F)),
    binary main_v225 main_v224 main_v226 (mulf : (⟨S4096x2816, .f32⟩ : BufTy).Contents (Elt F) → (⟨S4096x2816, .f32⟩ : BufTy).Contents (Elt F) → (⟨S4096x2816, .f32⟩ : BufTy).Contents (Elt F)),
    binary main_v218 main_v226 main_v227 (addf : (⟨S4096x2816, .f32⟩ : BufTy).Contents (Elt F) → (⟨S4096x2816, .f32⟩ : BufTy).Contents (Elt F) → (⟨S4096x2816, .f32⟩ : BufTy).Contents (Elt F)),
    unary main_arg4 main_v228 ((extractStridedSlice S1x1024x2816 ![5, 0, 0] · slices_S8x1024x2816_S1x1024x2816_5_0_0) : (⟨S8x1024x2816, .f32⟩ : BufTy).Contents (Elt F) → (⟨S1x1024x2816, .f32⟩ : BufTy).Contents (Elt F)),
    reshape main_v228 main_v229 rfl shapeCasts_S1x1024x2816_S1024x2816,
    binary main_arg0 main_v229 main_v230 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg8 main_v231 ((extractStridedSlice S1x1024x8 ![5, 0, 0] · slices_S8x1024x8_S1x1024x8_5_0_0) : (⟨S8x1024x8, .f32⟩ : BufTy).Contents (Elt F) → (⟨S1x1024x8, .f32⟩ : BufTy).Contents (Elt F)),
    reshape main_v231 main_v232 rfl shapeCasts_S1x1024x8_S1024x8,
    binary main_arg0 main_v232 main_v233 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg9 main_v234 ((extractStridedSlice S1x8x2816 ![5, 0, 0] · slices_S8x8x2816_S1x8x2816_5_0_0) : (⟨S8x8x2816, .f32⟩ : BufTy).Contents (Elt F) → (⟨S1x8x2816, .f32⟩ : BufTy).Contents (Elt F)),
    reshape main_v234 main_v235 rfl shapeCasts_S1x8x2816_S8x2816,
    binary main_v233 main_v235 main_v236 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_17 (constant S_ .f32 0x40000000#32),
    unary main_cst_17 main_v237 (broadcastInDim S4096x2816 ![] bcast_S_S4096x2816 : (⟨S_, .f32⟩ : BufTy).Contents (Elt F) → (⟨S4096x2816, .f32⟩ : BufTy).Contents (Elt F)),
    binary main_v237 main_v236 main_v238 (mulf : (⟨S4096x2816, .f32⟩ : BufTy).Contents (Elt F) → (⟨S4096x2816, .f32⟩ : BufTy).Contents (Elt F) → (⟨S4096x2816, .f32⟩ : BufTy).Contents (Elt F)),
    binary main_v230 main_v238 main_v239 (addf : (⟨S4096x2816, .f32⟩ : BufTy).Contents (Elt F) → (⟨S4096x2816, .f32⟩ : BufTy).Contents (Elt F) → (⟨S4096x2816, .f32⟩ : BufTy).Contents (Elt F)),
    TRef.unary (TRef.of (T := ⟨S4096x2816, .f32⟩) main_v227) (TRef.of (T := ⟨S4096x2816, .f32⟩) main_call6_v0) Host.negf,
    TRef.unary (TRef.of (T := ⟨S4096x2816, .f32⟩) main_call6_v0) (TRef.of (T := ⟨S4096x2816, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S4096x2816, .f32⟩) main_call6_v2) (broadcastInDim S4096x2816 ![] bcast_S_S4096x2816),
    TRef.binary (TRef.of (T := ⟨S4096x2816, .f32⟩) main_call6_v2) (TRef.of (T := ⟨S4096x2816, .f32⟩) main_call6_v1) (TRef.of (T := ⟨S4096x2816, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S4096x2816, .f32⟩) main_call6_v4) (broadcastInDim S4096x2816 ![] bcast_S_S4096x2816),
    TRef.binary (TRef.of (T := ⟨S4096x2816, .f32⟩) main_call6_v4) (TRef.of (T := ⟨S4096x2816, .f32⟩) main_call6_v3) (TRef.of (T := ⟨S4096x2816, .f32⟩) main_call6_v5) Host.divf,
    TRef.binary (TRef.of (T := ⟨S4096x2816, .f32⟩) main_v227) (TRef.of (T := ⟨S4096x2816, .f32⟩) main_call6_v5) (TRef.of (T := ⟨S4096x2816, .f32⟩) main_v240) mulf,
    binary main_v240 main_v239 main_v241 (mulf : (⟨S4096x2816, .f32⟩ : BufTy).Contents (Elt F) → (⟨S4096x2816, .f32⟩ : BufTy).Contents (Elt F) → (⟨S4096x2816, .f32⟩ : BufTy).Contents (Elt F)),
    unary main_arg5 main_v242 ((extractStridedSlice S1x2816x1024 ![5, 0, 0] · slices_S8x2816x1024_S1x2816x1024_5_0_0) : (⟨S8x2816x1024, .f32⟩ : BufTy).Contents (Elt F) → (⟨S1x2816x1024, .f32⟩ : BufTy).Contents (Elt F)),
    reshape main_v242 main_v243 rfl shapeCasts_S1x2816x1024_S2816x1024,
    binary main_v241 main_v243 main_v244 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    unary main_arg10 main_v245 ((extractStridedSlice S1x2816x8 ![5, 0, 0] · slices_S8x2816x8_S1x2816x8_5_0_0) : (⟨S8x2816x8, .f32⟩ : BufTy).Contents (Elt F) → (⟨S1x2816x8, .f32⟩ : BufTy).Contents (Elt F)),
    reshape main_v245 main_v246 rfl shapeCasts_S1x2816x8_S2816x8,
    binary main_v241 main_v246 main_v247 ((fun l r => Host.dotGeneral dot_S4096x2816_S2816x8_S4096x8_1_0_0_1_n_n none l r) : (⟨S4096x2816, .f32⟩ : BufTy).Contents (Elt F) → (⟨S2816x8, .f32⟩ : BufTy).Contents (Elt F) → (⟨S4096x8, .f32⟩ : BufTy).Contents (Elt F)),
    unary main_arg11 main_v248 ((extractStridedSlice S1x8x1024 ![5, 0, 0] · slices_S8x8x1024_S1x8x1024_5_0_0) : (⟨S8x8x1024, .f32⟩ : BufTy).Contents (Elt F) → (⟨S1x8x1024, .f32⟩ : BufTy).Contents (Elt F)),
    reshape main_v248 main_v249 rfl shapeCasts_S1x8x1024_S8x1024,
    binary main_v247 main_v249 main_v250 ((fun l r => Host.dotGeneral dot_S4096x8_S8x1024_S4096x1024_1_0_0_1_n_n none l r) : (⟨S4096x8, .f32⟩ : BufTy).Contents (Elt F) → (⟨S8x1024, .f32⟩ : BufTy).Contents (Elt F) → (⟨S4096x1024, .f32⟩ : BufTy).Contents (Elt F)),
    nullary main_cst_18 (constant S_ .f32 0x40000000#32),
    unary main_cst_18 main_v251 (broadcastInDim S4096x1024 ![] bcast_S_S4096x1024 : (⟨S_, .f32⟩ : BufTy).Contents (Elt F) → (⟨S4096x1024, .f32⟩ : BufTy).Contents (Elt F)),
    binary main_v251 main_v250 main_v252 (mulf : (⟨S4096x1024, .f32⟩ : BufTy).Contents (Elt F) → (⟨S4096x1024, .f32⟩ : BufTy).Contents (Elt F) → (⟨S4096x1024, .f32⟩ : BufTy).Contents (Elt F)),
    binary main_v244 main_v252 main_v253 (addf : (⟨S4096x1024, .f32⟩ : BufTy).Contents (Elt F) → (⟨S4096x1024, .f32⟩ : BufTy).Contents (Elt F) → (⟨S4096x1024, .f32⟩ : BufTy).Contents (Elt F)),
    unary main_v4 main_v254 ((extractStridedSlice S4096x1 ![0, 5] · slices_S4096x8_S4096x1_0_5) : (⟨S4096x8, .f32⟩ : BufTy).Contents (Elt F) → (⟨S4096x1, .f32⟩ : BufTy).Contents (Elt F)),
    unary main_v254 main_v255 (broadcastInDim S4096x1024 ![0, 1] bcast_S4096x1_S4096x1024_0_1 : (⟨S4096x1, .f32⟩ : BufTy).Contents (Elt F) → (⟨S4096x1024, .f32⟩ : BufTy).Contents (Elt F)),
    binary main_v255 main_v253 main_v256 (mulf : (⟨S4096x1024, .f32⟩ : BufTy).Contents (Elt F) → (⟨S4096x1024, .f32⟩ : BufTy).Contents (Elt F) → (⟨S4096x1024, .f32⟩ : BufTy).Contents (Elt F)),
    binary main_v215 main_v256 main_v257 (addf : (⟨S4096x1024, .f32⟩ : BufTy).Contents (Elt F) → (⟨S4096x1024, .f32⟩ : BufTy).Contents (Elt F) → (⟨S4096x1024, .f32⟩ : BufTy).Contents (Elt F)),
    unary main_arg3 main_v258 ((extractStridedSlice S1x1024x2816 ![6, 0, 0] · slices_S8x1024x2816_S1x1024x2816_6_0_0) : (⟨S8x1024x2816, .f32⟩ : BufTy).Contents (Elt F) → (⟨S1x1024x2816, .f32⟩ : BufTy).Contents (Elt F)),
    reshape main_v258 main_v259 rfl shapeCasts_S1x1024x2816_S1024x2816,
    binary main_arg0 main_v259 main_v260 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg6 main_v261 ((extractStridedSlice S1x1024x8 ![6, 0, 0] · slices_S8x1024x8_S1x1024x8_6_0_0) : (⟨S8x1024x8, .f32⟩ : BufTy).Contents (Elt F) → (⟨S1x1024x8, .f32⟩ : BufTy).Contents (Elt F)),
    reshape main_v261 main_v262 rfl shapeCasts_S1x1024x8_S1024x8,
    binary main_arg0 main_v262 main_v263 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg7 main_v264 ((extractStridedSlice S1x8x2816 ![6, 0, 0] · slices_S8x8x2816_S1x8x2816_6_0_0) : (⟨S8x8x2816, .f32⟩ : BufTy).Contents (Elt F) → (⟨S1x8x2816, .f32⟩ : BufTy).Contents (Elt F)),
    reshape main_v264 main_v265 rfl shapeCasts_S1x8x2816_S8x2816,
    binary main_v263 main_v265 main_v266 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_19 (constant S_ .f32 0x40000000#32),
    unary main_cst_19 main_v267 (broadcastInDim S4096x2816 ![] bcast_S_S4096x2816 : (⟨S_, .f32⟩ : BufTy).Contents (Elt F) → (⟨S4096x2816, .f32⟩ : BufTy).Contents (Elt F)),
    binary main_v267 main_v266 main_v268 (mulf : (⟨S4096x2816, .f32⟩ : BufTy).Contents (Elt F) → (⟨S4096x2816, .f32⟩ : BufTy).Contents (Elt F) → (⟨S4096x2816, .f32⟩ : BufTy).Contents (Elt F)),
    binary main_v260 main_v268 main_v269 (addf : (⟨S4096x2816, .f32⟩ : BufTy).Contents (Elt F) → (⟨S4096x2816, .f32⟩ : BufTy).Contents (Elt F) → (⟨S4096x2816, .f32⟩ : BufTy).Contents (Elt F)),
    unary main_arg4 main_v270 ((extractStridedSlice S1x1024x2816 ![6, 0, 0] · slices_S8x1024x2816_S1x1024x2816_6_0_0) : (⟨S8x1024x2816, .f32⟩ : BufTy).Contents (Elt F) → (⟨S1x1024x2816, .f32⟩ : BufTy).Contents (Elt F)),
    reshape main_v270 main_v271 rfl shapeCasts_S1x1024x2816_S1024x2816,
    binary main_arg0 main_v271 main_v272 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg8 main_v273 ((extractStridedSlice S1x1024x8 ![6, 0, 0] · slices_S8x1024x8_S1x1024x8_6_0_0) : (⟨S8x1024x8, .f32⟩ : BufTy).Contents (Elt F) → (⟨S1x1024x8, .f32⟩ : BufTy).Contents (Elt F)),
    reshape main_v273 main_v274 rfl shapeCasts_S1x1024x8_S1024x8,
    binary main_arg0 main_v274 main_v275 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg9 main_v276 ((extractStridedSlice S1x8x2816 ![6, 0, 0] · slices_S8x8x2816_S1x8x2816_6_0_0) : (⟨S8x8x2816, .f32⟩ : BufTy).Contents (Elt F) → (⟨S1x8x2816, .f32⟩ : BufTy).Contents (Elt F)),
    reshape main_v276 main_v277 rfl shapeCasts_S1x8x2816_S8x2816,
    binary main_v275 main_v277 main_v278 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)) ]

/-- @main's operations 354 … 429 of 437 (window 5). -/
abbrev ops_part5 : List (HloOp τ sig (Elt F)) :=
  [ nullary main_cst_20 (constant S_ .f32 0x40000000#32),
    unary main_cst_20 main_v279 (broadcastInDim S4096x2816 ![] bcast_S_S4096x2816 : (⟨S_, .f32⟩ : BufTy).Contents (Elt F) → (⟨S4096x2816, .f32⟩ : BufTy).Contents (Elt F)),
    binary main_v279 main_v278 main_v280 (mulf : (⟨S4096x2816, .f32⟩ : BufTy).Contents (Elt F) → (⟨S4096x2816, .f32⟩ : BufTy).Contents (Elt F) → (⟨S4096x2816, .f32⟩ : BufTy).Contents (Elt F)),
    binary main_v272 main_v280 main_v281 (addf : (⟨S4096x2816, .f32⟩ : BufTy).Contents (Elt F) → (⟨S4096x2816, .f32⟩ : BufTy).Contents (Elt F) → (⟨S4096x2816, .f32⟩ : BufTy).Contents (Elt F)),
    TRef.unary (TRef.of (T := ⟨S4096x2816, .f32⟩) main_v269) (TRef.of (T := ⟨S4096x2816, .f32⟩) main_call7_v0) Host.negf,
    TRef.unary (TRef.of (T := ⟨S4096x2816, .f32⟩) main_call7_v0) (TRef.of (T := ⟨S4096x2816, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S4096x2816, .f32⟩) main_call7_v2) (broadcastInDim S4096x2816 ![] bcast_S_S4096x2816),
    TRef.binary (TRef.of (T := ⟨S4096x2816, .f32⟩) main_call7_v2) (TRef.of (T := ⟨S4096x2816, .f32⟩) main_call7_v1) (TRef.of (T := ⟨S4096x2816, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S4096x2816, .f32⟩) main_call7_v4) (broadcastInDim S4096x2816 ![] bcast_S_S4096x2816),
    TRef.binary (TRef.of (T := ⟨S4096x2816, .f32⟩) main_call7_v4) (TRef.of (T := ⟨S4096x2816, .f32⟩) main_call7_v3) (TRef.of (T := ⟨S4096x2816, .f32⟩) main_call7_v5) Host.divf,
    TRef.binary (TRef.of (T := ⟨S4096x2816, .f32⟩) main_v269) (TRef.of (T := ⟨S4096x2816, .f32⟩) main_call7_v5) (TRef.of (T := ⟨S4096x2816, .f32⟩) main_v282) mulf,
    binary main_v282 main_v281 main_v283 (mulf : (⟨S4096x2816, .f32⟩ : BufTy).Contents (Elt F) → (⟨S4096x2816, .f32⟩ : BufTy).Contents (Elt F) → (⟨S4096x2816, .f32⟩ : BufTy).Contents (Elt F)),
    unary main_arg5 main_v284 ((extractStridedSlice S1x2816x1024 ![6, 0, 0] · slices_S8x2816x1024_S1x2816x1024_6_0_0) : (⟨S8x2816x1024, .f32⟩ : BufTy).Contents (Elt F) → (⟨S1x2816x1024, .f32⟩ : BufTy).Contents (Elt F)),
    reshape main_v284 main_v285 rfl shapeCasts_S1x2816x1024_S2816x1024,
    binary main_v283 main_v285 main_v286 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    unary main_arg10 main_v287 ((extractStridedSlice S1x2816x8 ![6, 0, 0] · slices_S8x2816x8_S1x2816x8_6_0_0) : (⟨S8x2816x8, .f32⟩ : BufTy).Contents (Elt F) → (⟨S1x2816x8, .f32⟩ : BufTy).Contents (Elt F)),
    reshape main_v287 main_v288 rfl shapeCasts_S1x2816x8_S2816x8,
    binary main_v283 main_v288 main_v289 ((fun l r => Host.dotGeneral dot_S4096x2816_S2816x8_S4096x8_1_0_0_1_n_n none l r) : (⟨S4096x2816, .f32⟩ : BufTy).Contents (Elt F) → (⟨S2816x8, .f32⟩ : BufTy).Contents (Elt F) → (⟨S4096x8, .f32⟩ : BufTy).Contents (Elt F)),
    unary main_arg11 main_v290 ((extractStridedSlice S1x8x1024 ![6, 0, 0] · slices_S8x8x1024_S1x8x1024_6_0_0) : (⟨S8x8x1024, .f32⟩ : BufTy).Contents (Elt F) → (⟨S1x8x1024, .f32⟩ : BufTy).Contents (Elt F)),
    reshape main_v290 main_v291 rfl shapeCasts_S1x8x1024_S8x1024,
    binary main_v289 main_v291 main_v292 ((fun l r => Host.dotGeneral dot_S4096x8_S8x1024_S4096x1024_1_0_0_1_n_n none l r) : (⟨S4096x8, .f32⟩ : BufTy).Contents (Elt F) → (⟨S8x1024, .f32⟩ : BufTy).Contents (Elt F) → (⟨S4096x1024, .f32⟩ : BufTy).Contents (Elt F)),
    nullary main_cst_21 (constant S_ .f32 0x40000000#32),
    unary main_cst_21 main_v293 (broadcastInDim S4096x1024 ![] bcast_S_S4096x1024 : (⟨S_, .f32⟩ : BufTy).Contents (Elt F) → (⟨S4096x1024, .f32⟩ : BufTy).Contents (Elt F)),
    binary main_v293 main_v292 main_v294 (mulf : (⟨S4096x1024, .f32⟩ : BufTy).Contents (Elt F) → (⟨S4096x1024, .f32⟩ : BufTy).Contents (Elt F) → (⟨S4096x1024, .f32⟩ : BufTy).Contents (Elt F)),
    binary main_v286 main_v294 main_v295 (addf : (⟨S4096x1024, .f32⟩ : BufTy).Contents (Elt F) → (⟨S4096x1024, .f32⟩ : BufTy).Contents (Elt F) → (⟨S4096x1024, .f32⟩ : BufTy).Contents (Elt F)),
    unary main_v4 main_v296 ((extractStridedSlice S4096x1 ![0, 6] · slices_S4096x8_S4096x1_0_6) : (⟨S4096x8, .f32⟩ : BufTy).Contents (Elt F) → (⟨S4096x1, .f32⟩ : BufTy).Contents (Elt F)),
    unary main_v296 main_v297 (broadcastInDim S4096x1024 ![0, 1] bcast_S4096x1_S4096x1024_0_1 : (⟨S4096x1, .f32⟩ : BufTy).Contents (Elt F) → (⟨S4096x1024, .f32⟩ : BufTy).Contents (Elt F)),
    binary main_v297 main_v295 main_v298 (mulf : (⟨S4096x1024, .f32⟩ : BufTy).Contents (Elt F) → (⟨S4096x1024, .f32⟩ : BufTy).Contents (Elt F) → (⟨S4096x1024, .f32⟩ : BufTy).Contents (Elt F)),
    binary main_v257 main_v298 main_v299 (addf : (⟨S4096x1024, .f32⟩ : BufTy).Contents (Elt F) → (⟨S4096x1024, .f32⟩ : BufTy).Contents (Elt F) → (⟨S4096x1024, .f32⟩ : BufTy).Contents (Elt F)),
    unary main_arg3 main_v300 ((extractStridedSlice S1x1024x2816 ![7, 0, 0] · slices_S8x1024x2816_S1x1024x2816_7_0_0) : (⟨S8x1024x2816, .f32⟩ : BufTy).Contents (Elt F) → (⟨S1x1024x2816, .f32⟩ : BufTy).Contents (Elt F)),
    reshape main_v300 main_v301 rfl shapeCasts_S1x1024x2816_S1024x2816,
    binary main_arg0 main_v301 main_v302 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg6 main_v303 ((extractStridedSlice S1x1024x8 ![7, 0, 0] · slices_S8x1024x8_S1x1024x8_7_0_0) : (⟨S8x1024x8, .f32⟩ : BufTy).Contents (Elt F) → (⟨S1x1024x8, .f32⟩ : BufTy).Contents (Elt F)),
    reshape main_v303 main_v304 rfl shapeCasts_S1x1024x8_S1024x8,
    binary main_arg0 main_v304 main_v305 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg7 main_v306 ((extractStridedSlice S1x8x2816 ![7, 0, 0] · slices_S8x8x2816_S1x8x2816_7_0_0) : (⟨S8x8x2816, .f32⟩ : BufTy).Contents (Elt F) → (⟨S1x8x2816, .f32⟩ : BufTy).Contents (Elt F)),
    reshape main_v306 main_v307 rfl shapeCasts_S1x8x2816_S8x2816,
    binary main_v305 main_v307 main_v308 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_22 (constant S_ .f32 0x40000000#32),
    unary main_cst_22 main_v309 (broadcastInDim S4096x2816 ![] bcast_S_S4096x2816 : (⟨S_, .f32⟩ : BufTy).Contents (Elt F) → (⟨S4096x2816, .f32⟩ : BufTy).Contents (Elt F)),
    binary main_v309 main_v308 main_v310 (mulf : (⟨S4096x2816, .f32⟩ : BufTy).Contents (Elt F) → (⟨S4096x2816, .f32⟩ : BufTy).Contents (Elt F) → (⟨S4096x2816, .f32⟩ : BufTy).Contents (Elt F)),
    binary main_v302 main_v310 main_v311 (addf : (⟨S4096x2816, .f32⟩ : BufTy).Contents (Elt F) → (⟨S4096x2816, .f32⟩ : BufTy).Contents (Elt F) → (⟨S4096x2816, .f32⟩ : BufTy).Contents (Elt F)),
    unary main_arg4 main_v312 ((extractStridedSlice S1x1024x2816 ![7, 0, 0] · slices_S8x1024x2816_S1x1024x2816_7_0_0) : (⟨S8x1024x2816, .f32⟩ : BufTy).Contents (Elt F) → (⟨S1x1024x2816, .f32⟩ : BufTy).Contents (Elt F)),
    reshape main_v312 main_v313 rfl shapeCasts_S1x1024x2816_S1024x2816,
    binary main_arg0 main_v313 main_v314 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    unary main_arg8 main_v315 ((extractStridedSlice S1x1024x8 ![7, 0, 0] · slices_S8x1024x8_S1x1024x8_7_0_0) : (⟨S8x1024x8, .f32⟩ : BufTy).Contents (Elt F) → (⟨S1x1024x8, .f32⟩ : BufTy).Contents (Elt F)),
    reshape main_v315 main_v316 rfl shapeCasts_S1x1024x8_S1024x8,
    binary main_arg0 main_v316 main_v317 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg9 main_v318 ((extractStridedSlice S1x8x2816 ![7, 0, 0] · slices_S8x8x2816_S1x8x2816_7_0_0) : (⟨S8x8x2816, .f32⟩ : BufTy).Contents (Elt F) → (⟨S1x8x2816, .f32⟩ : BufTy).Contents (Elt F)),
    reshape main_v318 main_v319 rfl shapeCasts_S1x8x2816_S8x2816,
    binary main_v317 main_v319 main_v320 ((fun l r => Host.dotGeneral dot_S4096x8_S8x2816_S4096x2816_1_0_0_1_n_n none l r) : (⟨S4096x8, .f32⟩ : BufTy).Contents (Elt F) → (⟨S8x2816, .f32⟩ : BufTy).Contents (Elt F) → (⟨S4096x2816, .f32⟩ : BufTy).Contents (Elt F)),
    nullary main_cst_23 (constant S_ .f32 0x40000000#32),
    unary main_cst_23 main_v321 (broadcastInDim S4096x2816 ![] bcast_S_S4096x2816 : (⟨S_, .f32⟩ : BufTy).Contents (Elt F) → (⟨S4096x2816, .f32⟩ : BufTy).Contents (Elt F)),
    binary main_v321 main_v320 main_v322 (mulf : (⟨S4096x2816, .f32⟩ : BufTy).Contents (Elt F) → (⟨S4096x2816, .f32⟩ : BufTy).Contents (Elt F) → (⟨S4096x2816, .f32⟩ : BufTy).Contents (Elt F)),
    binary main_v314 main_v322 main_v323 (addf : (⟨S4096x2816, .f32⟩ : BufTy).Contents (Elt F) → (⟨S4096x2816, .f32⟩ : BufTy).Contents (Elt F) → (⟨S4096x2816, .f32⟩ : BufTy).Contents (Elt F)),
    TRef.unary (TRef.of (T := ⟨S4096x2816, .f32⟩) main_v311) (TRef.of (T := ⟨S4096x2816, .f32⟩) main_call8_v0) Host.negf,
    TRef.unary (TRef.of (T := ⟨S4096x2816, .f32⟩) main_call8_v0) (TRef.of (T := ⟨S4096x2816, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S4096x2816, .f32⟩) main_call8_v2) (broadcastInDim S4096x2816 ![] bcast_S_S4096x2816),
    TRef.binary (TRef.of (T := ⟨S4096x2816, .f32⟩) main_call8_v2) (TRef.of (T := ⟨S4096x2816, .f32⟩) main_call8_v1) (TRef.of (T := ⟨S4096x2816, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S4096x2816, .f32⟩) main_call8_v4) (broadcastInDim S4096x2816 ![] bcast_S_S4096x2816),
    TRef.binary (TRef.of (T := ⟨S4096x2816, .f32⟩) main_call8_v4) (TRef.of (T := ⟨S4096x2816, .f32⟩) main_call8_v3) (TRef.of (T := ⟨S4096x2816, .f32⟩) main_call8_v5) Host.divf,
    TRef.binary (TRef.of (T := ⟨S4096x2816, .f32⟩) main_v311) (TRef.of (T := ⟨S4096x2816, .f32⟩) main_call8_v5) (TRef.of (T := ⟨S4096x2816, .f32⟩) main_v324) mulf,
    binary main_v324 main_v323 main_v325 (mulf : (⟨S4096x2816, .f32⟩ : BufTy).Contents (Elt F) → (⟨S4096x2816, .f32⟩ : BufTy).Contents (Elt F) → (⟨S4096x2816, .f32⟩ : BufTy).Contents (Elt F)),
    unary main_arg5 main_v326 ((extractStridedSlice S1x2816x1024 ![7, 0, 0] · slices_S8x2816x1024_S1x2816x1024_7_0_0) : (⟨S8x2816x1024, .f32⟩ : BufTy).Contents (Elt F) → (⟨S1x2816x1024, .f32⟩ : BufTy).Contents (Elt F)),
    reshape main_v326 main_v327 rfl shapeCasts_S1x2816x1024_S2816x1024,
    binary main_v325 main_v327 main_v328 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    unary main_arg10 main_v329 ((extractStridedSlice S1x2816x8 ![7, 0, 0] · slices_S8x2816x8_S1x2816x8_7_0_0) : (⟨S8x2816x8, .f32⟩ : BufTy).Contents (Elt F) → (⟨S1x2816x8, .f32⟩ : BufTy).Contents (Elt F)),
    reshape main_v329 main_v330 rfl shapeCasts_S1x2816x8_S2816x8,
    binary main_v325 main_v330 main_v331 ((fun l r => Host.dotGeneral dot_S4096x2816_S2816x8_S4096x8_1_0_0_1_n_n none l r) : (⟨S4096x2816, .f32⟩ : BufTy).Contents (Elt F) → (⟨S2816x8, .f32⟩ : BufTy).Contents (Elt F) → (⟨S4096x8, .f32⟩ : BufTy).Contents (Elt F)),
    unary main_arg11 main_v332 ((extractStridedSlice S1x8x1024 ![7, 0, 0] · slices_S8x8x1024_S1x8x1024_7_0_0) : (⟨S8x8x1024, .f32⟩ : BufTy).Contents (Elt F) → (⟨S1x8x1024, .f32⟩ : BufTy).Contents (Elt F)),
    reshape main_v332 main_v333 rfl shapeCasts_S1x8x1024_S8x1024,
    binary main_v331 main_v333 main_v334 ((fun l r => Host.dotGeneral dot_S4096x8_S8x1024_S4096x1024_1_0_0_1_n_n none l r) : (⟨S4096x8, .f32⟩ : BufTy).Contents (Elt F) → (⟨S8x1024, .f32⟩ : BufTy).Contents (Elt F) → (⟨S4096x1024, .f32⟩ : BufTy).Contents (Elt F)) ]

/-- @main's operations 430 … 437 of 437 (window 6). -/
abbrev ops_part6 : List (HloOp τ sig (Elt F)) :=
  [ nullary main_cst_24 (constant S_ .f32 0x40000000#32),
    unary main_cst_24 main_v335 (broadcastInDim S4096x1024 ![] bcast_S_S4096x1024 : (⟨S_, .f32⟩ : BufTy).Contents (Elt F) → (⟨S4096x1024, .f32⟩ : BufTy).Contents (Elt F)),
    binary main_v335 main_v334 main_v336 (mulf : (⟨S4096x1024, .f32⟩ : BufTy).Contents (Elt F) → (⟨S4096x1024, .f32⟩ : BufTy).Contents (Elt F) → (⟨S4096x1024, .f32⟩ : BufTy).Contents (Elt F)),
    binary main_v328 main_v336 main_v337 (addf : (⟨S4096x1024, .f32⟩ : BufTy).Contents (Elt F) → (⟨S4096x1024, .f32⟩ : BufTy).Contents (Elt F) → (⟨S4096x1024, .f32⟩ : BufTy).Contents (Elt F)),
    unary main_v4 main_v338 ((extractStridedSlice S4096x1 ![0, 7] · slices_S4096x8_S4096x1_0_7) : (⟨S4096x8, .f32⟩ : BufTy).Contents (Elt F) → (⟨S4096x1, .f32⟩ : BufTy).Contents (Elt F)),
    unary main_v338 main_v339 (broadcastInDim S4096x1024 ![0, 1] bcast_S4096x1_S4096x1024_0_1 : (⟨S4096x1, .f32⟩ : BufTy).Contents (Elt F) → (⟨S4096x1024, .f32⟩ : BufTy).Contents (Elt F)),
    binary main_v339 main_v337 main_v340 (mulf : (⟨S4096x1024, .f32⟩ : BufTy).Contents (Elt F) → (⟨S4096x1024, .f32⟩ : BufTy).Contents (Elt F) → (⟨S4096x1024, .f32⟩ : BufTy).Contents (Elt F)),
    binary main_v299 main_v340 main_v341 (addf : (⟨S4096x1024, .f32⟩ : BufTy).Contents (Elt F) → (⟨S4096x1024, .f32⟩ : BufTy).Contents (Elt F) → (⟨S4096x1024, .f32⟩ : BufTy).Contents (Elt F)) ]

/-- @main's 437 operations, in order. -/
abbrev ops : List (HloOp τ sig (Elt F)) :=
  ops_part0 ++ (ops_part1 ++ (ops_part2 ++ (ops_part3 ++ (ops_part4 ++ (ops_part5 ++ (ops_part6))))))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_part6_eq (c : Dev nD) : main_part6 (F := F) c = seq ops_part6 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨unary_bufs_sub .., nullary_bufs_sub .., unary_bufs_sub .., unary_bufs_sub .., binary_bufs_sub .., unary_bufs_sub .., unary_bufs_sub .., unary_bufs_sub .., binary_bufs_sub .., nullary_bufs_sub .., binary_bufs_sub .., nullary_bufs_sub .., unary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., unary_bufs_sub .., binary_bufs_sub .., binary_bufs_sub .., unary_bufs_sub .., reshape_bufs_sub .., binary_bufs_sub .., unary_bufs_sub .., reshape_bufs_sub .., binary_bufs_sub .., unary_bufs_sub ..⟩
set_option maxRecDepth 8192 in
theorem ops_part1_sub : (ops_part1 : List (HloOp τ sig (Elt F))).Forall fun op => op.bufs ⊆ tcRefs τ sig :=
  ⟨reshape_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., unary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩
set_option maxRecDepth 8192 in
theorem ops_part2_sub : (ops_part2 : List (HloOp τ sig (Elt F))).Forall fun op => op.bufs ⊆ tcRefs τ sig :=
  ⟨nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., unary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩
set_option maxRecDepth 8192 in
theorem ops_part3_sub : (ops_part3 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., unary_bufs_sub .., binary_bufs_sub .., binary_bufs_sub .., unary_bufs_sub .., reshape_bufs_sub .., binary_bufs_sub .., unary_bufs_sub .., reshape_bufs_sub .., binary_bufs_sub .., unary_bufs_sub ..⟩
set_option maxRecDepth 8192 in
theorem ops_part4_sub : (ops_part4 : List (HloOp τ sig (Elt F))).Forall fun op => op.bufs ⊆ tcRefs τ sig :=
  ⟨reshape_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., unary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩
set_option maxRecDepth 8192 in
theorem ops_part5_sub : (ops_part5 : List (HloOp τ sig (Elt F))).Forall fun op => op.bufs ⊆ tcRefs τ sig :=
  ⟨nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., unary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩
set_option maxRecDepth 8192 in
theorem ops_part6_sub : (ops_part6 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h]

/-! ## The values a window hands on, as the operations' terms of the arguments -/

set_option maxRecDepth 8192 in
/-- What `main_v4` holds, of the arguments. -/
def r_main_v4 (V0 : Valuation τ sig (Elt F)) : (Proc.devRef .tc main_v4 : DevRef τ sig).ty.Contents (Elt F) :=
  Host.reduceAdd (mulf (uitofp .f32 (cmpi .eq (broadcastInDim S4096x2x8 ![0, 1, 2] bcast_S4096x2x1_S4096x2x8_0_1_2 (broadcastInDim S4096x2x1 ![0, 1] bcast_S4096x2_S4096x2x1_0_1 (V0 (Proc.devRef .tc main_arg2)))) (broadcastInDim S4096x2x8 ![0, 1, 2] bcast_S1x1x8_S4096x2x8_0_1_2 (iotaInDim S1x1x8 32 2)))) (broadcastInDim S4096x2x8 ![0, 1, 2] bcast_S4096x2x1_S4096x2x8_0_1_2 (broadcastInDim S4096x2x1 ![0, 1] bcast_S4096x2_S4096x2x1_0_1 (V0 (Proc.devRef .tc main_arg1))))) (constant (F := F) S_ .f32 0x00000000#32) reducesTo_S4096x2x8_S4096x8_d1 h_S_

set_option maxRecDepth 8192 in
/-- What `main_v47` holds, of the arguments. -/
def r_main_v47 (V0 : Valuation τ sig (Elt F)) : (Proc.devRef .tc main_v47 : DevRef τ sig).ty.Contents (Elt F) :=
  addf (broadcastInDim S4096x1024 ![] bcast_S_S4096x1024 (constant (F := F) S_ .f32 0x00000000#32)) (mulf (broadcastInDim S4096x1024 ![0, 1] bcast_S4096x1_S4096x1024_0_1 (extractStridedSlice S4096x1 ![0, 0] (Host.reduceAdd (mulf (uitofp .f32 (cmpi .eq (broadcastInDim S4096x2x8 ![0, 1, 2] bcast_S4096x2x1_S4096x2x8_0_1_2 (broadcastInDim S4096x2x1 ![0, 1] bcast_S4096x2_S4096x2x1_0_1 (V0 (Proc.devRef .tc main_arg2)))) (broadcastInDim S4096x2x8 ![0, 1, 2] bcast_S1x1x8_S4096x2x8_0_1_2 (iotaInDim S1x1x8 32 2)))) (broadcastInDim S4096x2x8 ![0, 1, 2] bcast_S4096x2x1_S4096x2x8_0_1_2 (broadcastInDim S4096x2x1 ![0, 1] bcast_S4096x2_S4096x2x1_0_1 (V0 (Proc.devRef .tc main_arg1))))) (constant (F := F) S_ .f32 0x00000000#32) reducesTo_S4096x2x8_S4096x8_d1 h_S_) slices_S4096x8_S4096x1_0_0)) (addf (Host.dotGeneral dot_S4096x2816_S2816x1024_S4096x1024_1_0_0_1_n_n none (mulf (mulf (addf (Host.dotGeneral dot_S4096x1024_S1024x2816_S4096x2816_1_0_0_1_n_n none (V0 (Proc.devRef .tc main_arg0)) (shapeCast _ (extractStridedSlice S1x1024x2816 ![0, 0, 0] (V0 (Proc.devRef .tc main_arg3)) slices_S8x1024x2816_S1x1024x2816_0_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![0, 0, 0] (V0 (Proc.devRef .tc main_arg6)) slices_S8x1024x8_S1x1024x8_0_0_0) shapeCasts_S1x1024x8_S1024x8)) (shapeCast _ (extractStridedSlice S1x8x2816 ![0, 0, 0] (V0 (Proc.devRef .tc main_arg7)) slices_S8x8x2816_S1x8x2816_0_0_0) shapeCasts_S1x8x2816_S8x2816)))) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (addf (Host.dotGeneral dot_S4096x1024_S1024x2816_S4096x2816_1_0_0_1_n_n none (V0 (Proc.devRef .tc main_arg0)) (shapeCast _ (extractStridedSlice S1x1024x2816 ![0, 0, 0] (V0 (Proc.devRef .tc main_arg3)) slices_S8x1024x2816_S1x1024x2816_0_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![0, 0, 0] (V0 (Proc.devRef .tc main_arg6)) slices_S8x1024x8_S1x1024x8_0_0_0) shapeCasts_S1x1024x8_S1024x8)) (shapeCast _ (extractStridedSlice S1x8x2816 ![0, 0, 0] (V0 (Proc.devRef .tc main_arg7)) slices_S8x8x2816_S1x8x2816_0_0_0) shapeCasts_S1x8x2816_S8x2816))))))))) (addf (Host.dotGeneral dot_S4096x1024_S1024x2816_S4096x2816_1_0_0_1_n_n none (V0 (Proc.devRef .tc main_arg0)) (shapeCast _ (extractStridedSlice S1x1024x2816 ![0, 0, 0] (V0 (Proc.devRef .tc main_arg4)) slices_S8x1024x2816_S1x1024x2816_0_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![0, 0, 0] (V0 (Proc.devRef .tc main_arg8)) slices_S8x1024x8_S1x1024x8_0_0_0) shapeCasts_S1x1024x8_S1024x8)) (shapeCast _ (extractStridedSlice S1x8x2816 ![0, 0, 0] (V0 (Proc.devRef .tc main_arg9)) slices_S8x8x2816_S1x8x2816_0_0_0) shapeCasts_S1x8x2816_S8x2816))))) (shapeCast _ (extractStridedSlice S1x2816x1024 ![0, 0, 0] (V0 (Proc.devRef .tc main_arg5)) slices_S8x2816x1024_S1x2816x1024_0_0_0) shapeCasts_S1x2816x1024_S2816x1024)) (mulf (broadcastInDim S4096x1024 ![] bcast_S_S4096x1024 (constant (F := F) S_ .f32 0x40000000#32)) (Host.dotGeneral dot_S4096x8_S8x1024_S4096x1024_1_0_0_1_n_n none (Host.dotGeneral dot_S4096x2816_S2816x8_S4096x8_1_0_0_1_n_n none (mulf (mulf (addf (Host.dotGeneral dot_S4096x1024_S1024x2816_S4096x2816_1_0_0_1_n_n none (V0 (Proc.devRef .tc main_arg0)) (shapeCast _ (extractStridedSlice S1x1024x2816 ![0, 0, 0] (V0 (Proc.devRef .tc main_arg3)) slices_S8x1024x2816_S1x1024x2816_0_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![0, 0, 0] (V0 (Proc.devRef .tc main_arg6)) slices_S8x1024x8_S1x1024x8_0_0_0) shapeCasts_S1x1024x8_S1024x8)) (shapeCast _ (extractStridedSlice S1x8x2816 ![0, 0, 0] (V0 (Proc.devRef .tc main_arg7)) slices_S8x8x2816_S1x8x2816_0_0_0) shapeCasts_S1x8x2816_S8x2816)))) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (addf (Host.dotGeneral dot_S4096x1024_S1024x2816_S4096x2816_1_0_0_1_n_n none (V0 (Proc.devRef .tc main_arg0)) (shapeCast _ (extractStridedSlice S1x1024x2816 ![0, 0, 0] (V0 (Proc.devRef .tc main_arg3)) slices_S8x1024x2816_S1x1024x2816_0_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![0, 0, 0] (V0 (Proc.devRef .tc main_arg6)) slices_S8x1024x8_S1x1024x8_0_0_0) shapeCasts_S1x1024x8_S1024x8)) (shapeCast _ (extractStridedSlice S1x8x2816 ![0, 0, 0] (V0 (Proc.devRef .tc main_arg7)) slices_S8x8x2816_S1x8x2816_0_0_0) shapeCasts_S1x8x2816_S8x2816))))))))) (addf (Host.dotGeneral dot_S4096x1024_S1024x2816_S4096x2816_1_0_0_1_n_n none (V0 (Proc.devRef .tc main_arg0)) (shapeCast _ (extractStridedSlice S1x1024x2816 ![0, 0, 0] (V0 (Proc.devRef .tc main_arg4)) slices_S8x1024x2816_S1x1024x2816_0_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![0, 0, 0] (V0 (Proc.devRef .tc main_arg8)) slices_S8x1024x8_S1x1024x8_0_0_0) shapeCasts_S1x1024x8_S1024x8)) (shapeCast _ (extractStridedSlice S1x8x2816 ![0, 0, 0] (V0 (Proc.devRef .tc main_arg9)) slices_S8x8x2816_S1x8x2816_0_0_0) shapeCasts_S1x8x2816_S8x2816))))) (shapeCast _ (extractStridedSlice S1x2816x8 ![0, 0, 0] (V0 (Proc.devRef .tc main_arg10)) slices_S8x2816x8_S1x2816x8_0_0_0) shapeCasts_S1x2816x8_S2816x8)) (shapeCast _ (extractStridedSlice S1x8x1024 ![0, 0, 0] (V0 (Proc.devRef .tc main_arg11)) slices_S8x8x1024_S1x8x1024_0_0_0) shapeCasts_S1x8x1024_S8x1024)))))

set_option maxRecDepth 8192 in
/-- What `main_v50` holds, of the arguments. -/
def r_main_v50 (V0 : Valuation τ sig (Elt F)) : (Proc.devRef .tc main_v50 : DevRef τ sig).ty.Contents (Elt F) :=
  Host.dotGeneral dot_S4096x1024_S1024x2816_S4096x2816_1_0_0_1_n_n none (V0 (Proc.devRef .tc main_arg0)) (shapeCast _ (extractStridedSlice S1x1024x2816 ![1, 0, 0] (V0 (Proc.devRef .tc main_arg3)) slices_S8x1024x2816_S1x1024x2816_1_0_0) shapeCasts_S1x1024x2816_S1024x2816)

set_option maxRecDepth 8192 in
/-- What `main_v53` holds, of the arguments. -/
def r_main_v53 (V0 : Valuation τ sig (Elt F)) : (Proc.devRef .tc main_v53 : DevRef τ sig).ty.Contents (Elt F) :=
  Host.dotGeneral dot_S4096x1024_S1024x8_S4096x8_1_0_0_1_n_n none (V0 (Proc.devRef .tc main_arg0)) (shapeCast _ (extractStridedSlice S1x1024x8 ![1, 0, 0] (V0 (Proc.devRef .tc main_arg6)) slices_S8x1024x8_S1x1024x8_1_0_0) shapeCasts_S1x1024x8_S1024x8)

set_option maxRecDepth 8192 in
/-- What `main_v54` holds, of the arguments. -/
def r_main_v54 (V0 : Valuation τ sig (Elt F)) : (Proc.devRef .tc main_v54 : DevRef τ sig).ty.Contents (Elt F) :=
  extractStridedSlice S1x8x2816 ![1, 0, 0] (V0 (Proc.devRef .tc main_arg7)) slices_S8x8x2816_S1x8x2816_1_0_0

set_option maxRecDepth 8192 in
/-- What `main_v89` holds, of the arguments. -/
def r_main_v89 (V0 : Valuation τ sig (Elt F)) : (Proc.devRef .tc main_v89 : DevRef τ sig).ty.Contents (Elt F) :=
  addf (r_main_v47 V0) (mulf (broadcastInDim S4096x1024 ![0, 1] bcast_S4096x1_S4096x1024_0_1 (extractStridedSlice S4096x1 ![0, 1] (r_main_v4 V0) slices_S4096x8_S4096x1_0_1)) (addf (Host.dotGeneral dot_S4096x2816_S2816x1024_S4096x1024_1_0_0_1_n_n none (mulf (mulf (addf (r_main_v50 V0) (mulf (broadcastInDim S4096x2816 ![] bcast_S_S4096x2816 (constant (F := F) S_ .f32 0x40000000#32)) (Host.dotGeneral dot_S4096x8_S8x2816_S4096x2816_1_0_0_1_n_n none (r_main_v53 V0) (shapeCast _ (r_main_v54 V0) shapeCasts_S1x8x2816_S8x2816)))) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (addf (r_main_v50 V0) (mulf (broadcastInDim S4096x2816 ![] bcast_S_S4096x2816 (constant (F := F) S_ .f32 0x40000000#32)) (Host.dotGeneral dot_S4096x8_S8x2816_S4096x2816_1_0_0_1_n_n none (r_main_v53 V0) (shapeCast _ (r_main_v54 V0) shapeCasts_S1x8x2816_S8x2816))))))))) (addf (Host.dotGeneral dot_S4096x1024_S1024x2816_S4096x2816_1_0_0_1_n_n none (V0 (Proc.devRef .tc main_arg0)) (shapeCast _ (extractStridedSlice S1x1024x2816 ![1, 0, 0] (V0 (Proc.devRef .tc main_arg4)) slices_S8x1024x2816_S1x1024x2816_1_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![1, 0, 0] (V0 (Proc.devRef .tc main_arg8)) slices_S8x1024x8_S1x1024x8_1_0_0) shapeCasts_S1x1024x8_S1024x8)) (shapeCast _ (extractStridedSlice S1x8x2816 ![1, 0, 0] (V0 (Proc.devRef .tc main_arg9)) slices_S8x8x2816_S1x8x2816_1_0_0) shapeCasts_S1x8x2816_S8x2816))))) (shapeCast _ (extractStridedSlice S1x2816x1024 ![1, 0, 0] (V0 (Proc.devRef .tc main_arg5)) slices_S8x2816x1024_S1x2816x1024_1_0_0) shapeCasts_S1x2816x1024_S2816x1024)) (mulf (broadcastInDim S4096x1024 ![] bcast_S_S4096x1024 (constant (F := F) S_ .f32 0x40000000#32)) (Host.dotGeneral dot_S4096x8_S8x1024_S4096x1024_1_0_0_1_n_n none (Host.dotGeneral dot_S4096x2816_S2816x8_S4096x8_1_0_0_1_n_n none (mulf (mulf (addf (r_main_v50 V0) (mulf (broadcastInDim S4096x2816 ![] bcast_S_S4096x2816 (constant (F := F) S_ .f32 0x40000000#32)) (Host.dotGeneral dot_S4096x8_S8x2816_S4096x2816_1_0_0_1_n_n none (r_main_v53 V0) (shapeCast _ (r_main_v54 V0) shapeCasts_S1x8x2816_S8x2816)))) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (addf (r_main_v50 V0) (mulf (broadcastInDim S4096x2816 ![] bcast_S_S4096x2816 (constant (F := F) S_ .f32 0x40000000#32)) (Host.dotGeneral dot_S4096x8_S8x2816_S4096x2816_1_0_0_1_n_n none (r_main_v53 V0) (shapeCast _ (r_main_v54 V0) shapeCasts_S1x8x2816_S8x2816))))))))) (addf (Host.dotGeneral dot_S4096x1024_S1024x2816_S4096x2816_1_0_0_1_n_n none (V0 (Proc.devRef .tc main_arg0)) (shapeCast _ (extractStridedSlice S1x1024x2816 ![1, 0, 0] (V0 (Proc.devRef .tc main_arg4)) slices_S8x1024x2816_S1x1024x2816_1_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![1, 0, 0] (V0 (Proc.devRef .tc main_arg8)) slices_S8x1024x8_S1x1024x8_1_0_0) shapeCasts_S1x1024x8_S1024x8)) (shapeCast _ (extractStridedSlice S1x8x2816 ![1, 0, 0] (V0 (Proc.devRef .tc main_arg9)) slices_S8x8x2816_S1x8x2816_1_0_0) shapeCasts_S1x8x2816_S8x2816))))) (shapeCast _ (extractStridedSlice S1x2816x8 ![1, 0, 0] (V0 (Proc.devRef .tc main_arg10)) slices_S8x2816x8_S1x2816x8_1_0_0) shapeCasts_S1x2816x8_S2816x8)) (shapeCast _ (extractStridedSlice S1x8x1024 ![1, 0, 0] (V0 (Proc.devRef .tc main_arg11)) slices_S8x8x1024_S1x8x1024_1_0_0) shapeCasts_S1x8x1024_S8x1024)))))

set_option maxRecDepth 8192 in
/-- What `main_v101` holds, of the arguments. -/
def r_main_v101 (V0 : Valuation τ sig (Elt F)) : (Proc.devRef .tc main_v101 : DevRef τ sig).ty.Contents (Elt F) :=
  addf (Host.dotGeneral dot_S4096x1024_S1024x2816_S4096x2816_1_0_0_1_n_n none (V0 (Proc.devRef .tc main_arg0)) (shapeCast _ (extractStridedSlice S1x1024x2816 ![2, 0, 0] (V0 (Proc.devRef .tc main_arg3)) slices_S8x1024x2816_S1x1024x2816_2_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![2, 0, 0] (V0 (Proc.devRef .tc main_arg6)) slices_S8x1024x8_S1x1024x8_2_0_0) shapeCasts_S1x1024x8_S1024x8)) (shapeCast _ (extractStridedSlice S1x8x2816 ![2, 0, 0] (V0 (Proc.devRef .tc main_arg7)) slices_S8x8x2816_S1x8x2816_2_0_0) shapeCasts_S1x8x2816_S8x2816)))

set_option maxRecDepth 8192 in
/-- What `main_v104` holds, of the arguments. -/
def r_main_v104 (V0 : Valuation τ sig (Elt F)) : (Proc.devRef .tc main_v104 : DevRef τ sig).ty.Contents (Elt F) :=
  Host.dotGeneral dot_S4096x1024_S1024x2816_S4096x2816_1_0_0_1_n_n none (V0 (Proc.devRef .tc main_arg0)) (shapeCast _ (extractStridedSlice S1x1024x2816 ![2, 0, 0] (V0 (Proc.devRef .tc main_arg4)) slices_S8x1024x2816_S1x1024x2816_2_0_0) shapeCasts_S1x1024x2816_S1024x2816)

set_option maxRecDepth 8192 in
/-- What `main_v110` holds, of the arguments. -/
def r_main_v110 (V0 : Valuation τ sig (Elt F)) : (Proc.devRef .tc main_v110 : DevRef τ sig).ty.Contents (Elt F) :=
  Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![2, 0, 0] (V0 (Proc.devRef .tc main_arg8)) slices_S8x1024x8_S1x1024x8_2_0_0) shapeCasts_S1x1024x8_S1024x8)) (shapeCast _ (extractStridedSlice S1x8x2816 ![2, 0, 0] (V0 (Proc.devRef .tc main_arg9)) slices_S8x8x2816_S1x8x2816_2_0_0) shapeCasts_S1x8x2816_S8x2816)

set_option maxRecDepth 8192 in
/-- What `main_v131` holds, of the arguments. -/
def r_main_v131 (V0 : Valuation τ sig (Elt F)) : (Proc.devRef .tc main_v131 : DevRef τ sig).ty.Contents (Elt F) :=
  addf (r_main_v89 V0) (mulf (broadcastInDim S4096x1024 ![0, 1] bcast_S4096x1_S4096x1024_0_1 (extractStridedSlice S4096x1 ![0, 2] (r_main_v4 V0) slices_S4096x8_S4096x1_0_2)) (addf (Host.dotGeneral dot_S4096x2816_S2816x1024_S4096x1024_1_0_0_1_n_n none (mulf (mulf (r_main_v101 V0) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (r_main_v101 V0)))))) (addf (r_main_v104 V0) (mulf (broadcastInDim S4096x2816 ![] bcast_S_S4096x2816 (constant (F := F) S_ .f32 0x40000000#32)) (r_main_v110 V0)))) (shapeCast _ (extractStridedSlice S1x2816x1024 ![2, 0, 0] (V0 (Proc.devRef .tc main_arg5)) slices_S8x2816x1024_S1x2816x1024_2_0_0) shapeCasts_S1x2816x1024_S2816x1024)) (mulf (broadcastInDim S4096x1024 ![] bcast_S_S4096x1024 (constant (F := F) S_ .f32 0x40000000#32)) (Host.dotGeneral dot_S4096x8_S8x1024_S4096x1024_1_0_0_1_n_n none (Host.dotGeneral dot_S4096x2816_S2816x8_S4096x8_1_0_0_1_n_n none (mulf (mulf (r_main_v101 V0) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (r_main_v101 V0)))))) (addf (r_main_v104 V0) (mulf (broadcastInDim S4096x2816 ![] bcast_S_S4096x2816 (constant (F := F) S_ .f32 0x40000000#32)) (r_main_v110 V0)))) (shapeCast _ (extractStridedSlice S1x2816x8 ![2, 0, 0] (V0 (Proc.devRef .tc main_arg10)) slices_S8x2816x8_S1x2816x8_2_0_0) shapeCasts_S1x2816x8_S2816x8)) (shapeCast _ (extractStridedSlice S1x8x1024 ![2, 0, 0] (V0 (Proc.devRef .tc main_arg11)) slices_S8x8x1024_S1x8x1024_2_0_0) shapeCasts_S1x8x1024_S8x1024)))))

set_option maxRecDepth 8192 in
/-- What `main_v160` holds, of the arguments. -/
def r_main_v160 (V0 : Valuation τ sig (Elt F)) : (Proc.devRef .tc main_v160 : DevRef τ sig).ty.Contents (Elt F) :=
  Host.dotGeneral dot_S4096x2816_S2816x1024_S4096x1024_1_0_0_1_n_n none (mulf (mulf (addf (Host.dotGeneral dot_S4096x1024_S1024x2816_S4096x2816_1_0_0_1_n_n none (V0 (Proc.devRef .tc main_arg0)) (shapeCast _ (extractStridedSlice S1x1024x2816 ![3, 0, 0] (V0 (Proc.devRef .tc main_arg3)) slices_S8x1024x2816_S1x1024x2816_3_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![3, 0, 0] (V0 (Proc.devRef .tc main_arg6)) slices_S8x1024x8_S1x1024x8_3_0_0) shapeCasts_S1x1024x8_S1024x8)) (shapeCast _ (extractStridedSlice S1x8x2816 ![3, 0, 0] (V0 (Proc.devRef .tc main_arg7)) slices_S8x8x2816_S1x8x2816_3_0_0) shapeCasts_S1x8x2816_S8x2816)))) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (addf (Host.dotGeneral dot_S4096x1024_S1024x2816_S4096x2816_1_0_0_1_n_n none (V0 (Proc.devRef .tc main_arg0)) (shapeCast _ (extractStridedSlice S1x1024x2816 ![3, 0, 0] (V0 (Proc.devRef .tc main_arg3)) slices_S8x1024x2816_S1x1024x2816_3_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![3, 0, 0] (V0 (Proc.devRef .tc main_arg6)) slices_S8x1024x8_S1x1024x8_3_0_0) shapeCasts_S1x1024x8_S1024x8)) (shapeCast _ (extractStridedSlice S1x8x2816 ![3, 0, 0] (V0 (Proc.devRef .tc main_arg7)) slices_S8x8x2816_S1x8x2816_3_0_0) shapeCasts_S1x8x2816_S8x2816))))))))) (addf (Host.dotGeneral dot_S4096x1024_S1024x2816_S4096x2816_1_0_0_1_n_n none (V0 (Proc.devRef .tc main_arg0)) (shapeCast _ (extractStridedSlice S1x1024x2816 ![3, 0, 0] (V0 (Proc.devRef .tc main_arg4)) slices_S8x1024x2816_S1x1024x2816_3_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![3, 0, 0] (V0 (Proc.devRef .tc main_arg8)) slices_S8x1024x8_S1x1024x8_3_0_0) shapeCasts_S1x1024x8_S1024x8)) (shapeCast _ (extractStridedSlice S1x8x2816 ![3, 0, 0] (V0 (Proc.devRef .tc main_arg9)) slices_S8x8x2816_S1x8x2816_3_0_0) shapeCasts_S1x8x2816_S8x2816))))) (shapeCast _ (extractStridedSlice S1x2816x1024 ![3, 0, 0] (V0 (Proc.devRef .tc main_arg5)) slices_S8x2816x1024_S1x2816x1024_3_0_0) shapeCasts_S1x2816x1024_S2816x1024)

set_option maxRecDepth 8192 in
/-- What `main_v166` holds, of the arguments. -/
def r_main_v166 (V0 : Valuation τ sig (Elt F)) : (Proc.devRef .tc main_v166 : DevRef τ sig).ty.Contents (Elt F) :=
  Host.dotGeneral dot_S4096x8_S8x1024_S4096x1024_1_0_0_1_n_n none (Host.dotGeneral dot_S4096x2816_S2816x8_S4096x8_1_0_0_1_n_n none (mulf (mulf (addf (Host.dotGeneral dot_S4096x1024_S1024x2816_S4096x2816_1_0_0_1_n_n none (V0 (Proc.devRef .tc main_arg0)) (shapeCast _ (extractStridedSlice S1x1024x2816 ![3, 0, 0] (V0 (Proc.devRef .tc main_arg3)) slices_S8x1024x2816_S1x1024x2816_3_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![3, 0, 0] (V0 (Proc.devRef .tc main_arg6)) slices_S8x1024x8_S1x1024x8_3_0_0) shapeCasts_S1x1024x8_S1024x8)) (shapeCast _ (extractStridedSlice S1x8x2816 ![3, 0, 0] (V0 (Proc.devRef .tc main_arg7)) slices_S8x8x2816_S1x8x2816_3_0_0) shapeCasts_S1x8x2816_S8x2816)))) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (addf (Host.dotGeneral dot_S4096x1024_S1024x2816_S4096x2816_1_0_0_1_n_n none (V0 (Proc.devRef .tc main_arg0)) (shapeCast _ (extractStridedSlice S1x1024x2816 ![3, 0, 0] (V0 (Proc.devRef .tc main_arg3)) slices_S8x1024x2816_S1x1024x2816_3_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![3, 0, 0] (V0 (Proc.devRef .tc main_arg6)) slices_S8x1024x8_S1x1024x8_3_0_0) shapeCasts_S1x1024x8_S1024x8)) (shapeCast _ (extractStridedSlice S1x8x2816 ![3, 0, 0] (V0 (Proc.devRef .tc main_arg7)) slices_S8x8x2816_S1x8x2816_3_0_0) shapeCasts_S1x8x2816_S8x2816))))))))) (addf (Host.dotGeneral dot_S4096x1024_S1024x2816_S4096x2816_1_0_0_1_n_n none (V0 (Proc.devRef .tc main_arg0)) (shapeCast _ (extractStridedSlice S1x1024x2816 ![3, 0, 0] (V0 (Proc.devRef .tc main_arg4)) slices_S8x1024x2816_S1x1024x2816_3_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![3, 0, 0] (V0 (Proc.devRef .tc main_arg8)) slices_S8x1024x8_S1x1024x8_3_0_0) shapeCasts_S1x1024x8_S1024x8)) (shapeCast _ (extractStridedSlice S1x8x2816 ![3, 0, 0] (V0 (Proc.devRef .tc main_arg9)) slices_S8x8x2816_S1x8x2816_3_0_0) shapeCasts_S1x8x2816_S8x2816))))) (shapeCast _ (extractStridedSlice S1x2816x8 ![3, 0, 0] (V0 (Proc.devRef .tc main_arg10)) slices_S8x2816x8_S1x2816x8_3_0_0) shapeCasts_S1x2816x8_S2816x8)) (shapeCast _ (extractStridedSlice S1x8x1024 ![3, 0, 0] (V0 (Proc.devRef .tc main_arg11)) slices_S8x8x1024_S1x8x1024_3_0_0) shapeCasts_S1x8x1024_S8x1024)

set_option maxRecDepth 8192 in
/-- What `main_v215` holds, of the arguments. -/
def r_main_v215 (V0 : Valuation τ sig (Elt F)) : (Proc.devRef .tc main_v215 : DevRef τ sig).ty.Contents (Elt F) :=
  addf (addf (r_main_v131 V0) (mulf (broadcastInDim S4096x1024 ![0, 1] bcast_S4096x1_S4096x1024_0_1 (extractStridedSlice S4096x1 ![0, 3] (r_main_v4 V0) slices_S4096x8_S4096x1_0_3)) (addf (r_main_v160 V0) (mulf (broadcastInDim S4096x1024 ![] bcast_S_S4096x1024 (constant (F := F) S_ .f32 0x40000000#32)) (r_main_v166 V0))))) (mulf (broadcastInDim S4096x1024 ![0, 1] bcast_S4096x1_S4096x1024_0_1 (extractStridedSlice S4096x1 ![0, 4] (r_main_v4 V0) slices_S4096x8_S4096x1_0_4)) (addf (Host.dotGeneral dot_S4096x2816_S2816x1024_S4096x1024_1_0_0_1_n_n none (mulf (mulf (addf (Host.dotGeneral dot_S4096x1024_S1024x2816_S4096x2816_1_0_0_1_n_n none (V0 (Proc.devRef .tc main_arg0)) (shapeCast _ (extractStridedSlice S1x1024x2816 ![4, 0, 0] (V0 (Proc.devRef .tc main_arg3)) slices_S8x1024x2816_S1x1024x2816_4_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![4, 0, 0] (V0 (Proc.devRef .tc main_arg6)) slices_S8x1024x8_S1x1024x8_4_0_0) shapeCasts_S1x1024x8_S1024x8)) (shapeCast _ (extractStridedSlice S1x8x2816 ![4, 0, 0] (V0 (Proc.devRef .tc main_arg7)) slices_S8x8x2816_S1x8x2816_4_0_0) shapeCasts_S1x8x2816_S8x2816)))) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (addf (Host.dotGeneral dot_S4096x1024_S1024x2816_S4096x2816_1_0_0_1_n_n none (V0 (Proc.devRef .tc main_arg0)) (shapeCast _ (extractStridedSlice S1x1024x2816 ![4, 0, 0] (V0 (Proc.devRef .tc main_arg3)) slices_S8x1024x2816_S1x1024x2816_4_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![4, 0, 0] (V0 (Proc.devRef .tc main_arg6)) slices_S8x1024x8_S1x1024x8_4_0_0) shapeCasts_S1x1024x8_S1024x8)) (shapeCast _ (extractStridedSlice S1x8x2816 ![4, 0, 0] (V0 (Proc.devRef .tc main_arg7)) slices_S8x8x2816_S1x8x2816_4_0_0) shapeCasts_S1x8x2816_S8x2816))))))))) (addf (Host.dotGeneral dot_S4096x1024_S1024x2816_S4096x2816_1_0_0_1_n_n none (V0 (Proc.devRef .tc main_arg0)) (shapeCast _ (extractStridedSlice S1x1024x2816 ![4, 0, 0] (V0 (Proc.devRef .tc main_arg4)) slices_S8x1024x2816_S1x1024x2816_4_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![4, 0, 0] (V0 (Proc.devRef .tc main_arg8)) slices_S8x1024x8_S1x1024x8_4_0_0) shapeCasts_S1x1024x8_S1024x8)) (shapeCast _ (extractStridedSlice S1x8x2816 ![4, 0, 0] (V0 (Proc.devRef .tc main_arg9)) slices_S8x8x2816_S1x8x2816_4_0_0) shapeCasts_S1x8x2816_S8x2816))))) (shapeCast _ (extractStridedSlice S1x2816x1024 ![4, 0, 0] (V0 (Proc.devRef .tc main_arg5)) slices_S8x2816x1024_S1x2816x1024_4_0_0) shapeCasts_S1x2816x1024_S2816x1024)) (mulf (broadcastInDim S4096x1024 ![] bcast_S_S4096x1024 (constant (F := F) S_ .f32 0x40000000#32)) (Host.dotGeneral dot_S4096x8_S8x1024_S4096x1024_1_0_0_1_n_n none (Host.dotGeneral dot_S4096x2816_S2816x8_S4096x8_1_0_0_1_n_n none (mulf (mulf (addf (Host.dotGeneral dot_S4096x1024_S1024x2816_S4096x2816_1_0_0_1_n_n none (V0 (Proc.devRef .tc main_arg0)) (shapeCast _ (extractStridedSlice S1x1024x2816 ![4, 0, 0] (V0 (Proc.devRef .tc main_arg3)) slices_S8x1024x2816_S1x1024x2816_4_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![4, 0, 0] (V0 (Proc.devRef .tc main_arg6)) slices_S8x1024x8_S1x1024x8_4_0_0) shapeCasts_S1x1024x8_S1024x8)) (shapeCast _ (extractStridedSlice S1x8x2816 ![4, 0, 0] (V0 (Proc.devRef .tc main_arg7)) slices_S8x8x2816_S1x8x2816_4_0_0) shapeCasts_S1x8x2816_S8x2816)))) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (addf (Host.dotGeneral dot_S4096x1024_S1024x2816_S4096x2816_1_0_0_1_n_n none (V0 (Proc.devRef .tc main_arg0)) (shapeCast _ (extractStridedSlice S1x1024x2816 ![4, 0, 0] (V0 (Proc.devRef .tc main_arg3)) slices_S8x1024x2816_S1x1024x2816_4_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![4, 0, 0] (V0 (Proc.devRef .tc main_arg6)) slices_S8x1024x8_S1x1024x8_4_0_0) shapeCasts_S1x1024x8_S1024x8)) (shapeCast _ (extractStridedSlice S1x8x2816 ![4, 0, 0] (V0 (Proc.devRef .tc main_arg7)) slices_S8x8x2816_S1x8x2816_4_0_0) shapeCasts_S1x8x2816_S8x2816))))))))) (addf (Host.dotGeneral dot_S4096x1024_S1024x2816_S4096x2816_1_0_0_1_n_n none (V0 (Proc.devRef .tc main_arg0)) (shapeCast _ (extractStridedSlice S1x1024x2816 ![4, 0, 0] (V0 (Proc.devRef .tc main_arg4)) slices_S8x1024x2816_S1x1024x2816_4_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![4, 0, 0] (V0 (Proc.devRef .tc main_arg8)) slices_S8x1024x8_S1x1024x8_4_0_0) shapeCasts_S1x1024x8_S1024x8)) (shapeCast _ (extractStridedSlice S1x8x2816 ![4, 0, 0] (V0 (Proc.devRef .tc main_arg9)) slices_S8x8x2816_S1x8x2816_4_0_0) shapeCasts_S1x8x2816_S8x2816))))) (shapeCast _ (extractStridedSlice S1x2816x8 ![4, 0, 0] (V0 (Proc.devRef .tc main_arg10)) slices_S8x2816x8_S1x2816x8_4_0_0) shapeCasts_S1x2816x8_S2816x8)) (shapeCast _ (extractStridedSlice S1x8x1024 ![4, 0, 0] (V0 (Proc.devRef .tc main_arg11)) slices_S8x8x1024_S1x8x1024_4_0_0) shapeCasts_S1x8x1024_S8x1024)))))

set_option maxRecDepth 8192 in
/-- What `main_v218` holds, of the arguments. -/
def r_main_v218 (V0 : Valuation τ sig (Elt F)) : (Proc.devRef .tc main_v218 : DevRef τ sig).ty.Contents (Elt F) :=
  Host.dotGeneral dot_S4096x1024_S1024x2816_S4096x2816_1_0_0_1_n_n none (V0 (Proc.devRef .tc main_arg0)) (shapeCast _ (extractStridedSlice S1x1024x2816 ![5, 0, 0] (V0 (Proc.devRef .tc main_arg3)) slices_S8x1024x2816_S1x1024x2816_5_0_0) shapeCasts_S1x1024x2816_S1024x2816)

set_option maxRecDepth 8192 in
/-- What `main_v221` holds, of the arguments. -/
def r_main_v221 (V0 : Valuation τ sig (Elt F)) : (Proc.devRef .tc main_v221 : DevRef τ sig).ty.Contents (Elt F) :=
  Host.dotGeneral dot_S4096x1024_S1024x8_S4096x8_1_0_0_1_n_n none (V0 (Proc.devRef .tc main_arg0)) (shapeCast _ (extractStridedSlice S1x1024x8 ![5, 0, 0] (V0 (Proc.devRef .tc main_arg6)) slices_S8x1024x8_S1x1024x8_5_0_0) shapeCasts_S1x1024x8_S1024x8)

set_option maxRecDepth 8192 in
/-- What `main_v222` holds, of the arguments. -/
def r_main_v222 (V0 : Valuation τ sig (Elt F)) : (Proc.devRef .tc main_v222 : DevRef τ sig).ty.Contents (Elt F) :=
  extractStridedSlice S1x8x2816 ![5, 0, 0] (V0 (Proc.devRef .tc main_arg7)) slices_S8x8x2816_S1x8x2816_5_0_0

set_option maxRecDepth 8192 in
/-- What `main_v257` holds, of the arguments. -/
def r_main_v257 (V0 : Valuation τ sig (Elt F)) : (Proc.devRef .tc main_v257 : DevRef τ sig).ty.Contents (Elt F) :=
  addf (r_main_v215 V0) (mulf (broadcastInDim S4096x1024 ![0, 1] bcast_S4096x1_S4096x1024_0_1 (extractStridedSlice S4096x1 ![0, 5] (r_main_v4 V0) slices_S4096x8_S4096x1_0_5)) (addf (Host.dotGeneral dot_S4096x2816_S2816x1024_S4096x1024_1_0_0_1_n_n none (mulf (mulf (addf (r_main_v218 V0) (mulf (broadcastInDim S4096x2816 ![] bcast_S_S4096x2816 (constant (F := F) S_ .f32 0x40000000#32)) (Host.dotGeneral dot_S4096x8_S8x2816_S4096x2816_1_0_0_1_n_n none (r_main_v221 V0) (shapeCast _ (r_main_v222 V0) shapeCasts_S1x8x2816_S8x2816)))) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (addf (r_main_v218 V0) (mulf (broadcastInDim S4096x2816 ![] bcast_S_S4096x2816 (constant (F := F) S_ .f32 0x40000000#32)) (Host.dotGeneral dot_S4096x8_S8x2816_S4096x2816_1_0_0_1_n_n none (r_main_v221 V0) (shapeCast _ (r_main_v222 V0) shapeCasts_S1x8x2816_S8x2816))))))))) (addf (Host.dotGeneral dot_S4096x1024_S1024x2816_S4096x2816_1_0_0_1_n_n none (V0 (Proc.devRef .tc main_arg0)) (shapeCast _ (extractStridedSlice S1x1024x2816 ![5, 0, 0] (V0 (Proc.devRef .tc main_arg4)) slices_S8x1024x2816_S1x1024x2816_5_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![5, 0, 0] (V0 (Proc.devRef .tc main_arg8)) slices_S8x1024x8_S1x1024x8_5_0_0) shapeCasts_S1x1024x8_S1024x8)) (shapeCast _ (extractStridedSlice S1x8x2816 ![5, 0, 0] (V0 (Proc.devRef .tc main_arg9)) slices_S8x8x2816_S1x8x2816_5_0_0) shapeCasts_S1x8x2816_S8x2816))))) (shapeCast _ (extractStridedSlice S1x2816x1024 ![5, 0, 0] (V0 (Proc.devRef .tc main_arg5)) slices_S8x2816x1024_S1x2816x1024_5_0_0) shapeCasts_S1x2816x1024_S2816x1024)) (mulf (broadcastInDim S4096x1024 ![] bcast_S_S4096x1024 (constant (F := F) S_ .f32 0x40000000#32)) (Host.dotGeneral dot_S4096x8_S8x1024_S4096x1024_1_0_0_1_n_n none (Host.dotGeneral dot_S4096x2816_S2816x8_S4096x8_1_0_0_1_n_n none (mulf (mulf (addf (r_main_v218 V0) (mulf (broadcastInDim S4096x2816 ![] bcast_S_S4096x2816 (constant (F := F) S_ .f32 0x40000000#32)) (Host.dotGeneral dot_S4096x8_S8x2816_S4096x2816_1_0_0_1_n_n none (r_main_v221 V0) (shapeCast _ (r_main_v222 V0) shapeCasts_S1x8x2816_S8x2816)))) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (addf (r_main_v218 V0) (mulf (broadcastInDim S4096x2816 ![] bcast_S_S4096x2816 (constant (F := F) S_ .f32 0x40000000#32)) (Host.dotGeneral dot_S4096x8_S8x2816_S4096x2816_1_0_0_1_n_n none (r_main_v221 V0) (shapeCast _ (r_main_v222 V0) shapeCasts_S1x8x2816_S8x2816))))))))) (addf (Host.dotGeneral dot_S4096x1024_S1024x2816_S4096x2816_1_0_0_1_n_n none (V0 (Proc.devRef .tc main_arg0)) (shapeCast _ (extractStridedSlice S1x1024x2816 ![5, 0, 0] (V0 (Proc.devRef .tc main_arg4)) slices_S8x1024x2816_S1x1024x2816_5_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![5, 0, 0] (V0 (Proc.devRef .tc main_arg8)) slices_S8x1024x8_S1x1024x8_5_0_0) shapeCasts_S1x1024x8_S1024x8)) (shapeCast _ (extractStridedSlice S1x8x2816 ![5, 0, 0] (V0 (Proc.devRef .tc main_arg9)) slices_S8x8x2816_S1x8x2816_5_0_0) shapeCasts_S1x8x2816_S8x2816))))) (shapeCast _ (extractStridedSlice S1x2816x8 ![5, 0, 0] (V0 (Proc.devRef .tc main_arg10)) slices_S8x2816x8_S1x2816x8_5_0_0) shapeCasts_S1x2816x8_S2816x8)) (shapeCast _ (extractStridedSlice S1x8x1024 ![5, 0, 0] (V0 (Proc.devRef .tc main_arg11)) slices_S8x8x1024_S1x8x1024_5_0_0) shapeCasts_S1x8x1024_S8x1024)))))

set_option maxRecDepth 8192 in
/-- What `main_v269` holds, of the arguments. -/
def r_main_v269 (V0 : Valuation τ sig (Elt F)) : (Proc.devRef .tc main_v269 : DevRef τ sig).ty.Contents (Elt F) :=
  addf (Host.dotGeneral dot_S4096x1024_S1024x2816_S4096x2816_1_0_0_1_n_n none (V0 (Proc.devRef .tc main_arg0)) (shapeCast _ (extractStridedSlice S1x1024x2816 ![6, 0, 0] (V0 (Proc.devRef .tc main_arg3)) slices_S8x1024x2816_S1x1024x2816_6_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![6, 0, 0] (V0 (Proc.devRef .tc main_arg6)) slices_S8x1024x8_S1x1024x8_6_0_0) shapeCasts_S1x1024x8_S1024x8)) (shapeCast _ (extractStridedSlice S1x8x2816 ![6, 0, 0] (V0 (Proc.devRef .tc main_arg7)) slices_S8x8x2816_S1x8x2816_6_0_0) shapeCasts_S1x8x2816_S8x2816)))

set_option maxRecDepth 8192 in
/-- What `main_v272` holds, of the arguments. -/
def r_main_v272 (V0 : Valuation τ sig (Elt F)) : (Proc.devRef .tc main_v272 : DevRef τ sig).ty.Contents (Elt F) :=
  Host.dotGeneral dot_S4096x1024_S1024x2816_S4096x2816_1_0_0_1_n_n none (V0 (Proc.devRef .tc main_arg0)) (shapeCast _ (extractStridedSlice S1x1024x2816 ![6, 0, 0] (V0 (Proc.devRef .tc main_arg4)) slices_S8x1024x2816_S1x1024x2816_6_0_0) shapeCasts_S1x1024x2816_S1024x2816)

set_option maxRecDepth 8192 in
/-- What `main_v278` holds, of the arguments. -/
def r_main_v278 (V0 : Valuation τ sig (Elt F)) : (Proc.devRef .tc main_v278 : DevRef τ sig).ty.Contents (Elt F) :=
  Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![6, 0, 0] (V0 (Proc.devRef .tc main_arg8)) slices_S8x1024x8_S1x1024x8_6_0_0) shapeCasts_S1x1024x8_S1024x8)) (shapeCast _ (extractStridedSlice S1x8x2816 ![6, 0, 0] (V0 (Proc.devRef .tc main_arg9)) slices_S8x8x2816_S1x8x2816_6_0_0) shapeCasts_S1x8x2816_S8x2816)

set_option maxRecDepth 8192 in
/-- What `main_v299` holds, of the arguments. -/
def r_main_v299 (V0 : Valuation τ sig (Elt F)) : (Proc.devRef .tc main_v299 : DevRef τ sig).ty.Contents (Elt F) :=
  addf (r_main_v257 V0) (mulf (broadcastInDim S4096x1024 ![0, 1] bcast_S4096x1_S4096x1024_0_1 (extractStridedSlice S4096x1 ![0, 6] (r_main_v4 V0) slices_S4096x8_S4096x1_0_6)) (addf (Host.dotGeneral dot_S4096x2816_S2816x1024_S4096x1024_1_0_0_1_n_n none (mulf (mulf (r_main_v269 V0) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (r_main_v269 V0)))))) (addf (r_main_v272 V0) (mulf (broadcastInDim S4096x2816 ![] bcast_S_S4096x2816 (constant (F := F) S_ .f32 0x40000000#32)) (r_main_v278 V0)))) (shapeCast _ (extractStridedSlice S1x2816x1024 ![6, 0, 0] (V0 (Proc.devRef .tc main_arg5)) slices_S8x2816x1024_S1x2816x1024_6_0_0) shapeCasts_S1x2816x1024_S2816x1024)) (mulf (broadcastInDim S4096x1024 ![] bcast_S_S4096x1024 (constant (F := F) S_ .f32 0x40000000#32)) (Host.dotGeneral dot_S4096x8_S8x1024_S4096x1024_1_0_0_1_n_n none (Host.dotGeneral dot_S4096x2816_S2816x8_S4096x8_1_0_0_1_n_n none (mulf (mulf (r_main_v269 V0) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (r_main_v269 V0)))))) (addf (r_main_v272 V0) (mulf (broadcastInDim S4096x2816 ![] bcast_S_S4096x2816 (constant (F := F) S_ .f32 0x40000000#32)) (r_main_v278 V0)))) (shapeCast _ (extractStridedSlice S1x2816x8 ![6, 0, 0] (V0 (Proc.devRef .tc main_arg10)) slices_S8x2816x8_S1x2816x8_6_0_0) shapeCasts_S1x2816x8_S2816x8)) (shapeCast _ (extractStridedSlice S1x8x1024 ![6, 0, 0] (V0 (Proc.devRef .tc main_arg11)) slices_S8x8x1024_S1x8x1024_6_0_0) shapeCasts_S1x8x1024_S8x1024)))))

set_option maxRecDepth 8192 in
/-- What `main_v328` holds, of the arguments. -/
def r_main_v328 (V0 : Valuation τ sig (Elt F)) : (Proc.devRef .tc main_v328 : DevRef τ sig).ty.Contents (Elt F) :=
  Host.dotGeneral dot_S4096x2816_S2816x1024_S4096x1024_1_0_0_1_n_n none (mulf (mulf (addf (Host.dotGeneral dot_S4096x1024_S1024x2816_S4096x2816_1_0_0_1_n_n none (V0 (Proc.devRef .tc main_arg0)) (shapeCast _ (extractStridedSlice S1x1024x2816 ![7, 0, 0] (V0 (Proc.devRef .tc main_arg3)) slices_S8x1024x2816_S1x1024x2816_7_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![7, 0, 0] (V0 (Proc.devRef .tc main_arg6)) slices_S8x1024x8_S1x1024x8_7_0_0) shapeCasts_S1x1024x8_S1024x8)) (shapeCast _ (extractStridedSlice S1x8x2816 ![7, 0, 0] (V0 (Proc.devRef .tc main_arg7)) slices_S8x8x2816_S1x8x2816_7_0_0) shapeCasts_S1x8x2816_S8x2816)))) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (addf (Host.dotGeneral dot_S4096x1024_S1024x2816_S4096x2816_1_0_0_1_n_n none (V0 (Proc.devRef .tc main_arg0)) (shapeCast _ (extractStridedSlice S1x1024x2816 ![7, 0, 0] (V0 (Proc.devRef .tc main_arg3)) slices_S8x1024x2816_S1x1024x2816_7_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![7, 0, 0] (V0 (Proc.devRef .tc main_arg6)) slices_S8x1024x8_S1x1024x8_7_0_0) shapeCasts_S1x1024x8_S1024x8)) (shapeCast _ (extractStridedSlice S1x8x2816 ![7, 0, 0] (V0 (Proc.devRef .tc main_arg7)) slices_S8x8x2816_S1x8x2816_7_0_0) shapeCasts_S1x8x2816_S8x2816))))))))) (addf (Host.dotGeneral dot_S4096x1024_S1024x2816_S4096x2816_1_0_0_1_n_n none (V0 (Proc.devRef .tc main_arg0)) (shapeCast _ (extractStridedSlice S1x1024x2816 ![7, 0, 0] (V0 (Proc.devRef .tc main_arg4)) slices_S8x1024x2816_S1x1024x2816_7_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![7, 0, 0] (V0 (Proc.devRef .tc main_arg8)) slices_S8x1024x8_S1x1024x8_7_0_0) shapeCasts_S1x1024x8_S1024x8)) (shapeCast _ (extractStridedSlice S1x8x2816 ![7, 0, 0] (V0 (Proc.devRef .tc main_arg9)) slices_S8x8x2816_S1x8x2816_7_0_0) shapeCasts_S1x8x2816_S8x2816))))) (shapeCast _ (extractStridedSlice S1x2816x1024 ![7, 0, 0] (V0 (Proc.devRef .tc main_arg5)) slices_S8x2816x1024_S1x2816x1024_7_0_0) shapeCasts_S1x2816x1024_S2816x1024)

set_option maxRecDepth 8192 in
/-- What `main_v334` holds, of the arguments. -/
def r_main_v334 (V0 : Valuation τ sig (Elt F)) : (Proc.devRef .tc main_v334 : DevRef τ sig).ty.Contents (Elt F) :=
  Host.dotGeneral dot_S4096x8_S8x1024_S4096x1024_1_0_0_1_n_n none (Host.dotGeneral dot_S4096x2816_S2816x8_S4096x8_1_0_0_1_n_n none (mulf (mulf (addf (Host.dotGeneral dot_S4096x1024_S1024x2816_S4096x2816_1_0_0_1_n_n none (V0 (Proc.devRef .tc main_arg0)) (shapeCast _ (extractStridedSlice S1x1024x2816 ![7, 0, 0] (V0 (Proc.devRef .tc main_arg3)) slices_S8x1024x2816_S1x1024x2816_7_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![7, 0, 0] (V0 (Proc.devRef .tc main_arg6)) slices_S8x1024x8_S1x1024x8_7_0_0) shapeCasts_S1x1024x8_S1024x8)) (shapeCast _ (extractStridedSlice S1x8x2816 ![7, 0, 0] (V0 (Proc.devRef .tc main_arg7)) slices_S8x8x2816_S1x8x2816_7_0_0) shapeCasts_S1x8x2816_S8x2816)))) (Host.divf (broadcastInDim S4096x2816 ![] bcast_S_S4096x2816 (constant (F := F) S_ .f32 0x3F800000#32)) (addf (broadcastInDim S4096x2816 ![] bcast_S_S4096x2816 (constant (F := F) S_ .f32 0x3F800000#32)) (Host.exp (Host.negf (addf (Host.dotGeneral dot_S4096x1024_S1024x2816_S4096x2816_1_0_0_1_n_n none (V0 (Proc.devRef .tc main_arg0)) (shapeCast _ (extractStridedSlice S1x1024x2816 ![7, 0, 0] (V0 (Proc.devRef .tc main_arg3)) slices_S8x1024x2816_S1x1024x2816_7_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![7, 0, 0] (V0 (Proc.devRef .tc main_arg6)) slices_S8x1024x8_S1x1024x8_7_0_0) shapeCasts_S1x1024x8_S1024x8)) (shapeCast _ (extractStridedSlice S1x8x2816 ![7, 0, 0] (V0 (Proc.devRef .tc main_arg7)) slices_S8x8x2816_S1x8x2816_7_0_0) shapeCasts_S1x8x2816_S8x2816))))))))) (addf (Host.dotGeneral dot_S4096x1024_S1024x2816_S4096x2816_1_0_0_1_n_n none (V0 (Proc.devRef .tc main_arg0)) (shapeCast _ (extractStridedSlice S1x1024x2816 ![7, 0, 0] (V0 (Proc.devRef .tc main_arg4)) slices_S8x1024x2816_S1x1024x2816_7_0_0) shapeCasts_S1x1024x2816_S1024x2816)) (mulf (broadcastInDim S4096x2816 ![] bcast_S_S4096x2816 (constant (F := F) S_ .f32 0x40000000#32)) (Host.dotGeneral dot_S4096x8_S8x2816_S4096x2816_1_0_0_1_n_n none (Host.dotGeneral dot_S4096x1024_S1024x8_S4096x8_1_0_0_1_n_n none (V0 (Proc.devRef .tc main_arg0)) (shapeCast _ (extractStridedSlice S1x1024x8 ![7, 0, 0] (V0 (Proc.devRef .tc main_arg8)) slices_S8x1024x8_S1x1024x8_7_0_0) shapeCasts_S1x1024x8_S1024x8)) (shapeCast _ (extractStridedSlice S1x8x2816 ![7, 0, 0] (V0 (Proc.devRef .tc main_arg9)) slices_S8x8x2816_S1x8x2816_7_0_0) shapeCasts_S1x8x2816_S8x2816))))) (shapeCast _ (extractStridedSlice S1x2816x8 ![7, 0, 0] (V0 (Proc.devRef .tc main_arg10)) slices_S8x2816x8_S1x2816x8_7_0_0) shapeCasts_S1x2816x8_S2816x8)) (shapeCast _ (extractStridedSlice S1x8x1024 ![7, 0, 0] (V0 (Proc.devRef .tc main_arg11)) slices_S8x8x1024_S1x8x1024_7_0_0) shapeCasts_S1x8x1024_S8x1024)

set_option maxRecDepth 8192 in
/-- What `main_v341` holds, of the arguments. -/
def r_main_v341 (V0 : Valuation τ sig (Elt F)) : (Proc.devRef .tc main_v341 : DevRef τ sig).ty.Contents (Elt F) :=
  addf (r_main_v299 V0) (mulf (broadcastInDim S4096x1024 ![0, 1] bcast_S4096x1_S4096x1024_0_1 (extractStridedSlice S4096x1 ![0, 7] (r_main_v4 V0) slices_S4096x8_S4096x1_0_7)) (addf (r_main_v328 V0) (mulf (broadcastInDim S4096x1024 ![] bcast_S_S4096x1024 (constant (F := F) S_ .f32 0x40000000#32)) (r_main_v334 V0))))

/-! ## The contents after each window -/

def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl

/-- The contents after the first 1 window. -/
def val1 (V0 : Valuation τ sig (Elt F)) : Valuation τ sig (Elt F) := after ops_part0 (val0 V0)
/-- The buffers window 0 writes. -/
abbrev ops_part0_W : List (Ref sig .tc) := [main_call0_v0, main_call0_v1, main_call0_v2, main_call0_v3, main_call0_v4, main_v0, main_v1, main_v2, main_v3, main_cst, main_v4, main_cst_0, main_v5, main_v6, main_v7, main_v8, main_v9, main_v10, main_v11, main_v12, main_v13, main_v14, main_cst_1, main_v15, main_v16, main_v17, main_v18, main_v19, main_v20, main_v21, main_v22, main_v23, main_v24, main_v25, main_v26, main_cst_2, main_v27, main_v28, main_v29, main_call1_v0, main_call1_v1, main_call1_cst, main_call1_v2, main_call1_v3, main_call1_cst_0, main_call1_v4, main_call1_v5, main_v30, main_v31, main_v32, main_v33, main_v34, main_v35, main_v36, main_v37, main_v38, main_v39, main_v40, main_cst_3, main_v41, main_v42, main_v43, main_v44, main_v45, main_v46, main_v47, main_v48, main_v49, main_v50, main_v51, main_v52, main_v53, main_v54]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 0 does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
set_option maxRecDepth 8192 in
set_option maxHeartbeats 4000000 in
theorem val1_main_v4 (V0 : Valuation τ sig (Elt F)) : val1 V0 (no_index (Proc.devRef .tc main_v4)) = r_main_v4 V0 := by
  unfold val1
  simp only [ops_part0]
  after_results_simp
  simp only [val0_main_arg0, val0_main_arg1, val0_main_arg2, val0_main_arg3, val0_main_arg4, val0_main_arg5, val0_main_arg6, val0_main_arg7, val0_main_arg8, val0_main_arg9, val0_main_arg10, val0_main_arg11, TRef.ofBuf_toBuf, TRef.toBuf_ofBuf] <;> rfl
set_option maxRecDepth 8192 in
set_option maxHeartbeats 4000000 in
theorem val1_main_v47 (V0 : Valuation τ sig (Elt F)) : val1 V0 (no_index (Proc.devRef .tc main_v47)) = r_main_v47 V0 := by
  unfold val1
  simp only [ops_part0]
  after_results_simp
  simp only [val0_main_arg0, val0_main_arg1, val0_main_arg2, val0_main_arg3, val0_main_arg4, val0_main_arg5, val0_main_arg6, val0_main_arg7, val0_main_arg8, val0_main_arg9, val0_main_arg10, val0_main_arg11, TRef.ofBuf_toBuf, TRef.toBuf_ofBuf] <;> rfl
set_option maxRecDepth 8192 in
set_option maxHeartbeats 4000000 in
theorem val1_main_v50 (V0 : Valuation τ sig (Elt F)) : val1 V0 (no_index (Proc.devRef .tc main_v50)) = r_main_v50 V0 := by
  unfold val1
  simp only [ops_part0]
  after_results_simp
  simp only [val0_main_arg0, val0_main_arg1, val0_main_arg2, val0_main_arg3, val0_main_arg4, val0_main_arg5, val0_main_arg6, val0_main_arg7, val0_main_arg8, val0_main_arg9, val0_main_arg10, val0_main_arg11, TRef.ofBuf_toBuf, TRef.toBuf_ofBuf] <;> rfl
set_option maxRecDepth 8192 in
set_option maxHeartbeats 4000000 in
theorem val1_main_v53 (V0 : Valuation τ sig (Elt F)) : val1 V0 (no_index (Proc.devRef .tc main_v53)) = r_main_v53 V0 := by
  unfold val1
  simp only [ops_part0]
  after_results_simp
  simp only [val0_main_arg0, val0_main_arg1, val0_main_arg2, val0_main_arg3, val0_main_arg4, val0_main_arg5, val0_main_arg6, val0_main_arg7, val0_main_arg8, val0_main_arg9, val0_main_arg10, val0_main_arg11, TRef.ofBuf_toBuf, TRef.toBuf_ofBuf] <;> rfl
set_option maxRecDepth 8192 in
set_option maxHeartbeats 4000000 in
theorem val1_main_v54 (V0 : Valuation τ sig (Elt F)) : val1 V0 (no_index (Proc.devRef .tc main_v54)) = r_main_v54 V0 := by
  unfold val1
  simp only [ops_part0]
  after_results_simp
  simp only [val0_main_arg0, val0_main_arg1, val0_main_arg2, val0_main_arg3, val0_main_arg4, val0_main_arg5, val0_main_arg6, val0_main_arg7, val0_main_arg8, val0_main_arg9, val0_main_arg10, val0_main_arg11, TRef.ofBuf_toBuf, TRef.toBuf_ofBuf] <;> rfl

/-- The contents after the first 2 windows. -/
def val2 (V0 : Valuation τ sig (Elt F)) : Valuation τ sig (Elt F) := after ops_part1 (val1 V0)
/-- The buffers window 1 writes. -/
abbrev ops_part1_W : List (Ref sig .tc) := [main_v55, main_v56, main_cst_4, main_v57, main_v58, main_v59, main_v60, main_v61, main_v62, main_v63, main_v64, main_v65, main_v66, main_v67, main_v68, main_cst_5, main_v69, main_v70, main_v71, main_call2_v0, main_call2_v1, main_call2_cst, main_call2_v2, main_call2_v3, main_call2_cst_0, main_call2_v4, main_call2_v5, main_v72, main_v73, main_v74, main_v75, main_v76, main_v77, main_v78, main_v79, main_v80, main_v81, main_v82, main_cst_6, main_v83, main_v84, main_v85, main_v86, main_v87, main_v88, main_v89, main_v90, main_v91, main_v92, main_v93, main_v94, main_v95, main_v96, main_v97, main_v98, main_cst_7, main_v99, main_v100, main_v101, main_v102, main_v103, main_v104, main_v105, main_v106, main_v107, main_v108, main_v109, main_v110]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 1 does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_v4 (V0 : Valuation τ sig (Elt F)) : val2 V0 (no_index (Proc.devRef .tc main_v4)) = r_main_v4 V0 :=
  (val2_keep V0 main_v4 (by decide)).trans (val1_main_v4 V0)
set_option maxRecDepth 8192 in
set_option maxHeartbeats 4000000 in
theorem val2_main_v89 (V0 : Valuation τ sig (Elt F)) : val2 V0 (no_index (Proc.devRef .tc main_v89)) = r_main_v89 V0 := by
  unfold val2
  simp only [ops_part1]
  after_results_simp
  simp only [val1_main_arg0, val1_main_arg1, val1_main_arg2, val1_main_arg3, val1_main_arg4, val1_main_arg5, val1_main_arg6, val1_main_arg7, val1_main_arg8, val1_main_arg9, val1_main_arg10, val1_main_arg11, val1_main_v4, val1_main_v47, val1_main_v50, val1_main_v53, val1_main_v54, TRef.ofBuf_toBuf, TRef.toBuf_ofBuf] <;> rfl
set_option maxRecDepth 8192 in
set_option maxHeartbeats 4000000 in
theorem val2_main_v101 (V0 : Valuation τ sig (Elt F)) : val2 V0 (no_index (Proc.devRef .tc main_v101)) = r_main_v101 V0 := by
  unfold val2
  simp only [ops_part1]
  after_results_simp
  simp only [val1_main_arg0, val1_main_arg1, val1_main_arg2, val1_main_arg3, val1_main_arg4, val1_main_arg5, val1_main_arg6, val1_main_arg7, val1_main_arg8, val1_main_arg9, val1_main_arg10, val1_main_arg11, val1_main_v4, val1_main_v47, val1_main_v50, val1_main_v53, val1_main_v54, TRef.ofBuf_toBuf, TRef.toBuf_ofBuf] <;> rfl
set_option maxRecDepth 8192 in
set_option maxHeartbeats 4000000 in
theorem val2_main_v104 (V0 : Valuation τ sig (Elt F)) : val2 V0 (no_index (Proc.devRef .tc main_v104)) = r_main_v104 V0 := by
  unfold val2
  simp only [ops_part1]
  after_results_simp
  simp only [val1_main_arg0, val1_main_arg1, val1_main_arg2, val1_main_arg3, val1_main_arg4, val1_main_arg5, val1_main_arg6, val1_main_arg7, val1_main_arg8, val1_main_arg9, val1_main_arg10, val1_main_arg11, val1_main_v4, val1_main_v47, val1_main_v50, val1_main_v53, val1_main_v54, TRef.ofBuf_toBuf, TRef.toBuf_ofBuf] <;> rfl
set_option maxRecDepth 8192 in
set_option maxHeartbeats 4000000 in
theorem val2_main_v110 (V0 : Valuation τ sig (Elt F)) : val2 V0 (no_index (Proc.devRef .tc main_v110)) = r_main_v110 V0 := by
  unfold val2
  simp only [ops_part1]
  after_results_simp
  simp only [val1_main_arg0, val1_main_arg1, val1_main_arg2, val1_main_arg3, val1_main_arg4, val1_main_arg5, val1_main_arg6, val1_main_arg7, val1_main_arg8, val1_main_arg9, val1_main_arg10, val1_main_arg11, val1_main_v4, val1_main_v47, val1_main_v50, val1_main_v53, val1_main_v54, TRef.ofBuf_toBuf, TRef.toBuf_ofBuf] <;> rfl

/-- The contents after the first 3 windows. -/
def val3 (V0 : Valuation τ sig (Elt F)) : Valuation τ sig (Elt F) := after ops_part2 (val2 V0)
/-- The buffers window 2 writes. -/
abbrev ops_part2_W : List (Ref sig .tc) := [main_cst_8, main_v111, main_v112, main_v113, main_call3_v0, main_call3_v1, main_call3_cst, main_call3_v2, main_call3_v3, main_call3_cst_0, main_call3_v4, main_call3_v5, main_v114, main_v115, main_v116, main_v117, main_v118, main_v119, main_v120, main_v121, main_v122, main_v123, main_v124, main_cst_9, main_v125, main_v126, main_v127, main_v128, main_v129, main_v130, main_v131, main_v132, main_v133, main_v134, main_v135, main_v136, main_v137, main_v138, main_v139, main_v140, main_cst_10, main_v141, main_v142, main_v143, main_v144, main_v145, main_v146, main_v147, main_v148, main_v149, main_v150, main_v151, main_v152, main_cst_11, main_v153, main_v154, main_v155, main_call4_v0, main_call4_v1, main_call4_cst, main_call4_v2, main_call4_v3, main_call4_cst_0, main_call4_v4, main_call4_v5, main_v156, main_v157, main_v158, main_v159, main_v160, main_v161, main_v162, main_v163, main_v164, main_v165, main_v166]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 2 does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_v4 (V0 : Valuation τ sig (Elt F)) : val3 V0 (no_index (Proc.devRef .tc main_v4)) = r_main_v4 V0 :=
  (val3_keep V0 main_v4 (by decide)).trans (val2_main_v4 V0)
set_option maxRecDepth 8192 in
set_option maxHeartbeats 4000000 in
theorem val3_main_v131 (V0 : Valuation τ sig (Elt F)) : val3 V0 (no_index (Proc.devRef .tc main_v131)) = r_main_v131 V0 := by
  unfold val3
  simp only [ops_part2]
  after_results_simp
  simp only [val2_main_arg0, val2_main_arg1, val2_main_arg2, val2_main_arg3, val2_main_arg4, val2_main_arg5, val2_main_arg6, val2_main_arg7, val2_main_arg8, val2_main_arg9, val2_main_arg10, val2_main_arg11, val2_main_v4, val2_main_v89, val2_main_v101, val2_main_v104, val2_main_v110, TRef.ofBuf_toBuf, TRef.toBuf_ofBuf] <;> rfl
set_option maxRecDepth 8192 in
set_option maxHeartbeats 4000000 in
theorem val3_main_v160 (V0 : Valuation τ sig (Elt F)) : val3 V0 (no_index (Proc.devRef .tc main_v160)) = r_main_v160 V0 := by
  unfold val3
  simp only [ops_part2]
  after_results_simp
  simp only [val2_main_arg0, val2_main_arg1, val2_main_arg2, val2_main_arg3, val2_main_arg4, val2_main_arg5, val2_main_arg6, val2_main_arg7, val2_main_arg8, val2_main_arg9, val2_main_arg10, val2_main_arg11, val2_main_v4, val2_main_v89, val2_main_v101, val2_main_v104, val2_main_v110, TRef.ofBuf_toBuf, TRef.toBuf_ofBuf] <;> rfl
set_option maxRecDepth 8192 in
set_option maxHeartbeats 4000000 in
theorem val3_main_v166 (V0 : Valuation τ sig (Elt F)) : val3 V0 (no_index (Proc.devRef .tc main_v166)) = r_main_v166 V0 := by
  unfold val3
  simp only [ops_part2]
  after_results_simp
  simp only [val2_main_arg0, val2_main_arg1, val2_main_arg2, val2_main_arg3, val2_main_arg4, val2_main_arg5, val2_main_arg6, val2_main_arg7, val2_main_arg8, val2_main_arg9, val2_main_arg10, val2_main_arg11, val2_main_v4, val2_main_v89, val2_main_v101, val2_main_v104, val2_main_v110, TRef.ofBuf_toBuf, TRef.toBuf_ofBuf] <;> rfl

/-- The contents after the first 4 windows. -/
def val4 (V0 : Valuation τ sig (Elt F)) : Valuation τ sig (Elt F) := after ops_part3 (val3 V0)
/-- The buffers window 3 writes. -/
abbrev ops_part3_W : List (Ref sig .tc) := [main_cst_12, main_v167, main_v168, main_v169, main_v170, main_v171, main_v172, main_v173, main_v174, main_v175, main_v176, main_v177, main_v178, main_v179, main_v180, main_v181, main_v182, main_cst_13, main_v183, main_v184, main_v185, main_v186, main_v187, main_v188, main_v189, main_v190, main_v191, main_v192, main_v193, main_v194, main_cst_14, main_v195, main_v196, main_v197, main_call5_v0, main_call5_v1, main_call5_cst, main_call5_v2, main_call5_v3, main_call5_cst_0, main_call5_v4, main_call5_v5, main_v198, main_v199, main_v200, main_v201, main_v202, main_v203, main_v204, main_v205, main_v206, main_v207, main_v208, main_cst_15, main_v209, main_v210, main_v211, main_v212, main_v213, main_v214, main_v215, main_v216, main_v217, main_v218, main_v219, main_v220, main_v221, main_v222]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 3 does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_v4 (V0 : Valuation τ sig (Elt F)) : val4 V0 (no_index (Proc.devRef .tc main_v4)) = r_main_v4 V0 :=
  (val4_keep V0 main_v4 (by decide)).trans (val3_main_v4 V0)
set_option maxRecDepth 8192 in
set_option maxHeartbeats 4000000 in
theorem val4_main_v215 (V0 : Valuation τ sig (Elt F)) : val4 V0 (no_index (Proc.devRef .tc main_v215)) = r_main_v215 V0 := by
  unfold val4
  simp only [ops_part3]
  after_results_simp
  simp only [val3_main_arg0, val3_main_arg1, val3_main_arg2, val3_main_arg3, val3_main_arg4, val3_main_arg5, val3_main_arg6, val3_main_arg7, val3_main_arg8, val3_main_arg9, val3_main_arg10, val3_main_arg11, val3_main_v4, val3_main_v131, val3_main_v160, val3_main_v166, TRef.ofBuf_toBuf, TRef.toBuf_ofBuf] <;> rfl
set_option maxRecDepth 8192 in
set_option maxHeartbeats 4000000 in
theorem val4_main_v218 (V0 : Valuation τ sig (Elt F)) : val4 V0 (no_index (Proc.devRef .tc main_v218)) = r_main_v218 V0 := by
  unfold val4
  simp only [ops_part3]
  after_results_simp
  simp only [val3_main_arg0, val3_main_arg1, val3_main_arg2, val3_main_arg3, val3_main_arg4, val3_main_arg5, val3_main_arg6, val3_main_arg7, val3_main_arg8, val3_main_arg9, val3_main_arg10, val3_main_arg11, val3_main_v4, val3_main_v131, val3_main_v160, val3_main_v166, TRef.ofBuf_toBuf, TRef.toBuf_ofBuf] <;> rfl
set_option maxRecDepth 8192 in
set_option maxHeartbeats 4000000 in
theorem val4_main_v221 (V0 : Valuation τ sig (Elt F)) : val4 V0 (no_index (Proc.devRef .tc main_v221)) = r_main_v221 V0 := by
  unfold val4
  simp only [ops_part3]
  after_results_simp
  simp only [val3_main_arg0, val3_main_arg1, val3_main_arg2, val3_main_arg3, val3_main_arg4, val3_main_arg5, val3_main_arg6, val3_main_arg7, val3_main_arg8, val3_main_arg9, val3_main_arg10, val3_main_arg11, val3_main_v4, val3_main_v131, val3_main_v160, val3_main_v166, TRef.ofBuf_toBuf, TRef.toBuf_ofBuf] <;> rfl
set_option maxRecDepth 8192 in
set_option maxHeartbeats 4000000 in
theorem val4_main_v222 (V0 : Valuation τ sig (Elt F)) : val4 V0 (no_index (Proc.devRef .tc main_v222)) = r_main_v222 V0 := by
  unfold val4
  simp only [ops_part3]
  after_results_simp
  simp only [val3_main_arg0, val3_main_arg1, val3_main_arg2, val3_main_arg3, val3_main_arg4, val3_main_arg5, val3_main_arg6, val3_main_arg7, val3_main_arg8, val3_main_arg9, val3_main_arg10, val3_main_arg11, val3_main_v4, val3_main_v131, val3_main_v160, val3_main_v166, TRef.ofBuf_toBuf, TRef.toBuf_ofBuf] <;> rfl

/-- The contents after the first 5 windows. -/
def val5 (V0 : Valuation τ sig (Elt F)) : Valuation τ sig (Elt F) := after ops_part4 (val4 V0)
/-- The buffers window 4 writes. -/
abbrev ops_part4_W : List (Ref sig .tc) := [main_v223, main_v224, main_cst_16, main_v225, main_v226, main_v227, main_v228, main_v229, main_v230, main_v231, main_v232, main_v233, main_v234, main_v235, main_v236, main_cst_17, main_v237, main_v238, main_v239, main_call6_v0, main_call6_v1, main_call6_cst, main_call6_v2, main_call6_v3, main_call6_cst_0, main_call6_v4, main_call6_v5, main_v240, main_v241, main_v242, main_v243, main_v244, main_v245, main_v246, main_v247, main_v248, main_v249, main_v250, main_cst_18, main_v251, main_v252, main_v253, main_v254, main_v255, main_v256, main_v257, main_v258, main_v259, main_v260, main_v261, main_v262, main_v263, main_v264, main_v265, main_v266, main_cst_19, main_v267, main_v268, main_v269, main_v270, main_v271, main_v272, main_v273, main_v274, main_v275, main_v276, main_v277, main_v278]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 4 does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_v4 (V0 : Valuation τ sig (Elt F)) : val5 V0 (no_index (Proc.devRef .tc main_v4)) = r_main_v4 V0 :=
  (val5_keep V0 main_v4 (by decide)).trans (val4_main_v4 V0)
set_option maxRecDepth 8192 in
set_option maxHeartbeats 4000000 in
theorem val5_main_v257 (V0 : Valuation τ sig (Elt F)) : val5 V0 (no_index (Proc.devRef .tc main_v257)) = r_main_v257 V0 := by
  unfold val5
  simp only [ops_part4]
  after_results_simp
  simp only [val4_main_arg0, val4_main_arg1, val4_main_arg2, val4_main_arg3, val4_main_arg4, val4_main_arg5, val4_main_arg6, val4_main_arg7, val4_main_arg8, val4_main_arg9, val4_main_arg10, val4_main_arg11, val4_main_v4, val4_main_v215, val4_main_v218, val4_main_v221, val4_main_v222, TRef.ofBuf_toBuf, TRef.toBuf_ofBuf] <;> rfl
set_option maxRecDepth 8192 in
set_option maxHeartbeats 4000000 in
theorem val5_main_v269 (V0 : Valuation τ sig (Elt F)) : val5 V0 (no_index (Proc.devRef .tc main_v269)) = r_main_v269 V0 := by
  unfold val5
  simp only [ops_part4]
  after_results_simp
  simp only [val4_main_arg0, val4_main_arg1, val4_main_arg2, val4_main_arg3, val4_main_arg4, val4_main_arg5, val4_main_arg6, val4_main_arg7, val4_main_arg8, val4_main_arg9, val4_main_arg10, val4_main_arg11, val4_main_v4, val4_main_v215, val4_main_v218, val4_main_v221, val4_main_v222, TRef.ofBuf_toBuf, TRef.toBuf_ofBuf] <;> rfl
set_option maxRecDepth 8192 in
set_option maxHeartbeats 4000000 in
theorem val5_main_v272 (V0 : Valuation τ sig (Elt F)) : val5 V0 (no_index (Proc.devRef .tc main_v272)) = r_main_v272 V0 := by
  unfold val5
  simp only [ops_part4]
  after_results_simp
  simp only [val4_main_arg0, val4_main_arg1, val4_main_arg2, val4_main_arg3, val4_main_arg4, val4_main_arg5, val4_main_arg6, val4_main_arg7, val4_main_arg8, val4_main_arg9, val4_main_arg10, val4_main_arg11, val4_main_v4, val4_main_v215, val4_main_v218, val4_main_v221, val4_main_v222, TRef.ofBuf_toBuf, TRef.toBuf_ofBuf] <;> rfl
set_option maxRecDepth 8192 in
set_option maxHeartbeats 4000000 in
theorem val5_main_v278 (V0 : Valuation τ sig (Elt F)) : val5 V0 (no_index (Proc.devRef .tc main_v278)) = r_main_v278 V0 := by
  unfold val5
  simp only [ops_part4]
  after_results_simp
  simp only [val4_main_arg0, val4_main_arg1, val4_main_arg2, val4_main_arg3, val4_main_arg4, val4_main_arg5, val4_main_arg6, val4_main_arg7, val4_main_arg8, val4_main_arg9, val4_main_arg10, val4_main_arg11, val4_main_v4, val4_main_v215, val4_main_v218, val4_main_v221, val4_main_v222, TRef.ofBuf_toBuf, TRef.toBuf_ofBuf] <;> rfl

/-- The contents after the first 6 windows. -/
def val6 (V0 : Valuation τ sig (Elt F)) : Valuation τ sig (Elt F) := after ops_part5 (val5 V0)
/-- The buffers window 5 writes. -/
abbrev ops_part5_W : List (Ref sig .tc) := [main_cst_20, main_v279, main_v280, main_v281, main_call7_v0, main_call7_v1, main_call7_cst, main_call7_v2, main_call7_v3, main_call7_cst_0, main_call7_v4, main_call7_v5, main_v282, main_v283, main_v284, main_v285, main_v286, main_v287, main_v288, main_v289, main_v290, main_v291, main_v292, main_cst_21, main_v293, main_v294, main_v295, main_v296, main_v297, main_v298, main_v299, main_v300, main_v301, main_v302, main_v303, main_v304, main_v305, main_v306, main_v307, main_v308, main_cst_22, main_v309, main_v310, main_v311, main_v312, main_v313, main_v314, main_v315, main_v316, main_v317, main_v318, main_v319, main_v320, main_cst_23, main_v321, main_v322, main_v323, main_call8_v0, main_call8_v1, main_call8_cst, main_call8_v2, main_call8_v3, main_call8_cst_0, main_call8_v4, main_call8_v5, main_v324, main_v325, main_v326, main_v327, main_v328, main_v329, main_v330, main_v331, main_v332, main_v333, main_v334]
set_option maxRecDepth 8192 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 5 does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_v4 (V0 : Valuation τ sig (Elt F)) : val6 V0 (no_index (Proc.devRef .tc main_v4)) = r_main_v4 V0 :=
  (val6_keep V0 main_v4 (by decide)).trans (val5_main_v4 V0)
set_option maxRecDepth 8192 in
set_option maxHeartbeats 4000000 in
theorem val6_main_v299 (V0 : Valuation τ sig (Elt F)) : val6 V0 (no_index (Proc.devRef .tc main_v299)) = r_main_v299 V0 := by
  unfold val6
  simp only [ops_part5]
  after_results_simp
  simp only [val5_main_arg0, val5_main_arg1, val5_main_arg2, val5_main_arg3, val5_main_arg4, val5_main_arg5, val5_main_arg6, val5_main_arg7, val5_main_arg8, val5_main_arg9, val5_main_arg10, val5_main_arg11, val5_main_v4, val5_main_v257, val5_main_v269, val5_main_v272, val5_main_v278, TRef.ofBuf_toBuf, TRef.toBuf_ofBuf] <;> rfl
set_option maxRecDepth 8192 in
set_option maxHeartbeats 4000000 in
theorem val6_main_v328 (V0 : Valuation τ sig (Elt F)) : val6 V0 (no_index (Proc.devRef .tc main_v328)) = r_main_v328 V0 := by
  unfold val6
  simp only [ops_part5]
  after_results_simp
  simp only [val5_main_arg0, val5_main_arg1, val5_main_arg2, val5_main_arg3, val5_main_arg4, val5_main_arg5, val5_main_arg6, val5_main_arg7, val5_main_arg8, val5_main_arg9, val5_main_arg10, val5_main_arg11, val5_main_v4, val5_main_v257, val5_main_v269, val5_main_v272, val5_main_v278, TRef.ofBuf_toBuf, TRef.toBuf_ofBuf] <;> rfl
set_option maxRecDepth 8192 in
set_option maxHeartbeats 4000000 in
theorem val6_main_v334 (V0 : Valuation τ sig (Elt F)) : val6 V0 (no_index (Proc.devRef .tc main_v334)) = r_main_v334 V0 := by
  unfold val6
  simp only [ops_part5]
  after_results_simp
  simp only [val5_main_arg0, val5_main_arg1, val5_main_arg2, val5_main_arg3, val5_main_arg4, val5_main_arg5, val5_main_arg6, val5_main_arg7, val5_main_arg8, val5_main_arg9, val5_main_arg10, val5_main_arg11, val5_main_v4, val5_main_v257, val5_main_v269, val5_main_v272, val5_main_v278, TRef.ofBuf_toBuf, TRef.toBuf_ofBuf] <;> rfl

/-- The contents after the first 7 windows. -/
def val7 (V0 : Valuation τ sig (Elt F)) : Valuation τ sig (Elt F) := after ops_part6 (val6 V0)
/-- The buffers window 6 writes. -/
abbrev ops_part6_W : List (Ref sig .tc) := [main_cst_24, main_v335, main_v336, main_v337, main_v338, main_v339, main_v340, main_v341]
set_option maxRecDepth 8192 in
theorem ops_part6_writes : (ops_part6 : List (HloOp τ sig (Elt F))).Forall fun op => op.writes ⊆ (ops_part6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 6 does not write keeps its contents through it. -/
theorem val7_keep (V0 : Valuation τ sig (Elt F)) (r : Ref sig .tc) (h : r ∉ ops_part6_W) :
    val7 V0 (Proc.devRef .tc r) = val6 V0 (Proc.devRef .tc r) :=
  after_of_writes_sub ops_part6 _ ops_part6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
set_option maxRecDepth 8192 in
set_option maxHeartbeats 4000000 in
theorem val7_main_v341 (V0 : Valuation τ sig (Elt F)) : val7 V0 (no_index (Proc.devRef .tc main_v341)) = r_main_v341 V0 := by
  unfold val7
  simp only [ops_part6]
  after_results_simp
  simp only [val6_main_arg0, val6_main_arg1, val6_main_arg2, val6_main_arg3, val6_main_arg4, val6_main_arg5, val6_main_arg6, val6_main_arg7, val6_main_arg8, val6_main_arg9, val6_main_arg10, val6_main_arg11, val6_main_v4, val6_main_v299, val6_main_v328, val6_main_v334, TRef.ofBuf_toBuf, TRef.toBuf_ofBuf] <;> rfl

theorem after_ops (V0 : Valuation τ sig (Elt F)) : after ops V0 = val7 V0 := by
  simp only [ops, after_append]
  rfl

set_option maxRecDepth 8192 in
/-- On every device, from any memory with zero counters: every weakly fair execution of @main terminates with the
    result buffer at its operations' term of the arguments and the twelve arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v341) = r_main_v341 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v341).trans (by simp only [after_ops]; exact val7_main_v341 (launchContents m c)),
      (h c main_arg0).trans (by simp only [after_ops]; exact val7_main_arg0 (launchContents m c)),
      (h c main_arg1).trans (by simp only [after_ops]; exact val7_main_arg1 (launchContents m c)),
      (h c main_arg2).trans (by simp only [after_ops]; exact val7_main_arg2 (launchContents m c)),
      (h c main_arg3).trans (by simp only [after_ops]; exact val7_main_arg3 (launchContents m c)),
      (h c main_arg4).trans (by simp only [after_ops]; exact val7_main_arg4 (launchContents m c)),
      (h c main_arg5).trans (by simp only [after_ops]; exact val7_main_arg5 (launchContents m c)),
      (h c main_arg6).trans (by simp only [after_ops]; exact val7_main_arg6 (launchContents m c)),
      (h c main_arg7).trans (by simp only [after_ops]; exact val7_main_arg7 (launchContents m c)),
      (h c main_arg8).trans (by simp only [after_ops]; exact val7_main_arg8 (launchContents m c)),
      (h c main_arg9).trans (by simp only [after_ops]; exact val7_main_arg9 (launchContents m c)),
      (h c main_arg10).trans (by simp only [after_ops]; exact val7_main_arg10 (launchContents m c)),
      (h c main_arg11).trans (by simp only [after_ops]; exact val7_main_arg11 (launchContents m c))⟩)
    (run_seq scopedRefs_eq scopedSems_eq defs main (fun _ => ops) main_eq (fun _ => ops_sub) m ρ)

end Cert.MoeRun

end
-- ==== Proof.RefExpert.lean ====
/-
  One expert of the host program, as arrays, and the same read at an index.

  The host program repeats one block of operations eight times, once per expert: it cuts the expert's slab out of
  each of the nine stacked weight arrays, drops the slab's leading unit axis, and forms
    g = x · gate_proj + 2 · ((x · gate_A) · gate_B),   u = x · up_proj + 2 · ((x · up_A) · up_B),
    h = (g · (1 / (1 + exp (-g)))) · u,                y = h · down_proj + 2 · ((h · down_A) · down_B)
  over all 4096 tokens at once.  `expertArr` is that block as one term over the nine slabs; `expertArr_apply` reads
  it at token `t`, column `j`: the token's row taken through the per-row function of the specification.  A row of
  a matrix product depends on the left operand's row alone, which is what makes the array term a row-by-row one; the
  quotient spelling of the sigmoid is the one function `logistic` on every extended real.
-/
import proofs.«137077_j223338300204_2_alg».proof.ReferenceIdeal
import proofs.«137077_j223338300204_2_alg».proof.Proof.Gen.ReferenceIdeal
import proofs.«137077_j223338300204_2_alg».proof.Proof.Spec
import proofs.«137077_j223338300204_2_alg».proof.Proof.LibPlainDot
import Idealize.ShloMosaic.Lib.Pipeline.Value
import Idealize.ShloMosaic.Lib.ValueIdx
import Idealize.ShloMosaic.Lib.ValueLayout

noncomputable section

namespace Cert.MoeRef

open Cert.ReferenceIdeal Cert.ReferenceIdeal.Gen Idealize.ShloMosaic Idealize.ShloMosaic.ValueIdx Cert.MoeSpec

variable {F : FTy → Type} [FloatOps F]

/-- The scale 2, splat over a shape: the broadcast of the scalar constant the program prints. -/
abbrev twoOver (s : Shape) (h : S_.BroadcastsInDim s ![]) : (⟨s, .f32⟩ : BufTy).Contents (Elt F) :=
  broadcastInDim s ![] h (constant (F := F) S_ .f32 0x40000000#32)

/-- The one, splat over the hidden shape. -/
abbrev oneOver : (⟨S4096x2816, .f32⟩ : BufTy).Contents (Elt F) :=
  broadcastInDim S4096x2816 ![] bcast_S_S4096x2816 (constant (F := F) S_ .f32 0x3F800000#32)

/-- `x · W + 2 · ((x · A) · B)` into the hidden width, over slabs `[1, 1024, 2816]`, `[1, 1024, 8]`, `[1, 8, 2816]`. -/
def upArr (x : (⟨S4096x1024, .f32⟩ : BufTy).Contents (Elt F)) (w : (⟨S1x1024x2816, .f32⟩ : BufTy).Contents (Elt F))
    (a : (⟨S1x1024x8, .f32⟩ : BufTy).Contents (Elt F)) (b : (⟨S1x8x2816, .f32⟩ : BufTy).Contents (Elt F)) :
    (⟨S4096x2816, .f32⟩ : BufTy).Contents (Elt F) :=
  addf (Host.dotGeneral dot_S4096x1024_S1024x2816_S4096x2816_1_0_0_1_n_n none x (shapeCast _ w shapeCasts_S1x1024x2816_S1024x2816))
    (mulf (twoOver S4096x2816 bcast_S_S4096x2816)
      (Host.dotGeneral dot_S4096x8_S8x2816_S4096x2816_1_0_0_1_n_n none
        (Host.dotGeneral dot_S4096x1024_S1024x8_S4096x8_1_0_0_1_n_n none x (shapeCast _ a shapeCasts_S1x1024x8_S1024x8))
        (shapeCast _ b shapeCasts_S1x8x2816_S8x2816)))

/-- The gated hidden array: `(g · (1 / (1 + exp (-g)))) · u`. -/
def hiddenArr (g u : (⟨S4096x2816, .f32⟩ : BufTy).Contents (Elt F)) : (⟨S4096x2816, .f32⟩ : BufTy).Contents (Elt F) :=
  mulf (mulf g (Host.divf oneOver (addf oneOver (Host.exp (Host.negf g))))) u

/-- `h · W + 2 · ((h · A) · B)` back to the model width, over slabs `[1, 2816, 1024]`, `[1, 2816, 8]`, `[1, 8, 1024]`. -/
def downArr (h : (⟨S4096x2816, .f32⟩ : BufTy).Contents (Elt F)) (w : (⟨S1x2816x1024, .f32⟩ : BufTy).Contents (Elt F))
    (a : (⟨S1x2816x8, .f32⟩ : BufTy).Contents (Elt F)) (b : (⟨S1x8x1024, .f32⟩ : BufTy).Contents (Elt F)) :
    (⟨S4096x1024, .f32⟩ : BufTy).Contents (Elt F) :=
  addf (Host.dotGeneral dot_S4096x2816_S2816x1024_S4096x1024_1_0_0_1_n_n none h (shapeCast _ w shapeCasts_S1x2816x1024_S2816x1024))
    (mulf (twoOver S4096x1024 bcast_S_S4096x1024)
      (Host.dotGeneral dot_S4096x8_S8x1024_S4096x1024_1_0_0_1_n_n none
        (Host.dotGeneral dot_S4096x2816_S2816x8_S4096x8_1_0_0_1_n_n none h (shapeCast _ a shapeCasts_S1x2816x8_S2816x8))
        (shapeCast _ b shapeCasts_S1x8x1024_S8x1024)))

/-- One expert's output for every token, over the expert's nine slabs. -/
def expertArr (x : (⟨S4096x1024, .f32⟩ : BufTy).Contents (Elt F))
    (s3 s4 : (⟨S1x1024x2816, .f32⟩ : BufTy).Contents (Elt F)) (s5 : (⟨S1x2816x1024, .f32⟩ : BufTy).Contents (Elt F))
    (s6 : (⟨S1x1024x8, .f32⟩ : BufTy).Contents (Elt F)) (s7 : (⟨S1x8x2816, .f32⟩ : BufTy).Contents (Elt F))
    (s8 : (⟨S1x1024x8, .f32⟩ : BufTy).Contents (Elt F)) (s9 : (⟨S1x8x2816, .f32⟩ : BufTy).Contents (Elt F))
    (s10 : (⟨S1x2816x8, .f32⟩ : BufTy).Contents (Elt F)) (s11 : (⟨S1x8x1024, .f32⟩ : BufTy).Contents (Elt F)) :
    (⟨S4096x1024, .f32⟩ : BufTy).Contents (Elt F) :=
  downArr (hiddenArr (upArr x s3 s6 s7) (upArr x s4 s8 s9)) s5 s10 s11

/-- The splat scale reads the printed word everywhere. -/
theorem twoOver_apply (s : Shape) (h : S_.BroadcastsInDim s ![]) (i : s.Idx) : twoOver (F := Ideal) s h i = two :=
  broadcastInDim_apply _ h _ i ix0 (fun a => a.elim0)

theorem oneOver_apply (i : S4096x2816.Idx) : oneOver (F := Ideal) i = Ideal.ofBits .f32 0x3F800000#32 :=
  broadcastInDim_apply _ bcast_S_S4096x2816 _ i ix0 (fun a => a.elim0)

/-- The slabs of one expert as the plain matrices of the specification. -/
def slabWeights (s3 s4 : (⟨S1x1024x2816, .f32⟩ : BufTy).Contents (Elt Ideal)) (s5 : (⟨S1x2816x1024, .f32⟩ : BufTy).Contents (Elt Ideal))
    (s6 : (⟨S1x1024x8, .f32⟩ : BufTy).Contents (Elt Ideal)) (s7 : (⟨S1x8x2816, .f32⟩ : BufTy).Contents (Elt Ideal))
    (s8 : (⟨S1x1024x8, .f32⟩ : BufTy).Contents (Elt Ideal)) (s9 : (⟨S1x8x2816, .f32⟩ : BufTy).Contents (Elt Ideal))
    (s10 : (⟨S1x2816x8, .f32⟩ : BufTy).Contents (Elt Ideal)) (s11 : (⟨S1x8x1024, .f32⟩ : BufTy).Contents (Elt Ideal)) : Weights where
  gp l k := s3 (ix3 (0 : Fin 1) l k)
  up l k := s4 (ix3 (0 : Fin 1) l k)
  dp k j := s5 (ix3 (0 : Fin 1) k j)
  gA l q := s6 (ix3 (0 : Fin 1) l q)
  gB q k := s7 (ix3 (0 : Fin 1) q k)
  uA l q := s8 (ix3 (0 : Fin 1) l q)
  uB q k := s9 (ix3 (0 : Fin 1) q k)
  dA k q := s10 (ix3 (0 : Fin 1) k q)
  dB q j := s11 (ix3 (0 : Fin 1) q j)

/-- `upArr` at token `t`, hidden column `k`: the token's row through `lora`. -/
theorem upArr_apply (x : (⟨S4096x1024, .f32⟩ : BufTy).Contents (Elt Ideal)) (w : (⟨S1x1024x2816, .f32⟩ : BufTy).Contents (Elt Ideal))
    (a : (⟨S1x1024x8, .f32⟩ : BufTy).Contents (Elt Ideal)) (b : (⟨S1x8x2816, .f32⟩ : BufTy).Contents (Elt Ideal))
    (t : Fin 4096) (k : Fin 2816) :
    upArr (F := Ideal) x w a b (ix2 t k)
      = lora (fun l => x (ix2 t l)) (fun l k => w (ix3 (0 : Fin 1) l k)) (fun l q => a (ix3 (0 : Fin 1) l q))
          (fun q k => b (ix3 (0 : Fin 1) q k)) k := by
  unfold upArr lora
  rw [addf_apply, mulf_apply, twoOver_apply]
  refine congrArg₂ (· + ·)
    ((PlainDot.dotGeneral_apply dot_S4096x1024_S1024x2816_S4096x2816_1_0_0_1_n_n rfl none _ x _ t k).trans
      (Finset.sum_congr rfl fun l _ => congrArg (x (ix2 t l) * ·) (shapeCast_1ab_ab_apply w _ l k)))
    (congrArg (two * ·) ?_)
  refine (PlainDot.dotGeneral_apply dot_S4096x8_S8x2816_S4096x2816_1_0_0_1_n_n rfl none _ _ _ t k).trans
    (Finset.sum_congr rfl fun q _ => congrArg₂ (· * ·) ?_ (shapeCast_1ab_ab_apply b _ q k))
  exact (PlainDot.dotGeneral_apply dot_S4096x1024_S1024x8_S4096x8_1_0_0_1_n_n rfl none _ x _ t q).trans
    (Finset.sum_congr rfl fun l _ => congrArg (x (ix2 t l) * ·) (shapeCast_1ab_ab_apply a _ l q))

/-- `downArr` at token `t`, column `j`: the hidden row through `lora`. -/
theorem downArr_apply (h : (⟨S4096x2816, .f32⟩ : BufTy).Contents (Elt Ideal)) (w : (⟨S1x2816x1024, .f32⟩ : BufTy).Contents (Elt Ideal))
    (a : (⟨S1x2816x8, .f32⟩ : BufTy).Contents (Elt Ideal)) (b : (⟨S1x8x1024, .f32⟩ : BufTy).Contents (Elt Ideal))
    (t : Fin 4096) (j : Fin 1024) :
    downArr (F := Ideal) h w a b (ix2 t j)
      = lora (fun k => h (ix2 t k)) (fun k j => w (ix3 (0 : Fin 1) k j)) (fun k q => a (ix3 (0 : Fin 1) k q))
          (fun q j => b (ix3 (0 : Fin 1) q j)) j := by
  unfold downArr lora
  rw [addf_apply, mulf_apply, twoOver_apply]
  refine congrArg₂ (· + ·)
    ((PlainDot.dotGeneral_apply dot_S4096x2816_S2816x1024_S4096x1024_1_0_0_1_n_n rfl none _ h _ t j).trans
      (Finset.sum_congr rfl fun l _ => congrArg (h (ix2 t l) * ·) (shapeCast_1ab_ab_apply w _ l j)))
    (congrArg (two * ·) ?_)
  refine (PlainDot.dotGeneral_apply dot_S4096x8_S8x1024_S4096x1024_1_0_0_1_n_n rfl none _ _ _ t j).trans
    (Finset.sum_congr rfl fun q _ => congrArg₂ (· * ·) ?_ (shapeCast_1ab_ab_apply b _ q j))
  exact (PlainDot.dotGeneral_apply dot_S4096x2816_S2816x8_S4096x8_1_0_0_1_n_n rfl none _ h _ t q).trans
    (Finset.sum_congr rfl fun l _ => congrArg (h (ix2 t l) * ·) (shapeCast_1ab_ab_apply a _ l q))

/-- The gated hidden array at an index: `(g · logistic g) · u`. -/
theorem hiddenArr_apply (g u : (⟨S4096x2816, .f32⟩ : BufTy).Contents (Elt Ideal)) (i : S4096x2816.Idx) :
    hiddenArr (F := Ideal) g u i = (g i * Ideal.logistic (g i)) * u i := by
  unfold hiddenArr
  rw [mulf_apply, mulf_apply]
  show (g i * Ideal.div (oneOver (F := Ideal) i) (oneOver (F := Ideal) i + Ideal.exp (-(g i)))) * u i = _
  rw [oneOver_apply, logistic_spelt]

/-- One expert's output at token `t`, column `j`: the token's row through the specification's `expertRow`. -/
theorem expertArr_apply (x : (⟨S4096x1024, .f32⟩ : BufTy).Contents (Elt Ideal))
    (s3 s4 : (⟨S1x1024x2816, .f32⟩ : BufTy).Contents (Elt Ideal)) (s5 : (⟨S1x2816x1024, .f32⟩ : BufTy).Contents (Elt Ideal))
    (s6 : (⟨S1x1024x8, .f32⟩ : BufTy).Contents (Elt Ideal)) (s7 : (⟨S1x8x2816, .f32⟩ : BufTy).Contents (Elt Ideal))
    (s8 : (⟨S1x1024x8, .f32⟩ : BufTy).Contents (Elt Ideal)) (s9 : (⟨S1x8x2816, .f32⟩ : BufTy).Contents (Elt Ideal))
    (s10 : (⟨S1x2816x8, .f32⟩ : BufTy).Contents (Elt Ideal)) (s11 : (⟨S1x8x1024, .f32⟩ : BufTy).Contents (Elt Ideal))
    (t : Fin 4096) (j : Fin 1024) :
    expertArr (F := Ideal) x s3 s4 s5 s6 s7 s8 s9 s10 s11 (ix2 t j)
      = expertRow (fun l => x (ix2 t l)) (slabWeights s3 s4 s5 s6 s7 s8 s9 s10 s11) j := by
  unfold expertArr expertRow
  rw [downArr_apply]
  refine congrArg (fun hh => lora hh _ _ _ j) (funext fun k => ?_)
  rw [hiddenArr_apply, upArr_apply, upArr_apply]
  rfl

end Cert.MoeRef

end
-- ==== Proof.RefValue.lean ====
/-
  The host program's result, read at an index: the specification's `result`.

  The program's result is eight nested "add this expert's term" stages over the zero array.  Each is the stage
  before, plus the expert's column of the combine array spread over the model width, times the expert's output
  array over its nine slabs; read at (t, j) that adds the specification's term of the expert to what was there.
  The slab of expert e cut from a stacked weight array reads the array at (e, ·, ·).
-/
import proofs.«137077_j223338300204_2_alg».proof.Proof.RefRun
import proofs.«137077_j223338300204_2_alg».proof.Proof.RefExpert

set_option maxRecDepth 16384

noncomputable section

namespace Cert.MoeRef

open Cert.ReferenceIdeal Cert.ReferenceIdeal.Gen
open Idealize.ShloMosaic Idealize.ShloMosaic.ValueIdx Idealize.ShloMosaic.TcCoe Idealize.ShloMosaic.StableHlo Idealize.SL.Sem Cert.MoeSpec

variable {F : FTy → Type} [FloatOps F]

/-- The stage that adds one expert's term: the stage before, plus the expert's combine column (cut at column `o`,
    spread over the model width) times the expert's output array. -/
def accArr (prev : (⟨S4096x1024, .f32⟩ : BufTy).Contents (Elt F)) (cmb : (⟨S4096x8, .f32⟩ : BufTy).Contents (Elt F)) (o : ℕ)
    (h : S4096x8.Slices ![0, o] S4096x1) (y : (⟨S4096x1024, .f32⟩ : BufTy).Contents (Elt F)) :
    (⟨S4096x1024, .f32⟩ : BufTy).Contents (Elt F) :=
  addf prev (mulf (broadcastInDim S4096x1024 ![0, 1] bcast_S4096x1_S4096x1024_0_1 (extractStridedSlice S4096x1 ![0, o] cmb h)) y)

/-- … at (t, j): what was there plus the combine weight of the expert times the expert's output. -/
theorem accArr_apply (prev : (⟨S4096x1024, .f32⟩ : BufTy).Contents (Elt Ideal)) (cmb : (⟨S4096x8, .f32⟩ : BufTy).Contents (Elt Ideal)) (o : ℕ) (h : S4096x8.Slices ![0, o] S4096x1)
    (y : (⟨S4096x1024, .f32⟩ : BufTy).Contents (Elt Ideal)) (e : Fin 8) (he : e.val = o) (t : Fin 4096) (j : Fin 1024) :
    accArr (F := Ideal) prev cmb o h y (ix2 t j) = prev (ix2 t j) + cmb (ix2 t e) * y (ix2 t j) := by
  unfold accArr
  rw [addf_apply, mulf_apply]
  refine congrArg (fun z => prev (ix2 t j) + z * y (ix2 t j)) ?_
  refine (broadcastInDim_apply _ bcast_S4096x1_S4096x1024_0_1 _ (ix2 t j) (ix2 t (0 : Fin 1)) (fun a => ?_)).trans ?_
  · match a with
    | ⟨0, _⟩ => show t.val = if (4096 : Nat) = 1 then 0 else t.val; rw [if_neg (by decide)]
    | ⟨1, _⟩ => show 0 = if (1 : Nat) = 1 then 0 else j.val; rw [if_pos rfl]
  · exact slice2_axis1_apply o cmb h t (0 : Fin 1) e (by rw [he]; rfl)

/-- The slab at offset `o` along the first axis, read at `(0, l, k)`: the stacked array at `(e, l, k)`, `e` the expert
    with number `o`. -/
theorem slab_apply {n a b : ℕ} {α : Type} (o : ℕ) (X : (⟨3, ![n, a, b]⟩ : Shape).Idx → α)
    (h : (⟨3, ![n, a, b]⟩ : Shape).Slices ![o, 0, 0] ⟨3, ![1, a, b]⟩) (e : Fin n) (he : e.val = o) (l : Fin a) (k : Fin b) :
    extractStridedSlice ⟨3, ![1, a, b]⟩ ![o, 0, 0] X h (ix3 (0 : Fin 1) l k) = X (ix3 e l k) :=
  extractStridedSlice_apply _ _ _ _ _ (fun ax => by
    match ax with
    | ⟨0, _⟩ => show e.val = o + 0; omega
    | ⟨1, _⟩ => exact (Nat.zero_add _).symm
    | ⟨2, _⟩ => exact (Nat.zero_add _).symm)

/-- The matrices of the nine slabs cut at offset `o` are the specification's for the expert with that number. -/
theorem slabWeights_eq (x3 x4 : (⟨S8x1024x2816, .f32⟩ : BufTy).Contents (Elt Ideal)) (x5 : (⟨S8x2816x1024, .f32⟩ : BufTy).Contents (Elt Ideal)) (x6 : (⟨S8x1024x8, .f32⟩ : BufTy).Contents (Elt Ideal)) (x7 : (⟨S8x8x2816, .f32⟩ : BufTy).Contents (Elt Ideal)) (x8 : (⟨S8x1024x8, .f32⟩ : BufTy).Contents (Elt Ideal)) (x9 : (⟨S8x8x2816, .f32⟩ : BufTy).Contents (Elt Ideal)) (x10 : (⟨S8x2816x8, .f32⟩ : BufTy).Contents (Elt Ideal)) (x11 : (⟨S8x8x1024, .f32⟩ : BufTy).Contents (Elt Ideal)) (o : ℕ) (e : Fin 8) (he : e.val = o)
    (h3 : S8x1024x2816.Slices ![o, 0, 0] S1x1024x2816) (h4 : S8x1024x2816.Slices ![o, 0, 0] S1x1024x2816) (h5 : S8x2816x1024.Slices ![o, 0, 0] S1x2816x1024) (h6 : S8x1024x8.Slices ![o, 0, 0] S1x1024x8) (h7 : S8x8x2816.Slices ![o, 0, 0] S1x8x2816) (h8 : S8x1024x8.Slices ![o, 0, 0] S1x1024x8) (h9 : S8x8x2816.Slices ![o, 0, 0] S1x8x2816) (h10 : S8x2816x8.Slices ![o, 0, 0] S1x2816x8) (h11 : S8x8x1024.Slices ![o, 0, 0] S1x8x1024) :
    slabWeights (extractStridedSlice S1x1024x2816 ![o, 0, 0] x3 h3) (extractStridedSlice S1x1024x2816 ![o, 0, 0] x4 h4) (extractStridedSlice S1x2816x1024 ![o, 0, 0] x5 h5) (extractStridedSlice S1x1024x8 ![o, 0, 0] x6 h6) (extractStridedSlice S1x8x2816 ![o, 0, 0] x7 h7) (extractStridedSlice S1x1024x8 ![o, 0, 0] x8 h8) (extractStridedSlice S1x8x2816 ![o, 0, 0] x9 h9) (extractStridedSlice S1x2816x8 ![o, 0, 0] x10 h10) (extractStridedSlice S1x8x1024 ![o, 0, 0] x11 h11) = weightsAt x3 x4 x5 x6 x7 x8 x9 x10 x11 e := by
  unfold slabWeights weightsAt
  congr 1 <;> (funext r s; exact slab_apply o _ _ e he r s)

/-- One "add this expert's term" stage at (t, j): the stage before plus the specification's term of the expert. -/
theorem acc_term (o : ℕ) (e : Fin 8) (he : e.val = o) {x0 : (⟨S4096x1024, .f32⟩ : BufTy).Contents (Elt Ideal)} {x3 x4 : (⟨S8x1024x2816, .f32⟩ : BufTy).Contents (Elt Ideal)}
    {x5 : (⟨S8x2816x1024, .f32⟩ : BufTy).Contents (Elt Ideal)} {x6 : (⟨S8x1024x8, .f32⟩ : BufTy).Contents (Elt Ideal)} {x7 : (⟨S8x8x2816, .f32⟩ : BufTy).Contents (Elt Ideal)} {x8 : (⟨S8x1024x8, .f32⟩ : BufTy).Contents (Elt Ideal)} {x9 : (⟨S8x8x2816, .f32⟩ : BufTy).Contents (Elt Ideal)}
    {x10 : (⟨S8x2816x8, .f32⟩ : BufTy).Contents (Elt Ideal)} {x11 : (⟨S8x8x1024, .f32⟩ : BufTy).Contents (Elt Ideal)} {cmb : (⟨S4096x8, .f32⟩ : BufTy).Contents (Elt Ideal)} {prev : (⟨S4096x1024, .f32⟩ : BufTy).Contents (Elt Ideal)}
    {h : S4096x8.Slices ![0, o] S4096x1} {h3 : S8x1024x2816.Slices ![o, 0, 0] S1x1024x2816} {h4 : S8x1024x2816.Slices ![o, 0, 0] S1x1024x2816} {h5 : S8x2816x1024.Slices ![o, 0, 0] S1x2816x1024} {h6 : S8x1024x8.Slices ![o, 0, 0] S1x1024x8} {h7 : S8x8x2816.Slices ![o, 0, 0] S1x8x2816} {h8 : S8x1024x8.Slices ![o, 0, 0] S1x1024x8} {h9 : S8x8x2816.Slices ![o, 0, 0] S1x8x2816} {h10 : S8x2816x8.Slices ![o, 0, 0] S1x2816x8} {h11 : S8x8x1024.Slices ![o, 0, 0] S1x8x1024}
    (t : Fin 4096) (j : Fin 1024) :
    accArr (F := Ideal) prev cmb o h (expertArr (F := Ideal) x0 (extractStridedSlice S1x1024x2816 ![o, 0, 0] x3 h3) (extractStridedSlice S1x1024x2816 ![o, 0, 0] x4 h4) (extractStridedSlice S1x2816x1024 ![o, 0, 0] x5 h5) (extractStridedSlice S1x1024x8 ![o, 0, 0] x6 h6) (extractStridedSlice S1x8x2816 ![o, 0, 0] x7 h7) (extractStridedSlice S1x1024x8 ![o, 0, 0] x8 h8) (extractStridedSlice S1x8x2816 ![o, 0, 0] x9 h9) (extractStridedSlice S1x2816x8 ![o, 0, 0] x10 h10) (extractStridedSlice S1x8x1024 ![o, 0, 0] x11 h11)) (ix2 t j)
      = prev (ix2 t j) + term x0 cmb (weightsAt x3 x4 x5 x6 x7 x8 x9 x10 x11) t j o := by
  rw [accArr_apply prev cmb o h _ e he t j, expertArr_apply, slabWeights_eq x3 x4 x5 x6 x7 x8 x9 x10 x11 o e he]
  subst he
  unfold term
  rw [dif_pos e.isLt]

/-- The combine array as the program computes it from the routing weights `x1` and the selected experts `x2`: the
    one-hot of each selected expert times its routing weight, summed over the two selections. -/
def combineArr (x1 : (⟨S4096x2, .f32⟩ : BufTy).Contents (Elt F)) (x2 : (⟨S4096x2, .i32⟩ : BufTy).Contents (Elt F)) : (⟨S4096x8, .f32⟩ : BufTy).Contents (Elt F) :=
  Host.reduceAdd
    (mulf
      (uitofp .f32
        (cmpi .eq
          (broadcastInDim S4096x2x8 ![0, 1, 2] bcast_S4096x2x1_S4096x2x8_0_1_2 (broadcastInDim S4096x2x1 ![0, 1] bcast_S4096x2_S4096x2x1_0_1 x2))
          (broadcastInDim S4096x2x8 ![0, 1, 2] bcast_S1x1x8_S4096x2x8_0_1_2 (iotaInDim S1x1x8 32 2))))
      (broadcastInDim S4096x2x8 ![0, 1, 2] bcast_S4096x2x1_S4096x2x8_0_1_2 (broadcastInDim S4096x2x1 ![0, 1] bcast_S4096x2_S4096x2x1_0_1 x1)))
    (constant (F := F) S_ .f32 0x00000000#32) reducesTo_S4096x2x8_S4096x8_d1 h_S_

/-- The zero array the accumulation starts from. -/
def zeroArr : (⟨S4096x1024, .f32⟩ : BufTy).Contents (Elt F) := broadcastInDim S4096x1024 ![] bcast_S_S4096x1024 (constant (F := F) S_ .f32 0x00000000#32)

theorem zeroArr_apply (i : S4096x1024.Idx) : zeroArr (F := Ideal) i = zero :=
  broadcastInDim_apply _ bcast_S_S4096x1024 _ i ix0 (fun a => a.elim0)

/-- The accumulator after expert 0. -/
def acc0 (x0 : (⟨S4096x1024, .f32⟩ : BufTy).Contents (Elt F)) (x1 : (⟨S4096x2, .f32⟩ : BufTy).Contents (Elt F)) (x2 : (⟨S4096x2, .i32⟩ : BufTy).Contents (Elt F)) (x3 x4 : (⟨S8x1024x2816, .f32⟩ : BufTy).Contents (Elt F)) (x5 : (⟨S8x2816x1024, .f32⟩ : BufTy).Contents (Elt F)) (x6 : (⟨S8x1024x8, .f32⟩ : BufTy).Contents (Elt F)) (x7 : (⟨S8x8x2816, .f32⟩ : BufTy).Contents (Elt F)) (x8 : (⟨S8x1024x8, .f32⟩ : BufTy).Contents (Elt F)) (x9 : (⟨S8x8x2816, .f32⟩ : BufTy).Contents (Elt F)) (x10 : (⟨S8x2816x8, .f32⟩ : BufTy).Contents (Elt F)) (x11 : (⟨S8x8x1024, .f32⟩ : BufTy).Contents (Elt F)) : (⟨S4096x1024, .f32⟩ : BufTy).Contents (Elt F) :=
  accArr (zeroArr (F := F)) (combineArr x1 x2) 0 slices_S4096x8_S4096x1_0_0
    (expertArr x0
        (extractStridedSlice S1x1024x2816 ![0, 0, 0] x3 slices_S8x1024x2816_S1x1024x2816_0_0_0)
        (extractStridedSlice S1x1024x2816 ![0, 0, 0] x4 slices_S8x1024x2816_S1x1024x2816_0_0_0)
        (extractStridedSlice S1x2816x1024 ![0, 0, 0] x5 slices_S8x2816x1024_S1x2816x1024_0_0_0)
        (extractStridedSlice S1x1024x8 ![0, 0, 0] x6 slices_S8x1024x8_S1x1024x8_0_0_0)
        (extractStridedSlice S1x8x2816 ![0, 0, 0] x7 slices_S8x8x2816_S1x8x2816_0_0_0)
        (extractStridedSlice S1x1024x8 ![0, 0, 0] x8 slices_S8x1024x8_S1x1024x8_0_0_0)
        (extractStridedSlice S1x8x2816 ![0, 0, 0] x9 slices_S8x8x2816_S1x8x2816_0_0_0)
        (extractStridedSlice S1x2816x8 ![0, 0, 0] x10 slices_S8x2816x8_S1x2816x8_0_0_0)
        (extractStridedSlice S1x8x1024 ![0, 0, 0] x11 slices_S8x8x1024_S1x8x1024_0_0_0))

/-- The accumulator after expert 1. -/
def acc1 (x0 : (⟨S4096x1024, .f32⟩ : BufTy).Contents (Elt F)) (x1 : (⟨S4096x2, .f32⟩ : BufTy).Contents (Elt F)) (x2 : (⟨S4096x2, .i32⟩ : BufTy).Contents (Elt F)) (x3 x4 : (⟨S8x1024x2816, .f32⟩ : BufTy).Contents (Elt F)) (x5 : (⟨S8x2816x1024, .f32⟩ : BufTy).Contents (Elt F)) (x6 : (⟨S8x1024x8, .f32⟩ : BufTy).Contents (Elt F)) (x7 : (⟨S8x8x2816, .f32⟩ : BufTy).Contents (Elt F)) (x8 : (⟨S8x1024x8, .f32⟩ : BufTy).Contents (Elt F)) (x9 : (⟨S8x8x2816, .f32⟩ : BufTy).Contents (Elt F)) (x10 : (⟨S8x2816x8, .f32⟩ : BufTy).Contents (Elt F)) (x11 : (⟨S8x8x1024, .f32⟩ : BufTy).Contents (Elt F)) : (⟨S4096x1024, .f32⟩ : BufTy).Contents (Elt F) :=
  accArr (acc0 x0 x1 x2 x3 x4 x5 x6 x7 x8 x9 x10 x11) (combineArr x1 x2) 1 slices_S4096x8_S4096x1_0_1
    (expertArr x0
        (extractStridedSlice S1x1024x2816 ![1, 0, 0] x3 slices_S8x1024x2816_S1x1024x2816_1_0_0)
        (extractStridedSlice S1x1024x2816 ![1, 0, 0] x4 slices_S8x1024x2816_S1x1024x2816_1_0_0)
        (extractStridedSlice S1x2816x1024 ![1, 0, 0] x5 slices_S8x2816x1024_S1x2816x1024_1_0_0)
        (extractStridedSlice S1x1024x8 ![1, 0, 0] x6 slices_S8x1024x8_S1x1024x8_1_0_0)
        (extractStridedSlice S1x8x2816 ![1, 0, 0] x7 slices_S8x8x2816_S1x8x2816_1_0_0)
        (extractStridedSlice S1x1024x8 ![1, 0, 0] x8 slices_S8x1024x8_S1x1024x8_1_0_0)
        (extractStridedSlice S1x8x2816 ![1, 0, 0] x9 slices_S8x8x2816_S1x8x2816_1_0_0)
        (extractStridedSlice S1x2816x8 ![1, 0, 0] x10 slices_S8x2816x8_S1x2816x8_1_0_0)
        (extractStridedSlice S1x8x1024 ![1, 0, 0] x11 slices_S8x8x1024_S1x8x1024_1_0_0))

/-- The accumulator after expert 2. -/
def acc2 (x0 : (⟨S4096x1024, .f32⟩ : BufTy).Contents (Elt F)) (x1 : (⟨S4096x2, .f32⟩ : BufTy).Contents (Elt F)) (x2 : (⟨S4096x2, .i32⟩ : BufTy).Contents (Elt F)) (x3 x4 : (⟨S8x1024x2816, .f32⟩ : BufTy).Contents (Elt F)) (x5 : (⟨S8x2816x1024, .f32⟩ : BufTy).Contents (Elt F)) (x6 : (⟨S8x1024x8, .f32⟩ : BufTy).Contents (Elt F)) (x7 : (⟨S8x8x2816, .f32⟩ : BufTy).Contents (Elt F)) (x8 : (⟨S8x1024x8, .f32⟩ : BufTy).Contents (Elt F)) (x9 : (⟨S8x8x2816, .f32⟩ : BufTy).Contents (Elt F)) (x10 : (⟨S8x2816x8, .f32⟩ : BufTy).Contents (Elt F)) (x11 : (⟨S8x8x1024, .f32⟩ : BufTy).Contents (Elt F)) : (⟨S4096x1024, .f32⟩ : BufTy).Contents (Elt F) :=
  accArr (acc1 x0 x1 x2 x3 x4 x5 x6 x7 x8 x9 x10 x11) (combineArr x1 x2) 2 slices_S4096x8_S4096x1_0_2
    (expertArr x0
        (extractStridedSlice S1x1024x2816 ![2, 0, 0] x3 slices_S8x1024x2816_S1x1024x2816_2_0_0)
        (extractStridedSlice S1x1024x2816 ![2, 0, 0] x4 slices_S8x1024x2816_S1x1024x2816_2_0_0)
        (extractStridedSlice S1x2816x1024 ![2, 0, 0] x5 slices_S8x2816x1024_S1x2816x1024_2_0_0)
        (extractStridedSlice S1x1024x8 ![2, 0, 0] x6 slices_S8x1024x8_S1x1024x8_2_0_0)
        (extractStridedSlice S1x8x2816 ![2, 0, 0] x7 slices_S8x8x2816_S1x8x2816_2_0_0)
        (extractStridedSlice S1x1024x8 ![2, 0, 0] x8 slices_S8x1024x8_S1x1024x8_2_0_0)
        (extractStridedSlice S1x8x2816 ![2, 0, 0] x9 slices_S8x8x2816_S1x8x2816_2_0_0)
        (extractStridedSlice S1x2816x8 ![2, 0, 0] x10 slices_S8x2816x8_S1x2816x8_2_0_0)
        (extractStridedSlice S1x8x1024 ![2, 0, 0] x11 slices_S8x8x1024_S1x8x1024_2_0_0))

/-- The accumulator after expert 3. -/
def acc3 (x0 : (⟨S4096x1024, .f32⟩ : BufTy).Contents (Elt F)) (x1 : (⟨S4096x2, .f32⟩ : BufTy).Contents (Elt F)) (x2 : (⟨S4096x2, .i32⟩ : BufTy).Contents (Elt F)) (x3 x4 : (⟨S8x1024x2816, .f32⟩ : BufTy).Contents (Elt F)) (x5 : (⟨S8x2816x1024, .f32⟩ : BufTy).Contents (Elt F)) (x6 : (⟨S8x1024x8, .f32⟩ : BufTy).Contents (Elt F)) (x7 : (⟨S8x8x2816, .f32⟩ : BufTy).Contents (Elt F)) (x8 : (⟨S8x1024x8, .f32⟩ : BufTy).Contents (Elt F)) (x9 : (⟨S8x8x2816, .f32⟩ : BufTy).Contents (Elt F)) (x10 : (⟨S8x2816x8, .f32⟩ : BufTy).Contents (Elt F)) (x11 : (⟨S8x8x1024, .f32⟩ : BufTy).Contents (Elt F)) : (⟨S4096x1024, .f32⟩ : BufTy).Contents (Elt F) :=
  accArr (acc2 x0 x1 x2 x3 x4 x5 x6 x7 x8 x9 x10 x11) (combineArr x1 x2) 3 slices_S4096x8_S4096x1_0_3
    (expertArr x0
        (extractStridedSlice S1x1024x2816 ![3, 0, 0] x3 slices_S8x1024x2816_S1x1024x2816_3_0_0)
        (extractStridedSlice S1x1024x2816 ![3, 0, 0] x4 slices_S8x1024x2816_S1x1024x2816_3_0_0)
        (extractStridedSlice S1x2816x1024 ![3, 0, 0] x5 slices_S8x2816x1024_S1x2816x1024_3_0_0)
        (extractStridedSlice S1x1024x8 ![3, 0, 0] x6 slices_S8x1024x8_S1x1024x8_3_0_0)
        (extractStridedSlice S1x8x2816 ![3, 0, 0] x7 slices_S8x8x2816_S1x8x2816_3_0_0)
        (extractStridedSlice S1x1024x8 ![3, 0, 0] x8 slices_S8x1024x8_S1x1024x8_3_0_0)
        (extractStridedSlice S1x8x2816 ![3, 0, 0] x9 slices_S8x8x2816_S1x8x2816_3_0_0)
        (extractStridedSlice S1x2816x8 ![3, 0, 0] x10 slices_S8x2816x8_S1x2816x8_3_0_0)
        (extractStridedSlice S1x8x1024 ![3, 0, 0] x11 slices_S8x8x1024_S1x8x1024_3_0_0))

/-- The accumulator after expert 4. -/
def acc4 (x0 : (⟨S4096x1024, .f32⟩ : BufTy).Contents (Elt F)) (x1 : (⟨S4096x2, .f32⟩ : BufTy).Contents (Elt F)) (x2 : (⟨S4096x2, .i32⟩ : BufTy).Contents (Elt F)) (x3 x4 : (⟨S8x1024x2816, .f32⟩ : BufTy).Contents (Elt F)) (x5 : (⟨S8x2816x1024, .f32⟩ : BufTy).Contents (Elt F)) (x6 : (⟨S8x1024x8, .f32⟩ : BufTy).Contents (Elt F)) (x7 : (⟨S8x8x2816, .f32⟩ : BufTy).Contents (Elt F)) (x8 : (⟨S8x1024x8, .f32⟩ : BufTy).Contents (Elt F)) (x9 : (⟨S8x8x2816, .f32⟩ : BufTy).Contents (Elt F)) (x10 : (⟨S8x2816x8, .f32⟩ : BufTy).Contents (Elt F)) (x11 : (⟨S8x8x1024, .f32⟩ : BufTy).Contents (Elt F)) : (⟨S4096x1024, .f32⟩ : BufTy).Contents (Elt F) :=
  accArr (acc3 x0 x1 x2 x3 x4 x5 x6 x7 x8 x9 x10 x11) (combineArr x1 x2) 4 slices_S4096x8_S4096x1_0_4
    (expertArr x0
        (extractStridedSlice S1x1024x2816 ![4, 0, 0] x3 slices_S8x1024x2816_S1x1024x2816_4_0_0)
        (extractStridedSlice S1x1024x2816 ![4, 0, 0] x4 slices_S8x1024x2816_S1x1024x2816_4_0_0)
        (extractStridedSlice S1x2816x1024 ![4, 0, 0] x5 slices_S8x2816x1024_S1x2816x1024_4_0_0)
        (extractStridedSlice S1x1024x8 ![4, 0, 0] x6 slices_S8x1024x8_S1x1024x8_4_0_0)
        (extractStridedSlice S1x8x2816 ![4, 0, 0] x7 slices_S8x8x2816_S1x8x2816_4_0_0)
        (extractStridedSlice S1x1024x8 ![4, 0, 0] x8 slices_S8x1024x8_S1x1024x8_4_0_0)
        (extractStridedSlice S1x8x2816 ![4, 0, 0] x9 slices_S8x8x2816_S1x8x2816_4_0_0)
        (extractStridedSlice S1x2816x8 ![4, 0, 0] x10 slices_S8x2816x8_S1x2816x8_4_0_0)
        (extractStridedSlice S1x8x1024 ![4, 0, 0] x11 slices_S8x8x1024_S1x8x1024_4_0_0))

/-- The accumulator after expert 5. -/
def acc5 (x0 : (⟨S4096x1024, .f32⟩ : BufTy).Contents (Elt F)) (x1 : (⟨S4096x2, .f32⟩ : BufTy).Contents (Elt F)) (x2 : (⟨S4096x2, .i32⟩ : BufTy).Contents (Elt F)) (x3 x4 : (⟨S8x1024x2816, .f32⟩ : BufTy).Contents (Elt F)) (x5 : (⟨S8x2816x1024, .f32⟩ : BufTy).Contents (Elt F)) (x6 : (⟨S8x1024x8, .f32⟩ : BufTy).Contents (Elt F)) (x7 : (⟨S8x8x2816, .f32⟩ : BufTy).Contents (Elt F)) (x8 : (⟨S8x1024x8, .f32⟩ : BufTy).Contents (Elt F)) (x9 : (⟨S8x8x2816, .f32⟩ : BufTy).Contents (Elt F)) (x10 : (⟨S8x2816x8, .f32⟩ : BufTy).Contents (Elt F)) (x11 : (⟨S8x8x1024, .f32⟩ : BufTy).Contents (Elt F)) : (⟨S4096x1024, .f32⟩ : BufTy).Contents (Elt F) :=
  accArr (acc4 x0 x1 x2 x3 x4 x5 x6 x7 x8 x9 x10 x11) (combineArr x1 x2) 5 slices_S4096x8_S4096x1_0_5
    (expertArr x0
        (extractStridedSlice S1x1024x2816 ![5, 0, 0] x3 slices_S8x1024x2816_S1x1024x2816_5_0_0)
        (extractStridedSlice S1x1024x2816 ![5, 0, 0] x4 slices_S8x1024x2816_S1x1024x2816_5_0_0)
        (extractStridedSlice S1x2816x1024 ![5, 0, 0] x5 slices_S8x2816x1024_S1x2816x1024_5_0_0)
        (extractStridedSlice S1x1024x8 ![5, 0, 0] x6 slices_S8x1024x8_S1x1024x8_5_0_0)
        (extractStridedSlice S1x8x2816 ![5, 0, 0] x7 slices_S8x8x2816_S1x8x2816_5_0_0)
        (extractStridedSlice S1x1024x8 ![5, 0, 0] x8 slices_S8x1024x8_S1x1024x8_5_0_0)
        (extractStridedSlice S1x8x2816 ![5, 0, 0] x9 slices_S8x8x2816_S1x8x2816_5_0_0)
        (extractStridedSlice S1x2816x8 ![5, 0, 0] x10 slices_S8x2816x8_S1x2816x8_5_0_0)
        (extractStridedSlice S1x8x1024 ![5, 0, 0] x11 slices_S8x8x1024_S1x8x1024_5_0_0))

/-- The accumulator after expert 6. -/
def acc6 (x0 : (⟨S4096x1024, .f32⟩ : BufTy).Contents (Elt F)) (x1 : (⟨S4096x2, .f32⟩ : BufTy).Contents (Elt F)) (x2 : (⟨S4096x2, .i32⟩ : BufTy).Contents (Elt F)) (x3 x4 : (⟨S8x1024x2816, .f32⟩ : BufTy).Contents (Elt F)) (x5 : (⟨S8x2816x1024, .f32⟩ : BufTy).Contents (Elt F)) (x6 : (⟨S8x1024x8, .f32⟩ : BufTy).Contents (Elt F)) (x7 : (⟨S8x8x2816, .f32⟩ : BufTy).Contents (Elt F)) (x8 : (⟨S8x1024x8, .f32⟩ : BufTy).Contents (Elt F)) (x9 : (⟨S8x8x2816, .f32⟩ : BufTy).Contents (Elt F)) (x10 : (⟨S8x2816x8, .f32⟩ : BufTy).Contents (Elt F)) (x11 : (⟨S8x8x1024, .f32⟩ : BufTy).Contents (Elt F)) : (⟨S4096x1024, .f32⟩ : BufTy).Contents (Elt F) :=
  accArr (acc5 x0 x1 x2 x3 x4 x5 x6 x7 x8 x9 x10 x11) (combineArr x1 x2) 6 slices_S4096x8_S4096x1_0_6
    (expertArr x0
        (extractStridedSlice S1x1024x2816 ![6, 0, 0] x3 slices_S8x1024x2816_S1x1024x2816_6_0_0)
        (extractStridedSlice S1x1024x2816 ![6, 0, 0] x4 slices_S8x1024x2816_S1x1024x2816_6_0_0)
        (extractStridedSlice S1x2816x1024 ![6, 0, 0] x5 slices_S8x2816x1024_S1x2816x1024_6_0_0)
        (extractStridedSlice S1x1024x8 ![6, 0, 0] x6 slices_S8x1024x8_S1x1024x8_6_0_0)
        (extractStridedSlice S1x8x2816 ![6, 0, 0] x7 slices_S8x8x2816_S1x8x2816_6_0_0)
        (extractStridedSlice S1x1024x8 ![6, 0, 0] x8 slices_S8x1024x8_S1x1024x8_6_0_0)
        (extractStridedSlice S1x8x2816 ![6, 0, 0] x9 slices_S8x8x2816_S1x8x2816_6_0_0)
        (extractStridedSlice S1x2816x8 ![6, 0, 0] x10 slices_S8x2816x8_S1x2816x8_6_0_0)
        (extractStridedSlice S1x8x1024 ![6, 0, 0] x11 slices_S8x8x1024_S1x8x1024_6_0_0))

/-- The accumulator after expert 7. -/
def acc7 (x0 : (⟨S4096x1024, .f32⟩ : BufTy).Contents (Elt F)) (x1 : (⟨S4096x2, .f32⟩ : BufTy).Contents (Elt F)) (x2 : (⟨S4096x2, .i32⟩ : BufTy).Contents (Elt F)) (x3 x4 : (⟨S8x1024x2816, .f32⟩ : BufTy).Contents (Elt F)) (x5 : (⟨S8x2816x1024, .f32⟩ : BufTy).Contents (Elt F)) (x6 : (⟨S8x1024x8, .f32⟩ : BufTy).Contents (Elt F)) (x7 : (⟨S8x8x2816, .f32⟩ : BufTy).Contents (Elt F)) (x8 : (⟨S8x1024x8, .f32⟩ : BufTy).Contents (Elt F)) (x9 : (⟨S8x8x2816, .f32⟩ : BufTy).Contents (Elt F)) (x10 : (⟨S8x2816x8, .f32⟩ : BufTy).Contents (Elt F)) (x11 : (⟨S8x8x1024, .f32⟩ : BufTy).Contents (Elt F)) : (⟨S4096x1024, .f32⟩ : BufTy).Contents (Elt F) :=
  accArr (acc6 x0 x1 x2 x3 x4 x5 x6 x7 x8 x9 x10 x11) (combineArr x1 x2) 7 slices_S4096x8_S4096x1_0_7
    (expertArr x0
        (extractStridedSlice S1x1024x2816 ![7, 0, 0] x3 slices_S8x1024x2816_S1x1024x2816_7_0_0)
        (extractStridedSlice S1x1024x2816 ![7, 0, 0] x4 slices_S8x1024x2816_S1x1024x2816_7_0_0)
        (extractStridedSlice S1x2816x1024 ![7, 0, 0] x5 slices_S8x2816x1024_S1x2816x1024_7_0_0)
        (extractStridedSlice S1x1024x8 ![7, 0, 0] x6 slices_S8x1024x8_S1x1024x8_7_0_0)
        (extractStridedSlice S1x8x2816 ![7, 0, 0] x7 slices_S8x8x2816_S1x8x2816_7_0_0)
        (extractStridedSlice S1x1024x8 ![7, 0, 0] x8 slices_S8x1024x8_S1x1024x8_7_0_0)
        (extractStridedSlice S1x8x2816 ![7, 0, 0] x9 slices_S8x8x2816_S1x8x2816_7_0_0)
        (extractStridedSlice S1x2816x8 ![7, 0, 0] x10 slices_S8x2816x8_S1x2816x8_7_0_0)
        (extractStridedSlice S1x8x1024 ![7, 0, 0] x11 slices_S8x8x1024_S1x8x1024_7_0_0))

theorem acc0_apply (x0 : (⟨S4096x1024, .f32⟩ : BufTy).Contents (Elt Ideal)) (x1 : (⟨S4096x2, .f32⟩ : BufTy).Contents (Elt Ideal)) (x2 : (⟨S4096x2, .i32⟩ : BufTy).Contents (Elt Ideal)) (x3 x4 : (⟨S8x1024x2816, .f32⟩ : BufTy).Contents (Elt Ideal)) (x5 : (⟨S8x2816x1024, .f32⟩ : BufTy).Contents (Elt Ideal)) (x6 : (⟨S8x1024x8, .f32⟩ : BufTy).Contents (Elt Ideal)) (x7 : (⟨S8x8x2816, .f32⟩ : BufTy).Contents (Elt Ideal)) (x8 : (⟨S8x1024x8, .f32⟩ : BufTy).Contents (Elt Ideal)) (x9 : (⟨S8x8x2816, .f32⟩ : BufTy).Contents (Elt Ideal)) (x10 : (⟨S8x2816x8, .f32⟩ : BufTy).Contents (Elt Ideal)) (x11 : (⟨S8x8x1024, .f32⟩ : BufTy).Contents (Elt Ideal)) (t : Fin 4096) (j : Fin 1024) :
    acc0 (F := Ideal) x0 x1 x2 x3 x4 x5 x6 x7 x8 x9 x10 x11 (ix2 t j)
      = zeroArr (F := Ideal) (ix2 t j) + term x0 (combineArr (F := Ideal) x1 x2) (weightsAt x3 x4 x5 x6 x7 x8 x9 x10 x11) t j 0 := by
  unfold acc0
  exact acc_term 0 (0 : Fin 8) rfl t j

theorem acc1_apply (x0 : (⟨S4096x1024, .f32⟩ : BufTy).Contents (Elt Ideal)) (x1 : (⟨S4096x2, .f32⟩ : BufTy).Contents (Elt Ideal)) (x2 : (⟨S4096x2, .i32⟩ : BufTy).Contents (Elt Ideal)) (x3 x4 : (⟨S8x1024x2816, .f32⟩ : BufTy).Contents (Elt Ideal)) (x5 : (⟨S8x2816x1024, .f32⟩ : BufTy).Contents (Elt Ideal)) (x6 : (⟨S8x1024x8, .f32⟩ : BufTy).Contents (Elt Ideal)) (x7 : (⟨S8x8x2816, .f32⟩ : BufTy).Contents (Elt Ideal)) (x8 : (⟨S8x1024x8, .f32⟩ : BufTy).Contents (Elt Ideal)) (x9 : (⟨S8x8x2816, .f32⟩ : BufTy).Contents (Elt Ideal)) (x10 : (⟨S8x2816x8, .f32⟩ : BufTy).Contents (Elt Ideal)) (x11 : (⟨S8x8x1024, .f32⟩ : BufTy).Contents (Elt Ideal)) (t : Fin 4096) (j : Fin 1024) :
    acc1 (F := Ideal) x0 x1 x2 x3 x4 x5 x6 x7 x8 x9 x10 x11 (ix2 t j)
      = acc0 (F := Ideal) x0 x1 x2 x3 x4 x5 x6 x7 x8 x9 x10 x11 (ix2 t j) + term x0 (combineArr (F := Ideal) x1 x2) (weightsAt x3 x4 x5 x6 x7 x8 x9 x10 x11) t j 1 := by
  unfold acc1
  exact acc_term 1 (1 : Fin 8) rfl t j

theorem acc2_apply (x0 : (⟨S4096x1024, .f32⟩ : BufTy).Contents (Elt Ideal)) (x1 : (⟨S4096x2, .f32⟩ : BufTy).Contents (Elt Ideal)) (x2 : (⟨S4096x2, .i32⟩ : BufTy).Contents (Elt Ideal)) (x3 x4 : (⟨S8x1024x2816, .f32⟩ : BufTy).Contents (Elt Ideal)) (x5 : (⟨S8x2816x1024, .f32⟩ : BufTy).Contents (Elt Ideal)) (x6 : (⟨S8x1024x8, .f32⟩ : BufTy).Contents (Elt Ideal)) (x7 : (⟨S8x8x2816, .f32⟩ : BufTy).Contents (Elt Ideal)) (x8 : (⟨S8x1024x8, .f32⟩ : BufTy).Contents (Elt Ideal)) (x9 : (⟨S8x8x2816, .f32⟩ : BufTy).Contents (Elt Ideal)) (x10 : (⟨S8x2816x8, .f32⟩ : BufTy).Contents (Elt Ideal)) (x11 : (⟨S8x8x1024, .f32⟩ : BufTy).Contents (Elt Ideal)) (t : Fin 4096) (j : Fin 1024) :
    acc2 (F := Ideal) x0 x1 x2 x3 x4 x5 x6 x7 x8 x9 x10 x11 (ix2 t j)
      = acc1 (F := Ideal) x0 x1 x2 x3 x4 x5 x6 x7 x8 x9 x10 x11 (ix2 t j) + term x0 (combineArr (F := Ideal) x1 x2) (weightsAt x3 x4 x5 x6 x7 x8 x9 x10 x11) t j 2 := by
  unfold acc2
  exact acc_term 2 (2 : Fin 8) rfl t j

theorem acc3_apply (x0 : (⟨S4096x1024, .f32⟩ : BufTy).Contents (Elt Ideal)) (x1 : (⟨S4096x2, .f32⟩ : BufTy).Contents (Elt Ideal)) (x2 : (⟨S4096x2, .i32⟩ : BufTy).Contents (Elt Ideal)) (x3 x4 : (⟨S8x1024x2816, .f32⟩ : BufTy).Contents (Elt Ideal)) (x5 : (⟨S8x2816x1024, .f32⟩ : BufTy).Contents (Elt Ideal)) (x6 : (⟨S8x1024x8, .f32⟩ : BufTy).Contents (Elt Ideal)) (x7 : (⟨S8x8x2816, .f32⟩ : BufTy).Contents (Elt Ideal)) (x8 : (⟨S8x1024x8, .f32⟩ : BufTy).Contents (Elt Ideal)) (x9 : (⟨S8x8x2816, .f32⟩ : BufTy).Contents (Elt Ideal)) (x10 : (⟨S8x2816x8, .f32⟩ : BufTy).Contents (Elt Ideal)) (x11 : (⟨S8x8x1024, .f32⟩ : BufTy).Contents (Elt Ideal)) (t : Fin 4096) (j : Fin 1024) :
    acc3 (F := Ideal) x0 x1 x2 x3 x4 x5 x6 x7 x8 x9 x10 x11 (ix2 t j)
      = acc2 (F := Ideal) x0 x1 x2 x3 x4 x5 x6 x7 x8 x9 x10 x11 (ix2 t j) + term x0 (combineArr (F := Ideal) x1 x2) (weightsAt x3 x4 x5 x6 x7 x8 x9 x10 x11) t j 3 := by
  unfold acc3
  exact acc_term 3 (3 : Fin 8) rfl t j

theorem acc4_apply (x0 : (⟨S4096x1024, .f32⟩ : BufTy).Contents (Elt Ideal)) (x1 : (⟨S4096x2, .f32⟩ : BufTy).Contents (Elt Ideal)) (x2 : (⟨S4096x2, .i32⟩ : BufTy).Contents (Elt Ideal)) (x3 x4 : (⟨S8x1024x2816, .f32⟩ : BufTy).Contents (Elt Ideal)) (x5 : (⟨S8x2816x1024, .f32⟩ : BufTy).Contents (Elt Ideal)) (x6 : (⟨S8x1024x8, .f32⟩ : BufTy).Contents (Elt Ideal)) (x7 : (⟨S8x8x2816, .f32⟩ : BufTy).Contents (Elt Ideal)) (x8 : (⟨S8x1024x8, .f32⟩ : BufTy).Contents (Elt Ideal)) (x9 : (⟨S8x8x2816, .f32⟩ : BufTy).Contents (Elt Ideal)) (x10 : (⟨S8x2816x8, .f32⟩ : BufTy).Contents (Elt Ideal)) (x11 : (⟨S8x8x1024, .f32⟩ : BufTy).Contents (Elt Ideal)) (t : Fin 4096) (j : Fin 1024) :
    acc4 (F := Ideal) x0 x1 x2 x3 x4 x5 x6 x7 x8 x9 x10 x11 (ix2 t j)
      = acc3 (F := Ideal) x0 x1 x2 x3 x4 x5 x6 x7 x8 x9 x10 x11 (ix2 t j) + term x0 (combineArr (F := Ideal) x1 x2) (weightsAt x3 x4 x5 x6 x7 x8 x9 x10 x11) t j 4 := by
  unfold acc4
  exact acc_term 4 (4 : Fin 8) rfl t j

theorem acc5_apply (x0 : (⟨S4096x1024, .f32⟩ : BufTy).Contents (Elt Ideal)) (x1 : (⟨S4096x2, .f32⟩ : BufTy).Contents (Elt Ideal)) (x2 : (⟨S4096x2, .i32⟩ : BufTy).Contents (Elt Ideal)) (x3 x4 : (⟨S8x1024x2816, .f32⟩ : BufTy).Contents (Elt Ideal)) (x5 : (⟨S8x2816x1024, .f32⟩ : BufTy).Contents (Elt Ideal)) (x6 : (⟨S8x1024x8, .f32⟩ : BufTy).Contents (Elt Ideal)) (x7 : (⟨S8x8x2816, .f32⟩ : BufTy).Contents (Elt Ideal)) (x8 : (⟨S8x1024x8, .f32⟩ : BufTy).Contents (Elt Ideal)) (x9 : (⟨S8x8x2816, .f32⟩ : BufTy).Contents (Elt Ideal)) (x10 : (⟨S8x2816x8, .f32⟩ : BufTy).Contents (Elt Ideal)) (x11 : (⟨S8x8x1024, .f32⟩ : BufTy).Contents (Elt Ideal)) (t : Fin 4096) (j : Fin 1024) :
    acc5 (F := Ideal) x0 x1 x2 x3 x4 x5 x6 x7 x8 x9 x10 x11 (ix2 t j)
      = acc4 (F := Ideal) x0 x1 x2 x3 x4 x5 x6 x7 x8 x9 x10 x11 (ix2 t j) + term x0 (combineArr (F := Ideal) x1 x2) (weightsAt x3 x4 x5 x6 x7 x8 x9 x10 x11) t j 5 := by
  unfold acc5
  exact acc_term 5 (5 : Fin 8) rfl t j

theorem acc6_apply (x0 : (⟨S4096x1024, .f32⟩ : BufTy).Contents (Elt Ideal)) (x1 : (⟨S4096x2, .f32⟩ : BufTy).Contents (Elt Ideal)) (x2 : (⟨S4096x2, .i32⟩ : BufTy).Contents (Elt Ideal)) (x3 x4 : (⟨S8x1024x2816, .f32⟩ : BufTy).Contents (Elt Ideal)) (x5 : (⟨S8x2816x1024, .f32⟩ : BufTy).Contents (Elt Ideal)) (x6 : (⟨S8x1024x8, .f32⟩ : BufTy).Contents (Elt Ideal)) (x7 : (⟨S8x8x2816, .f32⟩ : BufTy).Contents (Elt Ideal)) (x8 : (⟨S8x1024x8, .f32⟩ : BufTy).Contents (Elt Ideal)) (x9 : (⟨S8x8x2816, .f32⟩ : BufTy).Contents (Elt Ideal)) (x10 : (⟨S8x2816x8, .f32⟩ : BufTy).Contents (Elt Ideal)) (x11 : (⟨S8x8x1024, .f32⟩ : BufTy).Contents (Elt Ideal)) (t : Fin 4096) (j : Fin 1024) :
    acc6 (F := Ideal) x0 x1 x2 x3 x4 x5 x6 x7 x8 x9 x10 x11 (ix2 t j)
      = acc5 (F := Ideal) x0 x1 x2 x3 x4 x5 x6 x7 x8 x9 x10 x11 (ix2 t j) + term x0 (combineArr (F := Ideal) x1 x2) (weightsAt x3 x4 x5 x6 x7 x8 x9 x10 x11) t j 6 := by
  unfold acc6
  exact acc_term 6 (6 : Fin 8) rfl t j

theorem acc7_apply (x0 : (⟨S4096x1024, .f32⟩ : BufTy).Contents (Elt Ideal)) (x1 : (⟨S4096x2, .f32⟩ : BufTy).Contents (Elt Ideal)) (x2 : (⟨S4096x2, .i32⟩ : BufTy).Contents (Elt Ideal)) (x3 x4 : (⟨S8x1024x2816, .f32⟩ : BufTy).Contents (Elt Ideal)) (x5 : (⟨S8x2816x1024, .f32⟩ : BufTy).Contents (Elt Ideal)) (x6 : (⟨S8x1024x8, .f32⟩ : BufTy).Contents (Elt Ideal)) (x7 : (⟨S8x8x2816, .f32⟩ : BufTy).Contents (Elt Ideal)) (x8 : (⟨S8x1024x8, .f32⟩ : BufTy).Contents (Elt Ideal)) (x9 : (⟨S8x8x2816, .f32⟩ : BufTy).Contents (Elt Ideal)) (x10 : (⟨S8x2816x8, .f32⟩ : BufTy).Contents (Elt Ideal)) (x11 : (⟨S8x8x1024, .f32⟩ : BufTy).Contents (Elt Ideal)) (t : Fin 4096) (j : Fin 1024) :
    acc7 (F := Ideal) x0 x1 x2 x3 x4 x5 x6 x7 x8 x9 x10 x11 (ix2 t j)
      = acc6 (F := Ideal) x0 x1 x2 x3 x4 x5 x6 x7 x8 x9 x10 x11 (ix2 t j) + term x0 (combineArr (F := Ideal) x1 x2) (weightsAt x3 x4 x5 x6 x7 x8 x9 x10 x11) t j 7 := by
  unfold acc7
  exact acc_term 7 (7 : Fin 8) rfl t j

/-! The program's result term, as the run names it window by window, is the accumulator after each expert in turn. -/

theorem r_acc0 (V0 : Valuation τ sig (Elt Ideal)) : Cert.MoeRun.r_main_v47 (F := Ideal) V0 = acc0 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold Cert.MoeRun.r_main_v47 acc0
  rfl

theorem r_acc1 (V0 : Valuation τ sig (Elt Ideal)) : Cert.MoeRun.r_main_v89 (F := Ideal) V0 = acc1 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold Cert.MoeRun.r_main_v89 acc1
  rw [r_acc0]
  rfl

theorem r_acc2 (V0 : Valuation τ sig (Elt Ideal)) : Cert.MoeRun.r_main_v131 (F := Ideal) V0 = acc2 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold Cert.MoeRun.r_main_v131 acc2
  rw [r_acc1]
  rfl

theorem r_acc4 (V0 : Valuation τ sig (Elt Ideal)) : Cert.MoeRun.r_main_v215 (F := Ideal) V0 = acc4 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold Cert.MoeRun.r_main_v215 acc4 acc3
  rw [r_acc2]
  rfl

theorem r_acc5 (V0 : Valuation τ sig (Elt Ideal)) : Cert.MoeRun.r_main_v257 (F := Ideal) V0 = acc5 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold Cert.MoeRun.r_main_v257 acc5
  rw [r_acc4]
  rfl

theorem r_acc6 (V0 : Valuation τ sig (Elt Ideal)) : Cert.MoeRun.r_main_v299 (F := Ideal) V0 = acc6 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold Cert.MoeRun.r_main_v299 acc6
  rw [r_acc5]
  rfl

theorem r_acc7 (V0 : Valuation τ sig (Elt Ideal)) : Cert.MoeRun.r_main_v341 (F := Ideal) V0 = acc7 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold Cert.MoeRun.r_main_v341 acc7
  rw [r_acc6]
  rfl

/-- The program's result, of the launch contents of a memory: the accumulator after the last expert at the memory's
    argument arrays. -/
theorem res_eq (m : (ℓ : Loc nD τ sig) → Buf (Elt Ideal) ℓ) (c : Dev nD) :
    Cert.MoeRun.r_main_v341 (F := Ideal) (Idealize.ShloMosaic.StableHlo.launchContents m c) = acc7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  r_acc7 (Idealize.ShloMosaic.StableHlo.launchContents m c)

/-- The program's result at (t, j): the ordered sum, from the starting word, of the eight experts' terms. -/
theorem result_apply (x0 : (⟨S4096x1024, .f32⟩ : BufTy).Contents (Elt Ideal)) (x1 : (⟨S4096x2, .f32⟩ : BufTy).Contents (Elt Ideal)) (x2 : (⟨S4096x2, .i32⟩ : BufTy).Contents (Elt Ideal)) (x3 x4 : (⟨S8x1024x2816, .f32⟩ : BufTy).Contents (Elt Ideal)) (x5 : (⟨S8x2816x1024, .f32⟩ : BufTy).Contents (Elt Ideal)) (x6 : (⟨S8x1024x8, .f32⟩ : BufTy).Contents (Elt Ideal)) (x7 : (⟨S8x8x2816, .f32⟩ : BufTy).Contents (Elt Ideal)) (x8 : (⟨S8x1024x8, .f32⟩ : BufTy).Contents (Elt Ideal)) (x9 : (⟨S8x8x2816, .f32⟩ : BufTy).Contents (Elt Ideal)) (x10 : (⟨S8x2816x8, .f32⟩ : BufTy).Contents (Elt Ideal)) (x11 : (⟨S8x8x1024, .f32⟩ : BufTy).Contents (Elt Ideal)) (t : Fin 4096) (j : Fin 1024) :
    acc7 (F := Ideal) x0 x1 x2 x3 x4 x5 x6 x7 x8 x9 x10 x11 (ix2 t j)
      = psum (term x0 (combineArr (F := Ideal) x1 x2) (weightsAt x3 x4 x5 x6 x7 x8 x9 x10 x11) t j) 8 := by
  rw [acc7_apply, acc6_apply, acc5_apply, acc4_apply, acc3_apply, acc2_apply, acc1_apply, acc0_apply, zeroArr_apply]
  rfl

/-- The program's result array is the specification's `result` of its arguments and its own combine array. -/
theorem result_eq (x0 : (⟨S4096x1024, .f32⟩ : BufTy).Contents (Elt Ideal)) (x1 : (⟨S4096x2, .f32⟩ : BufTy).Contents (Elt Ideal)) (x2 : (⟨S4096x2, .i32⟩ : BufTy).Contents (Elt Ideal)) (x3 x4 : (⟨S8x1024x2816, .f32⟩ : BufTy).Contents (Elt Ideal)) (x5 : (⟨S8x2816x1024, .f32⟩ : BufTy).Contents (Elt Ideal)) (x6 : (⟨S8x1024x8, .f32⟩ : BufTy).Contents (Elt Ideal)) (x7 : (⟨S8x8x2816, .f32⟩ : BufTy).Contents (Elt Ideal)) (x8 : (⟨S8x1024x8, .f32⟩ : BufTy).Contents (Elt Ideal)) (x9 : (⟨S8x8x2816, .f32⟩ : BufTy).Contents (Elt Ideal)) (x10 : (⟨S8x2816x8, .f32⟩ : BufTy).Contents (Elt Ideal)) (x11 : (⟨S8x8x1024, .f32⟩ : BufTy).Contents (Elt Ideal)) :
    acc7 (F := Ideal) x0 x1 x2 x3 x4 x5 x6 x7 x8 x9 x10 x11
      = result x0 (combineArr (F := Ideal) x1 x2) (weightsAt x3 x4 x5 x6 x7 x8 x9 x10 x11) := by
  funext i
  obtain ⟨t, j, rfl⟩ : ∃ (t : Fin 4096) (j : Fin 1024), i = ix2 t j := ⟨i 0, i 1, eq_ix2 i⟩
  exact result_apply x0 x1 x2 x3 x4 x5 x6 x7 x8 x9 x10 x11 t j

end Cert.MoeRef

end
-- ==== Proof.Bridge.lean ====
/-
  The arrays the kernel's region is entered with, as the arguments.

  Before the region the kernel's host side converts the token array and the nine stacked weight arrays to a
  narrower float format, which is the identity on extended reals, and computes the combine array from the routing
  weights and the selected experts: the one-hot of each selected expert times its routing weight, summed over the
  two selections.  So the kernel's result is the specification's `result` of the arguments themselves, the combine
  array being that term of the two routing arguments.
-/
import proofs.«137077_j223338300204_2_alg».proof.Proof.KernelFinal
import proofs.«137077_j223338300204_2_alg».proof.Proof.LibTypedRef
import Idealize.ShloMosaic.Lib.StableHlo.Run
import Idealize.ShloMosaic.Lib.Tactic

set_option maxRecDepth 16384

noncomputable section

namespace Cert.MoeBridge

open Cert.KernelIdeal Cert.KernelIdeal.Gen Cert.MoeSpec Cert.MoeKernel
open Idealize.ShloMosaic Idealize.ShloMosaic.TcCoe Idealize.ShloMosaic.Tactic Idealize.SL.Sem Idealize.ShloMosaic.StableHlo

/-- The combine array as the host operations compute it from the routing weights `x1` and the selected experts `x2`. -/
def combineOf {F : FTy → Type} [FloatOps F] (x1 : (⟨S4096x2, .f32⟩ : BufTy).Contents (Elt F)) (x2 : (⟨S4096x2, .i32⟩ : BufTy).Contents (Elt F)) :
    (⟨S4096x8, .f32⟩ : BufTy).Contents (Elt F) :=
  Host.reduceAdd
    (mulf
      (uitofp .f32
        (cmpi .eq
          (broadcastInDim S4096x2x8 ![0, 1, 2] bcast_S4096x2x1_S4096x2x8_0_1_2 (broadcastInDim S4096x2x1 ![0, 1] bcast_S4096x2_S4096x2x1_0_1 x2))
          (broadcastInDim S4096x2x8 ![0, 1, 2] bcast_S1x1x8_S4096x2x8_0_1_2 (iotaInDim S1x1x8 32 2))))
      (broadcastInDim S4096x2x8 ![0, 1, 2] bcast_S4096x2x1_S4096x2x8_0_1_2 (broadcastInDim S4096x2x1 ![0, 1] bcast_S4096x2_S4096x2x1_0_1 x1)))
    (constant (F := F) S_ .f32 0x00000000#32) reducesTo_S4096x2x8_S4096x8_d1 h_S_

variable (m : (ℓ : Loc nD τ sig) → Buf (Elt Ideal) ℓ) (c : Dev nD)

/-- The combine array the region is entered with. -/
theorem V_v4 : (V m c main_v4 : S4096x8.Idx → EReal)
    = combineOf (F := Ideal) (m ((c : Thread nD τ).loc main_arg1)) (m ((c : Thread nD τ).loc main_arg2)) := by
  dsimp only [Gen.V]
  simp only [Gen.hostOps0, Gen.hostOps0_1, List.flatten_cons, List.flatten_nil, List.append_nil, List.cons_append, List.nil_append]
  after_results
  simp only [TRef.ofBuf_toBuf, TRef.toBuf_ofBuf]
  rfl

theorem V_v5 : (V m c main_v5 : S4096x1024.Idx → EReal) = fun i => m ((c : Thread nD τ).loc main_arg0) i := by
  dsimp only [Gen.V]
  simp only [Gen.hostOps0, Gen.hostOps0_1, List.flatten_cons, List.flatten_nil, List.append_nil, List.cons_append, List.nil_append]
  after_results
  rfl

theorem V_v6 : (V m c main_v6 : S8x1024x2816.Idx → EReal) = fun i => m ((c : Thread nD τ).loc main_arg3) i := by
  dsimp only [Gen.V]
  simp only [Gen.hostOps0, Gen.hostOps0_1, List.flatten_cons, List.flatten_nil, List.append_nil, List.cons_append, List.nil_append]
  after_results
  rfl

theorem V_v7 : (V m c main_v7 : S8x1024x2816.Idx → EReal) = fun i => m ((c : Thread nD τ).loc main_arg4) i := by
  dsimp only [Gen.V]
  simp only [Gen.hostOps0, Gen.hostOps0_1, List.flatten_cons, List.flatten_nil, List.append_nil, List.cons_append, List.nil_append]
  after_results
  rfl

theorem V_v8 : (V m c main_v8 : S8x2816x1024.Idx → EReal) = fun i => m ((c : Thread nD τ).loc main_arg5) i := by
  dsimp only [Gen.V]
  simp only [Gen.hostOps0, Gen.hostOps0_1, List.flatten_cons, List.flatten_nil, List.append_nil, List.cons_append, List.nil_append]
  after_results
  rfl

theorem V_v9 : (V m c main_v9 : S8x1024x8.Idx → EReal) = fun i => m ((c : Thread nD τ).loc main_arg6) i := by
  dsimp only [Gen.V]
  simp only [Gen.hostOps0, Gen.hostOps0_1, List.flatten_cons, List.flatten_nil, List.append_nil, List.cons_append, List.nil_append]
  after_results
  rfl

theorem V_v10 : (V m c main_v10 : S8x8x2816.Idx → EReal) = fun i => m ((c : Thread nD τ).loc main_arg7) i := by
  dsimp only [Gen.V]
  simp only [Gen.hostOps0, Gen.hostOps0_1, List.flatten_cons, List.flatten_nil, List.append_nil, List.cons_append, List.nil_append]
  after_results
  rfl

theorem V_v11 : (V m c main_v11 : S8x1024x8.Idx → EReal) = fun i => m ((c : Thread nD τ).loc main_arg8) i := by
  dsimp only [Gen.V]
  simp only [Gen.hostOps0, Gen.hostOps0_1, List.flatten_cons, List.flatten_nil, List.append_nil, List.cons_append, List.nil_append]
  after_results
  rfl

theorem V_v12 : (V m c main_v12 : S8x8x2816.Idx → EReal) = fun i => m ((c : Thread nD τ).loc main_arg9) i := by
  dsimp only [Gen.V]
  simp only [Gen.hostOps0, Gen.hostOps0_1, List.flatten_cons, List.flatten_nil, List.append_nil, List.cons_append, List.nil_append]
  after_results
  rfl

theorem V_v13 : (V m c main_v13 : S8x2816x8.Idx → EReal) = fun i => m ((c : Thread nD τ).loc main_arg10) i := by
  dsimp only [Gen.V]
  simp only [Gen.hostOps0, Gen.hostOps0_1, List.flatten_cons, List.flatten_nil, List.append_nil, List.cons_append, List.nil_append]
  after_results
  rfl

theorem V_v14 : (V m c main_v14 : S8x8x1024.Idx → EReal) = fun i => m ((c : Thread nD τ).loc main_arg11) i := by
  dsimp only [Gen.V]
  simp only [Gen.hostOps0, Gen.hostOps0_1, List.flatten_cons, List.flatten_nil, List.append_nil, List.cons_append, List.nil_append]
  after_results
  rfl

/-- The kernel's result is the specification's `result` of its arguments. -/
theorem kernelResult_eq :
    kernelResult m c
      = result (fun i => m ((c : Thread nD τ).loc main_arg0) i)
          (combineOf (F := Ideal) (m ((c : Thread nD τ).loc main_arg1)) (m ((c : Thread nD τ).loc main_arg2)))
          (weightsAt (fun i => m ((c : Thread nD τ).loc main_arg3) i) (fun i => m ((c : Thread nD τ).loc main_arg4) i)
            (fun i => m ((c : Thread nD τ).loc main_arg5) i) (fun i => m ((c : Thread nD τ).loc main_arg6) i)
            (fun i => m ((c : Thread nD τ).loc main_arg7) i) (fun i => m ((c : Thread nD τ).loc main_arg8) i)
            (fun i => m ((c : Thread nD τ).loc main_arg9) i) (fun i => m ((c : Thread nD τ).loc main_arg10) i)
            (fun i => m ((c : Thread nD τ).loc main_arg11) i)) := by
  unfold kernelResult tokens combine experts
  rw [V_v4 m c, V_v5 m c, V_v6 m c, V_v7 m c, V_v8 m c, V_v9 m c, V_v10 m c, V_v11 m c, V_v12 m c, V_v13 m c, V_v14 m c]
  rfl

end Cert.MoeBridge

end
-- ==== Proof.lean ====
/-
  The kernel computes, for every token, the ordered sum over the eight experts of the token's combine weight for
  the expert times the expert's feed-forward output with its low-rank detours, tile by tile over a grid of
  (token tile, expert) points that accumulates in the output block; the reference computes the same sum over all
  tokens at once, expert after expert.  Over the extended reals both results are the specification's `result` of
  the arguments (Proof/Spec.lean): the kernel's by the point-by-point invariant of its output buffer
  (Proof/KernelChain.lean, Proof/KernelFinal.lean), the reference's by reading its last stage at an index
  (Proof/RefRun.lean for its run, Proof/RefExpert.lean and Proof/RefValue.lean for the reading); the arrays the kernel's region is entered with are the arguments through format changes
  that are the identity here, and the combine array is computed by the same operations in both programs
  (Proof/Bridge.lean).  The three frames are the programs' runs with the results dropped; the idealization rewrote
  nothing.
-/
import proofs.«137077_j223338300204_2_alg».proof.Defs
import proofs.«137077_j223338300204_2_alg».proof.Proof.Gen.Kernel
import proofs.«137077_j223338300204_2_alg».proof.Proof.Gen.Kernel.Frame
import proofs.«137077_j223338300204_2_alg».proof.Proof.Gen.KernelIdeal
import proofs.«137077_j223338300204_2_alg».proof.Proof.Gen.KernelIdeal.Frame
import proofs.«137077_j223338300204_2_alg».proof.Proof.Gen.KernelIdeal.Value
import proofs.«137077_j223338300204_2_alg».proof.Proof.Gen.ReferenceIdeal
import proofs.«137077_j223338300204_2_alg».proof.Proof.Gen.Pre_finite_inputs
import proofs.«137077_j223338300204_2_alg».proof.Proof.KernelFinal
import proofs.«137077_j223338300204_2_alg».proof.Proof.RefValue
import proofs.«137077_j223338300204_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.MoeRun.run (F := Ideal) m ρ)

/-- The ideal pass rewrote no operation. -/
theorem preserves : Cert.preserves_Kernel_KernelIdeal := trivial

/-- At the ideal instance the kernel's result array ends at the specification's `result` of the arrays its region
    is entered with, the reference's at `result` of its arguments; from memories that agree on the arguments these
    are one array. -/
theorem algebraic : Cert.algebraic_KernelIdeal_ReferenceIdeal := by
  intro m ρ m' ρ' _ hagree
  refine ⟨fun c => Cert.MoeKernel.kernelResult m c, Cert.MoeKernel.run m ρ, ?_⟩
  refine (θ_run Cert.ReferenceIdeal.defs _ _).mono (fun _ h c => ⟨(h c).1.trans ?_, (h c).2⟩)
    (Cert.MoeRun.run (F := Ideal) m' ρ')
  obtain ⟨h0, h1, h2, h3, h4, h5, h6, h7, h8, h9, h10, h11⟩ := hagree c
  show _ = Cert.MoeKernel.kernelResult m c
  rw [Cert.MoeBridge.kernelResult_eq m c, Cert.MoeRef.res_eq, Cert.MoeRef.result_eq, h0, h1, h2, h3, h4, h5, h6, h7, h8, h9, h10, h11]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
